-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x25 : Shape := ⟨2, ![300000, 25]⟩
abbrev S2x3000000 : Shape := ⟨2, ![2, 3000000]⟩
abbrev S25x100 : Shape := ⟨2, ![25, 100]⟩
abbrev S100 : Shape := ⟨1, ![100]⟩
abbrev S100x25 : Shape := ⟨2, ![100, 25]⟩
abbrev S25 : Shape := ⟨1, ![25]⟩
abbrev S25x25 : Shape := ⟨2, ![25, 25]⟩
abbrev S25x16 : Shape := ⟨2, ![25, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1200x4 : Shape := ⟨2, ![1200, 4]⟩
abbrev S_ : Shape := ⟨0, ![]⟩

class Facts : Prop where
  bcast_S_S300000x25 : S_.BroadcastsInDim S300000x25 (![] : Fin 0 → Fin S300000x25.rank)
  reducesTo_S300000x25_S_d0_1 : S300000x25.ReducesTo [0, 1] S_
  h_S_ : 0 < S_.numel
  bcast_S_S25x100 : S_.BroadcastsInDim S25x100 (![] : Fin 0 → Fin S25x100.rank)
  reducesTo_S25x100_S_d0_1 : S25x100.ReducesTo [0, 1] S_
  bcast_S_S100 : S_.BroadcastsInDim S100 (![] : Fin 0 → Fin S100.rank)
  reducesTo_S100_S_d0 : S100.ReducesTo [0] S_
  bcast_S_S100x25 : S_.BroadcastsInDim S100x25 (![] : Fin 0 → Fin S100x25.rank)
  reducesTo_S100x25_S_d0_1 : S100x25.ReducesTo [0, 1] S_
  bcast_S_S25 : S_.BroadcastsInDim S25 (![] : Fin 0 → Fin S25.rank)
  reducesTo_S25_S_d0 : S25.ReducesTo [0] S_
  bcast_S_S25x25 : S_.BroadcastsInDim S25x25 (![] : Fin 0 → Fin S25x25.rank)
  reducesTo_S25x25_S_d0_1 : S25x25.ReducesTo [0, 1] S_
  bcast_S_S25x16 : S_.BroadcastsInDim S25x16 (![] : Fin 0 → Fin S25x16.rank)
  reducesTo_S25x16_S_d0_1 : S25x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S1200x4 : S_.BroadcastsInDim S1200x4 (![] : Fin 0 → Fin S1200x4.rank)
  reducesTo_S1200x4_S_d0_1 : S1200x4.ReducesTo [0, 1] S_

variable [Facts]

def fn_part7 {F : FTy → Type} [FloatOps F] (main_v118 : IVec S_ 1) (main_v119 : FVec F S4 .f32) : IVec S_ 1 :=
  let main_cst_46 : FVec F S_ .f32 := constant S_ .f32 0x7F800000#32
  let main_v120 : FVec F S4 .f32 := broadcastInDim S4 ![] bcast_S_S4 main_cst_46
  let main_v121 : IVec S4 1 := cmpf .olt main_v119 main_v120
  let main_c_47 : IVec S_ 1 := constantI S_ 1 1#1
  let main_v122 : IVec S_ 1 := (fun x v => Host.reduce IntOp.andi x v reducesTo_S4_S_d0 h_S_) main_v121 main_c_47
  let main_v123 : IVec S_ 1 := andi main_v118 main_v122
  main_v123

def fn_part6 {F : FTy → Type} [FloatOps F] (main_arg22 : FVec F S8x4 .f32) (main_arg23 : FVec F S4 .f32) (main_arg24 : FVec F S1200x4 .f32) (main_arg25 : FVec F S4 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S8x4 .f32 := Host.absf main_arg22
  let main_cst_40 : FVec F S_ .f32 := constant S_ .f32 0x7F800000#32
  let main_v105 : FVec F S8x4 .f32 := broadcastInDim S8x4 ![] bcast_S_S8x4 main_cst_40
  let main_v106 : IVec S8x4 1 := cmpf .olt main_v104 main_v105
  let main_c_41 : IVec S_ 1 := constantI S_ 1 1#1
  let main_v107 : IVec S_ 1 := (fun x v => Host.reduce IntOp.andi x v reducesTo_S8x4_S_d0_1 h_S_) main_v106 main_c_41
  let main_v108 : IVec S_ 1 := andi main_v103 main_v107
  let main_v109 : FVec F S4 .f32 := Host.absf main_arg23
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  let main_v114 : FVec F S1200x4 .f32 := Host.absf main_arg24
  let main_cst_44 : FVec F S_ .f32 := constant S_ .f32 0x7F800000#32
  let main_v115 : FVec F S1200x4 .f32 := broadcastInDim S1200x4 ![] bcast_S_S1200x4 main_cst_44
  let main_v116 : IVec S1200x4 1 := cmpf .olt main_v114 main_v115
  let main_c_45 : IVec S_ 1 := constantI S_ 1 1#1
  let main_v117 : IVec S_ 1 := (fun x v => Host.reduce IntOp.andi x v reducesTo_S1200x4_S_d0_1 h_S_) main_v116 main_c_45
  let main_v118 : IVec S_ 1 := andi main_v113 main_v117
  let main_v119 : FVec F S4 .f32 := Host.absf main_arg25
  fn_part7 (F := F) main_v118 main_v119

def fn_part5 {F : FTy → Type} [FloatOps F] (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) (main_v83 : IVec S_ 1) (main_v84 : FVec F S16x16 .f32) (main_cst_32 : FVec F S_ .f32) : IVec S_ 1 :=
  let main_v85 : FVec F S16x16 .f32 := broadcastInDim S16x16 ![] bcast_S_S16x16 main_cst_32
  let main_v86 : IVec S16x16 1 := cmpf .olt main_v84 main_v85
  let main_c_33 : IVec S_ 1 := constantI S_ 1 1#1
  let main_v87 : IVec S_ 1 := (fun x v => Host.reduce IntOp.andi x v reducesTo_S16x16_S_d0_1 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x8 .f32 := Host.absf main_arg20
  let main_cst_36 : FVec F S_ .f32 := constant S_ .f32 0x7F800000#32
  let main_v95 : FVec F S16x8 .f32 := broadcastInDim S16x8 ![] bcast_S_S16x8 main_cst_36
  let main_v96 : IVec S16x8 1 := cmpf .olt main_v94 main_v95
  let main_c_37 : IVec S_ 1 := constantI S_ 1 1#1
  let main_v97 : IVec S_ 1 := (fun x v => Host.reduce IntOp.andi x v reducesTo_S16x8_S_d0_1 h_S_) main_v96 main_c_37
  let main_v98 : IVec S_ 1 := andi main_v93 main_v97
  let main_v99 : FVec F S8 .f32 := Host.absf main_arg21
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S25 .f32) (main_arg16 : FVec F S25x16 .f32) (main_arg17 : FVec F S16 .f32) (main_arg18 : FVec F S16x16 .f32) (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) (main_v63 : IVec S_ 1) (main_v67 : IVec S_ 1) : IVec S_ 1 :=
  let main_v68 : IVec S_ 1 := andi main_v63 main_v67
  let main_v69 : FVec F S25 .f32 := Host.absf main_arg15
  let main_cst_26 : FVec F S_ .f32 := constant S_ .f32 0x7F800000#32
  let main_v70 : FVec F S25 .f32 := broadcastInDim S25 ![] bcast_S_S25 main_cst_26
  let main_v71 : IVec S25 1 := cmpf .olt main_v69 main_v70
  let main_c_27 : IVec S_ 1 := constantI S_ 1 1#1
  let main_v72 : IVec S_ 1 := (fun x v => Host.reduce IntOp.andi x v reducesTo_S25_S_d0 h_S_) main_v71 main_c_27
  let main_v73 : IVec S_ 1 := andi main_v68 main_v72
  let main_v74 : FVec F S25x16 .f32 := Host.absf main_arg16
  let main_cst_28 : FVec F S_ .f32 := constant S_ .f32 0x7F800000#32
  let main_v75 : FVec F S25x16 .f32 := broadcastInDim S25x16 ![] bcast_S_S25x16 main_cst_28
  let main_v76 : IVec S25x16 1 := cmpf .olt main_v74 main_v75
  let main_c_29 : IVec S_ 1 := constantI S_ 1 1#1
  let main_v77 : IVec S_ 1 := (fun x v => Host.reduce IntOp.andi x v reducesTo_S25x16_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x16 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S25 .f32) (main_arg13 : FVec F S25 .f32) (main_arg14 : FVec F S25x25 .f32) (main_arg15 : FVec F S25 .f32) (main_arg16 : FVec F S25x16 .f32) (main_arg17 : FVec F S16 .f32) (main_arg18 : FVec F S16x16 .f32) (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) (main_v48 : IVec S_ 1) (main_v49 : FVec F S25 .f32) (main_v50 : FVec F S25 .f32) : IVec S_ 1 :=
  let main_v51 : IVec S25 1 := cmpf .olt main_v49 main_v50
  let main_c_19 : IVec S_ 1 := constantI S_ 1 1#1
  let main_v52 : IVec S_ 1 := (fun x v => Host.reduce IntOp.andi x v reducesTo_S25_S_d0 h_S_) main_v51 main_c_19
  let main_v53 : IVec S_ 1 := andi main_v48 main_v52
  let main_v54 : FVec F S25 .f32 := Host.absf main_arg12
  let main_cst_20 : FVec F S_ .f32 := constant S_ .f32 0x7F800000#32
  let main_v55 : FVec F S25 .f32 := broadcastInDim S25 ![] bcast_S_S25 main_cst_20
  let main_v56 : IVec S25 1 := cmpf .olt main_v54 main_v55
  let main_c_21 : IVec S_ 1 := constantI S_ 1 1#1
  let main_v57 : IVec S_ 1 := (fun x v => Host.reduce IntOp.andi x v reducesTo_S25_S_d0 h_S_) main_v56 main_c_21
  let main_v58 : IVec S_ 1 := andi main_v53 main_v57
  let main_v59 : FVec F S25 .f32 := Host.absf main_arg13
  let main_cst_22 : FVec F S_ .f32 := constant S_ .f32 0x7F800000#32
  let main_v60 : FVec F S25 .f32 := broadcastInDim S25 ![] bcast_S_S25 main_cst_22
  let main_v61 : IVec S25 1 := cmpf .olt main_v59 main_v60
  let main_c_23 : IVec S_ 1 := constantI S_ 1 1#1
  let main_v62 : IVec S_ 1 := (fun x v => Host.reduce IntOp.andi x v reducesTo_S25_S_d0 h_S_) main_v61 main_c_23
  let main_v63 : IVec S_ 1 := andi main_v58 main_v62
  let main_v64 : FVec F S25x25 .f32 := Host.absf main_arg14
  let main_cst_24 : FVec F S_ .f32 := constant S_ .f32 0x7F800000#32
  let main_v65 : FVec F S25x25 .f32 := broadcastInDim S25x25 ![] bcast_S_S25x25 main_cst_24
  let main_v66 : IVec S25x25 1 := cmpf .olt main_v64 main_v65
  let main_c_25 : IVec S_ 1 := constantI S_ 1 1#1
  let main_v67 : IVec S_ 1 := (fun x v => Host.reduce IntOp.andi x v reducesTo_S25x25_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S100x25 .f32) (main_arg9 : FVec F S25 .f32) (main_arg10 : FVec F S25 .f32) (main_arg11 : FVec F S25 .f32) (main_arg12 : FVec F S25 .f32) (main_arg13 : FVec F S25 .f32) (main_arg14 : FVec F S25x25 .f32) (main_arg15 : FVec F S25 .f32) (main_arg16 : FVec F S25x16 .f32) (main_arg17 : FVec F S16 .f32) (main_arg18 : FVec F S16x16 .f32) (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) (main_v33 : IVec S_ 1) : IVec S_ 1 :=
  let main_v34 : FVec F S100x25 .f32 := Host.absf main_arg8
  let main_cst_12 : FVec F S_ .f32 := constant S_ .f32 0x7F800000#32
  let main_v35 : FVec F S100x25 .f32 := broadcastInDim S100x25 ![] bcast_S_S100x25 main_cst_12
  let main_v36 : IVec S100x25 1 := cmpf .olt main_v34 main_v35
  let main_c_13 : IVec S_ 1 := constantI S_ 1 1#1
  let main_v37 : IVec S_ 1 := (fun x v => Host.reduce IntOp.andi x v reducesTo_S100x25_S_d0_1 h_S_) main_v36 main_c_13
  let main_v38 : IVec S_ 1 := andi main_v33 main_v37
  let main_v39 : FVec F S25 .f32 := Host.absf main_arg9
  let main_cst_14 : FVec F S_ .f32 := constant S_ .f32 0x7F800000#32
  let main_v40 : FVec F S25 .f32 := broadcastInDim S25 ![] bcast_S_S25 main_cst_14
  let main_v41 : IVec S25 1 := cmpf .olt main_v39 main_v40
  let main_c_15 : IVec S_ 1 := constantI S_ 1 1#1
  let main_v42 : IVec S_ 1 := (fun x v => Host.reduce IntOp.andi x v reducesTo_S25_S_d0 h_S_) main_v41 main_c_15
  let main_v43 : IVec S_ 1 := andi main_v38 main_v42
  let main_v44 : FVec F S25 .f32 := Host.absf main_arg10
  let main_cst_16 : FVec F S_ .f32 := constant S_ .f32 0x7F800000#32
  let main_v45 : FVec F S25 .f32 := broadcastInDim S25 ![] bcast_S_S25 main_cst_16
  let main_v46 : IVec S25 1 := cmpf .olt main_v44 main_v45
  let main_c_17 : IVec S_ 1 := constantI S_ 1 1#1
  let main_v47 : IVec S_ 1 := (fun x v => Host.reduce IntOp.andi x v reducesTo_S25_S_d0 h_S_) main_v46 main_c_17
  let main_v48 : IVec S_ 1 := andi main_v43 main_v47
  let main_v49 : FVec F S25 .f32 := Host.absf main_arg11
  let main_cst_18 : FVec F S_ .f32 := constant S_ .f32 0x7F800000#32
  let main_v50 : FVec F S25 .f32 := broadcastInDim S25 ![] bcast_S_S25 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S100 .f32) (main_arg6 : FVec F S100 .f32) (main_arg7 : FVec F S100 .f32) (main_arg8 : FVec F S100x25 .f32) (main_arg9 : FVec F S25 .f32) (main_arg10 : FVec F S25 .f32) (main_arg11 : FVec F S25 .f32) (main_arg12 : FVec F S25 .f32) (main_arg13 : FVec F S25 .f32) (main_arg14 : FVec F S25x25 .f32) (main_arg15 : FVec F S25 .f32) (main_arg16 : FVec F S25x16 .f32) (main_arg17 : FVec F S16 .f32) (main_arg18 : FVec F S16x16 .f32) (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S300000x25 .f32) (main_arg1 : IVec S2x3000000 32) (main_arg2 : FVec F S25x100 .f32) (main_arg3 : FVec F S100 .f32) (main_arg4 : FVec F S100 .f32) (main_arg5 : FVec F S100 .f32) (main_arg6 : FVec F S100 .f32) (main_arg7 : FVec F S100 .f32) (main_arg8 : FVec F S100x25 .f32) (main_arg9 : FVec F S25 .f32) (main_arg10 : FVec F S25 .f32) (main_arg11 : FVec F S25 .f32) (main_arg12 : FVec F S25 .f32) (main_arg13 : FVec F S25 .f32) (main_arg14 : FVec F S25x25 .f32) (main_arg15 : FVec F S25 .f32) (main_arg16 : FVec F S25x16 .f32) (main_arg17 : FVec F S16 .f32) (main_arg18 : FVec F S16x16 .f32) (main_arg19 : FVec F S16 .f32) (main_arg20 : FVec F S16x8 .f32) (main_arg21 : FVec F S8 .f32) (main_arg22 : FVec F S8x4 .f32) (main_arg23 : FVec F S4 .f32) (main_arg24 : FVec F S1200x4 .f32) (main_arg25 : FVec F S4 .f32) : IVec S_ 1 :=
  let main_v0 : FVec F S300000x25 .f32 := Host.absf main_arg0
  let main_cst : FVec F S_ .f32 := constant S_ .f32 0x7F800000#32
  let main_v1 : FVec F S300000x25 .f32 := broadcastInDim S300000x25 ![] bcast_S_S300000x25 main_cst
  let main_v2 : IVec S300000x25 1 := cmpf .olt main_v0 main_v1
  let main_c : IVec S_ 1 := constantI S_ 1 1#1
  let main_v3 : IVec S_ 1 := (fun x v => Host.reduce IntOp.andi x v reducesTo_S300000x25_S_d0_1 h_S_) main_v2 main_c
  let main_v4 : FVec F S25x100 .f32 := Host.absf main_arg2
  let main_cst_0 : FVec F S_ .f32 := constant S_ .f32 0x7F800000#32
  let main_v5 : FVec F S25x100 .f32 := broadcastInDim S25x100 ![] bcast_S_S25x100 main_cst_0
  let main_v6 : IVec S25x100 1 := cmpf .olt main_v4 main_v5
  let main_c_1 : IVec S_ 1 := constantI S_ 1 1#1
  let main_v7 : IVec S_ 1 := (fun x v => Host.reduce IntOp.andi x v reducesTo_S25x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S300000x25 : Shape := ⟨2, ![300000, 25]⟩
abbrev S2x3000000 : Shape := ⟨2, ![2, 3000000]⟩
abbrev S25x100 : Shape := ⟨2, ![25, 100]⟩
abbrev S100 : Shape := ⟨1, ![100]⟩
abbrev S100x25 : Shape := ⟨2, ![100, 25]⟩
abbrev S25 : Shape := ⟨1, ![25]⟩
abbrev S25x25 : Shape := ⟨2, ![25, 25]⟩
abbrev S25x16 : Shape := ⟨2, ![25, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1200x4 : Shape := ⟨2, ![1200, 4]⟩
abbrev S300000 : Shape := ⟨1, ![300000]⟩
abbrev S1x3000000 : Shape := ⟨2, ![1, 3000000]⟩
abbrev S3000000 : Shape := ⟨1, ![3000000]⟩
abbrev S3300000 : Shape := ⟨1, ![3300000]⟩
abbrev S_ : Shape := ⟨0, ![]⟩
abbrev S3300000x1 : Shape := ⟨2, ![3300000, 1]⟩
abbrev S300000x1 : Shape := ⟨2, ![300000, 1]⟩
abbrev S1x100 : Shape := ⟨2, ![1, 100]⟩
abbrev S1x25 : Shape := ⟨2, ![1, 25]⟩
abbrev S6000x25 : Shape := ⟨2, ![6000, 25]⟩
abbrev S6000x100 : Shape := ⟨2, ![6000, 100]⟩
abbrev S6000x1 : Shape := ⟨2, ![6000, 1]⟩
abbrev S3300000x25 : Shape := ⟨2, ![3300000, 25]⟩
abbrev S300000x16 : Shape := ⟨2, ![300000, 16]⟩
abbrev S6000x16 : Shape := ⟨2, ![6000, 16]⟩
abbrev S3300000x16 : Shape := ⟨2, ![3300000, 16]⟩
abbrev S1x16 : Shape := ⟨2, ![1, 16]⟩
abbrev S300000x8 : Shape := ⟨2, ![300000, 8]⟩
abbrev S6000x8 : Shape := ⟨2, ![6000, 8]⟩
abbrev S3300000x8 : Shape := ⟨2, ![3300000, 8]⟩
abbrev S1x8 : Shape := ⟨2, ![1, 8]⟩
abbrev S300000x4 : Shape := ⟨2, ![300000, 4]⟩
abbrev S6000x4 : Shape := ⟨2, ![6000, 4]⟩
abbrev S3300000x4 : Shape := ⟨2, ![3300000, 4]⟩
abbrev S1x4 : Shape := ⟨2, ![1, 4]⟩
abbrev S1000x1200 : Shape := ⟨2, ![1000, 1200]⟩
abbrev S1000x4 : Shape := ⟨2, ![1000, 4]⟩

abbrev nBuf : Space → Nat
  | .hbm => 138
  | .vmem => 66
  | .smem => 0
  | _ => 0

abbrev hbmTy0_0 (i : Nat) : BufTy := match i % 128 with
  | 0 => ⟨S300000x25, .f32⟩
  | 1 => ⟨S2x3000000, .i32⟩
  | 2 => ⟨S25x100, .f32⟩
  | 3 => ⟨S100, .f32⟩
  | 4 => ⟨S100, .f32⟩
  | 5 => ⟨S100, .f32⟩
  | 6 => ⟨S100, .f32⟩
  | 7 => ⟨S100, .f32⟩
  | 8 => ⟨S100x25, .f32⟩
  | 9 => ⟨S25, .f32⟩
  | 10 => ⟨S25, .f32⟩
  | 11 => ⟨S25, .f32⟩
  | 12 => ⟨S25, .f32⟩
  | 13 => ⟨S25, .f32⟩
  | 14 => ⟨S25x25, .f32⟩
  | 15 => ⟨S25, .f32⟩
  | 16 => ⟨S25x16, .f32⟩
  | 17 => ⟨S16, .f32⟩
  | 18 => ⟨S16x16, .f32⟩
  | 19 => ⟨S16, .f32⟩
  | 20 => ⟨S16x8, .f32⟩
  | 21 => ⟨S8, .f32⟩
  | 22 => ⟨S8x4, .f32⟩
  | 23 => ⟨S4, .f32⟩
  | 24 => ⟨S1200x4, .f32⟩
  | 25 => ⟨S4, .f32⟩
  | 26 => ⟨S300000, .i32⟩
  | 27 => ⟨S1x3000000, .i32⟩
  | 28 => ⟨S3000000, .i32⟩
  | 29 => ⟨S3300000, .i32⟩
  | 30 => ⟨S1x3000000, .i32⟩
  | 31 => ⟨S3000000, .i32⟩
  | 32 => ⟨S3300000, .i32⟩
  | 33 => ⟨S_, .f32⟩
  | 34 => ⟨S3300000, .f32⟩
  | 35 => ⟨S_, .f32⟩
  | 36 => ⟨S300000, .f32⟩
  | 37 => ⟨S3300000x1, .i32⟩
  | 38 => ⟨S300000, .f32⟩
  | 39 => ⟨S_, .f32⟩
  | 40 => ⟨S300000, .f32⟩
  | 41 => ⟨S300000, .i1⟩
  | 42 => ⟨S300000, .f32⟩
  | 43 => ⟨S_, .f32⟩
  | 44 => ⟨S_, .f32⟩
  | 45 => ⟨S300000, .f32⟩
  | 46 => ⟨S300000, .f32⟩
  | 47 => ⟨S300000x1, .f32⟩
  | 48 => ⟨S1x100, .f32⟩
  | 49 => ⟨S1x100, .f32⟩
  | 50 => ⟨S1x100, .f32⟩
  | 51 => ⟨S1x100, .f32⟩
  | 52 => ⟨S1x100, .f32⟩
  | 53 => ⟨S1x25, .f32⟩
  | 54 => ⟨S1x25, .f32⟩
  | 55 => ⟨S1x25, .f32⟩
  | 56 => ⟨S1x25, .f32⟩
  | 57 => ⟨S1x25, .f32⟩
  | 58 => ⟨S300000x25, .f32⟩
  | 59 => ⟨S300000x25, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x25, .f32⟩
  | 69 => ⟨S_, .f32⟩
  | 70 => ⟨S300000x25, .f32⟩
  | 71 => ⟨S3300000x1, .i32⟩
  | 72 => ⟨S300000x25, .f32⟩
  | 73 => ⟨S1x25, .f32⟩
  | 74 => ⟨S300000x16, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x16, .f32⟩
  | 84 => ⟨S_, .f32⟩
  | 85 => ⟨S300000x16, .f32⟩
  | 86 => ⟨S3300000x1, .i32⟩
  | 87 => ⟨S300000x16, .f32⟩
  | 88 => ⟨S1x16, .f32⟩
  | 89 => ⟨S300000x16, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000x16, .f32⟩
  | 99 => ⟨S_, .f32⟩
  | 100 => ⟨S300000x16, .f32⟩
  | 101 => ⟨S3300000x1, .i32⟩
  | 102 => ⟨S300000x16, .f32⟩
  | 103 => ⟨S1x16, .f32⟩
  | 104 => ⟨S300000x8, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x8, .f32⟩
  | 114 => ⟨S_, .f32⟩
  | 115 => ⟨S300000x8, .f32⟩
  | 116 => ⟨S3300000x1, .i32⟩
  | 117 => ⟨S300000x8, .f32⟩
  | 118 => ⟨S1x8, .f32⟩
  | 119 => ⟨S300000x4, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S300000x25, .f32⟩

abbrev hbmTy0_1 (i : Nat) : BufTy := match i % 128 with
  | 0 => ⟨S3300000x4, .f32⟩
  | 1 => ⟨S_, .f32⟩
  | 2 => ⟨S300000x4, .f32⟩
  | 3 => ⟨S3300000x1, .i32⟩
  | 4 => ⟨S300000x4, .f32⟩
  | 5 => ⟨S1x4, .f32⟩
  | 6 => ⟨S300000x4, .f32⟩
  | 7 => ⟨S1000x1200, .f32⟩
  | 8 => ⟨S1x4, .f32⟩
  | 9 => ⟨S1000x4, .f32⟩
  | _ => ⟨S300000x25, .f32⟩

abbrev hbmTy (i : Nat) : BufTy := match i / 128 with
  | 0 => hbmTy0_0 i
  | 1 => hbmTy0_1 i
  | _ => ⟨S300000x25, .f32⟩

abbrev bufTy : (tb : Table) → Fin (tcTables nBuf tb) → BufTy
  | .hbm, ⟨i, _⟩ => hbmTy i
  | .local _ .vmem, ⟨0, _⟩ => ⟨S6000x25, .f32⟩
  | .local _ .vmem, ⟨1, _⟩ => ⟨S6000x25, .f32⟩
  | .local _ .vmem, ⟨2, _⟩ => ⟨S25x100, .f32⟩
  | .local _ .vmem, ⟨3, _⟩ => ⟨S1x100, .f32⟩
  | .local _ .vmem, ⟨4, _⟩ => ⟨S1x100, .f32⟩
  | .local _ .vmem, ⟨5, _⟩ => ⟨S1x100, .f32⟩
  | .local _ .vmem, ⟨6, _⟩ => ⟨S1x100, .f32⟩
  | .local _ .vmem, ⟨7, _⟩ => ⟨S1x100, .f32⟩
  | .local _ .vmem, ⟨8, _⟩ => ⟨S100x25, .f32⟩
  | .local _ .vmem, ⟨9, _⟩ => ⟨S1x25, .f32⟩
  | .local _ .vmem, ⟨10, _⟩ => ⟨S1x25, .f32⟩
  | .local _ .vmem, ⟨11, _⟩ => ⟨S1x25, .f32⟩
  | .local _ .vmem, ⟨12, _⟩ => ⟨S1x25, .f32⟩
  | .local _ .vmem, ⟨13, _⟩ => ⟨S1x25, .f32⟩
  | .local _ .vmem, ⟨14, _⟩ => ⟨S6000x25, .f32⟩
  | .local _ .vmem, ⟨15, _⟩ => ⟨S6000x25, .f32⟩
  | .local _ .vmem, ⟨16, _⟩ => ⟨S6000x25, .f32⟩
  | .local _ .vmem, ⟨17, _⟩ => ⟨S6000x25, .f32⟩
  | .local _ .vmem, ⟨18, _⟩ => ⟨S25x25, .f32⟩
  | .local _ .vmem, ⟨19, _⟩ => ⟨S6000x1, .f32⟩
  | .local _ .vmem, ⟨20, _⟩ => ⟨S6000x1, .f32⟩
  | .local _ .vmem, ⟨21, _⟩ => ⟨S6000x25, .f32⟩
  | .local _ .vmem, ⟨22, _⟩ => ⟨S6000x25, .f32⟩
  | .local _ .vmem, ⟨23, _⟩ => ⟨S6000x25, .f32⟩
  | .local _ .vmem, ⟨24, _⟩ => ⟨S6000x25, .f32⟩
  | .local _ .vmem, ⟨25, _⟩ => ⟨S1x25, .f32⟩
  | .local _ .vmem, ⟨26, _⟩ => ⟨S6000x1, .f32⟩
  | .local _ .vmem, ⟨27, _⟩ => ⟨S6000x1, .f32⟩
  | .local _ .vmem, ⟨28, _⟩ => ⟨S25x16, .f32⟩
  | .local _ .vmem, ⟨29, _⟩ => ⟨S6000x16, .f32⟩
  | .local _ .vmem, ⟨30, _⟩ => ⟨S6000x16, .f32⟩
  | .local _ .vmem, ⟨31, _⟩ => ⟨S6000x16, .f32⟩
  | .local _ .vmem, ⟨32, _⟩ => ⟨S6000x16, .f32⟩
  | .local _ .vmem, ⟨33, _⟩ => ⟨S1x16, .f32⟩
  | .local _ .vmem, ⟨34, _⟩ => ⟨S6000x1, .f32⟩
  | .local _ .vmem, ⟨35, _⟩ => ⟨S6000x1, .f32⟩
  | .local _ .vmem, ⟨36, _⟩ => ⟨S16x16, .f32⟩
  | .local _ .vmem, ⟨37, _⟩ => ⟨S6000x16, .f32⟩
  | .local _ .vmem, ⟨38, _⟩ => ⟨S6000x16, .f32⟩
  | .local _ .vmem, ⟨39, _⟩ => ⟨S6000x16, .f32⟩
  | .local _ .vmem, ⟨40, _⟩ => ⟨S6000x16, .f32⟩
  | .local _ .vmem, ⟨41, _⟩ => ⟨S1x16, .f32⟩
  | .local _ .vmem, ⟨42, _⟩ => ⟨S6000x1, .f32⟩
  | .local _ .vmem, ⟨43, _⟩ => ⟨S6000x1, .f32⟩
  | .local _ .vmem, ⟨44, _⟩ => ⟨S16x8, .f32⟩
  | .local _ .vmem, ⟨45, _⟩ => ⟨S6000x8, .f32⟩
  | .local _ .vmem, ⟨46, _⟩ => ⟨S6000x8, .f32⟩
  | .local _ .vmem, ⟨47, _⟩ => ⟨S6000x8, .f32⟩
  | .local _ .vmem, ⟨48, _⟩ => ⟨S6000x8, .f32⟩
  | .local _ .vmem, ⟨49, _⟩ => ⟨S1x8, .f32⟩
  | .local _ .vmem, ⟨50, _⟩ => ⟨S6000x1, .f32⟩
  | .local _ .vmem, ⟨51, _⟩ => ⟨S6000x1, .f32⟩
  | .local _ .vmem, ⟨52, _⟩ => ⟨S8x4, .f32⟩
  | .local _ .vmem, ⟨53, _⟩ => ⟨S6000x4, .f32⟩
  | .local _ .vmem, ⟨54, _⟩ => ⟨S6000x4, .f32⟩
  | .local _ .vmem, ⟨55, _⟩ => ⟨S6000x4, .f32⟩
  | .local _ .vmem, ⟨56, _⟩ => ⟨S6000x4, .f32⟩
  | .local _ .vmem, ⟨57, _⟩ => ⟨S1x4, .f32⟩
  | .local _ .vmem, ⟨58, _⟩ => ⟨S6000x1, .f32⟩
  | .local _ .vmem, ⟨59, _⟩ => ⟨S6000x1, .f32⟩
  | .local _ .vmem, ⟨60, _⟩ => ⟨S6000x4, .f32⟩
  | .local _ .vmem, ⟨61, _⟩ => ⟨S6000x4, .f32⟩
  | .local _ .vmem, ⟨62, _⟩ => ⟨S1000x1200, .f32⟩
  | .local _ .vmem, ⟨63, _⟩ => ⟨S1200x4, .f32⟩
  | .local _ .vmem, ⟨64, _⟩ => ⟨S1x4, .f32⟩
  | .local _ .vmem, ⟨65, _⟩ => ⟨S1000x4, .f32⟩
  | _, _ => ⟨S300000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c : Ref sig .tc := ⟨.hbm, 60, rfl⟩
abbrev main_v28 : Ref sig .tc := ⟨.hbm, 61, rfl⟩
abbrev main_v29 : Ref sig .tc := ⟨.hbm, 62, rfl⟩
abbrev main_c_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_4 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_5 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_c_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_c_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_13 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_14 : Ref sig .tc := ⟨.hbm, 120, rfl⟩
abbrev main_v76 : Ref sig .tc := ⟨.hbm, 121, rfl⟩
abbrev main_v77 : Ref sig .tc := ⟨.hbm, 122, rfl⟩
abbrev main_c_15 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_16 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg4_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg4_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc7_stg0_0 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg3_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem4_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem4_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem4_1 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem2_1 : DmaSem sig := 59
abbrev cc6_sem3_0 : DmaSem sig := 60
abbrev cc6_sem3_1 : DmaSem sig := 61
abbrev cc7_sem0_0 : DmaSem sig := 62
abbrev cc7_sem1_0 : DmaSem sig := 63
abbrev cc7_sem2_0 : DmaSem sig := 64
abbrev cc7_sem3_0 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x25 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x25 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x25 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x25 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x25 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6000x25 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S25x25 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x25 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x25 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x25 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S25x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6000x8 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S8x4 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S6000x4 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x4 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S6000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S6000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1000x1200 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1200x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1000x4 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x3000000_S1x3000000_0_0 : S2x3000000.Slices ![0, 0] S1x3000000
  shapeCasts_S1x3000000_S3000000 : S1x3000000.ShapeCasts S3000000
  concatenates_S3000000_S300000_S3300000_d0 : Shape.Concatenates [S3000000, S300000] S3300000 0
  slices_S2x3000000_S1x3000000_1_0 : S2x3000000.Slices ![1, 0] S1x3000000
  bcast_S_S3300000 : S_.BroadcastsInDim S3300000 (![] : Fin 0 → Fin S3300000.rank)
  bcast_S_S300000 : S_.BroadcastsInDim S300000 (![] : Fin 0 → Fin S300000.rank)
  bcast_S3300000_S3300000x1_0 : S3300000.BroadcastsInDim S3300000x1 (![0] : Fin 1 → Fin S3300000x1.rank)
  shapeCasts_S300000_S300000x1 : S300000.ShapeCasts S300000x1
  shapeCasts_S100_S1x100 : S100.ShapeCasts S1x100
  shapeCasts_S25_S1x25 : S25.ShapeCasts S1x25
  inb_S6000x25_S6000x25_0_0 : ∀ a, (![0, 0] : Fin 2 → Nat) a + S6000x25.size a ≤ S6000x25.size a
  h_S6000x25 : 0 < S6000x25.numel
  bitsLt_bf16_f32 : FTy.bits .bf16 < FTy.bits .f32
  inb_S25x100_S25x100_0_0 : ∀ a, (![0, 0] : Fin 2 → Nat) a + S25x100.size a ≤ S25x100.size a
  h_S25x100 : 0 < S25x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S6000x100 : S1x100.Broadcasts S6000x100
  inb_S100x25_S100x25_0_0 : ∀ a, (![0, 0] : Fin 2 → Nat) a + S100x25.size a ≤ S100x25.size a
  h_S100x25 : 0 < S100x25.numel
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S6000x25 : S1x25.Broadcasts S6000x25
  shapeCasts_S6000x25_S6000x25 : S6000x25.ShapeCasts S6000x25
  inb_S25x25_S25x25_0_0 : ∀ a, (![0, 0] : Fin 2 → Nat) a + S25x25.size a ≤ S25x25.size a
  h_S25x25 : 0 < S25x25.numel
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x25 : S6000x1.Broadcasts S6000x25
  bcast_S_S300000x25 : S_.BroadcastsInDim S300000x25 (![] : Fin 0 → Fin S300000x25.rank)
  inb_S25x16_S25x16_0_0 : ∀ a, (![0, 0] : Fin 2 → Nat) a + S25x16.size a ≤ S25x16.size a
  h_S25x16 : 0 < S25x16.numel
  broadcasts_S6000x1_S6000x16 : S6000x1.Broadcasts S6000x16
  inb_S6000x16_S6000x16_0_0 : ∀ a, (![0, 0] : Fin 2 → Nat) a + S6000x16.size a ≤ S6000x16.size a
  h_S6000x16 : 0 < S6000x16.numel
  bcast_S_S300000x16 : S_.BroadcastsInDim S300000x16 (![] : Fin 0 → Fin S300000x16.rank)
  shapeCasts_S16_S1x16 : S16.ShapeCasts S1x16
  shapeCasts_S6000x16_S6000x16 : S6000x16.ShapeCasts S6000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6000x16 : S1x16.Broadcasts S6000x16
  inb_S16x16_S16x16_0_0 : ∀ a, (![0, 0] : Fin 2 → Nat) a + S16x16.size a ≤ S16x16.size a
  h_S16x16 : 0 < S16x16.numel
  inb_S16x8_S16x8_0_0 : ∀ a, (![0, 0] : Fin 2 → Nat) a + S16x8.size a ≤ S16x8.size a
  h_S16x8 : 0 < S16x8.numel
  broadcasts_S6000x1_S6000x8 : S6000x1.Broadcasts S6000x8
  inb_S6000x8_S6000x8_0_0 : ∀ a, (![0, 0] : Fin 2 → Nat) a + S6000x8.size a ≤ S6000x8.size a
  h_S6000x8 : 0 < S6000x8.numel
  bcast_S_S300000x8 : S_.BroadcastsInDim S300000x8 (![] : Fin 0 → Fin S300000x8.rank)
  shapeCasts_S8_S1x8 : S8.ShapeCasts S1x8
  shapeCasts_S6000x8_S6000x8 : S6000x8.ShapeCasts S6000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S6000x8 : S1x8.Broadcasts S6000x8
  inb_S8x4_S8x4_0_0 : ∀ a, (![0, 0] : Fin 2 → Nat) a + S8x4.size a ≤ S8x4.size a
  h_S8x4 : 0 < S8x4.numel
  broadcasts_S6000x1_S6000x4 : S6000x1.Broadcasts S6000x4
  inb_S6000x4_S6000x4_0_0 : ∀ a, (![0, 0] : Fin 2 → Nat) a + S6000x4.size a ≤ S6000x4.size a
  h_S6000x4 : 0 < S6000x4.numel
  bcast_S_S300000x4 : S_.BroadcastsInDim S300000x4 (![] : Fin 0 → Fin S300000x4.rank)
  shapeCasts_S4_S1x4 : S4.ShapeCasts S1x4
  shapeCasts_S6000x4_S6000x4 : S6000x4.ShapeCasts S6000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S6000x4 : S1x4.Broadcasts S6000x4
  shapeCasts_S300000x4_S1000x1200 : S300000x4.ShapeCasts S1000x1200
  inb_S1000x1200_S1000x1200_0_0 : ∀ a, (![0, 0] : Fin 2 → Nat) a + S1000x1200.size a ≤ S1000x1200.size a
  h_S1000x1200 : 0 < S1000x1200.numel
  shapeCasts_S1000x1200_S1000x1200 : S1000x1200.ShapeCasts S1000x1200
  inb_S1200x4_S1200x4_0_0 : ∀ a, (![0, 0] : Fin 2 → Nat) a + S1200x4.size a ≤ S1200x4.size a
  h_S1200x4 : 0 < S1200x4.numel
  broadcasts_S1x4_S1000x4 : S1x4.Broadcasts S1000x4
  inb_S1000x4_S1000x4_0_0 : ∀ a, (![0, 0] : Fin 2 → Nat) a + S1000x4.size a ≤ S1000x4.size a
  h_S1000x4 : 0 < S1000x4.numel
  scatter_S300000_S3300000x1_S3300000_n_0_0_1_wf : ScatterDims.WF S300000 S3300000x1 S3300000 [] [0] [0] 1
  dot_S6000x25_S25x100_S6000x100_1_0_0_1_n_n_wf : DotDims.WF S6000x25 S25x100 S6000x100 [1] [0] [0] [1] [] []
  dot_S6000x100_S100x25_S6000x25_1_0_0_1_n_n_wf : DotDims.WF S6000x100 S100x25 S6000x25 [1] [0] [0] [1] [] []
  dot_S6000x25_S25x25_S6000x25_1_0_0_1_n_n_wf : DotDims.WF S6000x25 S25x25 S6000x25 [1] [0] [0] [1] [] []
  gather_S300000x25_S3300000x1_S3300000x25_1_0_n_n_0_1_125_wf : GatherDims.WF S300000x25 S3300000x1 S3300000x25 [1] [0] [] [0] [] 1 ![1, 25]
  scatter_S300000x25_S3300000x1_S3300000x25_1_0_0_1_wf : ScatterDims.WF S300000x25 S3300000x1 S3300000x25 [1] [0] [0] 1
  dot_S6000x25_S25x16_S6000x16_1_0_0_1_n_n_wf : DotDims.WF S6000x25 S25x16 S6000x16 [1] [0] [0] [1] [] []
  gather_S300000x16_S3300000x1_S3300000x16_1_0_n_n_0_1_116_wf : GatherDims.WF S300000x16 S3300000x1 S3300000x16 [1] [0] [] [0] [] 1 ![1, 16]
  scatter_S300000x16_S3300000x1_S3300000x16_1_0_0_1_wf : ScatterDims.WF S300000x16 S3300000x1 S3300000x16 [1] [0] [0] 1
  dot_S6000x16_S16x16_S6000x16_1_0_0_1_n_n_wf : DotDims.WF S6000x16 S16x16 S6000x16 [1] [0] [0] [1] [] []
  dot_S6000x16_S16x8_S6000x8_1_0_0_1_n_n_wf : DotDims.WF S6000x16 S16x8 S6000x8 [1] [0] [0] [1] [] []
  gather_S300000x8_S3300000x1_S3300000x8_1_0_n_n_0_1_18_wf : GatherDims.WF S300000x8 S3300000x1 S3300000x8 [1] [0] [] [0] [] 1 ![1, 8]
  scatter_S300000x8_S3300000x1_S3300000x8_1_0_0_1_wf : ScatterDims.WF S300000x8 S3300000x1 S3300000x8 [1] [0] [0] 1
  dot_S6000x8_S8x4_S6000x4_1_0_0_1_n_n_wf : DotDims.WF S6000x8 S8x4 S6000x4 [1] [0] [0] [1] [] []
  gather_S300000x4_S3300000x1_S3300000x4_1_0_n_n_0_1_14_wf : GatherDims.WF S300000x4 S3300000x1 S3300000x4 [1] [0] [] [0] [] 1 ![1, 4]
  scatter_S300000x4_S3300000x1_S3300000x4_1_0_0_1_wf : ScatterDims.WF S300000x4 S3300000x1 S3300000x4 [1] [0] [0] 1
  dot_S1000x1200_S1200x4_S1000x4_1_0_0_1_n_n_wf : DotDims.WF S1000x1200 S1200x4 S1000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x25.size a ≤ S300000x25.size a
  hwx0_0 : ∀ i : grid0.Coords, EltTy.bits .f32 = 32 ∨ (Rect.block (s := S300000x25) S6000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x100.size a ≤ S25x100.size a
  hwx0_1 : ∀ i : grid0.Coords, EltTy.bits .f32 = 32 ∨ (Rect.block (s := S25x100) S25x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x25.size a ≤ S100x25.size a
  hwx0_7 : ∀ i : grid0.Coords, EltTy.bits .f32 = 32 ∨ (Rect.block (s := S100x25) S100x25.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x25.size a ≤ S1x25.size a
  hwx0_8 : ∀ i : grid0.Coords, EltTy.bits .f32 = 32 ∨ (Rect.block (s := S1x25) S1x25.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x25.size a ≤ S1x25.size a
  hwx0_9 : ∀ i : grid0.Coords, EltTy.bits .f32 = 32 ∨ (Rect.block (s := S1x25) S1x25.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x25.size a ≤ S1x25.size a
  hwx0_10 : ∀ i : grid0.Coords, EltTy.bits .f32 = 32 ∨ (Rect.block (s := S1x25) S1x25.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x25.size a ≤ S1x25.size a
  hwx0_11 : ∀ i : grid0.Coords, EltTy.bits .f32 = 32 ∨ (Rect.block (s := S1x25) S1x25.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x25.size a ≤ S1x25.size a
  hwx0_12 : ∀ i : grid0.Coords, EltTy.bits .f32 = 32 ∨ (Rect.block (s := S1x25) S1x25.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6000x25.size a ≤ S300000x25.size a
  hwx0_13 : ∀ i : grid0.Coords, EltTy.bits .f32 = 32 ∨ (Rect.block (s := S300000x25) S6000x25.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x25.size a ≤ S300000x25.size a
  hwx1_0 : ∀ i : grid1.Coords, EltTy.bits .f32 = 32 ∨ (Rect.block (s := S300000x25) S6000x25.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S25x25.size a ≤ S25x25.size a
  hwx1_1 : ∀ i : grid1.Coords, EltTy.bits .f32 = 32 ∨ (Rect.block (s := S25x25) S25x25.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S300000x1.size a
  hwx1_2 : ∀ i : grid1.Coords, EltTy.bits .f32 = 32 ∨ (Rect.block (s := S300000x1) S6000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x25.size a ≤ S300000x25.size a
  hwx1_3 : ∀ i : grid1.Coords, EltTy.bits .f32 = 32 ∨ (Rect.block (s := S300000x25) S6000x25.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x25.size a ≤ S300000x25.size a
  hwx2_0 : ∀ i : grid2.Coords, EltTy.bits .f32 = 32 ∨ (Rect.block (s := S300000x25) S6000x25.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x25.size a ≤ S1x25.size a
  hwx2_1 : ∀ i : grid2.Coords, EltTy.bits .f32 = 32 ∨ (Rect.block (s := S1x25) S1x25.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S300000x1.size a
  hwx2_2 : ∀ i : grid2.Coords, EltTy.bits .f32 = 32 ∨ (Rect.block (s := S300000x1) S6000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S25x16.size a ≤ S25x16.size a
  hwx2_3 : ∀ i : grid2.Coords, EltTy.bits .f32 = 32 ∨ (Rect.block (s := S25x16) S25x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x16.size a ≤ S300000x16.size a
  hwx2_4 : ∀ i : grid2.Coords, EltTy.bits .f32 = 32 ∨ (Rect.block (s := S300000x16) S6000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x16.size a ≤ S300000x16.size a
  hwx3_0 : ∀ i : grid3.Coords, EltTy.bits .f32 = 32 ∨ (Rect.block (s := S300000x16) S6000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S300000x1.size a
  hwx3_2 : ∀ i : grid3.Coords, EltTy.bits .f32 = 32 ∨ (Rect.block (s := S300000x1) S6000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x16.size a ≤ S300000x16.size a
  hwx3_4 : ∀ i : grid3.Coords, EltTy.bits .f32 = 32 ∨ (Rect.block (s := S300000x16) S6000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x16.size a ≤ S300000x16.size a
  hwx4_0 : ∀ i : grid4.Coords, EltTy.bits .f32 = 32 ∨ (Rect.block (s := S300000x16) S6000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x16.size a ≤ S1x16.size a
  hwx4_1 : ∀ i : grid4.Coords, EltTy.bits .f32 = 32 ∨ (Rect.block (s := S1x16) S1x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x1.size a ≤ S300000x1.size a
  hwx4_2 : ∀ i : grid4.Coords, EltTy.bits .f32 = 32 ∨ (Rect.block (s := S300000x1) S6000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x8.size a ≤ S16x8.size a
  hwx4_3 : ∀ i : grid4.Coords, EltTy.bits .f32 = 32 ∨ (Rect.block (s := S16x8) S16x8.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6000x8.size a ≤ S300000x8.size a
  hwx4_4 : ∀ i : grid4.Coords, EltTy.bits .f32 = 32 ∨ (Rect.block (s := S300000x8) S6000x8.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x8.size a ≤ S300000x8.size a
  hwx5_0 : ∀ i : grid5.Coords, EltTy.bits .f32 = 32 ∨ (Rect.block (s := S300000x8) S6000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x1.size a ≤ S300000x1.size a
  hwx5_2 : ∀ i : grid5.Coords, EltTy.bits .f32 = 32 ∨ (Rect.block (s := S300000x1) S6000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8x4.size a ≤ S8x4.size a
  hwx5_3 : ∀ i : grid5.Coords, EltTy.bits .f32 = 32 ∨ (Rect.block (s := S8x4) S8x4.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S6000x4.size a ≤ S300000x4.size a
  hwx5_4 : ∀ i : grid5.Coords, EltTy.bits .f32 = 32 ∨ (Rect.block (s := S300000x4) S6000x4.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x4.size a ≤ S300000x4.size a
  hwx6_0 : ∀ i : grid6.Coords, EltTy.bits .f32 = 32 ∨ (Rect.block (s := S300000x4) S6000x4.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x4.size a ≤ S1x4.size a
  hwx6_1 : ∀ i : grid6.Coords, EltTy.bits .f32 = 32 ∨ (Rect.block (s := S1x4) S1x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6000x1.size a ≤ S300000x1.size a
  hwx6_2 : ∀ i : grid6.Coords, EltTy.bits .f32 = 32 ∨ (Rect.block (s := S300000x1) S6000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6000x4.size a ≤ S300000x4.size a
  hwx6_3 : ∀ i : grid6.Coords, EltTy.bits .f32 = 32 ∨ (Rect.block (s := S300000x4) S6000x4.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1000x1200.size a ≤ S1000x1200.size a
  hwx7_0 : ∀ i : grid7.Coords, EltTy.bits .f32 = 32 ∨ (Rect.block (s := S1000x1200) S1000x1200.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1200x4.size a ≤ S1200x4.size a
  hwx7_1 : ∀ i : grid7.Coords, EltTy.bits .f32 = 32 ∨ (Rect.block (s := S1200x4) S1200x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4.size a ≤ S1x4.size a
  hwx7_2 : ∀ i : grid7.Coords, EltTy.bits .f32 = 32 ∨ (Rect.block (s := S1x4) S1x4.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1000x4.size a ≤ S1000x4.size a
  hwx7_3 : ∀ i : grid7.Coords, EltTy.bits .f32 = 32 ∨ (Rect.block (s := S1000x4) S1000x4.size (cc7_transform_3 i) (hinb7_3 i)).WholeWords (EltTy.packing .f32)

variable [Facts₀]

def scatter_S300000_S3300000x1_S3300000_n_0_0_1 : ScatterDims S300000 S3300000x1 S3300000 where
  updateWindowDims := []
  insertedWindowDims := [0]
  scatterDimsToOperandDims := [0]
  indexVectorDim := 1
  wf := scatter_S300000_S3300000x1_S3300000_n_0_0_1_wf
def dot_S6000x25_S25x100_S6000x100_1_0_0_1_n_n : DotDims S6000x25 S25x100 S6000x100 where
  lhsContracting := [1]
  rhsContracting := [0]
  lhsNonContracting := [0]
  rhsNonContracting := [1]
  lhsBatch := []
  rhsBatch := []
  wf := dot_S6000x25_S25x100_S6000x100_1_0_0_1_n_n_wf
def dot_S6000x100_S100x25_S6000x25_1_0_0_1_n_n : DotDims S6000x100 S100x25 S6000x25 where
  lhsContracting := [1]
  rhsContracting := [0]
  lhsNonContracting := [0]
  rhsNonContracting := [1]
  lhsBatch := []
  rhsBatch := []
  wf := dot_S6000x100_S100x25_S6000x25_1_0_0_1_n_n_wf
def dot_S6000x25_S25x25_S6000x25_1_0_0_1_n_n : DotDims S6000x25 S25x25 S6000x25 where
  lhsContracting := [1]
  rhsContracting := [0]
  lhsNonContracting := [0]
  rhsNonContracting := [1]
  lhsBatch := []
  rhsBatch := []
  wf := dot_S6000x25_S25x25_S6000x25_1_0_0_1_n_n_wf
def gather_S300000x25_S3300000x1_S3300000x25_1_0_n_n_0_1_125 : GatherDims S300000x25 S3300000x1 S3300000x25 where
  offsetDims := [1]
  collapsedSliceDims := [0]
  operandBatchingDims := []
  startIndicesBatchingDims := []
  startIndexMap := [0]
  indexVectorDim := 1
  sliceSizes := ![1, 25]
  wf := gather_S300000x25_S3300000x1_S3300000x25_1_0_n_n_0_1_125_wf
def scatter_S300000x25_S3300000x1_S3300000x25_1_0_0_1 : ScatterDims S300000x25 S3300000x1 S3300000x25 where
  updateWindowDims := [1]
  insertedWindowDims := [0]
  scatterDimsToOperandDims := [0]
  indexVectorDim := 1
  wf := scatter_S300000x25_S3300000x1_S3300000x25_1_0_0_1_wf
def dot_S6000x25_S25x16_S6000x16_1_0_0_1_n_n : DotDims S6000x25 S25x16 S6000x16 where
  lhsContracting := [1]
  rhsContracting := [0]
  lhsNonContracting := [0]
  rhsNonContracting := [1]
  lhsBatch := []
  rhsBatch := []
  wf := dot_S6000x25_S25x16_S6000x16_1_0_0_1_n_n_wf
def gather_S300000x16_S3300000x1_S3300000x16_1_0_n_n_0_1_116 : GatherDims S300000x16 S3300000x1 S3300000x16 where
  offsetDims := [1]
  collapsedSliceDims := [0]
  operandBatchingDims := []
  startIndicesBatchingDims := []
  startIndexMap := [0]
  indexVectorDim := 1
  sliceSizes := ![1, 16]
  wf := gather_S300000x16_S3300000x1_S3300000x16_1_0_n_n_0_1_116_wf
def scatter_S300000x16_S3300000x1_S3300000x16_1_0_0_1 : ScatterDims S300000x16 S3300000x1 S3300000x16 where
  updateWindowDims := [1]
  insertedWindowDims := [0]
  scatterDimsToOperandDims := [0]
  indexVectorDim := 1
  wf := scatter_S300000x16_S3300000x1_S3300000x16_1_0_0_1_wf
def dot_S6000x16_S16x16_S6000x16_1_0_0_1_n_n : DotDims S6000x16 S16x16 S6000x16 where
  lhsContracting := [1]
  rhsContracting := [0]
  lhsNonContracting := [0]
  rhsNonContracting := [1]
  lhsBatch := []
  rhsBatch := []
  wf := dot_S6000x16_S16x16_S6000x16_1_0_0_1_n_n_wf
def dot_S6000x16_S16x8_S6000x8_1_0_0_1_n_n : DotDims S6000x16 S16x8 S6000x8 where
  lhsContracting := [1]
  rhsContracting := [0]
  lhsNonContracting := [0]
  rhsNonContracting := [1]
  lhsBatch := []
  rhsBatch := []
  wf := dot_S6000x16_S16x8_S6000x8_1_0_0_1_n_n_wf
def gather_S300000x8_S3300000x1_S3300000x8_1_0_n_n_0_1_18 : GatherDims S300000x8 S3300000x1 S3300000x8 where
  offsetDims := [1]
  collapsedSliceDims := [0]
  operandBatchingDims := []
  startIndicesBatchingDims := []
  startIndexMap := [0]
  indexVectorDim := 1
  sliceSizes := ![1, 8]
  wf := gather_S300000x8_S3300000x1_S3300000x8_1_0_n_n_0_1_18_wf
def scatter_S300000x8_S3300000x1_S3300000x8_1_0_0_1 : ScatterDims S300000x8 S3300000x1 S3300000x8 where
  updateWindowDims := [1]
  insertedWindowDims := [0]
  scatterDimsToOperandDims := [0]
  indexVectorDim := 1
  wf := scatter_S300000x8_S3300000x1_S3300000x8_1_0_0_1_wf
def dot_S6000x8_S8x4_S6000x4_1_0_0_1_n_n : DotDims S6000x8 S8x4 S6000x4 where
  lhsContracting := [1]
  rhsContracting := [0]
  lhsNonContracting := [0]
  rhsNonContracting := [1]
  lhsBatch := []
  rhsBatch := []
  wf := dot_S6000x8_S8x4_S6000x4_1_0_0_1_n_n_wf
def gather_S300000x4_S3300000x1_S3300000x4_1_0_n_n_0_1_14 : GatherDims S300000x4 S3300000x1 S3300000x4 where
  offsetDims := [1]
  collapsedSliceDims := [0]
  operandBatchingDims := []
  startIndicesBatchingDims := []
  startIndexMap := [0]
  indexVectorDim := 1
  sliceSizes := ![1, 4]
  wf := gather_S300000x4_S3300000x1_S3300000x4_1_0_n_n_0_1_14_wf
def scatter_S300000x4_S3300000x1_S3300000x4_1_0_0_1 : ScatterDims S300000x4 S3300000x1 S3300000x4 where
  updateWindowDims := [1]
  insertedWindowDims := [0]
  scatterDimsToOperandDims := [0]
  indexVectorDim := 1
  wf := scatter_S300000x4_S3300000x1_S3300000x4_1_0_0_1_wf
def dot_S1000x1200_S1200x4_S1000x4_1_0_0_1_n_n : DotDims S1000x1200 S1200x4 S1000x4 where
  lhsContracting := [1]
  rhsContracting := [0]
  lhsNonContracting := [0]
  rhsNonContracting := [1]
  lhsBatch := []
  rhsBatch := []
  wf := dot_S1000x1200_S1200x4_S1000x4_1_0_0_1_n_n_wf

abbrev win0_0 : Pipeline.Window sig grid0 :=
  Pipeline.Window.ofSpec (Memref.whole main_arg0) S6000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S25x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S100x25.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x25.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x25.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x25.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x25.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x25.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S6000x25.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v26) S6000x25.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S25x25.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S6000x25.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S6000x25.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x25.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S6000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S25x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S6000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S6000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S6000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S6000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S6000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S16x8.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S6000x8.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v73) S6000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S6000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg22) S8x4.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S6000x4.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S6000x4.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S6000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v87) S6000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v88) S1000x1200.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg24) S1200x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S1000x4.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S300000x25 : Shape := ⟨2, ![300000, 25]⟩
abbrev S2x3000000 : Shape := ⟨2, ![2, 3000000]⟩
abbrev S25x100 : Shape := ⟨2, ![25, 100]⟩
abbrev S100 : Shape := ⟨1, ![100]⟩
abbrev S100x25 : Shape := ⟨2, ![100, 25]⟩
abbrev S25 : Shape := ⟨1, ![25]⟩
abbrev S25x25 : Shape := ⟨2, ![25, 25]⟩
abbrev S25x16 : Shape := ⟨2, ![25, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1200x4 : Shape := ⟨2, ![1200, 4]⟩
abbrev S300000 : Shape := ⟨1, ![300000]⟩
abbrev S1x3000000 : Shape := ⟨2, ![1, 3000000]⟩
abbrev S3000000 : Shape := ⟨1, ![3000000]⟩
abbrev S3300000 : Shape := ⟨1, ![3300000]⟩
abbrev S_ : Shape := ⟨0, ![]⟩
abbrev S3300000x1 : Shape := ⟨2, ![3300000, 1]⟩
abbrev S300000x100 : Shape := ⟨2, ![300000, 100]⟩
abbrev S1x100 : Shape := ⟨2, ![1, 100]⟩
abbrev S1x25 : Shape := ⟨2, ![1, 25]⟩
abbrev S3300000x25 : Shape := ⟨2, ![3300000, 25]⟩
abbrev S300000x16 : Shape := ⟨2, ![300000, 16]⟩
abbrev S3300000x16 : Shape := ⟨2, ![3300000, 16]⟩
abbrev S1x16 : Shape := ⟨2, ![1, 16]⟩
abbrev S300000x8 : Shape := ⟨2, ![300000, 8]⟩
abbrev S3300000x8 : Shape := ⟨2, ![3300000, 8]⟩
abbrev S1x8 : Shape := ⟨2, ![1, 8]⟩
abbrev S300000x4 : Shape := ⟨2, ![300000, 4]⟩
abbrev S3300000x4 : Shape := ⟨2, ![3300000, 4]⟩
abbrev S1x4 : Shape := ⟨2, ![1, 4]⟩
abbrev S1000x1200 : Shape := ⟨2, ![1000, 1200]⟩
abbrev S1000x4 : Shape := ⟨2, ![1000, 4]⟩

abbrev nBuf : Space → Nat
  | .hbm => 229
  | .vmem => 0
  | .smem => 0
  | _ => 0

abbrev hbmTy0_0 (i : Nat) : BufTy := match i % 128 with
  | 0 => ⟨S300000x25, .f32⟩
  | 1 => ⟨S2x3000000, .i32⟩
  | 2 => ⟨S25x100, .f32⟩
  | 3 => ⟨S100, .f32⟩
  | 4 => ⟨S100, .f32⟩
  | 5 => ⟨S100, .f32⟩
  | 6 => ⟨S100, .f32⟩
  | 7 => ⟨S100, .f32⟩
  | 8 => ⟨S100x25, .f32⟩
  | 9 => ⟨S25, .f32⟩
  | 10 => ⟨S25, .f32⟩
  | 11 => ⟨S25, .f32⟩
  | 12 => ⟨S25, .f32⟩
  | 13 => ⟨S25, .f32⟩
  | 14 => ⟨S25x25, .f32⟩
  | 15 => ⟨S25, .f32⟩
  | 16 => ⟨S25x16, .f32⟩
  | 17 => ⟨S16, .f32⟩
  | 18 => ⟨S16x16, .f32⟩
  | 19 => ⟨S16, .f32⟩
  | 20 => ⟨S16x8, .f32⟩
  | 21 => ⟨S8, .f32⟩
  | 22 => ⟨S8x4, .f32⟩
  | 23 => ⟨S4, .f32⟩
  | 24 => ⟨S1200x4, .f32⟩
  | 25 => ⟨S4, .f32⟩
  | 26 => ⟨S300000, .i32⟩
  | 27 => ⟨S1x3000000, .i32⟩
  | 28 => ⟨S3000000, .i32⟩
  | 29 => ⟨S3300000, .i32⟩
  | 30 => ⟨S1x3000000, .i32⟩
  | 31 => ⟨S3000000, .i32⟩
  | 32 => ⟨S3300000, .i32⟩
  | 33 => ⟨S_, .f32⟩
  | 34 => ⟨S3300000, .f32⟩
  | 35 => ⟨S_, .f32⟩
  | 36 => ⟨S300000, .f32⟩
  | 37 => ⟨S3300000x1, .i32⟩
  | 38 => ⟨S300000, .f32⟩
  | 39 => ⟨S_, .f32⟩
  | 40 => ⟨S300000, .f32⟩
  | 41 => ⟨S300000, .i1⟩
  | 42 => ⟨S300000, .f32⟩
  | 43 => ⟨S_, .f32⟩
  | 44 => ⟨S_, .f32⟩
  | 45 => ⟨S300000, .f32⟩
  | 46 => ⟨S300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000, .f32⟩
  | 65 => ⟨S3300000, .f32⟩
  | 66 => ⟨S300000x100, .f32⟩
  | 67 => ⟨S1x100, .f32⟩
  | 68 => ⟨S300000x100, .f32⟩
  | 69 => ⟨S300000x100, .f32⟩
  | 70 => ⟨S1x100, .f32⟩
  | 71 => ⟨S300000x100, .f32⟩
  | 72 => ⟨S300000x100, .f32⟩
  | 73 => ⟨S_, .f32⟩
  | 74 => ⟨S100, .f32⟩
  | 75 => ⟨S100, .f32⟩
  | 76 => ⟨S100, .f32⟩
  | 77 => ⟨S1x100, .f32⟩
  | 78 => ⟨S300000x100, .f32⟩
  | 79 => ⟨S300000x100, .f32⟩
  | 80 => ⟨S1x100, .f32⟩
  | 81 => ⟨S300000x100, .f32⟩
  | 82 => ⟨S300000x100, .f32⟩
  | 83 => ⟨S1x100, .f32⟩
  | 84 => ⟨S300000x100, .f32⟩
  | 85 => ⟨S300000x100, .f32⟩
  | 86 => ⟨S_, .f32⟩
  | 87 => ⟨S300000x100, .f32⟩
  | 88 => ⟨S300000x100, .f32⟩
  | 89 => ⟨S300000x25, .f32⟩
  | 90 => ⟨S1x25, .f32⟩
  | 91 => ⟨S300000x25, .f32⟩
  | 92 => ⟨S300000x25, .f32⟩
  | 93 => ⟨S1x25, .f32⟩
  | 94 => ⟨S300000x25, .f32⟩
  | 95 => ⟨S300000x25, .f32⟩
  | 96 => ⟨S_, .f32⟩
  | 97 => ⟨S25, .f32⟩
  | 98 => ⟨S25, .f32⟩
  | 99 => ⟨S25, .f32⟩
  | 100 => ⟨S1x25, .f32⟩
  | 101 => ⟨S300000x25, .f32⟩
  | 102 => ⟨S300000x25, .f32⟩
  | 103 => ⟨S1x25, .f32⟩
  | 104 => ⟨S300000x25, .f32⟩
  | 105 => ⟨S300000x25, .f32⟩
  | 106 => ⟨S1x25, .f32⟩
  | 107 => ⟨S300000x25, .f32⟩
  | 108 => ⟨S300000x25, .f32⟩
  | 109 => ⟨S300000x25, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x25, .f32⟩
  | 119 => ⟨S3300000x1, .f32⟩
  | 120 => ⟨S3300000x25, .f32⟩
  | 121 => ⟨S3300000x25, .f32⟩
  | 122 => ⟨S_, .f32⟩
  | 123 => ⟨S300000x25, .f32⟩
  | 124 => ⟨S3300000x1, .i32⟩
  | 125 => ⟨S300000x25, .f32⟩
  | 126 => ⟨S1x25, .f32⟩
  | 127 => ⟨S300000x25, .f32⟩
  | _ => ⟨S300000x25, .f32⟩

abbrev hbmTy0_1 (i : Nat) : BufTy := match i % 128 with
  | 0 => ⟨S300000x25, .f32⟩
  | 1 => ⟨S_, .f32⟩
  | 2 => ⟨S300000x25, .f32⟩
  | 3 => ⟨S300000x25, .f32⟩
  | 4 => ⟨S300000x16, .f32⟩
  | 5 => ⟨S_, .i32⟩
  | 6 => ⟨S3300000, .i32⟩
  | 7 => ⟨S3300000, .i1⟩
  | 8 => ⟨S_, .i32⟩
  | 9 => ⟨S3300000, .i32⟩
  | 10 => ⟨S3300000, .i32⟩
  | 11 => ⟨S3300000, .i32⟩
  | 12 => ⟨S3300000x1, .i32⟩
  | 13 => ⟨S3300000x16, .f32⟩
  | 14 => ⟨S3300000x1, .f32⟩
  | 15 => ⟨S3300000x16, .f32⟩
  | 16 => ⟨S3300000x16, .f32⟩
  | 17 => ⟨S_, .f32⟩
  | 18 => ⟨S300000x16, .f32⟩
  | 19 => ⟨S3300000x1, .i32⟩
  | 20 => ⟨S300000x16, .f32⟩
  | 21 => ⟨S1x16, .f32⟩
  | 22 => ⟨S300000x16, .f32⟩
  | 23 => ⟨S300000x16, .f32⟩
  | 24 => ⟨S_, .f32⟩
  | 25 => ⟨S300000x16, .f32⟩
  | 26 => ⟨S300000x16, .f32⟩
  | 27 => ⟨S300000x16, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000x16, .f32⟩
  | 37 => ⟨S3300000x1, .f32⟩
  | 38 => ⟨S3300000x16, .f32⟩
  | 39 => ⟨S3300000x16, .f32⟩
  | 40 => ⟨S_, .f32⟩
  | 41 => ⟨S300000x16, .f32⟩
  | 42 => ⟨S3300000x1, .i32⟩
  | 43 => ⟨S300000x16, .f32⟩
  | 44 => ⟨S1x16, .f32⟩
  | 45 => ⟨S300000x16, .f32⟩
  | 46 => ⟨S300000x16, .f32⟩
  | 47 => ⟨S_, .f32⟩
  | 48 => ⟨S300000x16, .f32⟩
  | 49 => ⟨S300000x16, .f32⟩
  | 50 => ⟨S300000x8, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x8, .f32⟩
  | 60 => ⟨S3300000x1, .f32⟩
  | 61 => ⟨S3300000x8, .f32⟩
  | 62 => ⟨S3300000x8, .f32⟩
  | 63 => ⟨S_, .f32⟩
  | 64 => ⟨S300000x8, .f32⟩
  | 65 => ⟨S3300000x1, .i32⟩
  | 66 => ⟨S300000x8, .f32⟩
  | 67 => ⟨S1x8, .f32⟩
  | 68 => ⟨S300000x8, .f32⟩
  | 69 => ⟨S300000x8, .f32⟩
  | 70 => ⟨S_, .f32⟩
  | 71 => ⟨S300000x8, .f32⟩
  | 72 => ⟨S300000x8, .f32⟩
  | 73 => ⟨S300000x4, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x4, .f32⟩
  | 83 => ⟨S3300000x1, .f32⟩
  | 84 => ⟨S3300000x4, .f32⟩
  | 85 => ⟨S3300000x4, .f32⟩
  | 86 => ⟨S_, .f32⟩
  | 87 => ⟨S300000x4, .f32⟩
  | 88 => ⟨S3300000x1, .i32⟩
  | 89 => ⟨S300000x4, .f32⟩
  | 90 => ⟨S1x4, .f32⟩
  | 91 => ⟨S300000x4, .f32⟩
  | 92 => ⟨S300000x4, .f32⟩
  | 93 => ⟨S_, .f32⟩
  | 94 => ⟨S300000x4, .f32⟩
  | 95 => ⟨S300000x4, .f32⟩
  | 96 => ⟨S1000x1200, .f32⟩
  | 97 => ⟨S1000x4, .f32⟩
  | 98 => ⟨S1x4, .f32⟩
  | 99 => ⟨S1000x4, .f32⟩
  | 100 => ⟨S1000x4, .f32⟩
  | _ => ⟨S300000x25, .f32⟩

abbrev hbmTy (i : Nat) : BufTy := match i / 128 with
  | 0 => hbmTy0_0 i
  | 1 => hbmTy0_1 i
  | _ => ⟨S300000x25, .f32⟩

abbrev bufTy : (tb : Table) → Fin (tcTables nBuf tb) → BufTy
  | .hbm, ⟨i, _⟩ => hbmTy i
  | _, _ => ⟨S300000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v14 : Ref sig .tc := ⟨.hbm, 46, rfl⟩
abbrev main_c : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_4 : Ref sig .tc := ⟨.hbm, 56, rfl⟩
abbrev main_v22 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call1_cst : Ref sig .tc := ⟨.hbm, 86, rfl⟩
abbrev main_call1_v0 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_8 : Ref sig .tc := ⟨.hbm, 110, rfl⟩
abbrev main_v70 : Ref sig .tc := ⟨.hbm, 111, rfl⟩
abbrev main_v71 : Ref sig .tc := ⟨.hbm, 112, rfl⟩
abbrev main_c_9 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_10 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call2_cst : Ref sig .tc := ⟨.hbm, 129, rfl⟩
abbrev main_call2_v0 : Ref sig .tc := ⟨.hbm, 130, rfl⟩
abbrev main_v86 : Ref sig .tc := ⟨.hbm, 131, rfl⟩
abbrev main_v87 : Ref sig .tc := ⟨.hbm, 132, rfl⟩
abbrev main_c_11 : Ref sig .tc := ⟨.hbm, 133, rfl⟩
abbrev main_v88 : Ref sig .tc := ⟨.hbm, 134, rfl⟩
abbrev main_v89 : Ref sig .tc := ⟨.hbm, 135, rfl⟩
abbrev main_c_12 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_13 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_call3_cst : Ref sig .tc := ⟨.hbm, 152, rfl⟩
abbrev main_call3_v0 : Ref sig .tc := ⟨.hbm, 153, rfl⟩
abbrev main_v104 : Ref sig .tc := ⟨.hbm, 154, rfl⟩
abbrev main_v105 : Ref sig .tc := ⟨.hbm, 155, rfl⟩
abbrev main_c_14 : Ref sig .tc := ⟨.hbm, 156, rfl⟩
abbrev main_v106 : Ref sig .tc := ⟨.hbm, 157, rfl⟩
abbrev main_v107 : Ref sig .tc := ⟨.hbm, 158, rfl⟩
abbrev main_c_15 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_16 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_call4_cst : Ref sig .tc := ⟨.hbm, 175, rfl⟩
abbrev main_call4_v0 : Ref sig .tc := ⟨.hbm, 176, rfl⟩
abbrev main_v122 : Ref sig .tc := ⟨.hbm, 177, rfl⟩
abbrev main_v123 : Ref sig .tc := ⟨.hbm, 178, rfl⟩
abbrev main_c_17 : Ref sig .tc := ⟨.hbm, 179, rfl⟩
abbrev main_v124 : Ref sig .tc := ⟨.hbm, 180, rfl⟩
abbrev main_v125 : Ref sig .tc := ⟨.hbm, 181, rfl⟩
abbrev main_c_18 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_19 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_call5_cst : Ref sig .tc := ⟨.hbm, 198, rfl⟩
abbrev main_call5_v0 : Ref sig .tc := ⟨.hbm, 199, rfl⟩
abbrev main_v140 : Ref sig .tc := ⟨.hbm, 200, rfl⟩
abbrev main_v141 : Ref sig .tc := ⟨.hbm, 201, rfl⟩
abbrev main_c_20 : Ref sig .tc := ⟨.hbm, 202, rfl⟩
abbrev main_v142 : Ref sig .tc := ⟨.hbm, 203, rfl⟩
abbrev main_v143 : Ref sig .tc := ⟨.hbm, 204, rfl⟩
abbrev main_c_21 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_22 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_call6_cst : Ref sig .tc := ⟨.hbm, 221, rfl⟩
abbrev main_call6_v0 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩

abbrev nD : Nat := 1
abbrev τ : Topo := Topo.v7x

variable {F : FTy → Type} [FloatOps F]

class Facts₀ : Prop where
  slices_S2x3000000_S1x3000000_0_0 : S2x3000000.Slices ![0, 0] S1x3000000
  shapeCasts_S1x3000000_S3000000 : S1x3000000.ShapeCasts S3000000
  concatenates_S3000000_S300000_S3300000_d0 : Shape.Concatenates [S3000000, S300000] S3300000 0
  slices_S2x3000000_S1x3000000_1_0 : S2x3000000.Slices ![1, 0] S1x3000000
  bcast_S_S3300000 : S_.BroadcastsInDim S3300000 (![] : Fin 0 → Fin S3300000.rank)
  bcast_S_S300000 : S_.BroadcastsInDim S300000 (![] : Fin 0 → Fin S300000.rank)
  bcast_S3300000_S3300000x1_0 : S3300000.BroadcastsInDim S3300000x1 (![0] : Fin 1 → Fin S3300000x1.rank)
  bcast_S100_S1x100_1 : S100.BroadcastsInDim S1x100 (![1] : Fin 1 → Fin S1x100.rank)
  bcast_S1x100_S300000x100_0_1 : S1x100.BroadcastsInDim S300000x100 (![0, 1] : Fin 2 → Fin S300000x100.rank)
  bcast_S_S100 : S_.BroadcastsInDim S100 (![] : Fin 0 → Fin S100.rank)
  bcast_S_S300000x100 : S_.BroadcastsInDim S300000x100 (![] : Fin 0 → Fin S300000x100.rank)
  bcast_S25_S1x25_1 : S25.BroadcastsInDim S1x25 (![1] : Fin 1 → Fin S1x25.rank)
  bcast_S1x25_S300000x25_0_1 : S1x25.BroadcastsInDim S300000x25 (![0, 1] : Fin 2 → Fin S300000x25.rank)
  bcast_S_S25 : S_.BroadcastsInDim S25 (![] : Fin 0 → Fin S25.rank)
  bcast_S3300000x1_S3300000x25_0_1 : S3300000x1.BroadcastsInDim S3300000x25 (![0, 1] : Fin 2 → Fin S3300000x25.rank)
  bcast_S_S300000x25 : S_.BroadcastsInDim S300000x25 (![] : Fin 0 → Fin S300000x25.rank)
  bcast_S3300000x1_S3300000x16_0_1 : S3300000x1.BroadcastsInDim S3300000x16 (![0, 1] : Fin 2 → Fin S3300000x16.rank)
  bcast_S_S300000x16 : S_.BroadcastsInDim S300000x16 (![] : Fin 0 → Fin S300000x16.rank)
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  bcast_S3300000x1_S3300000x8_0_1 : S3300000x1.BroadcastsInDim S3300000x8 (![0, 1] : Fin 2 → Fin S3300000x8.rank)
  bcast_S_S300000x8 : S_.BroadcastsInDim S300000x8 (![] : Fin 0 → Fin S300000x8.rank)
  bcast_S8_S1x8_1 : S8.BroadcastsInDim S1x8 (![1] : Fin 1 → Fin S1x8.rank)
  bcast_S1x8_S300000x8_0_1 : S1x8.BroadcastsInDim S300000x8 (![0, 1] : Fin 2 → Fin S300000x8.rank)
  bcast_S3300000x1_S3300000x4_0_1 : S3300000x1.BroadcastsInDim S3300000x4 (![0, 1] : Fin 2 → Fin S3300000x4.rank)
  bcast_S_S300000x4 : S_.BroadcastsInDim S300000x4 (![] : Fin 0 → Fin S300000x4.rank)
  bcast_S4_S1x4_1 : S4.BroadcastsInDim S1x4 (![1] : Fin 1 → Fin S1x4.rank)
  bcast_S1x4_S300000x4_0_1 : S1x4.BroadcastsInDim S300000x4 (![0, 1] : Fin 2 → Fin S300000x4.rank)
  shapeCasts_S300000x4_S1000x1200 : S300000x4.ShapeCasts S1000x1200
  bcast_S1x4_S1000x4_0_1 : S1x4.BroadcastsInDim S1000x4 (![0, 1] : Fin 2 → Fin S1000x4.rank)
  scatter_S300000_S3300000x1_S3300000_n_0_0_1_wf : ScatterDims.WF S300000 S3300000x1 S3300000 [] [0] [0] 1
  gather_S300000_S3300000x1_S3300000_n_0_n_n_0_1_1_wf : GatherDims.WF S300000 S3300000x1 S3300000 [] [0] [] [0] [] 1 ![1]
  dot_S300000x25_S25x100_S300000x100_1_0_0_1_n_n_wf : DotDims.WF S300000x25 S25x100 S300000x100 [1] [0] [0] [1] [] []
  dot_S300000x100_S100x25_S300000x25_1_0_0_1_n_n_wf : DotDims.WF S300000x100 S100x25 S300000x25 [1] [0] [0] [1] [] []
  dot_S300000x25_S25x25_S300000x25_1_0_0_1_n_n_wf : DotDims.WF S300000x25 S25x25 S300000x25 [1] [0] [0] [1] [] []
  gather_S300000x25_S3300000x1_S3300000x25_1_0_n_n_0_1_125_wf : GatherDims.WF S300000x25 S3300000x1 S3300000x25 [1] [0] [] [0] [] 1 ![1, 25]
  scatter_S300000x25_S3300000x1_S3300000x25_1_0_0_1_wf : ScatterDims.WF S300000x25 S3300000x1 S3300000x25 [1] [0] [0] 1
  dot_S300000x25_S25x16_S300000x16_1_0_0_1_n_n_wf : DotDims.WF S300000x25 S25x16 S300000x16 [1] [0] [0] [1] [] []
  gather_S300000x16_S3300000x1_S3300000x16_1_0_n_n_0_1_116_wf : GatherDims.WF S300000x16 S3300000x1 S3300000x16 [1] [0] [] [0] [] 1 ![1, 16]
  scatter_S300000x16_S3300000x1_S3300000x16_1_0_0_1_wf : ScatterDims.WF S300000x16 S3300000x1 S3300000x16 [1] [0] [0] 1
  dot_S300000x16_S16x16_S300000x16_1_0_0_1_n_n_wf : DotDims.WF S300000x16 S16x16 S300000x16 [1] [0] [0] [1] [] []
  dot_S300000x16_S16x8_S300000x8_1_0_0_1_n_n_wf : DotDims.WF S300000x16 S16x8 S300000x8 [1] [0] [0] [1] [] []
  gather_S300000x8_S3300000x1_S3300000x8_1_0_n_n_0_1_18_wf : GatherDims.WF S300000x8 S3300000x1 S3300000x8 [1] [0] [] [0] [] 1 ![1, 8]
  scatter_S300000x8_S3300000x1_S3300000x8_1_0_0_1_wf : ScatterDims.WF S300000x8 S3300000x1 S3300000x8 [1] [0] [0] 1
  dot_S300000x8_S8x4_S300000x4_1_0_0_1_n_n_wf : DotDims.WF S300000x8 S8x4 S300000x4 [1] [0] [0] [1] [] []
  gather_S300000x4_S3300000x1_S3300000x4_1_0_n_n_0_1_14_wf : GatherDims.WF S300000x4 S3300000x1 S3300000x4 [1] [0] [] [0] [] 1 ![1, 4]
  scatter_S300000x4_S3300000x1_S3300000x4_1_0_0_1_wf : ScatterDims.WF S300000x4 S3300000x1 S3300000x4 [1] [0] [0] 1
  dot_S1000x1200_S1200x4_S1000x4_1_0_0_1_n_n_wf : DotDims.WF S1000x1200 S1200x4 S1000x4 [1] [0] [0] [1] [] []

variable [Facts₀]

def scatter_S300000_S3300000x1_S3300000_n_0_0_1 : ScatterDims S300000 S3300000x1 S3300000 where
  updateWindowDims := []
  insertedWindowDims := [0]
  scatterDimsToOperandDims := [0]
  indexVectorDim := 1
  wf := scatter_S300000_S3300000x1_S3300000_n_0_0_1_wf
def gather_S300000_S3300000x1_S3300000_n_0_n_n_0_1_1 : GatherDims S300000 S3300000x1 S3300000 where
  offsetDims := []
  collapsedSliceDims := [0]
  operandBatchingDims := []
  startIndicesBatchingDims := []
  startIndexMap := [0]
  indexVectorDim := 1
  sliceSizes := ![1]
  wf := gather_S300000_S3300000x1_S3300000_n_0_n_n_0_1_1_wf
def dot_S300000x25_S25x100_S300000x100_1_0_0_1_n_n : DotDims S300000x25 S25x100 S300000x100 where
  lhsContracting := [1]
  rhsContracting := [0]
  lhsNonContracting := [0]
  rhsNonContracting := [1]
  lhsBatch := []
  rhsBatch := []
  wf := dot_S300000x25_S25x100_S300000x100_1_0_0_1_n_n_wf
def dot_S300000x100_S100x25_S300000x25_1_0_0_1_n_n : DotDims S300000x100 S100x25 S300000x25 where
  lhsContracting := [1]
  rhsContracting := [0]
  lhsNonContracting := [0]
  rhsNonContracting := [1]
  lhsBatch := []
  rhsBatch := []
  wf := dot_S300000x100_S100x25_S300000x25_1_0_0_1_n_n_wf
def dot_S300000x25_S25x25_S300000x25_1_0_0_1_n_n : DotDims S300000x25 S25x25 S300000x25 where
  lhsContracting := [1]
  rhsContracting := [0]
  lhsNonContracting := [0]
  rhsNonContracting := [1]
  lhsBatch := []
  rhsBatch := []
  wf := dot_S300000x25_S25x25_S300000x25_1_0_0_1_n_n_wf
def gather_S300000x25_S3300000x1_S3300000x25_1_0_n_n_0_1_125 : GatherDims S300000x25 S3300000x1 S3300000x25 where
  offsetDims := [1]
  collapsedSliceDims := [0]
  operandBatchingDims := []
  startIndicesBatchingDims := []
  startIndexMap := [0]
  indexVectorDim := 1
  sliceSizes := ![1, 25]
  wf := gather_S300000x25_S3300000x1_S3300000x25_1_0_n_n_0_1_125_wf
def scatter_S300000x25_S3300000x1_S3300000x25_1_0_0_1 : ScatterDims S300000x25 S3300000x1 S3300000x25 where
  updateWindowDims := [1]
  insertedWindowDims := [0]
  scatterDimsToOperandDims := [0]
  indexVectorDim := 1
  wf := scatter_S300000x25_S3300000x1_S3300000x25_1_0_0_1_wf
def dot_S300000x25_S25x16_S300000x16_1_0_0_1_n_n : DotDims S300000x25 S25x16 S300000x16 where
  lhsContracting := [1]
  rhsContracting := [0]
  lhsNonContracting := [0]
  rhsNonContracting := [1]
  lhsBatch := []
  rhsBatch := []
  wf := dot_S300000x25_S25x16_S300000x16_1_0_0_1_n_n_wf
def gather_S300000x16_S3300000x1_S3300000x16_1_0_n_n_0_1_116 : GatherDims S300000x16 S3300000x1 S3300000x16 where
  offsetDims := [1]
  collapsedSliceDims := [0]
  operandBatchingDims := []
  startIndicesBatchingDims := []
  startIndexMap := [0]
  indexVectorDim := 1
  sliceSizes := ![1, 16]
  wf := gather_S300000x16_S3300000x1_S3300000x16_1_0_n_n_0_1_116_wf
def scatter_S300000x16_S3300000x1_S3300000x16_1_0_0_1 : ScatterDims S300000x16 S3300000x1 S3300000x16 where
  updateWindowDims := [1]
  insertedWindowDims := [0]
  scatterDimsToOperandDims := [0]
  indexVectorDim := 1
  wf := scatter_S300000x16_S3300000x1_S3300000x16_1_0_0_1_wf
def dot_S300000x16_S16x16_S300000x16_1_0_0_1_n_n : DotDims S300000x16 S16x16 S300000x16 where
  lhsContracting := [1]
  rhsContracting := [0]
  lhsNonContracting := [0]
  rhsNonContracting := [1]
  lhsBatch := []
  rhsBatch := []
  wf := dot_S300000x16_S16x16_S300000x16_1_0_0_1_n_n_wf
def dot_S300000x16_S16x8_S300000x8_1_0_0_1_n_n : DotDims S300000x16 S16x8 S300000x8 where
  lhsContracting := [1]
  rhsContracting := [0]
  lhsNonContracting := [0]
  rhsNonContracting := [1]
  lhsBatch := []
  rhsBatch := []
  wf := dot_S300000x16_S16x8_S300000x8_1_0_0_1_n_n_wf
def gather_S300000x8_S3300000x1_S3300000x8_1_0_n_n_0_1_18 : GatherDims S300000x8 S3300000x1 S3300000x8 where
  offsetDims := [1]
  collapsedSliceDims := [0]
  operandBatchingDims := []
  startIndicesBatchingDims := []
  startIndexMap := [0]
  indexVectorDim := 1
  sliceSizes := ![1, 8]
  wf := gather_S300000x8_S3300000x1_S3300000x8_1_0_n_n_0_1_18_wf
def scatter_S300000x8_S3300000x1_S3300000x8_1_0_0_1 : ScatterDims S300000x8 S3300000x1 S3300000x8 where
  updateWindowDims := [1]
  insertedWindowDims := [0]
  scatterDimsToOperandDims := [0]
  indexVectorDim := 1
  wf := scatter_S300000x8_S3300000x1_S3300000x8_1_0_0_1_wf
def dot_S300000x8_S8x4_S300000x4_1_0_0_1_n_n : DotDims S300000x8 S8x4 S300000x4 where
  lhsContracting := [1]
  rhsContracting := [0]
  lhsNonContracting := [0]
  rhsNonContracting := [1]
  lhsBatch := []
  rhsBatch := []
  wf := dot_S300000x8_S8x4_S300000x4_1_0_0_1_n_n_wf
def gather_S300000x4_S3300000x1_S3300000x4_1_0_n_n_0_1_14 : GatherDims S300000x4 S3300000x1 S3300000x4 where
  offsetDims := [1]
  collapsedSliceDims := [0]
  operandBatchingDims := []
  startIndicesBatchingDims := []
  startIndexMap := [0]
  indexVectorDim := 1
  sliceSizes := ![1, 4]
  wf := gather_S300000x4_S3300000x1_S3300000x4_1_0_n_n_0_1_14_wf
def scatter_S300000x4_S3300000x1_S3300000x4_1_0_0_1 : ScatterDims S300000x4 S3300000x1 S3300000x4 where
  updateWindowDims := [1]
  insertedWindowDims := [0]
  scatterDimsToOperandDims := [0]
  indexVectorDim := 1
  wf := scatter_S300000x4_S3300000x1_S3300000x4_1_0_0_1_wf
def dot_S1000x1200_S1200x4_S1000x4_1_0_0_1_n_n : DotDims S1000x1200 S1200x4 S1000x4 where
  lhsContracting := [1]
  rhsContracting := [0]
  lhsNonContracting := [0]
  rhsNonContracting := [1]
  lhsBatch := []
  rhsBatch := []
  wf := dot_S1000x1200_S1200x4_S1000x4_1_0_0_1_n_n_wf

class Facts : Prop extends Facts₀ where

variable [Facts]
-- ==== Proof.KRun.lean ====
/-
  The idealized kernel's run with its result named.

  The program is eight kernel launches among stretches of host operations. The generated frame module folds the buffer
  contents through those seventeen segments (`W0`, …, `W17`) and runs the segments; read against the final state, the last
  fold gives every unscoped buffer's final contents. Here the same run is read once more for the RESULT buffer: every weakly
  fair execution ends with the result at `W17`'s contents of it, and the arguments as launched.
-/
import proofs.«128436_j51488067944595_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last fold's
    contents of it and every argument array as launched. -/
theorem run_result : θ_run defs (onTc (τ := τ) (main (F := F))) ⟨m, fun _ => 0, ρ⟩ (fun r => ∀ c : Dev nD,
      r.2.mem ((c.tc : Thread nD τ).loc main_v90) = W17 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v90 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c),
       (h c _ (mem_uc main_arg24 (by decide))).trans (W17_main_arg24 m ρ c),
       (h c _ (mem_uc main_arg25 (by decide))).trans (W17_main_arg25 m ρ c)⟩)

end Cert.KernelIdeal.KRun

end
-- ==== Proof.Keep.lean ====
/-
  What each of the program's seventeen segments leaves alone.

  The buffer contents are folded through the segments (`W0` at launch, …, `W17` at the end). A stretch of host operations
  changes only the buffers its operations define; a kernel launch changes only its output array (its input arrays are
  read through their blocks and written back unchanged, every other buffer is untouched). So a buffer's contents at a
  later boundary are its contents at an earlier one, as long as no segment between defines it.
-/
import proofs.«128436_j51488067944595_2_alg».proof.Proof.Gen.KernelIdeal.Frame
import Idealize.ShloMosaic.PureOps.Ideal

set_option maxRecDepth 16384

noncomputable section

namespace Cert.KernelIdeal.Keep

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-- The buffers the operations of `hostOps0` define. -/
abbrev defined1 : List (Ref sig .tc) := [main_v0, main_v1, main_v2, main_v3, main_v4, main_v5, main_v6, main_cst, main_v7, main_cst_0, main_v8, main_v9, main_v10, main_cst_1, main_v11, main_v12, main_v13, main_cst_2]

theorem writes1 : (hostOps0 : List (HloOp τ sig (Elt Ideal))).Forall fun op =>
    op.writes ⊆ ((defined1).map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 1 (`hostOps0`) leaves every buffer it does not define as it was. -/
theorem keep1 (r : Ref sig .tc) (hr : r ∉ defined1) :
    W1 m ρ c (Proc.devRef .tc r) = W0 m ρ c (Proc.devRef .tc r) :=
  StableHlo.after_of_writes_sub hostOps0 (W0 m ρ c) writes1 hr

/-- The buffers the operations of `hostOps0_1` define. -/
abbrev defined2 : List (Ref sig .tc) := [main_call0_v0, main_call0_v1, main_v14]

theorem writes2 : (hostOps0_1 : List (HloOp τ sig (Elt Ideal))).Forall fun op =>
    op.writes ⊆ ((defined2).map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 2 (`hostOps0_1`) leaves every buffer it does not define as it was. -/
theorem keep2 (r : Ref sig .tc) (hr : r ∉ defined2) :
    W2 m ρ c (Proc.devRef .tc r) = W1 m ρ c (Proc.devRef .tc r) :=
  StableHlo.after_of_writes_sub hostOps0_1 (W1 m ρ c) writes2 hr

/-- The buffers the operations of `hostOps0_2` define. -/
abbrev defined3 : List (Ref sig .tc) := [main_v15, main_v16, main_v17, main_v18, main_v19, main_v20, main_v21, main_v22, main_v23, main_v24, main_v25]

theorem writes3 : (hostOps0_2 : List (HloOp τ sig (Elt Ideal))).Forall fun op =>
    op.writes ⊆ ((defined3).map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 3 (`hostOps0_2`) leaves every buffer it does not define as it was. -/
theorem keep3 (r : Ref sig .tc) (hr : r ∉ defined3) :
    W3 m ρ c (Proc.devRef .tc r) = W2 m ρ c (Proc.devRef .tc r) :=
  StableHlo.after_of_writes_sub hostOps0_2 (W2 m ρ c) writes3 hr

/-- Segment 4 (kernel launch 0) leaves every buffer that is none of its arrays as it was. -/
theorem keep4 (r : Ref sig .tc) (hr : ∀ w, Pipeline.arrRef spec0 w ≠ r) :
    W4 m ρ c (Proc.devRef .tc r) = W3 m ρ c (Proc.devRef .tc r) :=
  W4_of_ne m ρ c r hr

/-- Segment 5 (kernel launch 1) leaves every buffer but its output `main_v27` as it was. -/
theorem keep5 (r : Ref sig .tc) (hr : r ≠ main_v27) :
    W5 m ρ c (Proc.devRef .tc r) = W4 m ρ c (Proc.devRef .tc r) := by
  by_cases h : ∃ w, Pipeline.arrRef spec1 w = r
  · obtain ⟨w, rfl⟩ := h
    match w with
    | ⟨0, _⟩ => exact (W5_arr m ρ c 0).trans (((dat1 (V4 m ρ) c).arrAt_in 0 rfl _).trans (A_eq1 (V4 m ρ) c 0))
    | ⟨1, _⟩ => exact (W5_arr m ρ c 1).trans (((dat1 (V4 m ρ) c).arrAt_in 1 rfl _).trans (A_eq1 (V4 m ρ) c 1))
    | ⟨2, _⟩ => exact (W5_arr m ρ c 2).trans (((dat1 (V4 m ρ) c).arrAt_in 2 rfl _).trans (A_eq1 (V4 m ρ) c 2))
    | ⟨3, _⟩ => exact absurd rfl hr
  · exact W5_of_ne m ρ c r (fun w e => h ⟨w, e⟩)

/-- The buffers the operations of `hostOps2` define. -/
abbrev defined6 : List (Ref sig .tc) := [main_c, main_v28, main_v29, main_c_3, main_v30, main_v31, main_v32, main_v33, main_v34, main_cst_4, main_v35, main_v36, main_v37, main_v38]

theorem writes6 : (hostOps2 : List (HloOp τ sig (Elt Ideal))).Forall fun op =>
    op.writes ⊆ ((defined6).map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 6 (`hostOps2`) leaves every buffer it does not define as it was. -/
theorem keep6 (r : Ref sig .tc) (hr : r ∉ defined6) :
    W6 m ρ c (Proc.devRef .tc r) = W5 m ρ c (Proc.devRef .tc r) :=
  StableHlo.after_of_writes_sub hostOps2 (W5 m ρ c) writes6 hr

/-- Segment 7 (kernel launch 2) leaves every buffer but its output `main_v39` as it was. -/
theorem keep7 (r : Ref sig .tc) (hr : r ≠ main_v39) :
    W7 m ρ c (Proc.devRef .tc r) = W6 m ρ c (Proc.devRef .tc r) := by
  by_cases h : ∃ w, Pipeline.arrRef spec2 w = r
  · obtain ⟨w, rfl⟩ := h
    match w with
    | ⟨0, _⟩ => exact (W7_arr m ρ c 0).trans (((dat2 (V6 m ρ) c).arrAt_in 0 rfl _).trans (A_eq2 (V6 m ρ) c 0))
    | ⟨1, _⟩ => exact (W7_arr m ρ c 1).trans (((dat2 (V6 m ρ) c).arrAt_in 1 rfl _).trans (A_eq2 (V6 m ρ) c 1))
    | ⟨2, _⟩ => exact (W7_arr m ρ c 2).trans (((dat2 (V6 m ρ) c).arrAt_in 2 rfl _).trans (A_eq2 (V6 m ρ) c 2))
    | ⟨3, _⟩ => exact (W7_arr m ρ c 3).trans (((dat2 (V6 m ρ) c).arrAt_in 3 rfl _).trans (A_eq2 (V6 m ρ) c 3))
    | ⟨4, _⟩ => exact absurd rfl hr
  · exact W7_of_ne m ρ c r (fun w e => h ⟨w, e⟩)

/-- The buffers the operations of `hostOps3` define. -/
abbrev defined8 : List (Ref sig .tc) := [main_c_5, main_v40, main_v41, main_c_6, main_v42, main_v43, main_v44, main_v45, main_v46, main_cst_7, main_v47, main_v48, main_v49, main_v50]

theorem writes8 : (hostOps3 : List (HloOp τ sig (Elt Ideal))).Forall fun op =>
    op.writes ⊆ ((defined8).map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 8 (`hostOps3`) leaves every buffer it does not define as it was. -/
theorem keep8 (r : Ref sig .tc) (hr : r ∉ defined8) :
    W8 m ρ c (Proc.devRef .tc r) = W7 m ρ c (Proc.devRef .tc r) :=
  StableHlo.after_of_writes_sub hostOps3 (W7 m ρ c) writes8 hr

/-- Segment 9 (kernel launch 3) leaves every buffer but its output `main_v51` as it was. -/
theorem keep9 (r : Ref sig .tc) (hr : r ≠ main_v51) :
    W9 m ρ c (Proc.devRef .tc r) = W8 m ρ c (Proc.devRef .tc r) := by
  by_cases h : ∃ w, Pipeline.arrRef spec3 w = r
  · obtain ⟨w, rfl⟩ := h
    match w with
    | ⟨0, _⟩ => exact (W9_arr m ρ c 0).trans (((dat3 (V8 m ρ) c).arrAt_in 0 rfl _).trans (A_eq3 (V8 m ρ) c 0))
    | ⟨1, _⟩ => exact (W9_arr m ρ c 1).trans (((dat3 (V8 m ρ) c).arrAt_in 1 rfl _).trans (A_eq3 (V8 m ρ) c 1))
    | ⟨2, _⟩ => exact (W9_arr m ρ c 2).trans (((dat3 (V8 m ρ) c).arrAt_in 2 rfl _).trans (A_eq3 (V8 m ρ) c 2))
    | ⟨3, _⟩ => exact (W9_arr m ρ c 3).trans (((dat3 (V8 m ρ) c).arrAt_in 3 rfl _).trans (A_eq3 (V8 m ρ) c 3))
    | ⟨4, _⟩ => exact absurd rfl hr
  · exact W9_of_ne m ρ c r (fun w e => h ⟨w, e⟩)

/-- The buffers the operations of `hostOps4` define. -/
abbrev defined10 : List (Ref sig .tc) := [main_c_8, main_v52, main_v53, main_c_9, main_v54, main_v55, main_v56, main_v57, main_v58, main_cst_10, main_v59, main_v60, main_v61, main_v62]

theorem writes10 : (hostOps4 : List (HloOp τ sig (Elt Ideal))).Forall fun op =>
    op.writes ⊆ ((defined10).map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 10 (`hostOps4`) leaves every buffer it does not define as it was. -/
theorem keep10 (r : Ref sig .tc) (hr : r ∉ defined10) :
    W10 m ρ c (Proc.devRef .tc r) = W9 m ρ c (Proc.devRef .tc r) :=
  StableHlo.after_of_writes_sub hostOps4 (W9 m ρ c) writes10 hr

/-- Segment 11 (kernel launch 4) leaves every buffer but its output `main_v63` as it was. -/
theorem keep11 (r : Ref sig .tc) (hr : r ≠ main_v63) :
    W11 m ρ c (Proc.devRef .tc r) = W10 m ρ c (Proc.devRef .tc r) := by
  by_cases h : ∃ w, Pipeline.arrRef spec4 w = r
  · obtain ⟨w, rfl⟩ := h
    match w with
    | ⟨0, _⟩ => exact (W11_arr m ρ c 0).trans (((dat4 (V10 m ρ) c).arrAt_in 0 rfl _).trans (A_eq4 (V10 m ρ) c 0))
    | ⟨1, _⟩ => exact (W11_arr m ρ c 1).trans (((dat4 (V10 m ρ) c).arrAt_in 1 rfl _).trans (A_eq4 (V10 m ρ) c 1))
    | ⟨2, _⟩ => exact (W11_arr m ρ c 2).trans (((dat4 (V10 m ρ) c).arrAt_in 2 rfl _).trans (A_eq4 (V10 m ρ) c 2))
    | ⟨3, _⟩ => exact (W11_arr m ρ c 3).trans (((dat4 (V10 m ρ) c).arrAt_in 3 rfl _).trans (A_eq4 (V10 m ρ) c 3))
    | ⟨4, _⟩ => exact absurd rfl hr
  · exact W11_of_ne m ρ c r (fun w e => h ⟨w, e⟩)

/-- The buffers the operations of `hostOps5` define. -/
abbrev defined12 : List (Ref sig .tc) := [main_c_11, main_v64, main_v65, main_c_12, main_v66, main_v67, main_v68, main_v69, main_v70, main_cst_13, main_v71, main_v72, main_v73, main_v74]

theorem writes12 : (hostOps5 : List (HloOp τ sig (Elt Ideal))).Forall fun op =>
    op.writes ⊆ ((defined12).map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 12 (`hostOps5`) leaves every buffer it does not define as it was. -/
theorem keep12 (r : Ref sig .tc) (hr : r ∉ defined12) :
    W12 m ρ c (Proc.devRef .tc r) = W11 m ρ c (Proc.devRef .tc r) :=
  StableHlo.after_of_writes_sub hostOps5 (W11 m ρ c) writes12 hr

/-- Segment 13 (kernel launch 5) leaves every buffer but its output `main_v75` as it was. -/
theorem keep13 (r : Ref sig .tc) (hr : r ≠ main_v75) :
    W13 m ρ c (Proc.devRef .tc r) = W12 m ρ c (Proc.devRef .tc r) := by
  by_cases h : ∃ w, Pipeline.arrRef spec5 w = r
  · obtain ⟨w, rfl⟩ := h
    match w with
    | ⟨0, _⟩ => exact (W13_arr m ρ c 0).trans (((dat5 (V12 m ρ) c).arrAt_in 0 rfl _).trans (A_eq5 (V12 m ρ) c 0))
    | ⟨1, _⟩ => exact (W13_arr m ρ c 1).trans (((dat5 (V12 m ρ) c).arrAt_in 1 rfl _).trans (A_eq5 (V12 m ρ) c 1))
    | ⟨2, _⟩ => exact (W13_arr m ρ c 2).trans (((dat5 (V12 m ρ) c).arrAt_in 2 rfl _).trans (A_eq5 (V12 m ρ) c 2))
    | ⟨3, _⟩ => exact (W13_arr m ρ c 3).trans (((dat5 (V12 m ρ) c).arrAt_in 3 rfl _).trans (A_eq5 (V12 m ρ) c 3))
    | ⟨4, _⟩ => exact absurd rfl hr
  · exact W13_of_ne m ρ c r (fun w e => h ⟨w, e⟩)

/-- The buffers the operations of `hostOps6` define. -/
abbrev defined14 : List (Ref sig .tc) := [main_c_14, main_v76, main_v77, main_c_15, main_v78, main_v79, main_v80, main_v81, main_v82, main_cst_16, main_v83, main_v84, main_v85, main_v86]

theorem writes14 : (hostOps6 : List (HloOp τ sig (Elt Ideal))).Forall fun op =>
    op.writes ⊆ ((defined14).map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 14 (`hostOps6`) leaves every buffer it does not define as it was. -/
theorem keep14 (r : Ref sig .tc) (hr : r ∉ defined14) :
    W14 m ρ c (Proc.devRef .tc r) = W13 m ρ c (Proc.devRef .tc r) :=
  StableHlo.after_of_writes_sub hostOps6 (W13 m ρ c) writes14 hr

/-- Segment 15 (kernel launch 6) leaves every buffer but its output `main_v87` as it was. -/
theorem keep15 (r : Ref sig .tc) (hr : r ≠ main_v87) :
    W15 m ρ c (Proc.devRef .tc r) = W14 m ρ c (Proc.devRef .tc r) := by
  by_cases h : ∃ w, Pipeline.arrRef spec6 w = r
  · obtain ⟨w, rfl⟩ := h
    match w with
    | ⟨0, _⟩ => exact (W15_arr m ρ c 0).trans (((dat6 (V14 m ρ) c).arrAt_in 0 rfl _).trans (A_eq6 (V14 m ρ) c 0))
    | ⟨1, _⟩ => exact (W15_arr m ρ c 1).trans (((dat6 (V14 m ρ) c).arrAt_in 1 rfl _).trans (A_eq6 (V14 m ρ) c 1))
    | ⟨2, _⟩ => exact (W15_arr m ρ c 2).trans (((dat6 (V14 m ρ) c).arrAt_in 2 rfl _).trans (A_eq6 (V14 m ρ) c 2))
    | ⟨3, _⟩ => exact absurd rfl hr
  · exact W15_of_ne m ρ c r (fun w e => h ⟨w, e⟩)

/-- The buffers the operations of `hostOps7` define. -/
abbrev defined16 : List (Ref sig .tc) := [main_v88, main_v89]

theorem writes16 : (hostOps7 : List (HloOp τ sig (Elt Ideal))).Forall fun op =>
    op.writes ⊆ ((defined16).map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- Segment 16 (`hostOps7`) leaves every buffer it does not define as it was. -/
theorem keep16 (r : Ref sig .tc) (hr : r ∉ defined16) :
    W16 m ρ c (Proc.devRef .tc r) = W15 m ρ c (Proc.devRef .tc r) :=
  StableHlo.after_of_writes_sub hostOps7 (W15 m ρ c) writes16 hr

/-- Segment 17 (kernel launch 7) leaves every buffer but its output `main_v90` as it was. -/
theorem keep17 (r : Ref sig .tc) (hr : r ≠ main_v90) :
    W17 m ρ c (Proc.devRef .tc r) = W16 m ρ c (Proc.devRef .tc r) := by
  by_cases h : ∃ w, Pipeline.arrRef spec7 w = r
  · obtain ⟨w, rfl⟩ := h
    match w with
    | ⟨0, _⟩ => exact (W17_arr m ρ c 0).trans (((dat7 (V16 m ρ) c).arrAt_in 0 rfl _).trans (A_eq7 (V16 m ρ) c 0))
    | ⟨1, _⟩ => exact (W17_arr m ρ c 1).trans (((dat7 (V16 m ρ) c).arrAt_in 1 rfl _).trans (A_eq7 (V16 m ρ) c 1))
    | ⟨2, _⟩ => exact (W17_arr m ρ c 2).trans (((dat7 (V16 m ρ) c).arrAt_in 2 rfl _).trans (A_eq7 (V16 m ρ) c 2))
    | ⟨3, _⟩ => exact absurd rfl hr
  · exact W17_of_ne m ρ c r (fun w e => h ⟨w, e⟩)

end Cert.KernelIdeal.Keep

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.Spec.lean ====
/-
  The network both programs compute, written one row entry at a time on the extended reals, and the one law that joins
  the two arrangements of a graph-convolution layer.

  A node's feature row goes through a two-layer feed-forward block with eval-mode batch norm, then through five
  graph-convolution layers, and the rows of each group of 300 consecutive nodes are finally laid side by side and sent
  through one more dense layer.

  A graph-convolution layer sends the row `h p` of every node through a matrix `W`, and node `p` then collects, over the
  edges `e` that end in `p`, the transformed row of the edge's source node `src e` weighted by
  `dn (src e) * dn (tgt e)`, where `dn` is the inverse square root of the node's degree and `tgt e` is the edge's target —
  which is `p` for the edges collected by `p`. One arrangement multiplies each edge's term by both factors (`aggR`); the
  other multiplies the source rows by `dn` once before they travel (`linK`), adds them up (`aggK`), and multiplies the sum
  by `dn p` afterwards (`actK`). On the extended reals the two agree because `dn p` is a NON-NEGATIVE REAL: multiplying a
  sum of extended reals by such a factor distributes over the sum even when terms are infinite or of both signs
  (`EReal.left_distrib_of_nonneg_of_ne_top`), and products of extended reals commute and associate. Nothing is assumed about the
  rows themselves: a batch norm with `v + ε = 0` makes an entry infinite, and the law still holds.
-/
import Idealize.ShloMosaic.PureOps.Ideal
import Idealize.ShloMosaic.Lib.ValueIdx

noncomputable section

open scoped BigOperators

namespace Cert.Spec

open Idealize.ShloMosaic Idealize.ShloMosaic.ValueIdx

/-! ## Arrays read as rows -/

/-- A two-axis array as a family of rows. -/
def mat {n k : Nat} (A : (⟨2, ![n, k]⟩ : Shape).Idx → EReal) (p : Fin n) (j : Fin k) : EReal := A (ix2 p j)
/-- A one-axis array as a row. -/
def vec {n : Nat} (v : (⟨1, ![n]⟩ : Shape).Idx → EReal) (j : Fin n) : EReal := v (ix1 j)
/-- A `[1, n]` array as a row. -/
def rowv {n : Nat} (b : (⟨2, ![1, n]⟩ : Shape).Idx → EReal) (j : Fin n) : EReal := b (ix2 0 j)
/-- An `[n, 1]` array as a column. -/
def colv {n : Nat} (d : (⟨2, ![n, 1]⟩ : Shape).Idx → EReal) (p : Fin n) : EReal := d (ix2 p 0)

/-! ## The network's pieces -/

/-- The batch norm's `ε`: the single-precision word both programs carry, read exactly. -/
def eps : EReal := Ideal.ofBits .f32 0x3727C5AC#32

/-- Eval-mode batch norm of one entry `t` with running mean `m`, running variance `v`, scale `g` and shift `be`. -/
def bn (t m v g be : EReal) : EReal := (t - m) * Ideal.rsqrt (v + eps) * g + be

/-- One entry of a dense layer: the row `x` against column `j` of `W`, plus the bias. -/
def dense {K D : Nat} (x : Fin K → EReal) (W : Fin K → Fin D → EReal) (b : Fin D → EReal) (j : Fin D) : EReal :=
  (∑ k, x k * W k j) + b j

/-- The hidden row of the feed-forward block: dense, batch norm, then the positive part. -/
def ffnHidden {A B : Nat} (x : Fin A → EReal) (W1 : Fin A → Fin B → EReal) (b1 g1 be1 m1 v1 : Fin B → EReal) (j : Fin B) :
    EReal :=
  max (bn (dense x W1 b1 j) (m1 j) (v1 j) (g1 j) (be1 j)) 0

/-- The output row of the feed-forward block: the hidden row through a second dense layer and batch norm. -/
def ffnOut {A B C : Nat} (x : Fin A → EReal) (W1 : Fin A → Fin B → EReal) (b1 g1 be1 m1 v1 : Fin B → EReal)
    (W2 : Fin B → Fin C → EReal) (b2 g2 be2 m2 v2 : Fin C → EReal) (j : Fin C) : EReal :=
  bn (dense (ffnHidden x W1 b1 g1 be1 m1 v1) W2 b2 j) (m2 j) (v2 j) (g2 j) (be2 j)

section Graph

variable {N E : Nat} (into : Fin N → Finset (Fin E)) (src tgt : Fin E → Fin N) (dn : Fin N → EReal)

/-- Rows through a matrix (no bias). -/
def linR {K D : Nat} (h : Fin N → Fin K → EReal) (W : Fin K → Fin D → EReal) (p : Fin N) (j : Fin D) : EReal :=
  ∑ k, h p k * W k j

/-- Node `p` collects the source rows of the edges into it, each weighted by `dn (src e) * dn (tgt e)`, onto zero. -/
def aggR {D : Nat} (lin : Fin N → Fin D → EReal) (p : Fin N) (j : Fin D) : EReal :=
  0 + ∑ e ∈ into p, lin (src e) j * (dn (src e) * dn (tgt e))

/-- Bias and positive part. -/
def actR {D : Nat} (agg : Fin N → Fin D → EReal) (b : Fin D → EReal) (p : Fin N) (j : Fin D) : EReal :=
  max (agg p j + b j) 0

/-- One graph-convolution layer, every edge's term weighted by both degree factors. -/
def layerR {K D : Nat} (h : Fin N → Fin K → EReal) (W : Fin K → Fin D → EReal) (b : Fin D → EReal) :
    Fin N → Fin D → EReal :=
  actR (aggR into src tgt dn (linR h W)) b

/-- Rows through a matrix, then scaled by the node's own degree factor. -/
def linK {K D : Nat} (h : Fin N → Fin K → EReal) (W : Fin K → Fin D → EReal) (p : Fin N) (j : Fin D) : EReal :=
  (∑ k, h p k * W k j) * dn p

/-- Node `p` adds up the (already scaled) source rows of the edges into it, onto zero. -/
def aggK {D : Nat} (lin : Fin N → Fin D → EReal) (p : Fin N) (j : Fin D) : EReal :=
  0 + ∑ e ∈ into p, lin (src e) j

/-- The collected sum scaled by the node's own degree factor, then bias and positive part. -/
def actK {D : Nat} (agg : Fin N → Fin D → EReal) (b : Fin D → EReal) (p : Fin N) (j : Fin D) : EReal :=
  max (dn p * agg p j + b j) 0

/-- One graph-convolution layer, the degree factors applied at the nodes. -/
def layerK {K D : Nat} (h : Fin N → Fin K → EReal) (W : Fin K → Fin D → EReal) (b : Fin D → EReal) :
    Fin N → Fin D → EReal :=
  actK dn (aggK into src (linK dn h W)) b

/-- A non-negative real factor distributes over a finite sum of extended reals. -/
theorem coe_mul_sum {ι : Type*} (s : Finset ι) (r : ℝ) (hr : 0 ≤ r) (f : ι → EReal) :
    (r : EReal) * ∑ e ∈ s, f e = ∑ e ∈ s, (r : EReal) * f e := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- THE LAW: with every degree factor a non-negative real, and every edge collected by `p` having target `p`, the two
    arrangements of a layer are one function of the incoming rows. -/
theorem layerK_eq_layerR (hdn : ∀ p, ∃ r : ℝ, 0 ≤ r ∧ dn p = (r : EReal)) (htgt : ∀ p, ∀ e ∈ into p, tgt e = p)
    {K D : Nat} (h : Fin N → Fin K → EReal) (W : Fin K → Fin D → EReal) (b : Fin D → EReal) :
    layerK into src dn h W b = layerR into src tgt dn h W b := by
  funext p j
  obtain ⟨r, hr, hp⟩ := hdn p
  unfold layerK layerR actK actR aggK aggR linK linR
  congr 2
  rw [hp, zero_add, zero_add, coe_mul_sum _ r hr]
  refine Finset.sum_congr rfl fun e he => ?_
  rw [htgt p e he, hp]
  rw [mul_comm (r : EReal), mul_assoc]

end Graph

/-- The rows of 300 consecutive nodes (4 features each) laid side by side: entry `k` of group `g`'s long row. -/
def groupRow (h : Fin 300000 → Fin 4 → EReal) (g : Fin 1000) (k : Fin 1200) : EReal :=
  h ⟨(g.val * 1200 + k.val) / 4, by omega⟩ ⟨(g.val * 1200 + k.val) % 4, by omega⟩

end Cert.Spec

end
-- ==== Proof.Graph.lean ====
/-
  The graph both programs read out of the edge list, named once.

  The edge list `[2, 3000000]` gives a source and a target word per edge; both programs append one self-loop per node
  (`3300000` edges in all), count the edges into each node, and take the inverse square root of the count where it is
  positive (zero elsewhere). An edge is collected by the node its target word names (a word outside `[0, 300000)` names no
  node); a row is read at the edge's source word after the sign normalisation `w < 0 ↦ w + 300000` and clamping into range.
  The index columns and the degree factor are named here by the stages of the reference's run that compute them; the
  other program computes the same terms.
-/
import proofs.«128436_j51488067944595_2_alg».proof.Proof.RefReadP
import proofs.«128436_j51488067944595_2_alg».proof.Proof.LibRowGatherScatter
import proofs.«128436_j51488067944595_2_alg».proof.Proof.Spec

noncomputable section

namespace Cert.Graph

open Idealize.ShloMosaic Idealize.ShloMosaic.ValueIdx
open Cert.ReferenceIdeal Cert.ReferenceIdeal.ReadP
open Cert.LibRowGatherScatter (edgesInto rowOf)

/-- The edge list's type. -/
abbrev EdgeList : Type := (⟨2, ![2, 3000000]⟩ : Shape).Idx → BitVec 32

/-- The target words (self-loops appended), as a column: the index column of every scatter. -/
def dstCol (x1 : EdgeList) : IVec ⟨2, ![3300000, 1]⟩ 32 := val_main_v9 (F := Ideal) x1
/-- The source words (self-loops appended) after the sign normalisation, as a column: the index column of every gather of
    rows. -/
def srcNCol (x1 : EdgeList) : IVec ⟨2, ![3300000, 1]⟩ 32 := val_main_v20 (F := Ideal) x1
/-- The target words after the sign normalisation, as a column. -/
def dstNCol (x1 : EdgeList) : IVec ⟨2, ![3300000, 1]⟩ 32 := val_main_v27 (F := Ideal) x1
/-- The degree factor per node: the inverse square root of the number of edges into it where that is positive, else 0. -/
def dinv (x1 : EdgeList) : (⟨1, ![300000]⟩ : Shape).Idx → EReal := val_main_v14 (F := Ideal) x1

/-- The edges node `p` collects. -/
def into (x1 : EdgeList) (p : Fin 300000) : Finset (Fin 3300000) := edgesInto (dstCol x1) p
/-- The node whose row edge `e` carries. -/
def src (x1 : EdgeList) (e : Fin 3300000) : Fin 300000 := rowOf (N := 300000) (by decide) (srcNCol x1) e
/-- The node whose degree factor edge `e` takes on the target side. -/
def tgt (x1 : EdgeList) (e : Fin 3300000) : Fin 300000 := rowOf (N := 300000) (by decide) (dstNCol x1) e
/-- The degree factor of node `p`. -/
def dn (x1 : EdgeList) (p : Fin 300000) : EReal := dinv x1 (ix1 p)

end Cert.Graph

end
-- ==== Proof.KGraph.lean ====
/-
  The kernel program's graph buffers are the reference's.

  Before its first launch the kernel's program reads the edge list exactly as the reference does: the source and the
  target words with one self-loop per node appended, the number of edges into each node by adding ones, and the degree
  factor (the inverse square root of that number where it is positive, zero elsewhere). Its buffers for them hold the very
  terms that name the graph.
-/
import proofs.«128436_j51488067944595_2_alg».proof.Proof.Gen.KernelIdeal.Frame
import proofs.«128436_j51488067944595_2_alg».proof.Proof.Graph

set_option maxRecDepth 16384

noncomputable section

namespace Cert.KernelIdeal.KGraph

open Idealize.ShloMosaic Idealize.ShloMosaic.TcCoe Idealize.ShloMosaic.Tactic Idealize.ShloMosaic.StableHlo
open Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

/-- The edge list as launched. -/
abbrev edges : Cert.Graph.EdgeList := m ((c.tc : Thread nD τ).loc main_arg1)

set_option maxHeartbeats 4000000 in
/-- The source words, self-loops appended. -/
theorem W1_v3 : W1 m ρ c (Proc.devRef .tc main_v3) = val_main_v3 (F := Ideal) (edges m c) := by
  show StableHlo.after hostOps0 _ _ = _
  after_results_simp
  rfl

set_option maxHeartbeats 4000000 in
/-- The target words, self-loops appended. -/
theorem W1_v6 : W1 m ρ c (Proc.devRef .tc main_v6) = val_main_v6 (F := Ideal) (edges m c) := by
  show StableHlo.after hostOps0 _ _ = _
  after_results_simp
  rfl

set_option maxHeartbeats 4000000 in
/-- The number of edges into each node. -/
theorem W1_v10 : W1 m ρ c (Proc.devRef .tc main_v10) = val_main_v10 (F := Ideal) (edges m c) := by
  show StableHlo.after hostOps0 _ _ = _
  after_results_simp
  rfl

set_option maxHeartbeats 4000000 in
/-- Where that number is positive. -/
theorem W1_v12 : W1 m ρ c (Proc.devRef .tc main_v12) = val_main_v12 (F := Ideal) (edges m c) := by
  show StableHlo.after hostOps0 _ _ = _
  after_results_simp
  rfl

set_option maxHeartbeats 4000000 in
/-- Its inverse square root. -/
theorem W1_v13 : W1 m ρ c (Proc.devRef .tc main_v13) = val_main_v13 (F := Ideal) (edges m c) := by
  show StableHlo.after hostOps0 _ _ = _
  after_results_simp
  rfl

/-- The zero chosen elsewhere. -/
theorem W1_cst_2 : W1 m ρ c (Proc.devRef .tc main_cst_2) = val_main_cst_2 (F := Ideal) := by
  show StableHlo.after hostOps0 _ _ = _
  after_results_simp
  rfl

end Cert.KernelIdeal.KGraph

end
-- ==== Proof.KGraphDinv.lean ====
/-
  The kernel program's degree factor is the reference's.

  After its first stretch of host operations the kernel's program holds, in three buffers, where the number of edges
  into a node is positive, the inverse square root of that number, and a zero. Its outlined `where` then copies the
  zero, spreads it over the nodes, and chooses per node between the inverse square root and the zero. Those three
  operations are stated at the types their tensor values carry and moved to the buffers' own types along an equation
  between the two; the two types are one, so every such transport is the identity, and what the chosen buffer holds is
  the degree factor that names the graph.
-/
import proofs.«128436_j51488067944595_2_alg».proof.Proof.KGraph

set_option maxRecDepth 16384

noncomputable section

namespace Cert.KernelIdeal.KGraph

open Idealize.ShloMosaic Idealize.ShloMosaic.TcCoe Idealize.ShloMosaic.Tactic Idealize.ShloMosaic.StableHlo
open Idealize.SL.Sem
open Cert.KernelIdeal Cert.KernelIdeal.Gen
open Cert.ReferenceIdeal.ReadP

set_option maxHeartbeats 400000 in
/-- From any buffer contents `V` whose three input buffers hold the positivity mask, the inverse square root and the
    zero of an edge list `x1`, the outlined `where` leaves the degree factor of `x1` in its result buffer. A transport
    along an equation between two types that are one is removed as a heterogeneous equality (`cast_heq`), never by
    unfolding the arrays it carries. -/
theorem dinv_of_after (V : Valuation τ sig (Elt Ideal)) (x1 : Cert.Graph.EdgeList)
    (h12 : V (Proc.devRef .tc main_v12) = val_main_v12 (F := Ideal) x1)
    (h13 : V (Proc.devRef .tc main_v13) = val_main_v13 (F := Ideal) x1)
    (hc : V (Proc.devRef .tc main_cst_2) = val_main_cst_2 (F := Ideal)) :
    StableHlo.after hostOps0_1 V (Proc.devRef .tc main_v14) = Cert.Graph.dinv x1 := by
  after_results
  -- the outermost transport
  refine eq_of_heq ((cast_heq _ _).trans (heq_of_eq ?_))
  -- each input buffer read through its transport is the stage it holds
  have e12 : (TRef.of (sig := sig) (T := ⟨S300000, .i1⟩) main_v12).ofBuf (Val := Elt Ideal) (V (Proc.devRef .tc main_v12))
      = val_main_v12 (F := Ideal) x1 := eq_of_heq ((cast_heq _ _).trans (heq_of_eq h12))
  have e13 : (TRef.of (sig := sig) (T := ⟨S300000, .f32⟩) main_v13).ofBuf (Val := Elt Ideal) (V (Proc.devRef .tc main_v13))
      = val_main_v13 (F := Ideal) x1 := eq_of_heq ((cast_heq _ _).trans (heq_of_eq h13))
  have ec : (TRef.of (sig := sig) (T := ⟨S_, .f32⟩) main_cst_2).ofBuf (Val := Elt Ideal) (V (Proc.devRef .tc main_cst_2))
      = val_main_cst_2 (F := Ideal) := eq_of_heq ((cast_heq _ _).trans (heq_of_eq hc))
  rw [e12, e13, ec]
  -- a value moved to a buffer's type and back is the value
  simp only [cast_cast, cast_eq]
  -- what is left is the reference's own choice, with the mask and the inverse square root as opaque arrays
  show _ = select (val_main_v12 (F := Ideal) x1) (val_main_v13 (F := Ideal) x1) (val_main_call0_v1 (F := Ideal))
  generalize val_main_v12 (F := Ideal) x1 = a
  generalize val_main_v13 (F := Ideal) x1 = b
  exact congrArg (select a b) rfl

variable (m : (ℓ : Loc nD τ sig) → Buf (Elt Ideal) ℓ) (ρ : Dev nD → PrngReg) (c : Dev nD)

/-- The degree factor per node, after the outlined `where`. -/
theorem W2_v14 : W2 m ρ c (Proc.devRef .tc main_v14) = Cert.Graph.dinv (edges m c) :=
  dinv_of_after (W1 m ρ c) (edges m c) (W1_v12 m ρ c) (W1_v13 m ρ c) (W1_cst_2 m ρ c)

end Cert.KernelIdeal.KGraph

end
-- ==== Proof.Net.lean ====
/-
  The whole network as one function of the argument arrays, in each of the two arrangements of its graph-convolution
  layers, and the equality of the two (the law of the spec, five times).
-/
import proofs.«128436_j51488067944595_2_alg».proof.Proof.Graph

noncomputable section

namespace Cert.Net

open Idealize.ShloMosaic Idealize.ShloMosaic.ValueIdx
open Cert.Spec Cert.Graph

/-- A two-axis array of extended reals. -/
abbrev A2 (n k : Nat) : Type := (⟨2, ![n, k]⟩ : Shape).Idx → EReal
/-- A one-axis array of extended reals. -/
abbrev A1 (n : Nat) : Type := (⟨1, ![n]⟩ : Shape).Idx → EReal

/-- The rows after the feed-forward block. -/
def h0 (x0 : A2 300000 25) (x2 : A2 25 100) (x3 x4 x5 x6 x7 : A1 100) (x8 : A2 100 25) (x9 x10 x11 x12 x13 : A1 25) : Fin 300000 → Fin 25 → EReal :=
  fun p => ffnOut (mat x0 p) (mat x2) (vec x3) (vec x4) (vec x5) (vec x6) (vec x7) (mat x8) (vec x9) (vec x10) (vec x11)
    (vec x12) (vec x13)

/-- A graph-convolution layer on this graph, every edge's term weighted by both degree factors. -/
def layR (x1 : EdgeList) {K D : Nat} (h : Fin 300000 → Fin K → EReal) (W : A2 K D) (b : A1 D) : Fin 300000 → Fin D → EReal :=
  layerR (into x1) (src x1) (tgt x1) (dn x1) h (mat W) (vec b)

/-- A graph-convolution layer on this graph, the degree factors applied at the nodes. -/
def layK (x1 : EdgeList) {K D : Nat} (h : Fin 300000 → Fin K → EReal) (W : A2 K D) (b : A1 D) : Fin 300000 → Fin D → EReal :=
  layerK (into x1) (src x1) (dn x1) h (mat W) (vec b)

/-- The rows after graph-convolution layer 1 (edge-weighted arrangement). -/
def hR1 (x0 : A2 300000 25) (x1 : EdgeList) (x2 : A2 25 100) (x3 x4 x5 x6 x7 : A1 100) (x8 : A2 100 25) (x9 x10 x11 x12 x13 : A1 25) (x14 : A2 25 25) (x15 : A1 25) :
    Fin 300000 → Fin 25 → EReal :=
  layR x1 (h0 x0 x2 x3 x4 x5 x6 x7 x8 x9 x10 x11 x12 x13) x14 x15

/-- The rows after graph-convolution layer 2 (edge-weighted arrangement). -/
def hR2 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) :
    Fin 300000 → Fin 16 → EReal :=
  layR x1 (hR1 x0 x1 x2 x3 x4 x5 x6 x7 x8 x9 x10 x11 x12 x13 x14 x15) x16 x17

/-- The rows after graph-convolution layer 3 (edge-weighted arrangement). -/
def hR3 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) :
    Fin 300000 → Fin 16 → EReal :=
  layR x1 (hR2 x0 x1 x2 x3 x4 x5 x6 x7 x8 x9 x10 x11 x12 x13 x14 x15 x16 x17) x18 x19

/-- The rows after graph-convolution layer 4 (edge-weighted arrangement). -/
def hR4 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) :
    Fin 300000 → Fin 8 → EReal :=
  layR x1 (hR3 x0 x1 x2 x3 x4 x5 x6 x7 x8 x9 x10 x11 x12 x13 x14 x15 x16 x17 x18 x19) x20 x21

/-- The rows after graph-convolution layer 5 (edge-weighted arrangement). -/
def hR5 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) :
    Fin 300000 → Fin 4 → EReal :=
  layR x1 (hR4 x0 x1 x2 x3 x4 x5 x6 x7 x8 x9 x10 x11 x12 x13 x14 x15 x16 x17 x18 x19 x20 x21) x22 x23

/-- The network's result (edge-weighted arrangement): each group of 300 nodes' rows side by side through the last dense layer. -/
def outR (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) (x24 : A2 1200 4) (x25 : A1 4) :
    Fin 1000 → Fin 4 → EReal :=
  fun g => dense (groupRow (hR5 x0 x1 x2 x3 x4 x5 x6 x7 x8 x9 x10 x11 x12 x13 x14 x15 x16 x17 x18 x19 x20 x21 x22 x23) g) (mat x24) (vec x25)

/-- The rows after graph-convolution layer 1 (node-scaled arrangement). -/
def hK1 (x0 : A2 300000 25) (x1 : EdgeList) (x2 : A2 25 100) (x3 x4 x5 x6 x7 : A1 100) (x8 : A2 100 25) (x9 x10 x11 x12 x13 : A1 25) (x14 : A2 25 25) (x15 : A1 25) :
    Fin 300000 → Fin 25 → EReal :=
  layK x1 (h0 x0 x2 x3 x4 x5 x6 x7 x8 x9 x10 x11 x12 x13) x14 x15

/-- The rows after graph-convolution layer 2 (node-scaled arrangement). -/
def hK2 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) :
    Fin 300000 → Fin 16 → EReal :=
  layK x1 (hK1 x0 x1 x2 x3 x4 x5 x6 x7 x8 x9 x10 x11 x12 x13 x14 x15) x16 x17

/-- The rows after graph-convolution layer 3 (node-scaled arrangement). -/
def hK3 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) :
    Fin 300000 → Fin 16 → EReal :=
  layK x1 (hK2 x0 x1 x2 x3 x4 x5 x6 x7 x8 x9 x10 x11 x12 x13 x14 x15 x16 x17) x18 x19

/-- The rows after graph-convolution layer 4 (node-scaled arrangement). -/
def hK4 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) :
    Fin 300000 → Fin 8 → EReal :=
  layK x1 (hK3 x0 x1 x2 x3 x4 x5 x6 x7 x8 x9 x10 x11 x12 x13 x14 x15 x16 x17 x18 x19) x20 x21

/-- The rows after graph-convolution layer 5 (node-scaled arrangement). -/
def hK5 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) :
    Fin 300000 → Fin 4 → EReal :=
  layK x1 (hK4 x0 x1 x2 x3 x4 x5 x6 x7 x8 x9 x10 x11 x12 x13 x14 x15 x16 x17 x18 x19 x20 x21) x22 x23

/-- The network's result (node-scaled arrangement): each group of 300 nodes' rows side by side through the last dense layer. -/
def outK (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) (x24 : A2 1200 4) (x25 : A1 4) :
    Fin 1000 → Fin 4 → EReal :=
  fun g => dense (groupRow (hK5 x0 x1 x2 x3 x4 x5 x6 x7 x8 x9 x10 x11 x12 x13 x14 x15 x16 x17 x18 x19 x20 x21 x22 x23) g) (mat x24) (vec x25)

/-- The two arrangements give one network, as soon as the degree factors are non-negative reals and every collected edge's
    target is the collecting node. -/
theorem outK_eq_outR (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) (x24 : A2 1200 4) (x25 : A1 4)
    (hdn : ∀ p, ∃ r : ℝ, 0 ≤ r ∧ dn x1 p = (r : EReal)) (htgt : ∀ p, ∀ e ∈ into x1 p, tgt x1 e = p) :
    outK x0 x1 x2 x3 x4 x5 x6 x7 x8 x9 x10 x11 x12 x13 x14 x15 x16 x17 x18 x19 x20 x21 x22 x23 x24 x25 = outR x0 x1 x2 x3 x4 x5 x6 x7 x8 x9 x10 x11 x12 x13 x14 x15 x16 x17 x18 x19 x20 x21 x22 x23 x24 x25 := by
  unfold outK outR hK5 hR5 hK4 hR4 hK3 hR3 hK2 hR2 hK1 hR1 layK layR
  simp only [layerK_eq_layerR (into x1) (src x1) (tgt x1) (dn x1) hdn htgt]

end Cert.Net

end
-- ==== Proof.Arr.lean ====
/-
  A two-axis array given by its rows, and the converse reading.
-/
import Idealize.ShloMosaic.PureOps.Ideal
import Idealize.ShloMosaic.Lib.ValueIdx

noncomputable section

namespace Cert.Arr

open Idealize.ShloMosaic Idealize.ShloMosaic.ValueIdx

/-- The `[n, k]` array whose entry `(p, j)` is `f p j`. -/
def arr2 {n k : Nat} (f : Fin n → Fin k → EReal) : (⟨2, ![n, k]⟩ : Shape).Idx → EReal := fun i => f (i 0) (i 1)

theorem arr2_apply {n k : Nat} (f : Fin n → Fin k → EReal) (p : Fin n) (j : Fin k) : arr2 f (ix2 p j) = f p j := rfl

/-- An array that agrees with `f` at every `(p, j)` is `arr2 f`. -/
theorem eq_arr2 {n k : Nat} (A : (⟨2, ![n, k]⟩ : Shape).Idx → EReal) (f : Fin n → Fin k → EReal)
    (h : ∀ p j, A (ix2 p j) = f p j) : A = arr2 f := by
  funext i
  rw [eq_ix2 i]
  exact h _ _

end Cert.Arr

end
-- ==== Proof.LibAggregatePlain.lean ====
/-
  Rows gathered and added up with no weights, read at one element.

  A graph layer whose rows were already scaled before they travel only moves and adds them: edge `e` reads the row of its
  source node out of an array `[N, D]`, and the rows of the edges that end in node `p` are added into row `p` of an array
  that starts at zero. Read at `(p, k)` on the extended reals this is zero plus the sum, over the edges into `p`, of the
  source row's entry `k`. Stated for arbitrary extents.
-/
import Idealize.ShloMosaic.Lib.ValueIdx
import Idealize.ShloMosaic.PureOps.Ideal.Laws
import Idealize.ShloMosaic.Lib.Pipeline.Value
import proofs.«128436_j51488067944595_2_alg».proof.Proof.LibRowGatherScatter

noncomputable section

open scoped BigOperators

namespace Cert.LibAggregatePlain

open Idealize.ShloMosaic Idealize.ShloMosaic.ValueIdx
open Cert.LibRowGatherScatter (edgesInto rowOf rowGatherDims rowScatterDims gather_rows_apply scatterAdd_rows_apply
  bcast_scalar_apply)

/-- A SCATTER-ADD OF GATHERED ROWS ONTO ANY OPERAND, READ AT `(p, k)`: the operand's entry plus the sum over the edges into
    `p` of entry `k` of the edge's source row. -/
theorem aggregate_plain_apply {N E D w w' : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    {φ : FTy} (z : FVec Ideal ⟨2, ![N, D]⟩ φ) (tgt : IVec ⟨2, ![E, 1]⟩ w) (scol : IVec ⟨2, ![E, 1]⟩ w')
    (h : FVec Ideal ⟨2, ![N, D]⟩ φ) (p : Fin N) (k : Fin D) :
    Host.scatterAdd (F := Ideal) (rowScatterDims N E D wfS) z tgt (Host.gather (rowGatherDims N E D wfG) h scol) (ix2 p k)
      = z (ix2 p k) + ∑ e ∈ edgesInto tgt p, h (ix2 (rowOf hN scol e) k) := by
  rw [scatterAdd_rows_apply]
  congr 1
  exact Finset.sum_congr rfl fun e _ => gather_rows_apply hN wfG h scol e k

/-- The same onto the all-zero array (a broadcast of the zero word): zero plus the sum. -/
theorem aggregate_plain_zero_apply {N E D w w' : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb : (⟨0, ![]⟩ : Shape).BroadcastsInDim ⟨2, ![N, D]⟩ (![] : Fin 0 → Fin 2))
    (tgt : IVec ⟨2, ![E, 1]⟩ w) (scol : IVec ⟨2, ![E, 1]⟩ w')
    (h : FVec Ideal ⟨2, ![N, D]⟩ .f32) (p : Fin N) (k : Fin D) :
    Host.scatterAdd (F := Ideal) (rowScatterDims N E D wfS)
        (broadcastInDim ⟨2, ![N, D]⟩ ![] hb (constant (F := Ideal) ⟨0, ![]⟩ .f32 0x00000000#32)) tgt
        (Host.gather (rowGatherDims N E D wfG) h scol) (ix2 p k)
      = 0 + ∑ e ∈ edgesInto tgt p, h (ix2 (rowOf hN scol e) k) := by
  rw [aggregate_plain_apply hN wfS wfG, bcast_scalar_apply]
  congr 1
  show Ideal.ofBits .f32 0x00000000#32 = 0
  exact Ideal.ofBits_zero_f32

end Cert.LibAggregatePlain

end
-- ==== Proof.HostStage.lean ====
/-
  The aggregation step among the kernel program's host operations, read one entry at a time.

  For each of the five graph-convolution layers the kernel program gathers, for every edge, the (already scaled) row of
  the edge's source node, and adds the gathered rows into the rows their target words name, starting from zero. The
  target column is the graph's target column as it stands, and the source column is the graph's source column after
  the sign normalisation, both computed from the edge list by the same operations that name them in the graph. So
  entry (p, j) of the aggregated array is zero plus the sum, over the edges node p collects, of entry j of the row of
  the edge's source node: the unweighted aggregation of the layer.
-/
import proofs.«128436_j51488067944595_2_alg».proof.Proof.Gen.KernelIdeal.Frame
import proofs.«128436_j51488067944595_2_alg».proof.Proof.Graph
import proofs.«128436_j51488067944595_2_alg».proof.Proof.LibAggregatePlain
import Idealize.ShloMosaic.PureOps.Ideal

noncomputable section

open scoped BigOperators

namespace Cert.KernelIdeal.HostStage

open Cert.KernelIdeal Cert.KernelIdeal.Gen Cert.Spec Idealize.ShloMosaic Idealize.ShloMosaic.ValueIdx
open Idealize.ShloMosaic.TcCoe Idealize.SL.Sem

open Cert.ReferenceIdeal.ReadP (val_main_v3 val_main_v6)

/-! ## The term each stretch leaves in its aggregated buffer, from any contents `V` before the stretch -/

section Stretch

variable (V : Valuation τ sig (Elt Ideal))

set_option maxHeartbeats 4000000 in
/-- Layer with 25 features: what the stretch leaves in the aggregated buffer. -/
theorem hostOps2_main_v37 : StableHlo.after (hostOps2 (F := Ideal)) V (Proc.devRef .tc main_v37)
    = Host.scatterAdd (F := Ideal) scatter_S300000x25_S3300000x1_S3300000x25_1_0_0_1
        (broadcastInDim S300000x25 ![] bcast_S_S300000x25 (constant (F := Ideal) S_ .f32 0x00000000#32))
        (broadcastInDim S3300000x1 ![0] bcast_S3300000_S3300000x1_0 (V (Proc.devRef .tc main_v6)))
        (Host.gather gather_S300000x25_S3300000x1_S3300000x25_1_0_n_n_0_1_125 (V (Proc.devRef .tc main_v27))
          (broadcastInDim S3300000x1 ![0] bcast_S3300000_S3300000x1_0
            (select
              (cmpi .slt (V (Proc.devRef .tc main_v3)) (broadcastInDim S3300000 ![] bcast_S_S3300000 (constantI S_ 32 0#32)))
              (addi (V (Proc.devRef .tc main_v3)) (broadcastInDim S3300000 ![] bcast_S_S3300000 (constantI S_ 32 300000#32)))
              (V (Proc.devRef .tc main_v3))))) := by
  after_results_simp

set_option maxHeartbeats 4000000 in
/-- Layer with 16 features: what the stretch leaves in the aggregated buffer. -/
theorem hostOps3_main_v49 : StableHlo.after (hostOps3 (F := Ideal)) V (Proc.devRef .tc main_v49)
    = Host.scatterAdd (F := Ideal) scatter_S300000x16_S3300000x1_S3300000x16_1_0_0_1
        (broadcastInDim S300000x16 ![] bcast_S_S300000x16 (constant (F := Ideal) S_ .f32 0x00000000#32))
        (broadcastInDim S3300000x1 ![0] bcast_S3300000_S3300000x1_0 (V (Proc.devRef .tc main_v6)))
        (Host.gather gather_S300000x16_S3300000x1_S3300000x16_1_0_n_n_0_1_116 (V (Proc.devRef .tc main_v39))
          (broadcastInDim S3300000x1 ![0] bcast_S3300000_S3300000x1_0
            (select
              (cmpi .slt (V (Proc.devRef .tc main_v3)) (broadcastInDim S3300000 ![] bcast_S_S3300000 (constantI S_ 32 0#32)))
              (addi (V (Proc.devRef .tc main_v3)) (broadcastInDim S3300000 ![] bcast_S_S3300000 (constantI S_ 32 300000#32)))
              (V (Proc.devRef .tc main_v3))))) := by
  after_results_simp

set_option maxHeartbeats 4000000 in
/-- Layer with 16 features: what the stretch leaves in the aggregated buffer. -/
theorem hostOps4_main_v61 : StableHlo.after (hostOps4 (F := Ideal)) V (Proc.devRef .tc main_v61)
    = Host.scatterAdd (F := Ideal) scatter_S300000x16_S3300000x1_S3300000x16_1_0_0_1
        (broadcastInDim S300000x16 ![] bcast_S_S300000x16 (constant (F := Ideal) S_ .f32 0x00000000#32))
        (broadcastInDim S3300000x1 ![0] bcast_S3300000_S3300000x1_0 (V (Proc.devRef .tc main_v6)))
        (Host.gather gather_S300000x16_S3300000x1_S3300000x16_1_0_n_n_0_1_116 (V (Proc.devRef .tc main_v51))
          (broadcastInDim S3300000x1 ![0] bcast_S3300000_S3300000x1_0
            (select
              (cmpi .slt (V (Proc.devRef .tc main_v3)) (broadcastInDim S3300000 ![] bcast_S_S3300000 (constantI S_ 32 0#32)))
              (addi (V (Proc.devRef .tc main_v3)) (broadcastInDim S3300000 ![] bcast_S_S3300000 (constantI S_ 32 300000#32)))
              (V (Proc.devRef .tc main_v3))))) := by
  after_results_simp

set_option maxHeartbeats 4000000 in
/-- Layer with 8 features: what the stretch leaves in the aggregated buffer. -/
theorem hostOps5_main_v73 : StableHlo.after (hostOps5 (F := Ideal)) V (Proc.devRef .tc main_v73)
    = Host.scatterAdd (F := Ideal) scatter_S300000x8_S3300000x1_S3300000x8_1_0_0_1
        (broadcastInDim S300000x8 ![] bcast_S_S300000x8 (constant (F := Ideal) S_ .f32 0x00000000#32))
        (broadcastInDim S3300000x1 ![0] bcast_S3300000_S3300000x1_0 (V (Proc.devRef .tc main_v6)))
        (Host.gather gather_S300000x8_S3300000x1_S3300000x8_1_0_n_n_0_1_18 (V (Proc.devRef .tc main_v63))
          (broadcastInDim S3300000x1 ![0] bcast_S3300000_S3300000x1_0
            (select
              (cmpi .slt (V (Proc.devRef .tc main_v3)) (broadcastInDim S3300000 ![] bcast_S_S3300000 (constantI S_ 32 0#32)))
              (addi (V (Proc.devRef .tc main_v3)) (broadcastInDim S3300000 ![] bcast_S_S3300000 (constantI S_ 32 300000#32)))
              (V (Proc.devRef .tc main_v3))))) := by
  after_results_simp

set_option maxHeartbeats 4000000 in
/-- Layer with 4 features: what the stretch leaves in the aggregated buffer. -/
theorem hostOps6_main_v85 : StableHlo.after (hostOps6 (F := Ideal)) V (Proc.devRef .tc main_v85)
    = Host.scatterAdd (F := Ideal) scatter_S300000x4_S3300000x1_S3300000x4_1_0_0_1
        (broadcastInDim S300000x4 ![] bcast_S_S300000x4 (constant (F := Ideal) S_ .f32 0x00000000#32))
        (broadcastInDim S3300000x1 ![0] bcast_S3300000_S3300000x1_0 (V (Proc.devRef .tc main_v6)))
        (Host.gather gather_S300000x4_S3300000x1_S3300000x4_1_0_n_n_0_1_14 (V (Proc.devRef .tc main_v75))
          (broadcastInDim S3300000x1 ![0] bcast_S3300000_S3300000x1_0
            (select
              (cmpi .slt (V (Proc.devRef .tc main_v3)) (broadcastInDim S3300000 ![] bcast_S_S3300000 (constantI S_ 32 0#32)))
              (addi (V (Proc.devRef .tc main_v3)) (broadcastInDim S3300000 ![] bcast_S_S3300000 (constantI S_ 32 300000#32)))
              (V (Proc.devRef .tc main_v3))))) := by
  after_results_simp

end Stretch

/-! ## The two index columns are the graph's -/

/-- The target words laid out as a column are the graph's target column. -/
theorem target_column (x1 : Cert.Graph.EdgeList) :
    broadcastInDim S3300000x1 ![0] bcast_S3300000_S3300000x1_0 (val_main_v6 (F := Ideal) x1) = Cert.Graph.dstCol x1 := rfl

/-- The source words, a negative word w replaced by w + 300000, laid out as a column are the graph's source column. -/
theorem source_column (x1 : Cert.Graph.EdgeList) :
    broadcastInDim S3300000x1 ![0] bcast_S3300000_S3300000x1_0
        (select
          (cmpi .slt (val_main_v3 (F := Ideal) x1) (broadcastInDim S3300000 ![] bcast_S_S3300000 (constantI S_ 32 0#32)))
          (addi (val_main_v3 (F := Ideal) x1) (broadcastInDim S3300000 ![] bcast_S_S3300000 (constantI S_ 32 300000#32)))
          (val_main_v3 (F := Ideal) x1))
      = Cert.Graph.srcNCol x1 := rfl

/-! ## The aggregated buffers at the segment boundaries -/

variable (m : (ℓ : Loc nD τ sig) → Buf (Elt Ideal) ℓ) (ρ : Dev nD → PrngReg) (c : Dev nD)

/-- Layer with 25 features: entry (p, j) of the aggregated array is the unweighted aggregation of the scaled rows. -/
theorem agg6 (h3 : W5 m ρ c (Proc.devRef .tc main_v3) = Cert.ReferenceIdeal.ReadP.val_main_v3 (F := Ideal) (m ((c.tc : Thread nD τ).loc main_arg1))) (h6 : W5 m ρ c (Proc.devRef .tc main_v6) = Cert.ReferenceIdeal.ReadP.val_main_v6 (F := Ideal) (m ((c.tc : Thread nD τ).loc main_arg1))) (p : Fin 300000) (j : Fin 25) :
    (W6 m ρ c (Proc.devRef .tc main_v37) : S300000x25.Idx → EReal) (ix2 p j) = Cert.Spec.aggK (Cert.Graph.into (m ((c.tc : Thread nD τ).loc main_arg1))) (Cert.Graph.src (m ((c.tc : Thread nD τ).loc main_arg1))) (Cert.Spec.mat (W5 m ρ c (Proc.devRef .tc main_v27) : S300000x25.Idx → EReal)) p j := by
  show (StableHlo.after hostOps2 (W5 m ρ c) (Proc.devRef .tc main_v37) : S300000x25.Idx → EReal) (ix2 p j) = _
  rw [hostOps2_main_v37 (W5 m ρ c), h3, h6, target_column, source_column]
  exact Cert.LibAggregatePlain.aggregate_plain_zero_apply (N := 300000) (E := 3300000) (D := 25) (by decide)
    scatter_S300000x25_S3300000x1_S3300000x25_1_0_0_1_wf gather_S300000x25_S3300000x1_S3300000x25_1_0_n_n_0_1_125_wf
    bcast_S_S300000x25 (Cert.Graph.dstCol (m ((c.tc : Thread nD τ).loc main_arg1)))
    (Cert.Graph.srcNCol (m ((c.tc : Thread nD τ).loc main_arg1))) (W5 m ρ c (Proc.devRef .tc main_v27)) p j

/-- Layer with 16 features: entry (p, j) of the aggregated array is the unweighted aggregation of the scaled rows. -/
theorem agg8 (h3 : W7 m ρ c (Proc.devRef .tc main_v3) = Cert.ReferenceIdeal.ReadP.val_main_v3 (F := Ideal) (m ((c.tc : Thread nD τ).loc main_arg1))) (h6 : W7 m ρ c (Proc.devRef .tc main_v6) = Cert.ReferenceIdeal.ReadP.val_main_v6 (F := Ideal) (m ((c.tc : Thread nD τ).loc main_arg1))) (p : Fin 300000) (j : Fin 16) :
    (W8 m ρ c (Proc.devRef .tc main_v49) : S300000x16.Idx → EReal) (ix2 p j) = Cert.Spec.aggK (Cert.Graph.into (m ((c.tc : Thread nD τ).loc main_arg1))) (Cert.Graph.src (m ((c.tc : Thread nD τ).loc main_arg1))) (Cert.Spec.mat (W7 m ρ c (Proc.devRef .tc main_v39) : S300000x16.Idx → EReal)) p j := by
  show (StableHlo.after hostOps3 (W7 m ρ c) (Proc.devRef .tc main_v49) : S300000x16.Idx → EReal) (ix2 p j) = _
  rw [hostOps3_main_v49 (W7 m ρ c), h3, h6, target_column, source_column]
  exact Cert.LibAggregatePlain.aggregate_plain_zero_apply (N := 300000) (E := 3300000) (D := 16) (by decide)
    scatter_S300000x16_S3300000x1_S3300000x16_1_0_0_1_wf gather_S300000x16_S3300000x1_S3300000x16_1_0_n_n_0_1_116_wf
    bcast_S_S300000x16 (Cert.Graph.dstCol (m ((c.tc : Thread nD τ).loc main_arg1)))
    (Cert.Graph.srcNCol (m ((c.tc : Thread nD τ).loc main_arg1))) (W7 m ρ c (Proc.devRef .tc main_v39)) p j

/-- Layer with 16 features: entry (p, j) of the aggregated array is the unweighted aggregation of the scaled rows. -/
theorem agg10 (h3 : W9 m ρ c (Proc.devRef .tc main_v3) = Cert.ReferenceIdeal.ReadP.val_main_v3 (F := Ideal) (m ((c.tc : Thread nD τ).loc main_arg1))) (h6 : W9 m ρ c (Proc.devRef .tc main_v6) = Cert.ReferenceIdeal.ReadP.val_main_v6 (F := Ideal) (m ((c.tc : Thread nD τ).loc main_arg1))) (p : Fin 300000) (j : Fin 16) :
    (W10 m ρ c (Proc.devRef .tc main_v61) : S300000x16.Idx → EReal) (ix2 p j) = Cert.Spec.aggK (Cert.Graph.into (m ((c.tc : Thread nD τ).loc main_arg1))) (Cert.Graph.src (m ((c.tc : Thread nD τ).loc main_arg1))) (Cert.Spec.mat (W9 m ρ c (Proc.devRef .tc main_v51) : S300000x16.Idx → EReal)) p j := by
  show (StableHlo.after hostOps4 (W9 m ρ c) (Proc.devRef .tc main_v61) : S300000x16.Idx → EReal) (ix2 p j) = _
  rw [hostOps4_main_v61 (W9 m ρ c), h3, h6, target_column, source_column]
  exact Cert.LibAggregatePlain.aggregate_plain_zero_apply (N := 300000) (E := 3300000) (D := 16) (by decide)
    scatter_S300000x16_S3300000x1_S3300000x16_1_0_0_1_wf gather_S300000x16_S3300000x1_S3300000x16_1_0_n_n_0_1_116_wf
    bcast_S_S300000x16 (Cert.Graph.dstCol (m ((c.tc : Thread nD τ).loc main_arg1)))
    (Cert.Graph.srcNCol (m ((c.tc : Thread nD τ).loc main_arg1))) (W9 m ρ c (Proc.devRef .tc main_v51)) p j

/-- Layer with 8 features: entry (p, j) of the aggregated array is the unweighted aggregation of the scaled rows. -/
theorem agg12 (h3 : W11 m ρ c (Proc.devRef .tc main_v3) = Cert.ReferenceIdeal.ReadP.val_main_v3 (F := Ideal) (m ((c.tc : Thread nD τ).loc main_arg1))) (h6 : W11 m ρ c (Proc.devRef .tc main_v6) = Cert.ReferenceIdeal.ReadP.val_main_v6 (F := Ideal) (m ((c.tc : Thread nD τ).loc main_arg1))) (p : Fin 300000) (j : Fin 8) :
    (W12 m ρ c (Proc.devRef .tc main_v73) : S300000x8.Idx → EReal) (ix2 p j) = Cert.Spec.aggK (Cert.Graph.into (m ((c.tc : Thread nD τ).loc main_arg1))) (Cert.Graph.src (m ((c.tc : Thread nD τ).loc main_arg1))) (Cert.Spec.mat (W11 m ρ c (Proc.devRef .tc main_v63) : S300000x8.Idx → EReal)) p j := by
  show (StableHlo.after hostOps5 (W11 m ρ c) (Proc.devRef .tc main_v73) : S300000x8.Idx → EReal) (ix2 p j) = _
  rw [hostOps5_main_v73 (W11 m ρ c), h3, h6, target_column, source_column]
  exact Cert.LibAggregatePlain.aggregate_plain_zero_apply (N := 300000) (E := 3300000) (D := 8) (by decide)
    scatter_S300000x8_S3300000x1_S3300000x8_1_0_0_1_wf gather_S300000x8_S3300000x1_S3300000x8_1_0_n_n_0_1_18_wf
    bcast_S_S300000x8 (Cert.Graph.dstCol (m ((c.tc : Thread nD τ).loc main_arg1)))
    (Cert.Graph.srcNCol (m ((c.tc : Thread nD τ).loc main_arg1))) (W11 m ρ c (Proc.devRef .tc main_v63)) p j

/-- Layer with 4 features: entry (p, j) of the aggregated array is the unweighted aggregation of the scaled rows. -/
theorem agg14 (h3 : W13 m ρ c (Proc.devRef .tc main_v3) = Cert.ReferenceIdeal.ReadP.val_main_v3 (F := Ideal) (m ((c.tc : Thread nD τ).loc main_arg1))) (h6 : W13 m ρ c (Proc.devRef .tc main_v6) = Cert.ReferenceIdeal.ReadP.val_main_v6 (F := Ideal) (m ((c.tc : Thread nD τ).loc main_arg1))) (p : Fin 300000) (j : Fin 4) :
    (W14 m ρ c (Proc.devRef .tc main_v85) : S300000x4.Idx → EReal) (ix2 p j) = Cert.Spec.aggK (Cert.Graph.into (m ((c.tc : Thread nD τ).loc main_arg1))) (Cert.Graph.src (m ((c.tc : Thread nD τ).loc main_arg1))) (Cert.Spec.mat (W13 m ρ c (Proc.devRef .tc main_v75) : S300000x4.Idx → EReal)) p j := by
  show (StableHlo.after hostOps6 (W13 m ρ c) (Proc.devRef .tc main_v85) : S300000x4.Idx → EReal) (ix2 p j) = _
  rw [hostOps6_main_v85 (W13 m ρ c), h3, h6, target_column, source_column]
  exact Cert.LibAggregatePlain.aggregate_plain_zero_apply (N := 300000) (E := 3300000) (D := 4) (by decide)
    scatter_S300000x4_S3300000x1_S3300000x4_1_0_0_1_wf gather_S300000x4_S3300000x1_S3300000x4_1_0_n_n_0_1_14_wf
    bcast_S_S300000x4 (Cert.Graph.dstCol (m ((c.tc : Thread nD τ).loc main_arg1)))
    (Cert.Graph.srcNCol (m ((c.tc : Thread nD τ).loc main_arg1))) (W13 m ρ c (Proc.devRef .tc main_v75)) p j

end Cert.KernelIdeal.HostStage

end
-- ==== Proof.HostStageReshape.lean ====
/-
  The reshapes among the kernel program's host operations, read one entry at a time.

  Between its regions the kernel program only re-lays arrays out: a vector [n] becomes a one-row array [1, n] (every
  bias and batch-norm parameter), the vector of degree factors [300000] becomes a one-column array [300000, 1], and
  the last layer's [300000, 4] array becomes [1000, 1200], the rows of 300 consecutive nodes side by side. A reshape
  keeps the row-major position of every entry, so: the one-row array read as a row is the vector; the one-column
  array read as a column is the vector; and entry k of group g's long row sits at row-major position 1200·g + k, which
  in the [300000, 4] array is row (1200·g + k) / 4, column (1200·g + k) % 4.
-/
import proofs.«128436_j51488067944595_2_alg».proof.Proof.Gen.KernelIdeal.Frame
import proofs.«128436_j51488067944595_2_alg».proof.Proof.Spec
import Idealize.ShloMosaic.Lib.ValueLayout
import Idealize.ShloMosaic.Lib.Pipeline.Value

noncomputable section

open scoped BigOperators

namespace Cert.KernelIdeal.HostStage

open Cert.KernelIdeal Cert.KernelIdeal.Gen Cert.Spec Idealize.ShloMosaic Idealize.ShloMosaic.ValueIdx
open Idealize.ShloMosaic.TcCoe Idealize.SL.Sem

/-! ## What each stretch of host operations leaves in a reshaped buffer, from any contents `V` before the stretch -/

section Stretch

variable (V : Valuation τ sig (Elt Ideal))

theorem hostOps2_main_v38 : StableHlo.after (hostOps2 (F := Ideal)) V (Proc.devRef .tc main_v38)
    = fun i => shapeCast S1x25 (V (Proc.devRef .tc main_arg15)) shapeCasts_S25_S1x25 i := by
  after_results
  rfl

theorem hostOps3_main_v50 : StableHlo.after (hostOps3 (F := Ideal)) V (Proc.devRef .tc main_v50)
    = fun i => shapeCast S1x16 (V (Proc.devRef .tc main_arg17)) shapeCasts_S16_S1x16 i := by
  after_results
  rfl

theorem hostOps4_main_v62 : StableHlo.after (hostOps4 (F := Ideal)) V (Proc.devRef .tc main_v62)
    = fun i => shapeCast S1x16 (V (Proc.devRef .tc main_arg19)) shapeCasts_S16_S1x16 i := by
  after_results
  rfl

theorem hostOps5_main_v74 : StableHlo.after (hostOps5 (F := Ideal)) V (Proc.devRef .tc main_v74)
    = fun i => shapeCast S1x8 (V (Proc.devRef .tc main_arg21)) shapeCasts_S8_S1x8 i := by
  after_results
  rfl

theorem hostOps6_main_v86 : StableHlo.after (hostOps6 (F := Ideal)) V (Proc.devRef .tc main_v86)
    = fun i => shapeCast S1x4 (V (Proc.devRef .tc main_arg23)) shapeCasts_S4_S1x4 i := by
  after_results
  rfl

theorem hostOps7_main_v89 : StableHlo.after (hostOps7 (F := Ideal)) V (Proc.devRef .tc main_v89)
    = fun i => shapeCast S1x4 (V (Proc.devRef .tc main_arg25)) shapeCasts_S4_S1x4 i := by
  after_results
  rfl

theorem hostOps0_2_main_v16 : StableHlo.after (hostOps0_2 (F := Ideal)) V (Proc.devRef .tc main_v16)
    = fun i => shapeCast S1x100 (V (Proc.devRef .tc main_arg3)) shapeCasts_S100_S1x100 i := by
  after_results
  rfl

theorem hostOps0_2_main_v17 : StableHlo.after (hostOps0_2 (F := Ideal)) V (Proc.devRef .tc main_v17)
    = fun i => shapeCast S1x100 (V (Proc.devRef .tc main_arg4)) shapeCasts_S100_S1x100 i := by
  after_results
  rfl

theorem hostOps0_2_main_v18 : StableHlo.after (hostOps0_2 (F := Ideal)) V (Proc.devRef .tc main_v18)
    = fun i => shapeCast S1x100 (V (Proc.devRef .tc main_arg5)) shapeCasts_S100_S1x100 i := by
  after_results
  rfl

theorem hostOps0_2_main_v19 : StableHlo.after (hostOps0_2 (F := Ideal)) V (Proc.devRef .tc main_v19)
    = fun i => shapeCast S1x100 (V (Proc.devRef .tc main_arg6)) shapeCasts_S100_S1x100 i := by
  after_results
  rfl

theorem hostOps0_2_main_v20 : StableHlo.after (hostOps0_2 (F := Ideal)) V (Proc.devRef .tc main_v20)
    = fun i => shapeCast S1x100 (V (Proc.devRef .tc main_arg7)) shapeCasts_S100_S1x100 i := by
  after_results
  rfl

theorem hostOps0_2_main_v21 : StableHlo.after (hostOps0_2 (F := Ideal)) V (Proc.devRef .tc main_v21)
    = fun i => shapeCast S1x25 (V (Proc.devRef .tc main_arg9)) shapeCasts_S25_S1x25 i := by
  after_results
  rfl

theorem hostOps0_2_main_v22 : StableHlo.after (hostOps0_2 (F := Ideal)) V (Proc.devRef .tc main_v22)
    = fun i => shapeCast S1x25 (V (Proc.devRef .tc main_arg10)) shapeCasts_S25_S1x25 i := by
  after_results
  rfl

theorem hostOps0_2_main_v23 : StableHlo.after (hostOps0_2 (F := Ideal)) V (Proc.devRef .tc main_v23)
    = fun i => shapeCast S1x25 (V (Proc.devRef .tc main_arg11)) shapeCasts_S25_S1x25 i := by
  after_results
  rfl

theorem hostOps0_2_main_v24 : StableHlo.after (hostOps0_2 (F := Ideal)) V (Proc.devRef .tc main_v24)
    = fun i => shapeCast S1x25 (V (Proc.devRef .tc main_arg12)) shapeCasts_S25_S1x25 i := by
  after_results
  rfl

theorem hostOps0_2_main_v25 : StableHlo.after (hostOps0_2 (F := Ideal)) V (Proc.devRef .tc main_v25)
    = fun i => shapeCast S1x25 (V (Proc.devRef .tc main_arg13)) shapeCasts_S25_S1x25 i := by
  after_results
  rfl

theorem hostOps0_2_main_v15 : StableHlo.after (hostOps0_2 (F := Ideal)) V (Proc.devRef .tc main_v15)
    = fun i => shapeCast S300000x1 (V (Proc.devRef .tc main_v14)) shapeCasts_S300000_S300000x1 i := by
  after_results
  rfl

theorem hostOps7_main_v88 : StableHlo.after (hostOps7 (F := Ideal)) V (Proc.devRef .tc main_v88)
    = fun i => shapeCast S1000x1200 (V (Proc.devRef .tc main_v87)) shapeCasts_S300000x4_S1000x1200 i := by
  after_results
  rfl

end Stretch

/-! ## The two reshapes that are not a leading unit axis, at an entry -/

/-- A vector `[n]` laid out as a column `[n, 1]` reads, at `(p, 0)`, the vector at `p`. -/
theorem column_of_vector_apply {α : Type} {n : Nat} (x : (⟨1, ![n]⟩ : Shape).Idx → α)
    (h : (⟨1, ![n]⟩ : Shape).ShapeCasts ⟨2, ![n, 1]⟩) (p : Fin n) :
    shapeCast ⟨2, ![n, 1]⟩ x h (ix2 p 0) = x (ix1 p) :=
  shapeCast_apply x h _ _ (by
    rw [Shape.rowMajor_val_two, Shape.rowMajor_val_one]
    show p.val = p.val * 1 + 0
    omega)

/-- The `[300000, 4]` array laid out as `[1000, 1200]` reads, at `(g, k)`, the entry at row-major position
    `1200·g + k`. -/
theorem grouped_apply {α : Type} (x : (⟨2, ![300000, 4]⟩ : Shape).Idx → α)
    (h : (⟨2, ![300000, 4]⟩ : Shape).ShapeCasts ⟨2, ![1000, 1200]⟩) (g : Fin 1000) (k : Fin 1200) :
    shapeCast ⟨2, ![1000, 1200]⟩ x h (ix2 g k)
      = x (ix2 (⟨(g.val * 1200 + k.val) / 4, by omega⟩ : Fin 300000) (⟨(g.val * 1200 + k.val) % 4, by omega⟩ : Fin 4)) :=
  shapeCast_apply x h _ _ (by
    rw [Shape.rowMajor_val_two, Shape.rowMajor_val_two]
    show (g.val * 1200 + k.val) / 4 * 4 + (g.val * 1200 + k.val) % 4 = g.val * 1200 + k.val
    omega)

/-! ## The reshaped buffers at the segment boundaries -/

variable (m : (ℓ : Loc nD τ sig) → Buf (Elt Ideal) ℓ) (ρ : Dev nD → PrngReg) (c : Dev nD)

/-- The bias row the stretch lays out is the bias vector. -/
theorem bias6 : Cert.Spec.rowv (W6 m ρ c (Proc.devRef .tc main_v38) : S1x25.Idx → EReal) = Cert.Spec.vec (W5 m ρ c (Proc.devRef .tc main_arg15) : S25.Idx → EReal) := by
  funext k
  show (StableHlo.after hostOps2 (W5 m ρ c) (Proc.devRef .tc main_v38) : S1x25.Idx → EReal) (ix2 0 k)
    = (W5 m ρ c (Proc.devRef .tc main_arg15) : S25.Idx → EReal) (ix1 k)
  generalize W5 m ρ c = V
  rw [hostOps2_main_v38 V]
  exact shapeCast_a_1a_apply _ _ 0 k

/-- The bias row the stretch lays out is the bias vector. -/
theorem bias8 : Cert.Spec.rowv (W8 m ρ c (Proc.devRef .tc main_v50) : S1x16.Idx → EReal) = Cert.Spec.vec (W7 m ρ c (Proc.devRef .tc main_arg17) : S16.Idx → EReal) := by
  funext k
  show (StableHlo.after hostOps3 (W7 m ρ c) (Proc.devRef .tc main_v50) : S1x16.Idx → EReal) (ix2 0 k)
    = (W7 m ρ c (Proc.devRef .tc main_arg17) : S16.Idx → EReal) (ix1 k)
  generalize W7 m ρ c = V
  rw [hostOps3_main_v50 V]
  exact shapeCast_a_1a_apply _ _ 0 k

/-- The bias row the stretch lays out is the bias vector. -/
theorem bias10 : Cert.Spec.rowv (W10 m ρ c (Proc.devRef .tc main_v62) : S1x16.Idx → EReal) = Cert.Spec.vec (W9 m ρ c (Proc.devRef .tc main_arg19) : S16.Idx → EReal) := by
  funext k
  show (StableHlo.after hostOps4 (W9 m ρ c) (Proc.devRef .tc main_v62) : S1x16.Idx → EReal) (ix2 0 k)
    = (W9 m ρ c (Proc.devRef .tc main_arg19) : S16.Idx → EReal) (ix1 k)
  generalize W9 m ρ c = V
  rw [hostOps4_main_v62 V]
  exact shapeCast_a_1a_apply _ _ 0 k

/-- The bias row the stretch lays out is the bias vector. -/
theorem bias12 : Cert.Spec.rowv (W12 m ρ c (Proc.devRef .tc main_v74) : S1x8.Idx → EReal) = Cert.Spec.vec (W11 m ρ c (Proc.devRef .tc main_arg21) : S8.Idx → EReal) := by
  funext k
  show (StableHlo.after hostOps5 (W11 m ρ c) (Proc.devRef .tc main_v74) : S1x8.Idx → EReal) (ix2 0 k)
    = (W11 m ρ c (Proc.devRef .tc main_arg21) : S8.Idx → EReal) (ix1 k)
  generalize W11 m ρ c = V
  rw [hostOps5_main_v74 V]
  exact shapeCast_a_1a_apply _ _ 0 k

/-- The bias row the stretch lays out is the bias vector. -/
theorem bias14 : Cert.Spec.rowv (W14 m ρ c (Proc.devRef .tc main_v86) : S1x4.Idx → EReal) = Cert.Spec.vec (W13 m ρ c (Proc.devRef .tc main_arg23) : S4.Idx → EReal) := by
  funext k
  show (StableHlo.after hostOps6 (W13 m ρ c) (Proc.devRef .tc main_v86) : S1x4.Idx → EReal) (ix2 0 k)
    = (W13 m ρ c (Proc.devRef .tc main_arg23) : S4.Idx → EReal) (ix1 k)
  generalize W13 m ρ c = V
  rw [hostOps6_main_v86 V]
  exact shapeCast_a_1a_apply _ _ 0 k

/-- The bias row the stretch lays out is the bias vector. -/
theorem bias16 : Cert.Spec.rowv (W16 m ρ c (Proc.devRef .tc main_v89) : S1x4.Idx → EReal) = Cert.Spec.vec (W15 m ρ c (Proc.devRef .tc main_arg25) : S4.Idx → EReal) := by
  funext k
  show (StableHlo.after hostOps7 (W15 m ρ c) (Proc.devRef .tc main_v89) : S1x4.Idx → EReal) (ix2 0 k)
    = (W15 m ρ c (Proc.devRef .tc main_arg25) : S4.Idx → EReal) (ix1 k)
  generalize W15 m ρ c = V
  rw [hostOps7_main_v89 V]
  exact shapeCast_a_1a_apply _ _ 0 k

/-- The parameter row the first stretch lays out is the parameter vector. -/
theorem bias3_v16 : Cert.Spec.rowv (W3 m ρ c (Proc.devRef .tc main_v16) : S1x100.Idx → EReal) = Cert.Spec.vec (W2 m ρ c (Proc.devRef .tc main_arg3) : S100.Idx → EReal) := by
  funext k
  show (StableHlo.after hostOps0_2 (W2 m ρ c) (Proc.devRef .tc main_v16) : S1x100.Idx → EReal) (ix2 0 k)
    = (W2 m ρ c (Proc.devRef .tc main_arg3) : S100.Idx → EReal) (ix1 k)
  generalize W2 m ρ c = V
  rw [hostOps0_2_main_v16 V]
  exact shapeCast_a_1a_apply _ _ 0 k

/-- The parameter row the first stretch lays out is the parameter vector. -/
theorem bias3_v17 : Cert.Spec.rowv (W3 m ρ c (Proc.devRef .tc main_v17) : S1x100.Idx → EReal) = Cert.Spec.vec (W2 m ρ c (Proc.devRef .tc main_arg4) : S100.Idx → EReal) := by
  funext k
  show (StableHlo.after hostOps0_2 (W2 m ρ c) (Proc.devRef .tc main_v17) : S1x100.Idx → EReal) (ix2 0 k)
    = (W2 m ρ c (Proc.devRef .tc main_arg4) : S100.Idx → EReal) (ix1 k)
  generalize W2 m ρ c = V
  rw [hostOps0_2_main_v17 V]
  exact shapeCast_a_1a_apply _ _ 0 k

/-- The parameter row the first stretch lays out is the parameter vector. -/
theorem bias3_v18 : Cert.Spec.rowv (W3 m ρ c (Proc.devRef .tc main_v18) : S1x100.Idx → EReal) = Cert.Spec.vec (W2 m ρ c (Proc.devRef .tc main_arg5) : S100.Idx → EReal) := by
  funext k
  show (StableHlo.after hostOps0_2 (W2 m ρ c) (Proc.devRef .tc main_v18) : S1x100.Idx → EReal) (ix2 0 k)
    = (W2 m ρ c (Proc.devRef .tc main_arg5) : S100.Idx → EReal) (ix1 k)
  generalize W2 m ρ c = V
  rw [hostOps0_2_main_v18 V]
  exact shapeCast_a_1a_apply _ _ 0 k

/-- The parameter row the first stretch lays out is the parameter vector. -/
theorem bias3_v19 : Cert.Spec.rowv (W3 m ρ c (Proc.devRef .tc main_v19) : S1x100.Idx → EReal) = Cert.Spec.vec (W2 m ρ c (Proc.devRef .tc main_arg6) : S100.Idx → EReal) := by
  funext k
  show (StableHlo.after hostOps0_2 (W2 m ρ c) (Proc.devRef .tc main_v19) : S1x100.Idx → EReal) (ix2 0 k)
    = (W2 m ρ c (Proc.devRef .tc main_arg6) : S100.Idx → EReal) (ix1 k)
  generalize W2 m ρ c = V
  rw [hostOps0_2_main_v19 V]
  exact shapeCast_a_1a_apply _ _ 0 k

/-- The parameter row the first stretch lays out is the parameter vector. -/
theorem bias3_v20 : Cert.Spec.rowv (W3 m ρ c (Proc.devRef .tc main_v20) : S1x100.Idx → EReal) = Cert.Spec.vec (W2 m ρ c (Proc.devRef .tc main_arg7) : S100.Idx → EReal) := by
  funext k
  show (StableHlo.after hostOps0_2 (W2 m ρ c) (Proc.devRef .tc main_v20) : S1x100.Idx → EReal) (ix2 0 k)
    = (W2 m ρ c (Proc.devRef .tc main_arg7) : S100.Idx → EReal) (ix1 k)
  generalize W2 m ρ c = V
  rw [hostOps0_2_main_v20 V]
  exact shapeCast_a_1a_apply _ _ 0 k

/-- The parameter row the first stretch lays out is the parameter vector. -/
theorem bias3_v21 : Cert.Spec.rowv (W3 m ρ c (Proc.devRef .tc main_v21) : S1x25.Idx → EReal) = Cert.Spec.vec (W2 m ρ c (Proc.devRef .tc main_arg9) : S25.Idx → EReal) := by
  funext k
  show (StableHlo.after hostOps0_2 (W2 m ρ c) (Proc.devRef .tc main_v21) : S1x25.Idx → EReal) (ix2 0 k)
    = (W2 m ρ c (Proc.devRef .tc main_arg9) : S25.Idx → EReal) (ix1 k)
  generalize W2 m ρ c = V
  rw [hostOps0_2_main_v21 V]
  exact shapeCast_a_1a_apply _ _ 0 k

/-- The parameter row the first stretch lays out is the parameter vector. -/
theorem bias3_v22 : Cert.Spec.rowv (W3 m ρ c (Proc.devRef .tc main_v22) : S1x25.Idx → EReal) = Cert.Spec.vec (W2 m ρ c (Proc.devRef .tc main_arg10) : S25.Idx → EReal) := by
  funext k
  show (StableHlo.after hostOps0_2 (W2 m ρ c) (Proc.devRef .tc main_v22) : S1x25.Idx → EReal) (ix2 0 k)
    = (W2 m ρ c (Proc.devRef .tc main_arg10) : S25.Idx → EReal) (ix1 k)
  generalize W2 m ρ c = V
  rw [hostOps0_2_main_v22 V]
  exact shapeCast_a_1a_apply _ _ 0 k

/-- The parameter row the first stretch lays out is the parameter vector. -/
theorem bias3_v23 : Cert.Spec.rowv (W3 m ρ c (Proc.devRef .tc main_v23) : S1x25.Idx → EReal) = Cert.Spec.vec (W2 m ρ c (Proc.devRef .tc main_arg11) : S25.Idx → EReal) := by
  funext k
  show (StableHlo.after hostOps0_2 (W2 m ρ c) (Proc.devRef .tc main_v23) : S1x25.Idx → EReal) (ix2 0 k)
    = (W2 m ρ c (Proc.devRef .tc main_arg11) : S25.Idx → EReal) (ix1 k)
  generalize W2 m ρ c = V
  rw [hostOps0_2_main_v23 V]
  exact shapeCast_a_1a_apply _ _ 0 k

/-- The parameter row the first stretch lays out is the parameter vector. -/
theorem bias3_v24 : Cert.Spec.rowv (W3 m ρ c (Proc.devRef .tc main_v24) : S1x25.Idx → EReal) = Cert.Spec.vec (W2 m ρ c (Proc.devRef .tc main_arg12) : S25.Idx → EReal) := by
  funext k
  show (StableHlo.after hostOps0_2 (W2 m ρ c) (Proc.devRef .tc main_v24) : S1x25.Idx → EReal) (ix2 0 k)
    = (W2 m ρ c (Proc.devRef .tc main_arg12) : S25.Idx → EReal) (ix1 k)
  generalize W2 m ρ c = V
  rw [hostOps0_2_main_v24 V]
  exact shapeCast_a_1a_apply _ _ 0 k

/-- The parameter row the first stretch lays out is the parameter vector. -/
theorem bias3_v25 : Cert.Spec.rowv (W3 m ρ c (Proc.devRef .tc main_v25) : S1x25.Idx → EReal) = Cert.Spec.vec (W2 m ρ c (Proc.devRef .tc main_arg13) : S25.Idx → EReal) := by
  funext k
  show (StableHlo.after hostOps0_2 (W2 m ρ c) (Proc.devRef .tc main_v25) : S1x25.Idx → EReal) (ix2 0 k)
    = (W2 m ρ c (Proc.devRef .tc main_arg13) : S25.Idx → EReal) (ix1 k)
  generalize W2 m ρ c = V
  rw [hostOps0_2_main_v25 V]
  exact shapeCast_a_1a_apply _ _ 0 k

/-- The one-column array of degree factors read as a column is the vector of degree factors. -/
theorem col3 (p : Fin 300000) : Cert.Spec.colv (W3 m ρ c (Proc.devRef .tc main_v15) : S300000x1.Idx → EReal) p = (W2 m ρ c (Proc.devRef .tc main_v14) : S300000.Idx → EReal) (ix1 p) := by
  show (StableHlo.after hostOps0_2 (W2 m ρ c) (Proc.devRef .tc main_v15) : S300000x1.Idx → EReal) (ix2 p 0)
    = (W2 m ρ c (Proc.devRef .tc main_v14) : S300000.Idx → EReal) (ix1 p)
  generalize W2 m ρ c = V
  rw [hostOps0_2_main_v15 V]
  exact column_of_vector_apply _ _ p

/-- The grouped array: entry k of group g's long row is the last layer's entry at row-major position 1200·g + k. -/
theorem group16 (g : Fin 1000) (k : Fin 1200) : (W16 m ρ c (Proc.devRef .tc main_v88) : S1000x1200.Idx → EReal) (ix2 g k) = Cert.Spec.groupRow (Cert.Spec.mat (W15 m ρ c (Proc.devRef .tc main_v87) : S300000x4.Idx → EReal)) g k := by
  show (StableHlo.after hostOps7 (W15 m ρ c) (Proc.devRef .tc main_v88) : S1000x1200.Idx → EReal) (ix2 g k) = _
  generalize W15 m ρ c = V
  rw [hostOps7_main_v88 V]
  exact grouped_apply _ _ g k

end Cert.KernelIdeal.HostStage

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.RegionValue0.lean ====
/-
  Region 0 of the kernel program: the feed-forward block on every node's feature row.

  The region walks the 300000 rows in 50 blocks of 6000; the two weight matrices and the ten one-row parameter arrays
  (two biases, and for each of the two batch norms its scale, shift, running mean and running variance) are whole at
  every point. On a block of rows x the body computes

      t  = x · W₁ + b₁                                   (product accumulated from zero, bias row added to every row)
      h  = max ((t − m₁) · rsqrt(v₁ + ε) · g₁ + β₁) 0    (eval-mode batch norm, then the positive part)
      u  = h · W₂ + b₂
      y  = (u − m₂) · rsqrt(v₂ + ε) · g₂ + β₂,

  every one-row array broadcast down the rows. Narrowing the operands of a product changes nothing on the extended
  reals, so entry (r, j) of the block is the feed-forward block's output row of row r, at column j; and since row r of
  block t is row 6000·t + r of the feature array and the 50 blocks tile the output, the array ends holding the
  feed-forward block's output at every (p, j).
-/
import proofs.«128436_j51488067944595_2_alg».proof.Proof.Gen.KernelIdeal.Frame
import proofs.«128436_j51488067944595_2_alg».proof.Proof.Spec
import proofs.«128436_j51488067944595_2_alg».proof.Proof.LibDenseRow
import Idealize.ShloMosaic.Lib.Pipeline.Value
import Idealize.ShloMosaic.Lib.ValueIdx

noncomputable section

open scoped BigOperators

namespace Cert.KernelIdeal.RegionValue

open Cert.KernelIdeal Cert.KernelIdeal.Gen Cert.Spec Idealize.ShloMosaic Idealize.ShloMosaic.ValueIdx
open Idealize.ShloMosaic.TcCoe
open Idealize.ShloMosaic.Pipeline (Dat)

namespace Region0

/-! ## The vector operations of the block, one entry at a time, for arrays of any extents -/

/-- The batch norm of an array `T` against four one-row parameter arrays broadcast down the rows: entry (p, k). -/
theorem bnRows_apply (M K : Nat) (T : FVec Ideal ⟨2, ![M, K]⟩ .f32) (m v g be : FVec Ideal ⟨2, ![1, K]⟩ .f32)
    (hb : (⟨2, ![1, K]⟩ : Shape).Broadcasts ⟨2, ![M, K]⟩) (p : Fin M) (k : Fin K) :
    addf (mulf (mulf (subf T (broadcastTo ⟨2, ![M, K]⟩ m hb))
        (broadcastTo ⟨2, ![M, K]⟩
          (rsqrt (addf v (broadcast ⟨2, ![1, K]⟩ (Scalar.ofBits (F := Ideal) .f32 0x3727C5AC#32)))) hb))
        (broadcastTo ⟨2, ![M, K]⟩ g hb)) (broadcastTo ⟨2, ![M, K]⟩ be hb) (ix2 p k)
      = bn (T (ix2 p k)) (rowv m k) (rowv v k) (rowv g k) (rowv be k) := by
  rw [addf_apply, mulf_apply, mulf_apply, subf_apply, Cert.LibDenseRow.biasRow_apply, Cert.LibDenseRow.biasRow_apply,
    Cert.LibDenseRow.biasRow_apply, Cert.LibDenseRow.biasRow_apply]
  rfl

/-- The hidden array: rows through the first matrix (operands narrowed, accumulated from zero), bias, batch norm,
    positive part: entry (p, k) is the hidden row of row p at column k. -/
theorem hiddenRows_apply (M A B : Nat) (X : FVec Ideal ⟨2, ![M, A]⟩ .f32) (W1 : FVec Ideal ⟨2, ![A, B]⟩ .f32)
    (b1 m1 v1 g1 be1 : FVec Ideal ⟨2, ![1, B]⟩ .f32) (hb : (⟨2, ![1, B]⟩ : Shape).Broadcasts ⟨2, ![M, B]⟩)
    (hlt : FTy.bits .bf16 < FTy.bits .f32) (p : Fin M) (k : Fin B) :
    maximumf
        (addf (mulf (mulf (subf
            (addf (matmul (DotDims.plain M A B) none (truncf .bf16 X hlt) (truncf .bf16 W1 hlt)
                (constant ⟨2, ![M, B]⟩ .f32 0x00000000#32)) (broadcastTo ⟨2, ![M, B]⟩ b1 hb))
            (broadcastTo ⟨2, ![M, B]⟩ m1 hb))
          (broadcastTo ⟨2, ![M, B]⟩
            (rsqrt (addf v1 (broadcast ⟨2, ![1, B]⟩ (Scalar.ofBits (F := Ideal) .f32 0x3727C5AC#32)))) hb))
          (broadcastTo ⟨2, ![M, B]⟩ g1 hb)) (broadcastTo ⟨2, ![M, B]⟩ be1 hb))
        (broadcast ⟨2, ![M, B]⟩ (Scalar.ofBits (F := Ideal) .f32 0x00000000#32)) (ix2 p k)
      = ffnHidden (mat X p) (mat W1) (rowv b1) (rowv g1) (rowv be1) (rowv m1) (rowv v1) k := by
  rw [maximumf_apply, bnRows_apply, addf_apply, Cert.LibDenseRow.matmul_zero_apply, Cert.LibDenseRow.biasRow_apply]
  show max _ (Ideal.ofBits .f32 0x00000000#32) = _
  rw [Ideal.ofBits_zero_f32]
  rfl

/-- The whole block: the hidden array through the second matrix (operands narrowed, accumulated from zero), bias,
    batch norm: entry (p, j) is the feed-forward block's output row of row p at column j. -/
theorem outRows_apply (M A B C : Nat) (X : FVec Ideal ⟨2, ![M, A]⟩ .f32) (W1 : FVec Ideal ⟨2, ![A, B]⟩ .f32)
    (b1 m1 v1 g1 be1 : FVec Ideal ⟨2, ![1, B]⟩ .f32) (W2 : FVec Ideal ⟨2, ![B, C]⟩ .f32)
    (b2 m2 v2 g2 be2 : FVec Ideal ⟨2, ![1, C]⟩ .f32)
    (hb : (⟨2, ![1, B]⟩ : Shape).Broadcasts ⟨2, ![M, B]⟩) (hc : (⟨2, ![1, C]⟩ : Shape).Broadcasts ⟨2, ![M, C]⟩)
    (hlt : FTy.bits .bf16 < FTy.bits .f32) (p : Fin M) (j : Fin C) :
    addf (mulf (mulf (subf
        (addf
          (matmul (DotDims.plain M B C) none
            (truncf .bf16
              (maximumf
                (addf (mulf (mulf (subf
                    (addf (matmul (DotDims.plain M A B) none (truncf .bf16 X hlt) (truncf .bf16 W1 hlt)
                        (constant ⟨2, ![M, B]⟩ .f32 0x00000000#32)) (broadcastTo ⟨2, ![M, B]⟩ b1 hb))
                    (broadcastTo ⟨2, ![M, B]⟩ m1 hb))
                  (broadcastTo ⟨2, ![M, B]⟩
                    (rsqrt (addf v1 (broadcast ⟨2, ![1, B]⟩ (Scalar.ofBits (F := Ideal) .f32 0x3727C5AC#32)))) hb))
                  (broadcastTo ⟨2, ![M, B]⟩ g1 hb)) (broadcastTo ⟨2, ![M, B]⟩ be1 hb))
                (broadcast ⟨2, ![M, B]⟩ (Scalar.ofBits (F := Ideal) .f32 0x00000000#32))) hlt)
            (truncf .bf16 W2 hlt) (constant ⟨2, ![M, C]⟩ .f32 0x00000000#32))
          (broadcastTo ⟨2, ![M, C]⟩ b2 hc))
        (broadcastTo ⟨2, ![M, C]⟩ m2 hc))
      (broadcastTo ⟨2, ![M, C]⟩
        (rsqrt (addf v2 (broadcast ⟨2, ![1, C]⟩ (Scalar.ofBits (F := Ideal) .f32 0x3727C5AC#32)))) hc))
      (broadcastTo ⟨2, ![M, C]⟩ g2 hc)) (broadcastTo ⟨2, ![M, C]⟩ be2 hc) (ix2 p j)
      = ffnOut (mat X p) (mat W1) (rowv b1) (rowv g1) (rowv be1) (rowv m1) (rowv v1) (mat W2) (rowv b2) (rowv g2)
          (rowv be2) (rowv m2) (rowv v2) j := by
  rw [bnRows_apply, addf_apply, Cert.LibDenseRow.matmul_zero_apply, Cert.LibDenseRow.biasRow_apply]
  unfold ffnOut dense
  refine congrArg (fun s => bn (s + rowv b2 j) (rowv m2 j) (rowv v2 j) (rowv g2 j) (rowv be2 j))
    (Finset.sum_congr rfl fun k _ => ?_)
  rw [truncf_apply, truncf_apply, hiddenRows_apply]
  rfl

/-! ## The body's arithmetic at one entry of a block -/

/-- Entry (r, j) of what the body stores, from the thirteen blocks it loads. -/
theorem ffn_entry (x : Vec Ideal S6000x25 .f32) (W1 : Vec Ideal S25x100 .f32)
    (b1 g1 be1 m1 v1 : Vec Ideal S1x100 .f32) (W2 : Vec Ideal S100x25 .f32) (b2 g2 be2 m2 v2 : Vec Ideal S1x25 .f32)
    (r : Fin 6000) (j : Fin 25) :
    k0_pay1 (k0_pay2 x W1 b1 m1 v1 g1 be1 W2) (k0_pay3 b2) m2 v2 g2 be2 (ix2 r j)
      = ffnOut (mat x r) (mat W1) (rowv b1) (rowv g1) (rowv be1) (rowv m1) (rowv v1) (mat W2) (rowv b2) (rowv g2)
          (rowv be2) (rowv m2) (rowv v2) j := by
  unfold k0_pay1 k0_pay2 k0_pay3
  simp only [shapeCast_self]
  exact outRows_apply 6000 25 100 25 x W1 b1 m1 v1 g1 be1 W2 b2 m2 v2 g2 be2 broadcasts_S1x100_S6000x100
    broadcasts_S1x25_S6000x25 bitsLt_bf16_f32 r j

/-! ## The output array as one function of the arrays the region reads -/

/-- Entry (p, j) of the output: the feed-forward block's output row of row p, at column j. -/
def ffnRows (X : S300000x25.Idx → EReal) (W1 : S25x100.Idx → EReal) (b1 g1 be1 m1 v1 : S1x100.Idx → EReal)
    (W2 : S100x25.Idx → EReal) (b2 g2 be2 m2 v2 : S1x25.Idx → EReal) : S300000x25.Idx → EReal :=
  fun i => ffnOut (mat X (i 0)) (mat W1) (rowv b1) (rowv g1) (rowv be1) (rowv m1) (rowv v1) (mat W2) (rowv b2)
    (rowv g2) (rowv be2) (rowv m2) (rowv v2) (i 1)

theorem ffnRows_apply (X : S300000x25.Idx → EReal) (W1 : S25x100.Idx → EReal) (b1 g1 be1 m1 v1 : S1x100.Idx → EReal)
    (W2 : S100x25.Idx → EReal) (b2 g2 be2 m2 v2 : S1x25.Idx → EReal) (p : Fin 300000) (j : Fin 25) :
    ffnRows X W1 b1 g1 be1 m1 v1 W2 b2 g2 be2 m2 v2 (ix2 p j)
      = ffnOut (mat X p) (mat W1) (rowv b1) (rowv g1) (rowv be1) (rowv m1) (rowv v1) (mat W2) (rowv b2) (rowv g2)
          (rowv be2) (rowv m2) (rowv v2) j := rfl

/-- A body whose row block is rows 6000·b … 6000·b + 5999 of the feature array, and whose other twelve blocks are the
    arrays themselves, computes those rows of `ffnRows`. -/
theorem block_entry (X : S300000x25.Idx → EReal) (W1 : S25x100.Idx → EReal) (b1 g1 be1 m1 v1 : S1x100.Idx → EReal)
    (W2 : S100x25.Idx → EReal) (b2 g2 be2 m2 v2 : S1x25.Idx → EReal)
    (x : Vec Ideal S6000x25 .f32) (w1 : Vec Ideal S25x100 .f32) (c1 h1 e1 n1 u1 : Vec Ideal S1x100 .f32)
    (w2 : Vec Ideal S100x25 .f32) (c2 h2 e2 n2 u2 : Vec Ideal S1x25 .f32) (b : Nat) (hb : b < 50)
    (hx : ∀ (r : Fin 6000) (k : Fin 25), x (ix2 r k) = X (ix2 (⟨b * 6000 + r.val, by omega⟩ : Fin 300000) k))
    (hw1 : ∀ (a : Fin 25) (k : Fin 100), w1 (ix2 a k) = W1 (ix2 a k))
    (hc1 : ∀ k : Fin 100, c1 (ix2 0 k) = b1 (ix2 0 k)) (hh1 : ∀ k : Fin 100, h1 (ix2 0 k) = g1 (ix2 0 k))
    (he1 : ∀ k : Fin 100, e1 (ix2 0 k) = be1 (ix2 0 k)) (hn1 : ∀ k : Fin 100, n1 (ix2 0 k) = m1 (ix2 0 k))
    (hu1 : ∀ k : Fin 100, u1 (ix2 0 k) = v1 (ix2 0 k))
    (hw2 : ∀ (k : Fin 100) (j : Fin 25), w2 (ix2 k j) = W2 (ix2 k j))
    (hc2 : ∀ j : Fin 25, c2 (ix2 0 j) = b2 (ix2 0 j)) (hh2 : ∀ j : Fin 25, h2 (ix2 0 j) = g2 (ix2 0 j))
    (he2 : ∀ j : Fin 25, e2 (ix2 0 j) = be2 (ix2 0 j)) (hn2 : ∀ j : Fin 25, n2 (ix2 0 j) = m2 (ix2 0 j))
    (hu2 : ∀ j : Fin 25, u2 (ix2 0 j) = v2 (ix2 0 j))
    (r : Fin 6000) (j : Fin 25) :
    k0_pay1 (k0_pay2 x w1 c1 n1 u1 h1 e1 w2) (k0_pay3 c2) n2 u2 h2 e2 (ix2 r j)
      = ffnRows X W1 b1 g1 be1 m1 v1 W2 b2 g2 be2 m2 v2 (ix2 (⟨b * 6000 + r.val, by omega⟩ : Fin 300000) j) := by
  rw [ffn_entry, ffnRows_apply]
  have ex : mat x r = mat X (⟨b * 6000 + r.val, by omega⟩ : Fin 300000) := funext fun k => hx r k
  have ew1 : mat w1 = mat W1 := funext fun a => funext fun k => hw1 a k
  have ec1 : rowv c1 = rowv b1 := funext hc1
  have eh1 : rowv h1 = rowv g1 := funext hh1
  have ee1 : rowv e1 = rowv be1 := funext he1
  have en1 : rowv n1 = rowv m1 := funext hn1
  have eu1 : rowv u1 = rowv v1 := funext hu1
  have ew2 : mat w2 = mat W2 := funext fun k => funext fun j => hw2 k j
  have ec2 : rowv c2 = rowv b2 := funext hc2
  have eh2 : rowv h2 = rowv g2 := funext hh2
  have ee2 : rowv e2 = rowv be2 := funext he2
  have en2 : rowv n2 = rowv m2 := funext hn2
  have eu2 : rowv u2 = rowv v2 := funext hu2
  rw [ex, ew1, ec1, eh1, ee1, en1, eu1, ew2, ec2, eh2, ee2, en2, eu2]

/-! ## The region's blocks -/

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl

theorem point_lt (t : Fin cfg0.N) : t.val < 50 := Nat.lt_of_lt_of_eq t.isLt N_0

/-- Where the row windows sit at point t: at block t of the rows. -/
theorem rows_at : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- Every other window sits at its one block. -/
theorem whole_at : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The feature rows' block at point t is rows 6000·t … of the feature array. -/
theorem rows_block (t : Fin cfg0.N) (r : Fin 6000) (k : Fin 25) :
    (iblk0 V c 0 t : Vec Ideal S6000x25 .f32) (ix2 r k)
      = (V c main_arg0 : S300000x25.Idx → EReal) (ix2 (⟨t.val * 6000 + r.val, by have := point_lt t; omega⟩ : Fin 300000) k) := by
  obtain ⟨e0, e1, -⟩ := rows_at t
  unfold iblk0
  rw [View.read_apply]
  show (V c main_arg0 : S300000x25.Idx → EReal) _ = (V c main_arg0 : S300000x25.Idx → EReal) _
  refine congrArg _ (funext fun a => Fin.ext ?_)
  match a with
  | ⟨0, _⟩ => show win0_0.index t (0 : Fin 2) * 6000 + 1 * r.val = t.val * 6000 + r.val; rw [e0]; omega
  | ⟨1, _⟩ => show win0_0.index t (1 : Fin 2) * 25 + 1 * k.val = k.val; rw [e1]; omega

/-- The first matrix's block at every point is the matrix. -/
theorem w1_block (t : Fin cfg0.N) (a : Fin 25) (k : Fin 100) :
    (iblk0 V c 1 t : Vec Ideal S25x100 .f32) (ix2 a k) = (V c main_arg2 : S25x100.Idx → EReal) (ix2 a k) := by
  obtain ⟨⟨e0, e1⟩, -⟩ := whole_at t
  unfold iblk0
  rw [View.read_apply]
  show (V c main_arg2 : S25x100.Idx → EReal) _ = (V c main_arg2 : S25x100.Idx → EReal) _
  refine congrArg _ (funext fun d => Fin.ext ?_)
  match d with
  | ⟨0, _⟩ => show win0_1.index t (0 : Fin 2) * 25 + 1 * a.val = a.val; rw [e0]; omega
  | ⟨1, _⟩ => show win0_1.index t (1 : Fin 2) * 100 + 1 * k.val = k.val; rw [e1]; omega

/-- The second matrix's block at every point is the matrix. -/
theorem w2_block (t : Fin cfg0.N) (k : Fin 100) (j : Fin 25) :
    (iblk0 V c 7 t : Vec Ideal S100x25 .f32) (ix2 k j) = (V c main_arg8 : S100x25.Idx → EReal) (ix2 k j) := by
  obtain ⟨-, -, -, -, -, -, ⟨e0, e1⟩, -⟩ := whole_at t
  unfold iblk0
  rw [View.read_apply]
  show (V c main_arg8 : S100x25.Idx → EReal) _ = (V c main_arg8 : S100x25.Idx → EReal) _
  refine congrArg _ (funext fun d => Fin.ext ?_)
  match d with
  | ⟨0, _⟩ => show win0_7.index t (0 : Fin 2) * 100 + 1 * k.val = k.val; rw [e0]; omega
  | ⟨1, _⟩ => show win0_7.index t (1 : Fin 2) * 25 + 1 * j.val = j.val; rw [e1]; omega

/-- Each one-row parameter array's block at every point is the array (the five of width 100). -/
theorem row100_block_2 (t : Fin cfg0.N) (k : Fin 100) :
    (iblk0 V c 2 t : Vec Ideal S1x100 .f32) (ix2 0 k) = (V c main_v16 : S1x100.Idx → EReal) (ix2 0 k) := by
  obtain ⟨-, ⟨e0, e1⟩, -⟩ := whole_at t
  unfold iblk0
  rw [View.read_apply]
  show (V c main_v16 : S1x100.Idx → EReal) _ = (V c main_v16 : S1x100.Idx → EReal) _
  refine congrArg _ (funext fun d => Fin.ext ?_)
  match d with
  | ⟨0, _⟩ => show win0_2.index t (0 : Fin 2) * 1 + 1 * 0 = 0; rw [e0]
  | ⟨1, _⟩ => show win0_2.index t (1 : Fin 2) * 100 + 1 * k.val = k.val; rw [e1]; omega

theorem row100_block_3 (t : Fin cfg0.N) (k : Fin 100) :
    (iblk0 V c 3 t : Vec Ideal S1x100 .f32) (ix2 0 k) = (V c main_v17 : S1x100.Idx → EReal) (ix2 0 k) := by
  obtain ⟨-, -, ⟨e0, e1⟩, -⟩ := whole_at t
  unfold iblk0
  rw [View.read_apply]
  show (V c main_v17 : S1x100.Idx → EReal) _ = (V c main_v17 : S1x100.Idx → EReal) _
  refine congrArg _ (funext fun d => Fin.ext ?_)
  match d with
  | ⟨0, _⟩ => show win0_3.index t (0 : Fin 2) * 1 + 1 * 0 = 0; rw [e0]
  | ⟨1, _⟩ => show win0_3.index t (1 : Fin 2) * 100 + 1 * k.val = k.val; rw [e1]; omega

theorem row100_block_4 (t : Fin cfg0.N) (k : Fin 100) :
    (iblk0 V c 4 t : Vec Ideal S1x100 .f32) (ix2 0 k) = (V c main_v18 : S1x100.Idx → EReal) (ix2 0 k) := by
  obtain ⟨-, -, -, ⟨e0, e1⟩, -⟩ := whole_at t
  unfold iblk0
  rw [View.read_apply]
  show (V c main_v18 : S1x100.Idx → EReal) _ = (V c main_v18 : S1x100.Idx → EReal) _
  refine congrArg _ (funext fun d => Fin.ext ?_)
  match d with
  | ⟨0, _⟩ => show win0_4.index t (0 : Fin 2) * 1 + 1 * 0 = 0; rw [e0]
  | ⟨1, _⟩ => show win0_4.index t (1 : Fin 2) * 100 + 1 * k.val = k.val; rw [e1]; omega

theorem row100_block_5 (t : Fin cfg0.N) (k : Fin 100) :
    (iblk0 V c 5 t : Vec Ideal S1x100 .f32) (ix2 0 k) = (V c main_v19 : S1x100.Idx → EReal) (ix2 0 k) := by
  obtain ⟨-, -, -, -, ⟨e0, e1⟩, -⟩ := whole_at t
  unfold iblk0
  rw [View.read_apply]
  show (V c main_v19 : S1x100.Idx → EReal) _ = (V c main_v19 : S1x100.Idx → EReal) _
  refine congrArg _ (funext fun d => Fin.ext ?_)
  match d with
  | ⟨0, _⟩ => show win0_5.index t (0 : Fin 2) * 1 + 1 * 0 = 0; rw [e0]
  | ⟨1, _⟩ => show win0_5.index t (1 : Fin 2) * 100 + 1 * k.val = k.val; rw [e1]; omega

theorem row100_block_6 (t : Fin cfg0.N) (k : Fin 100) :
    (iblk0 V c 6 t : Vec Ideal S1x100 .f32) (ix2 0 k) = (V c main_v20 : S1x100.Idx → EReal) (ix2 0 k) := by
  obtain ⟨-, -, -, -, -, ⟨e0, e1⟩, -⟩ := whole_at t
  unfold iblk0
  rw [View.read_apply]
  show (V c main_v20 : S1x100.Idx → EReal) _ = (V c main_v20 : S1x100.Idx → EReal) _
  refine congrArg _ (funext fun d => Fin.ext ?_)
  match d with
  | ⟨0, _⟩ => show win0_6.index t (0 : Fin 2) * 1 + 1 * 0 = 0; rw [e0]
  | ⟨1, _⟩ => show win0_6.index t (1 : Fin 2) * 100 + 1 * k.val = k.val; rw [e1]; omega

/-- Each one-row parameter array's block at every point is the array (the five of width 25). -/
theorem row25_block_8 (t : Fin cfg0.N) (j : Fin 25) :
    (iblk0 V c 8 t : Vec Ideal S1x25 .f32) (ix2 0 j) = (V c main_v21 : S1x25.Idx → EReal) (ix2 0 j) := by
  obtain ⟨-, -, -, -, -, -, -, ⟨e0, e1⟩, -⟩ := whole_at t
  unfold iblk0
  rw [View.read_apply]
  show (V c main_v21 : S1x25.Idx → EReal) _ = (V c main_v21 : S1x25.Idx → EReal) _
  refine congrArg _ (funext fun d => Fin.ext ?_)
  match d with
  | ⟨0, _⟩ => show win0_8.index t (0 : Fin 2) * 1 + 1 * 0 = 0; rw [e0]
  | ⟨1, _⟩ => show win0_8.index t (1 : Fin 2) * 25 + 1 * j.val = j.val; rw [e1]; omega

theorem row25_block_9 (t : Fin cfg0.N) (j : Fin 25) :
    (iblk0 V c 9 t : Vec Ideal S1x25 .f32) (ix2 0 j) = (V c main_v22 : S1x25.Idx → EReal) (ix2 0 j) := by
  obtain ⟨-, -, -, -, -, -, -, -, ⟨e0, e1⟩, -⟩ := whole_at t
  unfold iblk0
  rw [View.read_apply]
  show (V c main_v22 : S1x25.Idx → EReal) _ = (V c main_v22 : S1x25.Idx → EReal) _
  refine congrArg _ (funext fun d => Fin.ext ?_)
  match d with
  | ⟨0, _⟩ => show win0_9.index t (0 : Fin 2) * 1 + 1 * 0 = 0; rw [e0]
  | ⟨1, _⟩ => show win0_9.index t (1 : Fin 2) * 25 + 1 * j.val = j.val; rw [e1]; omega

theorem row25_block_10 (t : Fin cfg0.N) (j : Fin 25) :
    (iblk0 V c 10 t : Vec Ideal S1x25 .f32) (ix2 0 j) = (V c main_v23 : S1x25.Idx → EReal) (ix2 0 j) := by
  obtain ⟨-, -, -, -, -, -, -, -, -, ⟨e0, e1⟩, -⟩ := whole_at t
  unfold iblk0
  rw [View.read_apply]
  show (V c main_v23 : S1x25.Idx → EReal) _ = (V c main_v23 : S1x25.Idx → EReal) _
  refine congrArg _ (funext fun d => Fin.ext ?_)
  match d with
  | ⟨0, _⟩ => show win0_10.index t (0 : Fin 2) * 1 + 1 * 0 = 0; rw [e0]
  | ⟨1, _⟩ => show win0_10.index t (1 : Fin 2) * 25 + 1 * j.val = j.val; rw [e1]; omega

theorem row25_block_11 (t : Fin cfg0.N) (j : Fin 25) :
    (iblk0 V c 11 t : Vec Ideal S1x25 .f32) (ix2 0 j) = (V c main_v24 : S1x25.Idx → EReal) (ix2 0 j) := by
  obtain ⟨-, -, -, -, -, -, -, -, -, -, ⟨e0, e1⟩, -⟩ := whole_at t
  unfold iblk0
  rw [View.read_apply]
  show (V c main_v24 : S1x25.Idx → EReal) _ = (V c main_v24 : S1x25.Idx → EReal) _
  refine congrArg _ (funext fun d => Fin.ext ?_)
  match d with
  | ⟨0, _⟩ => show win0_11.index t (0 : Fin 2) * 1 + 1 * 0 = 0; rw [e0]
  | ⟨1, _⟩ => show win0_11.index t (1 : Fin 2) * 25 + 1 * j.val = j.val; rw [e1]; omega

theorem row25_block_12 (t : Fin cfg0.N) (j : Fin 25) :
    (iblk0 V c 12 t : Vec Ideal S1x25 .f32) (ix2 0 j) = (V c main_v25 : S1x25.Idx → EReal) (ix2 0 j) := by
  obtain ⟨-, -, -, -, -, -, -, -, -, -, -, e0, e1⟩ := whole_at t
  unfold iblk0
  rw [View.read_apply]
  show (V c main_v25 : S1x25.Idx → EReal) _ = (V c main_v25 : S1x25.Idx → EReal) _
  refine congrArg _ (funext fun d => Fin.ext ?_)
  match d with
  | ⟨0, _⟩ => show win0_12.index t (0 : Fin 2) * 1 + 1 * 0 = 0; rw [e0]
  | ⟨1, _⟩ => show win0_12.index t (1 : Fin 2) * 25 + 1 * j.val = j.val; rw [e1]; omega

/-- The function the output array ends holding, of the arrays the region finds. -/
abbrev target : S300000x25.Idx → EReal :=
  ffnRows (V c main_arg0) (V c main_arg2) (V c main_v16) (V c main_v17) (V c main_v18) (V c main_v19) (V c main_v20)
    (V c main_arg8) (V c main_v21) (V c main_v22) (V c main_v23) (V c main_v24) (V c main_v25)

/-- What point t writes back is block t of `target`. -/
theorem written_back (t : Fin cfg0.N) :
    (dat0 (F := Ideal) V c).flushed 13 t = ((cfg0.win 13).blk t).view.read (Elt Ideal) (target V c) := by
  show (cfg0.win 13).cut (grid0.coords t) ((dat0 (F := Ideal) V c).after 13 t) = _
  rw [after0_13]
  unfold out0_13
  rw [View.canon_unit_zero zeros2]
  simp only [View.ld_unit_zero (S := S6000x25) zeros2, View.ld_unit_zero (S := S25x100) zeros2,
    View.ld_unit_zero (S := S1x100) zeros2, View.ld_unit_zero (S := S100x25) zeros2,
    View.ld_unit_zero (S := S1x25) zeros2]
  obtain ⟨-, -, e0, e1⟩ := rows_at t
  funext y
  obtain ⟨r, j, rfl⟩ : ∃ (r : Fin 6000) (j : Fin 25), y = ix2 r j := ⟨y 0, y 1, eq_ix2 y⟩
  rw [View.read_apply]
  have he : ((cfg0.win 13).blk t).view.emb (ix2 r j)
      = (ix2 (⟨t.val * 6000 + r.val, by have := point_lt t; omega⟩ : Fin 300000) j : S300000x25.Idx) := by
    funext a; apply Fin.ext
    match a with
    | ⟨0, _⟩ => show win0_13.index t (0 : Fin 2) * 6000 + 1 * r.val = t.val * 6000 + r.val; rw [e0]; omega
    | ⟨1, _⟩ => show win0_13.index t (1 : Fin 2) * 25 + 1 * j.val = j.val; rw [e1]; omega
  rw [he]
  exact block_entry (V c main_arg0) (V c main_arg2) (V c main_v16) (V c main_v17) (V c main_v18) (V c main_v19)
    (V c main_v20) (V c main_arg8) (V c main_v21) (V c main_v22) (V c main_v23) (V c main_v24) (V c main_v25)
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t)
    t.val (point_lt t) (rows_block V c t) (w1_block V c t) (row100_block_2 V c t) (row100_block_3 V c t)
    (row100_block_4 V c t) (row100_block_5 V c t) (row100_block_6 V c t) (w2_block V c t) (row25_block_8 V c t)
    (row25_block_9 V c t) (row25_block_10 V c t) (row25_block_11 V c t) (row25_block_12 V c t) r j

/-! ## From the blocks to the array -/

/-- An index of the output array is in point t's block iff each coordinate is in the block's range on its axis. -/
theorem mem_block (t : Fin cfg0.N) (i : S300000x25.Idx) :
    i ∈ ((cfg0.win 13).blk t).view.set ↔ ∀ a : Fin 2, win0_13.index t a * S6000x25.size a ≤ (i a).val
      ∧ (i a).val < win0_13.index t a * S6000x25.size a + S6000x25.size a := by
  show i ∈ ((View.whole main_v26).slice (win0_13.rect t)).set ↔ _
  rw [View.set_slice_whole, Rect.mem_set_unit]
  exact Iff.rfl

/-- Row p lies in block p / 6000: the 50 blocks tile the array. -/
theorem covered (i : S300000x25.Idx) :
    ∃ t : Fin cfg0.N, (cfg0.win 13).flush t = true ∧ i ∈ ((cfg0.win 13).blk t).view.set := by
  have hi0 : (i 0).val < 300000 := (i 0).isLt
  have hi1 : (i 1).val < 25 := (i 1).isLt
  have hN : cfg0.N = 50 := N_0
  obtain ⟨t, ht⟩ : ∃ t : Fin cfg0.N, t.val = (i 0).val / 6000 := ⟨⟨(i 0).val / 6000, by rw [hN]; omega⟩, rfl⟩
  obtain ⟨-, -, e0, e1⟩ := rows_at t
  refine ⟨t, flush0_13 t, ?_⟩
  rw [mem_block]
  intro a
  match a with
  | ⟨0, _⟩ =>
    show win0_13.index t (0 : Fin 2) * 6000 ≤ (i 0).val ∧ (i 0).val < win0_13.index t (0 : Fin 2) * 6000 + 6000
    rw [e0, ht]; omega
  | ⟨1, _⟩ =>
    show win0_13.index t (1 : Fin 2) * 25 ≤ (i 1).val ∧ (i 1).val < win0_13.index t (1 : Fin 2) * 25 + 25
    rw [e1]; omega

/-- The output array after the region is `target`. -/
theorem region0_array : (dat0 (F := Ideal) V c).arrAt 13 cfg0.N = target V c :=
  (dat0 (F := Ideal) V c).arrAt_eq_of_cover 13 (target V c) (fun t _ => written_back V c t) covered

end Region0

variable (V : (c : Dev nD) → (b : Ref sig .tc) → Buf (Elt Ideal) ((c : Thread nD τ).loc b)) (c : Dev nD)

/-- Entry (p, j) of the output array after the region: the feed-forward block's output row of node p's feature row,
    at column j. -/
theorem region0_value (p : Fin 300000) (j : Fin 25) : (dat0 (F := Ideal) V c).arrAt 13 cfg0.N (ix2 p j)
    = ffnOut (mat (V c main_arg0 : S300000x25.Idx → EReal) p) (mat (V c main_arg2 : S25x100.Idx → EReal)) (rowv (V c main_v16 : S1x100.Idx → EReal)) (rowv (V c main_v17 : S1x100.Idx → EReal)) (rowv (V c main_v18 : S1x100.Idx → EReal)) (rowv (V c main_v19 : S1x100.Idx → EReal)) (rowv (V c main_v20 : S1x100.Idx → EReal)) (mat (V c main_arg8 : S100x25.Idx → EReal)) (rowv (V c main_v21 : S1x25.Idx → EReal)) (rowv (V c main_v22 : S1x25.Idx → EReal)) (rowv (V c main_v23 : S1x25.Idx → EReal)) (rowv (V c main_v24 : S1x25.Idx → EReal)) (rowv (V c main_v25 : S1x25.Idx → EReal)) j :=
  congrFun (Region0.region0_array V c) (ix2 p j)

end Cert.KernelIdeal.RegionValue

end
-- ==== Proof.RegionValue1.lean ====
/-
  Region 1 of the kernel program: every node's feature row goes through a 25 × 25 matrix and is then scaled by the
  node's own degree factor.

  The region walks the 300000 rows in 50 blocks of 6000. At block t its body holds rows 6000·t … 6000·t + 5999 of the
  feature array, the whole matrix, and the same rows of the one-column degree-factor array; it forms the matrix
  product of the rows with the matrix, accumulated from zero, and multiplies entry (r, j) by the r-th entry of the
  column. Narrowing the operands before the product changes nothing on the extended reals, so entry (r, j) of the
  block is

      (∑ₖ x(r, k) · W(k, j)) · d(r),

  and since row r of block t is row 6000·t + r of the arrays, and the 50 blocks tile the output array, the array ends
  holding that expression at every (p, j): the scaled linear map of the graph-convolution layer in the arrangement
  where the degree factor is applied at the nodes.
-/
import proofs.«128436_j51488067944595_2_alg».proof.Proof.Gen.KernelIdeal.Frame
import proofs.«128436_j51488067944595_2_alg».proof.Proof.Spec
import proofs.«128436_j51488067944595_2_alg».proof.Proof.LibDenseRow
import Idealize.ShloMosaic.Lib.Pipeline.Value
import Idealize.ShloMosaic.Lib.ValueIdx

noncomputable section

open scoped BigOperators

namespace Cert.KernelIdeal.RegionValue

open Cert.KernelIdeal Cert.KernelIdeal.Gen Cert.Spec Idealize.ShloMosaic Idealize.ShloMosaic.ValueIdx
open Idealize.ShloMosaic.TcCoe
open Idealize.ShloMosaic.Pipeline (Dat)

namespace Region1

/-! ## The body's arithmetic at one entry of a block -/

/-- Entry (r, j) of what the body stores: the r-th row against column j of the matrix, times the r-th entry of the
    column of degree factors. -/
theorem dense_dinv_entry (v0 : Vec Ideal S6000x25 .f32) (v3 : Vec Ideal S25x25 .f32) (v6 : Vec Ideal S6000x1 .f32)
    (r : Fin 6000) (j : Fin 25) :
    k1_pay1 v0 v3 v6 (ix2 r j) = (∑ k : Fin 25, v0 (ix2 r k) * v3 (ix2 k j)) * v6 (ix2 r 0) := by
  unfold k1_pay1
  simp only [shapeCast_self]
  refine (mulf_apply _ _ _).trans ?_
  refine congrArg₂ (· * ·) ?_ ?_
  · exact Cert.LibDenseRow.matmul_zero_apply 6000 25 25 none (truncf .bf16 v0 bitsLt_bf16_f32)
      (truncf .bf16 v3 bitsLt_bf16_f32) r j
  · exact broadcastTo_apply v6 broadcasts_S6000x1_S6000x25 (ix2 r j) (ix2 r 0) (fun a => by
      match a with
      | ⟨0, _⟩ =>
        show r.val = if (6000 : Nat) = 1 then 0 else r.val
        exact (if_neg (by decide)).symm
      | ⟨1, _⟩ =>
        show (0 : Nat) = if (1 : Nat) = 1 then 0 else j.val
        exact (if_pos rfl).symm)

/-! ## The output array as one function of the arrays the region reads -/

/-- Entry (p, j) of the output: row p of the feature array through the matrix, scaled by node p's degree factor. -/
def scaledRows (H : S300000x25.Idx → EReal) (W : S25x25.Idx → EReal) (d : S300000x1.Idx → EReal) :
    S300000x25.Idx → EReal :=
  fun i => linK (colv d) (mat H) (mat W) (i 0) (i 1)

theorem scaledRows_apply (H : S300000x25.Idx → EReal) (W : S25x25.Idx → EReal) (d : S300000x1.Idx → EReal)
    (p : Fin 300000) (j : Fin 25) :
    scaledRows H W d (ix2 p j) = (∑ k : Fin 25, H (ix2 p k) * W (ix2 k j)) * d (ix2 p 0) := rfl

/-- A block whose rows are rows 6000·b … 6000·b + 5999 of the arrays computes those rows of `scaledRows`. -/
theorem block_entry (H : S300000x25.Idx → EReal) (W : S25x25.Idx → EReal) (d : S300000x1.Idx → EReal)
    (v0 : Vec Ideal S6000x25 .f32) (v3 : Vec Ideal S25x25 .f32) (v6 : Vec Ideal S6000x1 .f32) (b : Nat) (hb : b < 50)
    (h0 : ∀ (r : Fin 6000) (k : Fin 25), v0 (ix2 r k) = H (ix2 (⟨b * 6000 + r.val, by omega⟩ : Fin 300000) k))
    (h1 : ∀ (k j : Fin 25), v3 (ix2 k j) = W (ix2 k j))
    (h2 : ∀ r : Fin 6000, v6 (ix2 r 0) = d (ix2 (⟨b * 6000 + r.val, by omega⟩ : Fin 300000) 0))
    (r : Fin 6000) (j : Fin 25) :
    k1_pay1 v0 v3 v6 (ix2 r j) = scaledRows H W d (ix2 (⟨b * 6000 + r.val, by omega⟩ : Fin 300000) j) := by
  rw [dense_dinv_entry, scaledRows_apply, h2 r]
  refine congrArg₂ (· * ·) (Finset.sum_congr rfl fun k _ => ?_) rfl
  rw [h0 r k, h1 k j]

/-! ## The region's blocks -/

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl

/-- Where the windows sit at point t: the row windows at block t of the rows, the matrix window at its one block. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 50 := Nat.lt_of_lt_of_eq t.isLt N_1

/-- The feature rows' block at point t is rows 6000·t … of the feature array. -/
theorem rows_block (t : Fin cfg1.N) (r : Fin 6000) (k : Fin 25) :
    (iblk1 V c 0 t : Vec Ideal S6000x25 .f32) (ix2 r k)
      = (V c main_v26 : S300000x25.Idx → EReal) (ix2 (⟨t.val * 6000 + r.val, by have := point_lt t; omega⟩ : Fin 300000) k) := by
  obtain ⟨e0, e1, -⟩ := blocks_at t
  unfold iblk1
  rw [View.read_apply]
  show (V c main_v26 : S300000x25.Idx → EReal) _ = (V c main_v26 : S300000x25.Idx → EReal) _
  refine congrArg _ (funext fun a => Fin.ext ?_)
  match a with
  | ⟨0, _⟩ => show win1_0.index t (0 : Fin 2) * 6000 + 1 * r.val = t.val * 6000 + r.val; rw [e0]; omega
  | ⟨1, _⟩ => show win1_0.index t (1 : Fin 2) * 25 + 1 * k.val = k.val; rw [e1]; omega

/-- The matrix's block at every point is the matrix. -/
theorem matrix_block (t : Fin cfg1.N) (k j : Fin 25) :
    (iblk1 V c 1 t : Vec Ideal S25x25 .f32) (ix2 k j) = (V c main_arg14 : S25x25.Idx → EReal) (ix2 k j) := by
  obtain ⟨-, -, e0, e1, -⟩ := blocks_at t
  unfold iblk1
  rw [View.read_apply]
  show (V c main_arg14 : S25x25.Idx → EReal) _ = (V c main_arg14 : S25x25.Idx → EReal) _
  refine congrArg _ (funext fun a => Fin.ext ?_)
  match a with
  | ⟨0, _⟩ => show win1_1.index t (0 : Fin 2) * 25 + 1 * k.val = k.val; rw [e0]; omega
  | ⟨1, _⟩ => show win1_1.index t (1 : Fin 2) * 25 + 1 * j.val = j.val; rw [e1]; omega

/-- The degree factors' block at point t is rows 6000·t … of the one-column array. -/
theorem column_block (t : Fin cfg1.N) (r : Fin 6000) :
    (iblk1 V c 2 t : Vec Ideal S6000x1 .f32) (ix2 r 0)
      = (V c main_v15 : S300000x1.Idx → EReal) (ix2 (⟨t.val * 6000 + r.val, by have := point_lt t; omega⟩ : Fin 300000) 0) := by
  obtain ⟨-, -, -, -, e0, e1, -⟩ := blocks_at t
  unfold iblk1
  rw [View.read_apply]
  show (V c main_v15 : S300000x1.Idx → EReal) _ = (V c main_v15 : S300000x1.Idx → EReal) _
  refine congrArg _ (funext fun a => Fin.ext ?_)
  match a with
  | ⟨0, _⟩ => show win1_2.index t (0 : Fin 2) * 6000 + 1 * r.val = t.val * 6000 + r.val; rw [e0]; omega
  | ⟨1, _⟩ => show win1_2.index t (1 : Fin 2) * 1 + 1 * 0 = 0; rw [e1]

/-- What point t writes back is block t of `scaledRows` of the arrays the region finds. -/
theorem written_back (t : Fin cfg1.N) :
    (dat1 (F := Ideal) V c).flushed 3 t
      = ((cfg1.win 3).blk t).view.read (Elt Ideal)
          (scaledRows (V c main_v26) (V c main_arg14) (V c main_v15)) := by
  show (cfg1.win 3).cut (grid1.coords t) ((dat1 (F := Ideal) V c).after 3 t) = _
  rw [after1_3]
  unfold out1_3
  rw [View.canon_unit_zero zeros2]
  simp only [View.ld_unit_zero (S := S6000x25) zeros2, View.ld_unit_zero (S := S25x25) zeros2,
    View.ld_unit_zero (S := S6000x1) zeros2]
  obtain ⟨-, -, -, -, -, -, e0, e1⟩ := blocks_at t
  funext y
  obtain ⟨r, j, rfl⟩ : ∃ (r : Fin 6000) (j : Fin 25), y = ix2 r j := ⟨y 0, y 1, eq_ix2 y⟩
  rw [View.read_apply]
  have he : ((cfg1.win 3).blk t).view.emb (ix2 r j)
      = (ix2 (⟨t.val * 6000 + r.val, by have := point_lt t; omega⟩ : Fin 300000) j : S300000x25.Idx) := by
    funext a; apply Fin.ext
    match a with
    | ⟨0, _⟩ => show win1_3.index t (0 : Fin 2) * 6000 + 1 * r.val = t.val * 6000 + r.val; rw [e0]; omega
    | ⟨1, _⟩ => show win1_3.index t (1 : Fin 2) * 25 + 1 * j.val = j.val; rw [e1]; omega
  rw [he]
  exact block_entry (V c main_v26) (V c main_arg14) (V c main_v15) (iblk1 V c 0 t) (iblk1 V c 1 t) (iblk1 V c 2 t)
    t.val (point_lt t) (rows_block V c t) (matrix_block V c t) (column_block V c t) r j

/-! ## From the blocks to the array -/

/-- An index of the output array is in point t's block iff each coordinate is in the block's range on its axis. -/
theorem mem_block (t : Fin cfg1.N) (i : S300000x25.Idx) :
    i ∈ ((cfg1.win 3).blk t).view.set ↔ ∀ a : Fin 2, win1_3.index t a * S6000x25.size a ≤ (i a).val
      ∧ (i a).val < win1_3.index t a * S6000x25.size a + S6000x25.size a := by
  show i ∈ ((View.whole main_v27).slice (win1_3.rect t)).set ↔ _
  rw [View.set_slice_whole, Rect.mem_set_unit]
  exact Iff.rfl

/-- Row p lies in block p / 6000: the 50 blocks tile the array. -/
theorem covered (i : S300000x25.Idx) :
    ∃ t : Fin cfg1.N, (cfg1.win 3).flush t = true ∧ i ∈ ((cfg1.win 3).blk t).view.set := by
  have hi0 : (i 0).val < 300000 := (i 0).isLt
  have hi1 : (i 1).val < 25 := (i 1).isLt
  have hN : cfg1.N = 50 := N_1
  obtain ⟨t, ht⟩ : ∃ t : Fin cfg1.N, t.val = (i 0).val / 6000 := ⟨⟨(i 0).val / 6000, by rw [hN]; omega⟩, rfl⟩
  obtain ⟨-, -, -, -, -, -, e0, e1⟩ := blocks_at t
  refine ⟨t, flush1_3 t, ?_⟩
  rw [mem_block]
  intro a
  match a with
  | ⟨0, _⟩ =>
    show win1_3.index t (0 : Fin 2) * 6000 ≤ (i 0).val ∧ (i 0).val < win1_3.index t (0 : Fin 2) * 6000 + 6000
    rw [e0, ht]; omega
  | ⟨1, _⟩ =>
    show win1_3.index t (1 : Fin 2) * 25 ≤ (i 1).val ∧ (i 1).val < win1_3.index t (1 : Fin 2) * 25 + 25
    rw [e1]; omega

/-- The output array after the region: `scaledRows` of the arrays the region finds. -/
theorem region1_array :
    (dat1 (F := Ideal) V c).arrAt 3 cfg1.N = scaledRows (V c main_v26) (V c main_arg14) (V c main_v15) :=
  (dat1 (F := Ideal) V c).arrAt_eq_of_cover 3 (scaledRows (V c main_v26) (V c main_arg14) (V c main_v15))
    (fun t _ => written_back V c t) covered

end Region1

variable (V : (c : Dev nD) → (b : Ref sig .tc) → Buf (Elt Ideal) ((c : Thread nD τ).loc b)) (c : Dev nD)

/-- Entry (p, j) of the output array after the region: node p's row through the matrix, scaled by its degree factor. -/
theorem region1_value (p : Fin 300000) (j : Fin 25) : (dat1 (F := Ideal) V c).arrAt 3 cfg1.N (ix2 p j)
    = linK (colv (V c main_v15 : S300000x1.Idx → EReal)) (mat (V c main_v26 : S300000x25.Idx → EReal)) (mat (V c main_arg14 : S25x25.Idx → EReal)) p j :=
  congrFun (Region1.region1_array V c) (ix2 p j)

end Cert.KernelIdeal.RegionValue

end
-- ==== Proof.RegionValueCommon.lean ====
/-
  The node-side step of a graph-convolution layer, read one entry at a time on the extended reals.

  Once the rows of a node's neighbours have been added up, node p holds a sum row a(p, ·). The step scales that row by
  the node's degree factor d(p), adds the bias row and keeps the positive part,

      h(p, k) = max (d(p) · a(p, k) + b(k)) 0,

  and, in every layer but the last, sends h through the next layer's matrix and scales by d(p) once more,

      out(p, j) = (∑ₖ h(p, k) · W(k, j)) · d(p).

  This file states both readings for arrays of any extents, spelt with the vector operations a program uses: a column
  [M, 1] and a row [1, K] broadcast to [M, K], a pointwise product, sum and maximum against a splat of the zero word,
  a narrowing change of format (the identity on extended reals) and a matrix product accumulated into the zero array.
  Only the definitions of these operations are opened; no law of arithmetic is used, so nothing here needs finiteness.
-/
import Idealize.ShloMosaic.PureOps.Ideal
import Idealize.ShloMosaic.PureOps.Ideal.Laws
import Idealize.ShloMosaic.Lib.ValueIdx
import Idealize.ShloMosaic.Lib.Pipeline.Value
import proofs.«128436_j51488067944595_2_alg».proof.Proof.Spec
import proofs.«128436_j51488067944595_2_alg».proof.Proof.LibDenseRow

noncomputable section

open scoped BigOperators

namespace Cert.KernelIdeal.RegionValue

open Cert.Spec Cert.LibDenseRow Idealize.ShloMosaic Idealize.ShloMosaic.ValueIdx

/-- A column `[M, 1]` broadcast across `N` columns reads its row. -/
theorem colBroadcast_apply {α : Type} (M N : Nat) (d : (⟨2, ![M, 1]⟩ : Shape).Idx → α)
    (h : (⟨2, ![M, 1]⟩ : Shape).Broadcasts ⟨2, ![M, N]⟩) (p : Fin M) (q : Fin N) :
    broadcastTo ⟨2, ![M, N]⟩ d h (ix2 p q) = d (ix2 p 0) :=
  broadcastTo_apply d h (ix2 p q) (ix2 p 0) (fun a => by
    match a with
    | ⟨0, _⟩ =>
      show p.val = if M = 1 then 0 else p.val
      split
      · have := p.isLt; omega
      · rfl
    | ⟨1, _⟩ => rfl)

/-- The zero word splat is the extended real zero. -/
theorem zeroSplat_apply (s : Shape) (i : s.Idx) :
    broadcast s (Scalar.ofBits (F := Ideal) .f32 0x00000000#32) i = (0 : EReal) := by
  show Ideal.ofBits .f32 0x00000000#32 = 0
  exact Ideal.ofBits_zero_f32

/-- Scale by the degree column, add the bias row, keep the positive part: entry `(p, k)`. -/
theorem act_apply (M K : Nat) (d : FVec Ideal ⟨2, ![M, 1]⟩ .f32) (A : FVec Ideal ⟨2, ![M, K]⟩ .f32)
    (b : FVec Ideal ⟨2, ![1, K]⟩ .f32) (hd : (⟨2, ![M, 1]⟩ : Shape).Broadcasts ⟨2, ![M, K]⟩)
    (hb : (⟨2, ![1, K]⟩ : Shape).Broadcasts ⟨2, ![M, K]⟩) (p : Fin M) (k : Fin K) :
    maximumf (addf (mulf (broadcastTo ⟨2, ![M, K]⟩ d hd) A) (broadcastTo ⟨2, ![M, K]⟩ b hb))
        (broadcast ⟨2, ![M, K]⟩ (Scalar.ofBits (F := Ideal) .f32 0x00000000#32)) (ix2 p k)
      = actK (colv d) (mat A) (rowv b) p k := by
  rw [maximumf_apply, addf_apply, mulf_apply, colBroadcast_apply, biasRow_apply, zeroSplat_apply]
  rfl

/-- The whole step of a layer that is followed by another: the positive part above, through the next matrix (both
    operands narrowed first, which changes nothing here), accumulated onto zero, and scaled by the degree column
    again: entry `(p, j)`. -/
theorem actDense_apply (M K N : Nat) (d : FVec Ideal ⟨2, ![M, 1]⟩ .f32) (A : FVec Ideal ⟨2, ![M, K]⟩ .f32)
    (b : FVec Ideal ⟨2, ![1, K]⟩ .f32) (W : FVec Ideal ⟨2, ![K, N]⟩ .f32) (d' : FVec Ideal ⟨2, ![M, 1]⟩ .f32)
    (hd : (⟨2, ![M, 1]⟩ : Shape).Broadcasts ⟨2, ![M, K]⟩) (hb : (⟨2, ![1, K]⟩ : Shape).Broadcasts ⟨2, ![M, K]⟩)
    (hd' : (⟨2, ![M, 1]⟩ : Shape).Broadcasts ⟨2, ![M, N]⟩) (hlt : FTy.bits .bf16 < FTy.bits .f32)
    (p : Fin M) (j : Fin N) :
    mulf
        (matmul (DotDims.plain M K N) none
          (truncf .bf16
            (maximumf (addf (mulf (broadcastTo ⟨2, ![M, K]⟩ d hd) A) (broadcastTo ⟨2, ![M, K]⟩ b hb))
              (broadcast ⟨2, ![M, K]⟩ (Scalar.ofBits (F := Ideal) .f32 0x00000000#32))) hlt)
          (truncf .bf16 W hlt) (constant ⟨2, ![M, N]⟩ .f32 0x00000000#32))
        (broadcastTo ⟨2, ![M, N]⟩ d' hd') (ix2 p j)
      = linK (colv d') (actK (colv d) (mat A) (rowv b)) (mat W) p j := by
  rw [mulf_apply, matmul_zero_apply, colBroadcast_apply]
  unfold linK
  refine congrArg (· * colv d' p) (Finset.sum_congr rfl fun k _ => ?_)
  rw [truncf_apply, truncf_apply, act_apply]
  rfl

/-! ## From one block to the whole array

A call works on blocks of consecutive rows: block `t` holds rows `t · R … t · R + R − 1` of the sums and of the degree
column, while the bias row and the matrix are read whole. Row `r` of a block is therefore row `p = t · R + r` of the
arrays, and since the step acts on each row by itself, what the call writes at `(r, j)` of its output block is the
step's value at `(p, j)` of the whole arrays. -/

/-- The offsets of a rectangle that starts at the origin, however the zeros are spelt. -/
theorem zeroOffsets : (![0, 0] : Fin 2 → Nat) = fun _ => 0 := funext fun a => by fin_cases a <;> rfl

/-- The array a layer's node-side step leaves when another layer follows: entry `i` is the step at node `i 0`,
    output feature `i 1`, of the whole arrays. -/
def stepOut {N K D : Nat} (A : (⟨2, ![N, K]⟩ : Shape).Idx → EReal) (b : (⟨2, ![1, K]⟩ : Shape).Idx → EReal)
    (d : (⟨2, ![N, 1]⟩ : Shape).Idx → EReal) (W : (⟨2, ![K, D]⟩ : Shape).Idx → EReal) :
    (⟨2, ![N, D]⟩ : Shape).Idx → EReal :=
  fun i => linK (colv d) (actK (colv d) (mat A) (rowv b)) (mat W) (i 0) (i 1)

/-- The array the last layer's node-side step leaves: scaled, biased, positive part, no matrix. -/
def stepLast {N K : Nat} (A : (⟨2, ![N, K]⟩ : Shape).Idx → EReal) (b : (⟨2, ![1, K]⟩ : Shape).Idx → EReal)
    (d : (⟨2, ![N, 1]⟩ : Shape).Idx → EReal) : (⟨2, ![N, K]⟩ : Shape).Idx → EReal :=
  fun i => actK (colv d) (mat A) (rowv b) (i 0) (i 1)

/-- The step on a block whose row `r` is row `p` of the arrays is the step on the arrays at row `p`. -/
theorem stepOut_of_block {M N K D : Nat} (x0 : (⟨2, ![M, K]⟩ : Shape).Idx → EReal)
    (x1 : (⟨2, ![1, K]⟩ : Shape).Idx → EReal) (x2 : (⟨2, ![M, 1]⟩ : Shape).Idx → EReal)
    (x3 : (⟨2, ![K, D]⟩ : Shape).Idx → EReal) (A : (⟨2, ![N, K]⟩ : Shape).Idx → EReal)
    (b : (⟨2, ![1, K]⟩ : Shape).Idx → EReal) (d : (⟨2, ![N, 1]⟩ : Shape).Idx → EReal)
    (W : (⟨2, ![K, D]⟩ : Shape).Idx → EReal) (r : Fin M) (j : Fin D) (p : Fin N)
    (h0 : ∀ k : Fin K, x0 (ix2 r k) = A (ix2 p k)) (h1 : ∀ k : Fin K, x1 (ix2 0 k) = b (ix2 0 k))
    (h2 : x2 (ix2 r 0) = d (ix2 p 0)) (h3 : ∀ k : Fin K, x3 (ix2 k j) = W (ix2 k j)) :
    linK (colv x2) (actK (colv x2) (mat x0) (rowv x1)) (mat x3) r j = stepOut A b d W (ix2 p j) := by
  show (∑ k, max (x2 (ix2 r 0) * x0 (ix2 r k) + x1 (ix2 0 k)) 0 * x3 (ix2 k j)) * x2 (ix2 r 0)
    = (∑ k, max (d (ix2 p 0) * A (ix2 p k) + b (ix2 0 k)) 0 * W (ix2 k j)) * d (ix2 p 0)
  simp only [h0, h1, h2, h3]

/-- The same for the last layer's step. -/
theorem stepLast_of_block {M N K : Nat} (x0 : (⟨2, ![M, K]⟩ : Shape).Idx → EReal)
    (x1 : (⟨2, ![1, K]⟩ : Shape).Idx → EReal) (x2 : (⟨2, ![M, 1]⟩ : Shape).Idx → EReal)
    (A : (⟨2, ![N, K]⟩ : Shape).Idx → EReal) (b : (⟨2, ![1, K]⟩ : Shape).Idx → EReal)
    (d : (⟨2, ![N, 1]⟩ : Shape).Idx → EReal) (r : Fin M) (k : Fin K) (p : Fin N)
    (h0 : x0 (ix2 r k) = A (ix2 p k)) (h1 : x1 (ix2 0 k) = b (ix2 0 k)) (h2 : x2 (ix2 r 0) = d (ix2 p 0)) :
    actK (colv x2) (mat x0) (rowv x1) r k = stepLast A b d (ix2 p k) := by
  show max (x2 (ix2 r 0) * x0 (ix2 r k) + x1 (ix2 0 k)) 0 = max (d (ix2 p 0) * A (ix2 p k) + b (ix2 0 k)) 0
  rw [h0, h1, h2]

/-- Row `r` of block `t`, with `R` rows to a block, is a row of the array when there are `T` blocks. -/
theorem blockRow_lt {t r R T N : Nat} (hN : T * R = N) (ht : t < T) (hr : r < R) : t * R + r < N := by
  have : t * R + R ≤ T * R := by
    have := Nat.mul_le_mul_right R (Nat.succ_le_of_lt ht)
    rw [Nat.succ_mul] at this
    exact this
  omega

end Cert.KernelIdeal.RegionValue

end
-- ==== Proof.RegionValue2.lean ====
/-
  What the node-side step after the first graph-convolution layer's collection leaves in its output array.

  The call reads the sums the nodes collected (25 features a node), the layer's bias row, the column of degree
  factors and the next layer's 25 × 16 matrix, in blocks of 6000 consecutive nodes, and writes for every node p and
  output feature j

      out(p, j) = (∑ₖ max (d(p) · a(p, k) + b(k)) 0 · W(k, j)) · d(p).

  The proof reads the call's arithmetic at one entry of a block, identifies row r of block t with node 6000 · t + r of
  the arrays (the bias row and the matrix are the same at every block), and then uses that the 50 blocks cover the
  300000 nodes: node p lies in block p / 6000.
-/
import proofs.«128436_j51488067944595_2_alg».proof.Proof.Gen.KernelIdeal.Frame
import proofs.«128436_j51488067944595_2_alg».proof.Proof.Spec
import proofs.«128436_j51488067944595_2_alg».proof.Proof.LibDenseRow
import proofs.«128436_j51488067944595_2_alg».proof.Proof.RegionValueCommon
import Idealize.ShloMosaic.Lib.Pipeline.Value

noncomputable section

open scoped BigOperators

namespace Cert.KernelIdeal.RegionValue

open Cert.KernelIdeal Cert.KernelIdeal.Gen Cert.Spec Idealize.ShloMosaic Idealize.ShloMosaic.ValueIdx
open Idealize.ShloMosaic.Pipeline (Dat)
open Idealize.ShloMosaic.TcCoe

/-! ## The call's arithmetic at one entry of a block -/

/-- Entry `(r, j)` of what the call computes from a block of sums `v2`, the bias row `v6`, the matrix `v13` and the
    block of the degree column, which it loads twice (`v0` for the scaling before the positive part, `v16` for the
    one after the matrix). -/
theorem pay2_apply (v0 : Vec Ideal S6000x1 .f32) (v2 : Vec Ideal S6000x25 .f32) (v6 : Vec Ideal S1x25 .f32)
    (v13 : Vec Ideal S25x16 .f32) (v16 : Vec Ideal S6000x1 .f32) (r : Fin 6000) (j : Fin 16) :
    k2_pay1 v0 v2 v6 v13 v16 (ix2 r j)
      = linK (colv v16) (actK (colv v0) (mat v2) (rowv v6)) (mat v13) r j := by
  unfold k2_pay1
  simp only [shapeCast_self]
  exact actDense_apply 6000 25 16 v0 v2 v6 v13 v16 _ _ _ _ r j

/-- What the call stores is that arithmetic of its loads: every load and the one store go through whole blocks. -/
theorem out2_4_eq (x0 : Vec Ideal S6000x25 .f32) (x1 : Vec Ideal S1x25 .f32) (x2 : Vec Ideal S6000x1 .f32)
    (x3 : Vec Ideal S25x16 .f32) : out2_4 x0 x1 x2 x3 = k2_pay1 x2 x0 x1 x3 x2 := by
  unfold out2_4
  rw [View.canon_unit_zero zeroOffsets]
  simp only [View.ld_unit_zero (S := S6000x1) zeroOffsets,
    View.ld_unit_zero (S := S6000x25) zeroOffsets,
    View.ld_unit_zero (S := S1x25) zeroOffsets,
    View.ld_unit_zero (S := S25x16) zeroOffsets,
    View.ld_unit_zero (S := S6000x16) zeroOffsets]

/-- Entry `(r, j)` of the output block, when row `r` of the blocks is row `p` of the arrays. -/
theorem block2_entry (x0 : Vec Ideal S6000x25 .f32) (x1 : Vec Ideal S1x25 .f32) (x2 : Vec Ideal S6000x1 .f32)
    (x3 : Vec Ideal S25x16 .f32) (A : S300000x25.Idx → EReal) (b : S1x25.Idx → EReal) (d : S300000x1.Idx → EReal)
    (W : S25x16.Idx → EReal) (r : Fin 6000) (j : Fin 16) (p : Fin 300000)
    (h0 : ∀ k : Fin 25, x0 (ix2 r k) = A (ix2 p k)) (h1 : ∀ k : Fin 25, x1 (ix2 0 k) = b (ix2 0 k))
    (h2 : x2 (ix2 r 0) = d (ix2 p 0)) (h3 : ∀ k : Fin 25, x3 (ix2 k j) = W (ix2 k j)) :
    out2_4 x0 x1 x2 x3 (ix2 r j) = stepOut A b d W (ix2 p j) := by
  rw [out2_4_eq, pay2_apply]
  exact stepOut_of_block x0 x1 x2 x3 A b d W r j p h0 h1 h2 h3

/-! ## Which rows a block holds -/

/-- The block index of each window at point `t`: the sums, the degree column and the output move with `t` along the
    nodes; the bias row and the matrix stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section

variable (V : (c : Dev nD) → (b : Ref sig .tc) → Buf (Elt Ideal) ((c : Thread nD τ).loc b)) (c : Dev nD)

/-- The block of sums at point `t` is rows `6000 t …` of the array of sums. -/
theorem iblk2_0_apply (t : Fin cfg2.N) (y : S6000x25.Idx) (i : S300000x25.Idx)
    (h0 : (i 0).val = t.val * 6000 + (y 0).val) (h1 : (i 1).val = (y 1).val) :
    (iblk2 V c 0 t : Vec Ideal S6000x25 .f32) y = (V c main_v37 : S300000x25.Idx → EReal) i := by
  obtain ⟨e0, e1, -⟩ := idx_facts2 t
  unfold iblk2
  rw [View.read_apply]
  show (V c main_v37 : S300000x25.Idx → EReal) (((cfg2.win 0).blk t).view.emb y) = _
  refine congrArg (V c main_v37 : S300000x25.Idx → EReal) (funext fun a => Fin.ext ?_)
  match a with
  | ⟨0, _⟩ => show win2_0.index t (0 : Fin 2) * 6000 + 1 * (y 0).val = (i 0).val; rw [e0, h0]; omega
  | ⟨1, _⟩ => show win2_0.index t (1 : Fin 2) * 25 + 1 * (y 1).val = (i 1).val; rw [e1, h1]; omega

/-- The bias row's block is the bias row. -/
theorem iblk2_1_apply (t : Fin cfg2.N) (y : S1x25.Idx) (i : S1x25.Idx)
    (h0 : (i 0).val = (y 0).val) (h1 : (i 1).val = (y 1).val) :
    (iblk2 V c 1 t : Vec Ideal S1x25 .f32) y = (V c main_v38 : S1x25.Idx → EReal) i := by
  obtain ⟨-, -, e0, e1, -⟩ := idx_facts2 t
  unfold iblk2
  rw [View.read_apply]
  show (V c main_v38 : S1x25.Idx → EReal) (((cfg2.win 1).blk t).view.emb y) = _
  refine congrArg (V c main_v38 : S1x25.Idx → EReal) (funext fun a => Fin.ext ?_)
  match a with
  | ⟨0, _⟩ => show win2_1.index t (0 : Fin 2) * 1 + 1 * (y 0).val = (i 0).val; rw [e0, h0]; omega
  | ⟨1, _⟩ => show win2_1.index t (1 : Fin 2) * 25 + 1 * (y 1).val = (i 1).val; rw [e1, h1]; omega

/-- The block of the degree column at point `t` is rows `6000 t …` of the column. -/
theorem iblk2_2_apply (t : Fin cfg2.N) (y : S6000x1.Idx) (i : S300000x1.Idx)
    (h0 : (i 0).val = t.val * 6000 + (y 0).val) (h1 : (i 1).val = (y 1).val) :
    (iblk2 V c 2 t : Vec Ideal S6000x1 .f32) y = (V c main_v15 : S300000x1.Idx → EReal) i := by
  obtain ⟨-, -, -, -, e0, e1, -⟩ := idx_facts2 t
  unfold iblk2
  rw [View.read_apply]
  show (V c main_v15 : S300000x1.Idx → EReal) (((cfg2.win 2).blk t).view.emb y) = _
  refine congrArg (V c main_v15 : S300000x1.Idx → EReal) (funext fun a => Fin.ext ?_)
  match a with
  | ⟨0, _⟩ => show win2_2.index t (0 : Fin 2) * 6000 + 1 * (y 0).val = (i 0).val; rw [e0, h0]; omega
  | ⟨1, _⟩ => show win2_2.index t (1 : Fin 2) * 1 + 1 * (y 1).val = (i 1).val; rw [e1, h1]; omega

/-- The matrix's block is the matrix. -/
theorem iblk2_3_apply (t : Fin cfg2.N) (y : S25x16.Idx) (i : S25x16.Idx)
    (h0 : (i 0).val = (y 0).val) (h1 : (i 1).val = (y 1).val) :
    (iblk2 V c 3 t : Vec Ideal S25x16 .f32) y = (V c main_arg16 : S25x16.Idx → EReal) i := by
  obtain ⟨-, -, -, -, -, -, e0, e1, -⟩ := idx_facts2 t
  unfold iblk2
  rw [View.read_apply]
  show (V c main_arg16 : S25x16.Idx → EReal) (((cfg2.win 3).blk t).view.emb y) = _
  refine congrArg (V c main_arg16 : S25x16.Idx → EReal) (funext fun a => Fin.ext ?_)
  match a with
  | ⟨0, _⟩ => show win2_3.index t (0 : Fin 2) * 25 + 1 * (y 0).val = (i 0).val; rw [e0, h0]; omega
  | ⟨1, _⟩ => show win2_3.index t (1 : Fin 2) * 16 + 1 * (y 1).val = (i 1).val; rw [e1, h1]; omega

/-! ## From the blocks to the array -/

/-- What point `t` writes back is block `t` of the step's array. -/
theorem flushed2_eq (t : Fin cfg2.N) :
    (dat2 (F := Ideal) V c).flushed 4 t
      = ((cfg2.win 4).blk t).view.read (Elt Ideal) (stepOut (V c main_v37 : S300000x25.Idx → EReal) (V c main_v38 : S1x25.Idx → EReal)
      (V c main_v15 : S300000x1.Idx → EReal) (V c main_arg16 : S25x16.Idx → EReal)) := by
  show (cfg2.win 4).cut (grid2.coords t) ((dat2 (F := Ideal) V c).after 4 t) = _
  rw [after2_4]
  funext y
  have hy0 : (y 0).val < 6000 := (y 0).isLt
  have hy1 : (y 1).val < 16 := (y 1).isLt
  have ht : t.val < 50 := lt_of_lt_of_eq t.isLt (show cfg2.N = 50 from N_2)
  have hp : t.val * 6000 + (y 0).val < 300000 := blockRow_lt (T := 50) rfl ht hy0
  obtain ⟨-, -, -, -, -, -, -, -, e0, e1⟩ := idx_facts2 t
  have hx : (cfg2.win 4).xinj (grid2.coords t) y = ix2 (⟨(y 0).val, hy0⟩ : Fin 6000) (⟨(y 1).val, hy1⟩ : Fin 16) :=
    funext fun a => by
      match a with
      | ⟨0, _⟩ => rfl
      | ⟨1, _⟩ => rfl
  have he : ((cfg2.win 4).blk t).view.emb y
      = ix2 (⟨t.val * 6000 + (y 0).val, hp⟩ : Fin 300000) (⟨(y 1).val, hy1⟩ : Fin 16) :=
    funext fun a => Fin.ext (by
      match a with
      | ⟨0, _⟩ => show win2_4.index t (0 : Fin 2) * 6000 + 1 * (y 0).val = t.val * 6000 + (y 0).val; rw [e0]; omega
      | ⟨1, _⟩ => show win2_4.index t (1 : Fin 2) * 16 + 1 * (y 1).val = (y 1).val; rw [e1]; omega)
  show out2_4 (iblk2 V c 0 t) (iblk2 V c 1 t) (iblk2 V c 2 t) (iblk2 V c 3 t)
      ((cfg2.win 4).xinj (grid2.coords t) y)
    = stepOut (V c main_v37 : S300000x25.Idx → EReal) (V c main_v38 : S1x25.Idx → EReal)
      (V c main_v15 : S300000x1.Idx → EReal) (V c main_arg16 : S25x16.Idx → EReal)
      (((cfg2.win 4).blk t).view.emb y)
  refine (congrArg (out2_4 (iblk2 V c 0 t) (iblk2 V c 1 t) (iblk2 V c 2 t) (iblk2 V c 3 t)) hx).trans ?_
  refine (block2_entry (iblk2 V c 0 t) (iblk2 V c 1 t) (iblk2 V c 2 t) (iblk2 V c 3 t)
    (V c main_v37 : S300000x25.Idx → EReal) (V c main_v38 : S1x25.Idx → EReal)
      (V c main_v15 : S300000x1.Idx → EReal) (V c main_arg16 : S25x16.Idx → EReal)
    ⟨(y 0).val, hy0⟩ ⟨(y 1).val, hy1⟩ ⟨t.val * 6000 + (y 0).val, hp⟩
    (fun k => iblk2_0_apply V c t (ix2 ⟨(y 0).val, hy0⟩ k) (ix2 ⟨t.val * 6000 + (y 0).val, hp⟩ k) rfl rfl)
    (fun k => iblk2_1_apply V c t (ix2 0 k) (ix2 0 k) rfl rfl)
    (iblk2_2_apply V c t (ix2 ⟨(y 0).val, hy0⟩ 0) (ix2 ⟨t.val * 6000 + (y 0).val, hp⟩ 0) rfl rfl)
    (fun k => iblk2_3_apply V c t (ix2 k ⟨(y 1).val, hy1⟩) (ix2 k ⟨(y 1).val, hy1⟩) rfl rfl)).trans ?_
  exact (congrArg (stepOut (V c main_v37 : S300000x25.Idx → EReal) (V c main_v38 : S1x25.Idx → EReal)
      (V c main_v15 : S300000x1.Idx → EReal) (V c main_arg16 : S25x16.Idx → EReal)) he).symm

/-- An entry of the output array is in point `t`'s block iff each coordinate is in the block's range. -/
theorem mem_blk2 (t : Fin cfg2.N) (i : S300000x16.Idx) :
    i ∈ ((cfg2.win 4).blk t).view.set
      ↔ ∀ a : Fin 2, win2_4.index t a * S6000x16.size a ≤ (i a).val
          ∧ (i a).val < win2_4.index t a * S6000x16.size a + S6000x16.size a := by
  show i ∈ ((View.whole main_v39).slice (win2_4.rect t)).set ↔ _
  rw [View.set_slice_whole, Rect.mem_set_unit]
  exact Iff.rfl

/-- Every entry of the output array is written: node `p` by the point `p / 6000`. -/
theorem cover2 (i : S300000x16.Idx) :
    ∃ t : Fin cfg2.N, (cfg2.win 4).flush t = true ∧ i ∈ ((cfg2.win 4).blk t).view.set := by
  have hi0 : (i 0).val < 300000 := (i 0).isLt
  have hi1 : (i 1).val < 16 := (i 1).isLt
  obtain ⟨t, ht⟩ : ∃ t : Fin cfg2.N, t.val = (i 0).val / 6000 :=
    ⟨⟨(i 0).val / 6000, by rw [show cfg2.N = 50 from N_2]; omega⟩, rfl⟩
  obtain ⟨-, -, -, -, -, -, -, -, e0, e1⟩ := idx_facts2 t
  refine ⟨t, flush2_4 t, ?_⟩
  rw [mem_blk2]
  intro a
  match a with
  | ⟨0, _⟩ =>
    show win2_4.index t (0 : Fin 2) * 6000 ≤ (i 0).val ∧ (i 0).val < win2_4.index t (0 : Fin 2) * 6000 + 6000
    rw [e0, ht]; omega
  | ⟨1, _⟩ =>
    show win2_4.index t (1 : Fin 2) * 16 ≤ (i 1).val ∧ (i 1).val < win2_4.index t (1 : Fin 2) * 16 + 16
    rw [e1]; omega

/-- The output array after the call is the step's array. -/
theorem final2 : (dat2 (F := Ideal) V c).arrAt 4 cfg2.N
    = stepOut (V c main_v37 : S300000x25.Idx → EReal) (V c main_v38 : S1x25.Idx → EReal)
      (V c main_v15 : S300000x1.Idx → EReal) (V c main_arg16 : S25x16.Idx → EReal) :=
  (dat2 (F := Ideal) V c).arrAt_eq_of_cover 4 _ (fun t _ => flushed2_eq V c t) (cover2)

/-- THE VALUE OF THE CALL: entry `(p, j)` of its output array. -/
theorem region2_value (p : Fin 300000) (j : Fin 16) :
    (dat2 (F := Ideal) V c).arrAt 4 cfg2.N (ix2 p j)
      = linK (colv (V c main_v15 : S300000x1.Idx → EReal))
          (actK (colv (V c main_v15 : S300000x1.Idx → EReal)) (mat (V c main_v37 : S300000x25.Idx → EReal))
            (rowv (V c main_v38 : S1x25.Idx → EReal)))
          (mat (V c main_arg16 : S25x16.Idx → EReal)) p j :=
  congrFun (final2 V c) (ix2 p j)

end

end Cert.KernelIdeal.RegionValue

end
-- ==== Proof.RegionValue3.lean ====
/-
  What the node-side step after the second graph-convolution layer's collection leaves in its output array.

  The call reads the sums the nodes collected (16 features a node), the layer's bias row, the column of degree
  factors and the next layer's 16 × 16 matrix, in blocks of 6000 consecutive nodes, and writes for every node p and
  output feature j

      out(p, j) = (∑ₖ max (d(p) · a(p, k) + b(k)) 0 · W(k, j)) · d(p).

  The proof reads the call's arithmetic at one entry of a block, identifies row r of block t with node 6000 · t + r of
  the arrays (the bias row and the matrix are the same at every block), and then uses that the 50 blocks cover the
  300000 nodes: node p lies in block p / 6000.
-/
import proofs.«128436_j51488067944595_2_alg».proof.Proof.Gen.KernelIdeal.Frame
import proofs.«128436_j51488067944595_2_alg».proof.Proof.Spec
import proofs.«128436_j51488067944595_2_alg».proof.Proof.LibDenseRow
import proofs.«128436_j51488067944595_2_alg».proof.Proof.RegionValueCommon
import Idealize.ShloMosaic.Lib.Pipeline.Value

noncomputable section

open scoped BigOperators

namespace Cert.KernelIdeal.RegionValue

open Cert.KernelIdeal Cert.KernelIdeal.Gen Cert.Spec Idealize.ShloMosaic Idealize.ShloMosaic.ValueIdx
open Idealize.ShloMosaic.Pipeline (Dat)
open Idealize.ShloMosaic.TcCoe

/-! ## The call's arithmetic at one entry of a block -/

/-- Entry `(r, j)` of what the call computes from a block of sums `v2`, the bias row `v6`, the matrix `v13` and the
    block of the degree column, which it loads twice (`v0` for the scaling before the positive part, `v16` for the
    one after the matrix). -/
theorem pay3_apply (v0 : Vec Ideal S6000x1 .f32) (v2 : Vec Ideal S6000x16 .f32) (v6 : Vec Ideal S1x16 .f32)
    (v13 : Vec Ideal S16x16 .f32) (v16 : Vec Ideal S6000x1 .f32) (r : Fin 6000) (j : Fin 16) :
    k3_pay1 v0 v2 v6 v13 v16 (ix2 r j)
      = linK (colv v16) (actK (colv v0) (mat v2) (rowv v6)) (mat v13) r j := by
  unfold k3_pay1
  simp only [shapeCast_self]
  exact actDense_apply 6000 16 16 v0 v2 v6 v13 v16 _ _ _ _ r j

/-- What the call stores is that arithmetic of its loads: every load and the one store go through whole blocks. -/
theorem out3_4_eq (x0 : Vec Ideal S6000x16 .f32) (x1 : Vec Ideal S1x16 .f32) (x2 : Vec Ideal S6000x1 .f32)
    (x3 : Vec Ideal S16x16 .f32) : out3_4 x0 x1 x2 x3 = k3_pay1 x2 x0 x1 x3 x2 := by
  unfold out3_4
  rw [View.canon_unit_zero zeroOffsets]
  simp only [View.ld_unit_zero (S := S6000x1) zeroOffsets,
    View.ld_unit_zero (S := S6000x16) zeroOffsets,
    View.ld_unit_zero (S := S1x16) zeroOffsets,
    View.ld_unit_zero (S := S16x16) zeroOffsets]

/-- Entry `(r, j)` of the output block, when row `r` of the blocks is row `p` of the arrays. -/
theorem block3_entry (x0 : Vec Ideal S6000x16 .f32) (x1 : Vec Ideal S1x16 .f32) (x2 : Vec Ideal S6000x1 .f32)
    (x3 : Vec Ideal S16x16 .f32) (A : S300000x16.Idx → EReal) (b : S1x16.Idx → EReal) (d : S300000x1.Idx → EReal)
    (W : S16x16.Idx → EReal) (r : Fin 6000) (j : Fin 16) (p : Fin 300000)
    (h0 : ∀ k : Fin 16, x0 (ix2 r k) = A (ix2 p k)) (h1 : ∀ k : Fin 16, x1 (ix2 0 k) = b (ix2 0 k))
    (h2 : x2 (ix2 r 0) = d (ix2 p 0)) (h3 : ∀ k : Fin 16, x3 (ix2 k j) = W (ix2 k j)) :
    out3_4 x0 x1 x2 x3 (ix2 r j) = stepOut A b d W (ix2 p j) := by
  rw [out3_4_eq, pay3_apply]
  exact stepOut_of_block x0 x1 x2 x3 A b d W r j p h0 h1 h2 h3

/-! ## Which rows a block holds -/

/-- The block index of each window at point `t`: the sums, the degree column and the output move with `t` along the
    nodes; the bias row and the matrix stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section

variable (V : (c : Dev nD) → (b : Ref sig .tc) → Buf (Elt Ideal) ((c : Thread nD τ).loc b)) (c : Dev nD)

/-- The block of sums at point `t` is rows `6000 t …` of the array of sums. -/
theorem iblk3_0_apply (t : Fin cfg3.N) (y : S6000x16.Idx) (i : S300000x16.Idx)
    (h0 : (i 0).val = t.val * 6000 + (y 0).val) (h1 : (i 1).val = (y 1).val) :
    (iblk3 V c 0 t : Vec Ideal S6000x16 .f32) y = (V c main_v49 : S300000x16.Idx → EReal) i := by
  obtain ⟨e0, e1, -⟩ := idx_facts3 t
  unfold iblk3
  rw [View.read_apply]
  show (V c main_v49 : S300000x16.Idx → EReal) (((cfg3.win 0).blk t).view.emb y) = _
  refine congrArg (V c main_v49 : S300000x16.Idx → EReal) (funext fun a => Fin.ext ?_)
  match a with
  | ⟨0, _⟩ => show win3_0.index t (0 : Fin 2) * 6000 + 1 * (y 0).val = (i 0).val; rw [e0, h0]; omega
  | ⟨1, _⟩ => show win3_0.index t (1 : Fin 2) * 16 + 1 * (y 1).val = (i 1).val; rw [e1, h1]; omega

/-- The bias row's block is the bias row. -/
theorem iblk3_1_apply (t : Fin cfg3.N) (y : S1x16.Idx) (i : S1x16.Idx)
    (h0 : (i 0).val = (y 0).val) (h1 : (i 1).val = (y 1).val) :
    (iblk3 V c 1 t : Vec Ideal S1x16 .f32) y = (V c main_v50 : S1x16.Idx → EReal) i := by
  obtain ⟨-, -, e0, e1, -⟩ := idx_facts3 t
  unfold iblk3
  rw [View.read_apply]
  show (V c main_v50 : S1x16.Idx → EReal) (((cfg3.win 1).blk t).view.emb y) = _
  refine congrArg (V c main_v50 : S1x16.Idx → EReal) (funext fun a => Fin.ext ?_)
  match a with
  | ⟨0, _⟩ => show win3_1.index t (0 : Fin 2) * 1 + 1 * (y 0).val = (i 0).val; rw [e0, h0]; omega
  | ⟨1, _⟩ => show win3_1.index t (1 : Fin 2) * 16 + 1 * (y 1).val = (i 1).val; rw [e1, h1]; omega

/-- The block of the degree column at point `t` is rows `6000 t …` of the column. -/
theorem iblk3_2_apply (t : Fin cfg3.N) (y : S6000x1.Idx) (i : S300000x1.Idx)
    (h0 : (i 0).val = t.val * 6000 + (y 0).val) (h1 : (i 1).val = (y 1).val) :
    (iblk3 V c 2 t : Vec Ideal S6000x1 .f32) y = (V c main_v15 : S300000x1.Idx → EReal) i := by
  obtain ⟨-, -, -, -, e0, e1, -⟩ := idx_facts3 t
  unfold iblk3
  rw [View.read_apply]
  show (V c main_v15 : S300000x1.Idx → EReal) (((cfg3.win 2).blk t).view.emb y) = _
  refine congrArg (V c main_v15 : S300000x1.Idx → EReal) (funext fun a => Fin.ext ?_)
  match a with
  | ⟨0, _⟩ => show win3_2.index t (0 : Fin 2) * 6000 + 1 * (y 0).val = (i 0).val; rw [e0, h0]; omega
  | ⟨1, _⟩ => show win3_2.index t (1 : Fin 2) * 1 + 1 * (y 1).val = (i 1).val; rw [e1, h1]; omega

/-- The matrix's block is the matrix. -/
theorem iblk3_3_apply (t : Fin cfg3.N) (y : S16x16.Idx) (i : S16x16.Idx)
    (h0 : (i 0).val = (y 0).val) (h1 : (i 1).val = (y 1).val) :
    (iblk3 V c 3 t : Vec Ideal S16x16 .f32) y = (V c main_arg18 : S16x16.Idx → EReal) i := by
  obtain ⟨-, -, -, -, -, -, e0, e1, -⟩ := idx_facts3 t
  unfold iblk3
  rw [View.read_apply]
  show (V c main_arg18 : S16x16.Idx → EReal) (((cfg3.win 3).blk t).view.emb y) = _
  refine congrArg (V c main_arg18 : S16x16.Idx → EReal) (funext fun a => Fin.ext ?_)
  match a with
  | ⟨0, _⟩ => show win3_3.index t (0 : Fin 2) * 16 + 1 * (y 0).val = (i 0).val; rw [e0, h0]; omega
  | ⟨1, _⟩ => show win3_3.index t (1 : Fin 2) * 16 + 1 * (y 1).val = (i 1).val; rw [e1, h1]; omega

/-! ## From the blocks to the array -/

/-- What point `t` writes back is block `t` of the step's array. -/
theorem flushed3_eq (t : Fin cfg3.N) :
    (dat3 (F := Ideal) V c).flushed 4 t
      = ((cfg3.win 4).blk t).view.read (Elt Ideal) (stepOut (V c main_v49 : S300000x16.Idx → EReal) (V c main_v50 : S1x16.Idx → EReal)
      (V c main_v15 : S300000x1.Idx → EReal) (V c main_arg18 : S16x16.Idx → EReal)) := by
  show (cfg3.win 4).cut (grid3.coords t) ((dat3 (F := Ideal) V c).after 4 t) = _
  rw [after3_4]
  funext y
  have hy0 : (y 0).val < 6000 := (y 0).isLt
  have hy1 : (y 1).val < 16 := (y 1).isLt
  have ht : t.val < 50 := lt_of_lt_of_eq t.isLt (show cfg3.N = 50 from N_3)
  have hp : t.val * 6000 + (y 0).val < 300000 := blockRow_lt (T := 50) rfl ht hy0
  obtain ⟨-, -, -, -, -, -, -, -, e0, e1⟩ := idx_facts3 t
  have hx : (cfg3.win 4).xinj (grid3.coords t) y = ix2 (⟨(y 0).val, hy0⟩ : Fin 6000) (⟨(y 1).val, hy1⟩ : Fin 16) :=
    funext fun a => by
      match a with
      | ⟨0, _⟩ => rfl
      | ⟨1, _⟩ => rfl
  have he : ((cfg3.win 4).blk t).view.emb y
      = ix2 (⟨t.val * 6000 + (y 0).val, hp⟩ : Fin 300000) (⟨(y 1).val, hy1⟩ : Fin 16) :=
    funext fun a => Fin.ext (by
      match a with
      | ⟨0, _⟩ => show win3_4.index t (0 : Fin 2) * 6000 + 1 * (y 0).val = t.val * 6000 + (y 0).val; rw [e0]; omega
      | ⟨1, _⟩ => show win3_4.index t (1 : Fin 2) * 16 + 1 * (y 1).val = (y 1).val; rw [e1]; omega)
  show out3_4 (iblk3 V c 0 t) (iblk3 V c 1 t) (iblk3 V c 2 t) (iblk3 V c 3 t)
      ((cfg3.win 4).xinj (grid3.coords t) y)
    = stepOut (V c main_v49 : S300000x16.Idx → EReal) (V c main_v50 : S1x16.Idx → EReal)
      (V c main_v15 : S300000x1.Idx → EReal) (V c main_arg18 : S16x16.Idx → EReal)
      (((cfg3.win 4).blk t).view.emb y)
  refine (congrArg (out3_4 (iblk3 V c 0 t) (iblk3 V c 1 t) (iblk3 V c 2 t) (iblk3 V c 3 t)) hx).trans ?_
  refine (block3_entry (iblk3 V c 0 t) (iblk3 V c 1 t) (iblk3 V c 2 t) (iblk3 V c 3 t)
    (V c main_v49 : S300000x16.Idx → EReal) (V c main_v50 : S1x16.Idx → EReal)
      (V c main_v15 : S300000x1.Idx → EReal) (V c main_arg18 : S16x16.Idx → EReal)
    ⟨(y 0).val, hy0⟩ ⟨(y 1).val, hy1⟩ ⟨t.val * 6000 + (y 0).val, hp⟩
    (fun k => iblk3_0_apply V c t (ix2 ⟨(y 0).val, hy0⟩ k) (ix2 ⟨t.val * 6000 + (y 0).val, hp⟩ k) rfl rfl)
    (fun k => iblk3_1_apply V c t (ix2 0 k) (ix2 0 k) rfl rfl)
    (iblk3_2_apply V c t (ix2 ⟨(y 0).val, hy0⟩ 0) (ix2 ⟨t.val * 6000 + (y 0).val, hp⟩ 0) rfl rfl)
    (fun k => iblk3_3_apply V c t (ix2 k ⟨(y 1).val, hy1⟩) (ix2 k ⟨(y 1).val, hy1⟩) rfl rfl)).trans ?_
  exact (congrArg (stepOut (V c main_v49 : S300000x16.Idx → EReal) (V c main_v50 : S1x16.Idx → EReal)
      (V c main_v15 : S300000x1.Idx → EReal) (V c main_arg18 : S16x16.Idx → EReal)) he).symm

/-- An entry of the output array is in point `t`'s block iff each coordinate is in the block's range. -/
theorem mem_blk3 (t : Fin cfg3.N) (i : S300000x16.Idx) :
    i ∈ ((cfg3.win 4).blk t).view.set
      ↔ ∀ a : Fin 2, win3_4.index t a * S6000x16.size a ≤ (i a).val
          ∧ (i a).val < win3_4.index t a * S6000x16.size a + S6000x16.size a := by
  show i ∈ ((View.whole main_v51).slice (win3_4.rect t)).set ↔ _
  rw [View.set_slice_whole, Rect.mem_set_unit]
  exact Iff.rfl

/-- Every entry of the output array is written: node `p` by the point `p / 6000`. -/
theorem cover3 (i : S300000x16.Idx) :
    ∃ t : Fin cfg3.N, (cfg3.win 4).flush t = true ∧ i ∈ ((cfg3.win 4).blk t).view.set := by
  have hi0 : (i 0).val < 300000 := (i 0).isLt
  have hi1 : (i 1).val < 16 := (i 1).isLt
  obtain ⟨t, ht⟩ : ∃ t : Fin cfg3.N, t.val = (i 0).val / 6000 :=
    ⟨⟨(i 0).val / 6000, by rw [show cfg3.N = 50 from N_3]; omega⟩, rfl⟩
  obtain ⟨-, -, -, -, -, -, -, -, e0, e1⟩ := idx_facts3 t
  refine ⟨t, flush3_4 t, ?_⟩
  rw [mem_blk3]
  intro a
  match a with
  | ⟨0, _⟩ =>
    show win3_4.index t (0 : Fin 2) * 6000 ≤ (i 0).val ∧ (i 0).val < win3_4.index t (0 : Fin 2) * 6000 + 6000
    rw [e0, ht]; omega
  | ⟨1, _⟩ =>
    show win3_4.index t (1 : Fin 2) * 16 ≤ (i 1).val ∧ (i 1).val < win3_4.index t (1 : Fin 2) * 16 + 16
    rw [e1]; omega

/-- The output array after the call is the step's array. -/
theorem final3 : (dat3 (F := Ideal) V c).arrAt 4 cfg3.N
    = stepOut (V c main_v49 : S300000x16.Idx → EReal) (V c main_v50 : S1x16.Idx → EReal)
      (V c main_v15 : S300000x1.Idx → EReal) (V c main_arg18 : S16x16.Idx → EReal) :=
  (dat3 (F := Ideal) V c).arrAt_eq_of_cover 4 _ (fun t _ => flushed3_eq V c t) (cover3)

/-- THE VALUE OF THE CALL: entry `(p, j)` of its output array. -/
theorem region3_value (p : Fin 300000) (j : Fin 16) :
    (dat3 (F := Ideal) V c).arrAt 4 cfg3.N (ix2 p j)
      = linK (colv (V c main_v15 : S300000x1.Idx → EReal))
          (actK (colv (V c main_v15 : S300000x1.Idx → EReal)) (mat (V c main_v49 : S300000x16.Idx → EReal))
            (rowv (V c main_v50 : S1x16.Idx → EReal)))
          (mat (V c main_arg18 : S16x16.Idx → EReal)) p j :=
  congrFun (final3 V c) (ix2 p j)

end

end Cert.KernelIdeal.RegionValue

end
-- ==== Proof.RegionValue4.lean ====
/-
  What the node-side step after the third graph-convolution layer's collection leaves in its output array.

  The call reads the sums the nodes collected (16 features a node), the layer's bias row, the column of degree
  factors and the next layer's 16 × 8 matrix, in blocks of 6000 consecutive nodes, and writes for every node p and
  output feature j

      out(p, j) = (∑ₖ max (d(p) · a(p, k) + b(k)) 0 · W(k, j)) · d(p).

  The proof reads the call's arithmetic at one entry of a block, identifies row r of block t with node 6000 · t + r of
  the arrays (the bias row and the matrix are the same at every block), and then uses that the 50 blocks cover the
  300000 nodes: node p lies in block p / 6000.
-/
import proofs.«128436_j51488067944595_2_alg».proof.Proof.Gen.KernelIdeal.Frame
import proofs.«128436_j51488067944595_2_alg».proof.Proof.Spec
import proofs.«128436_j51488067944595_2_alg».proof.Proof.LibDenseRow
import proofs.«128436_j51488067944595_2_alg».proof.Proof.RegionValueCommon
import Idealize.ShloMosaic.Lib.Pipeline.Value

noncomputable section

open scoped BigOperators

namespace Cert.KernelIdeal.RegionValue

open Cert.KernelIdeal Cert.KernelIdeal.Gen Cert.Spec Idealize.ShloMosaic Idealize.ShloMosaic.ValueIdx
open Idealize.ShloMosaic.Pipeline (Dat)
open Idealize.ShloMosaic.TcCoe

/-! ## The call's arithmetic at one entry of a block -/

/-- Entry `(r, j)` of what the call computes from a block of sums `v2`, the bias row `v6`, the matrix `v13` and the
    block of the degree column, which it loads twice (`v0` for the scaling before the positive part, `v16` for the
    one after the matrix). -/
theorem pay4_apply (v0 : Vec Ideal S6000x1 .f32) (v2 : Vec Ideal S6000x16 .f32) (v6 : Vec Ideal S1x16 .f32)
    (v13 : Vec Ideal S16x8 .f32) (v16 : Vec Ideal S6000x1 .f32) (r : Fin 6000) (j : Fin 8) :
    k4_pay1 v0 v2 v6 v13 v16 (ix2 r j)
      = linK (colv v16) (actK (colv v0) (mat v2) (rowv v6)) (mat v13) r j := by
  unfold k4_pay1
  simp only [shapeCast_self]
  exact actDense_apply 6000 16 8 v0 v2 v6 v13 v16 _ _ _ _ r j

/-- What the call stores is that arithmetic of its loads: every load and the one store go through whole blocks. -/
theorem out4_4_eq (x0 : Vec Ideal S6000x16 .f32) (x1 : Vec Ideal S1x16 .f32) (x2 : Vec Ideal S6000x1 .f32)
    (x3 : Vec Ideal S16x8 .f32) : out4_4 x0 x1 x2 x3 = k4_pay1 x2 x0 x1 x3 x2 := by
  unfold out4_4
  rw [View.canon_unit_zero zeroOffsets]
  simp only [View.ld_unit_zero (S := S6000x1) zeroOffsets,
    View.ld_unit_zero (S := S6000x16) zeroOffsets,
    View.ld_unit_zero (S := S1x16) zeroOffsets,
    View.ld_unit_zero (S := S16x8) zeroOffsets,
    View.ld_unit_zero (S := S6000x8) zeroOffsets]

/-- Entry `(r, j)` of the output block, when row `r` of the blocks is row `p` of the arrays. -/
theorem block4_entry (x0 : Vec Ideal S6000x16 .f32) (x1 : Vec Ideal S1x16 .f32) (x2 : Vec Ideal S6000x1 .f32)
    (x3 : Vec Ideal S16x8 .f32) (A : S300000x16.Idx → EReal) (b : S1x16.Idx → EReal) (d : S300000x1.Idx → EReal)
    (W : S16x8.Idx → EReal) (r : Fin 6000) (j : Fin 8) (p : Fin 300000)
    (h0 : ∀ k : Fin 16, x0 (ix2 r k) = A (ix2 p k)) (h1 : ∀ k : Fin 16, x1 (ix2 0 k) = b (ix2 0 k))
    (h2 : x2 (ix2 r 0) = d (ix2 p 0)) (h3 : ∀ k : Fin 16, x3 (ix2 k j) = W (ix2 k j)) :
    out4_4 x0 x1 x2 x3 (ix2 r j) = stepOut A b d W (ix2 p j) := by
  rw [out4_4_eq, pay4_apply]
  exact stepOut_of_block x0 x1 x2 x3 A b d W r j p h0 h1 h2 h3

/-! ## Which rows a block holds -/

/-- The block index of each window at point `t`: the sums, the degree column and the output move with `t` along the
    nodes; the bias row and the matrix stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section

variable (V : (c : Dev nD) → (b : Ref sig .tc) → Buf (Elt Ideal) ((c : Thread nD τ).loc b)) (c : Dev nD)

/-- The block of sums at point `t` is rows `6000 t …` of the array of sums. -/
theorem iblk4_0_apply (t : Fin cfg4.N) (y : S6000x16.Idx) (i : S300000x16.Idx)
    (h0 : (i 0).val = t.val * 6000 + (y 0).val) (h1 : (i 1).val = (y 1).val) :
    (iblk4 V c 0 t : Vec Ideal S6000x16 .f32) y = (V c main_v61 : S300000x16.Idx → EReal) i := by
  obtain ⟨e0, e1, -⟩ := idx_facts4 t
  unfold iblk4
  rw [View.read_apply]
  show (V c main_v61 : S300000x16.Idx → EReal) (((cfg4.win 0).blk t).view.emb y) = _
  refine congrArg (V c main_v61 : S300000x16.Idx → EReal) (funext fun a => Fin.ext ?_)
  match a with
  | ⟨0, _⟩ => show win4_0.index t (0 : Fin 2) * 6000 + 1 * (y 0).val = (i 0).val; rw [e0, h0]; omega
  | ⟨1, _⟩ => show win4_0.index t (1 : Fin 2) * 16 + 1 * (y 1).val = (i 1).val; rw [e1, h1]; omega

/-- The bias row's block is the bias row. -/
theorem iblk4_1_apply (t : Fin cfg4.N) (y : S1x16.Idx) (i : S1x16.Idx)
    (h0 : (i 0).val = (y 0).val) (h1 : (i 1).val = (y 1).val) :
    (iblk4 V c 1 t : Vec Ideal S1x16 .f32) y = (V c main_v62 : S1x16.Idx → EReal) i := by
  obtain ⟨-, -, e0, e1, -⟩ := idx_facts4 t
  unfold iblk4
  rw [View.read_apply]
  show (V c main_v62 : S1x16.Idx → EReal) (((cfg4.win 1).blk t).view.emb y) = _
  refine congrArg (V c main_v62 : S1x16.Idx → EReal) (funext fun a => Fin.ext ?_)
  match a with
  | ⟨0, _⟩ => show win4_1.index t (0 : Fin 2) * 1 + 1 * (y 0).val = (i 0).val; rw [e0, h0]; omega
  | ⟨1, _⟩ => show win4_1.index t (1 : Fin 2) * 16 + 1 * (y 1).val = (i 1).val; rw [e1, h1]; omega

/-- The block of the degree column at point `t` is rows `6000 t …` of the column. -/
theorem iblk4_2_apply (t : Fin cfg4.N) (y : S6000x1.Idx) (i : S300000x1.Idx)
    (h0 : (i 0).val = t.val * 6000 + (y 0).val) (h1 : (i 1).val = (y 1).val) :
    (iblk4 V c 2 t : Vec Ideal S6000x1 .f32) y = (V c main_v15 : S300000x1.Idx → EReal) i := by
  obtain ⟨-, -, -, -, e0, e1, -⟩ := idx_facts4 t
  unfold iblk4
  rw [View.read_apply]
  show (V c main_v15 : S300000x1.Idx → EReal) (((cfg4.win 2).blk t).view.emb y) = _
  refine congrArg (V c main_v15 : S300000x1.Idx → EReal) (funext fun a => Fin.ext ?_)
  match a with
  | ⟨0, _⟩ => show win4_2.index t (0 : Fin 2) * 6000 + 1 * (y 0).val = (i 0).val; rw [e0, h0]; omega
  | ⟨1, _⟩ => show win4_2.index t (1 : Fin 2) * 1 + 1 * (y 1).val = (i 1).val; rw [e1, h1]; omega

/-- The matrix's block is the matrix. -/
theorem iblk4_3_apply (t : Fin cfg4.N) (y : S16x8.Idx) (i : S16x8.Idx)
    (h0 : (i 0).val = (y 0).val) (h1 : (i 1).val = (y 1).val) :
    (iblk4 V c 3 t : Vec Ideal S16x8 .f32) y = (V c main_arg20 : S16x8.Idx → EReal) i := by
  obtain ⟨-, -, -, -, -, -, e0, e1, -⟩ := idx_facts4 t
  unfold iblk4
  rw [View.read_apply]
  show (V c main_arg20 : S16x8.Idx → EReal) (((cfg4.win 3).blk t).view.emb y) = _
  refine congrArg (V c main_arg20 : S16x8.Idx → EReal) (funext fun a => Fin.ext ?_)
  match a with
  | ⟨0, _⟩ => show win4_3.index t (0 : Fin 2) * 16 + 1 * (y 0).val = (i 0).val; rw [e0, h0]; omega
  | ⟨1, _⟩ => show win4_3.index t (1 : Fin 2) * 8 + 1 * (y 1).val = (i 1).val; rw [e1, h1]; omega

/-! ## From the blocks to the array -/

/-- What point `t` writes back is block `t` of the step's array. -/
theorem flushed4_eq (t : Fin cfg4.N) :
    (dat4 (F := Ideal) V c).flushed 4 t
      = ((cfg4.win 4).blk t).view.read (Elt Ideal) (stepOut (V c main_v61 : S300000x16.Idx → EReal) (V c main_v62 : S1x16.Idx → EReal)
      (V c main_v15 : S300000x1.Idx → EReal) (V c main_arg20 : S16x8.Idx → EReal)) := by
  show (cfg4.win 4).cut (grid4.coords t) ((dat4 (F := Ideal) V c).after 4 t) = _
  rw [after4_4]
  funext y
  have hy0 : (y 0).val < 6000 := (y 0).isLt
  have hy1 : (y 1).val < 8 := (y 1).isLt
  have ht : t.val < 50 := lt_of_lt_of_eq t.isLt (show cfg4.N = 50 from N_4)
  have hp : t.val * 6000 + (y 0).val < 300000 := blockRow_lt (T := 50) rfl ht hy0
  obtain ⟨-, -, -, -, -, -, -, -, e0, e1⟩ := idx_facts4 t
  have hx : (cfg4.win 4).xinj (grid4.coords t) y = ix2 (⟨(y 0).val, hy0⟩ : Fin 6000) (⟨(y 1).val, hy1⟩ : Fin 8) :=
    funext fun a => by
      match a with
      | ⟨0, _⟩ => rfl
      | ⟨1, _⟩ => rfl
  have he : ((cfg4.win 4).blk t).view.emb y
      = ix2 (⟨t.val * 6000 + (y 0).val, hp⟩ : Fin 300000) (⟨(y 1).val, hy1⟩ : Fin 8) :=
    funext fun a => Fin.ext (by
      match a with
      | ⟨0, _⟩ => show win4_4.index t (0 : Fin 2) * 6000 + 1 * (y 0).val = t.val * 6000 + (y 0).val; rw [e0]; omega
      | ⟨1, _⟩ => show win4_4.index t (1 : Fin 2) * 8 + 1 * (y 1).val = (y 1).val; rw [e1]; omega)
  show out4_4 (iblk4 V c 0 t) (iblk4 V c 1 t) (iblk4 V c 2 t) (iblk4 V c 3 t)
      ((cfg4.win 4).xinj (grid4.coords t) y)
    = stepOut (V c main_v61 : S300000x16.Idx → EReal) (V c main_v62 : S1x16.Idx → EReal)
      (V c main_v15 : S300000x1.Idx → EReal) (V c main_arg20 : S16x8.Idx → EReal)
      (((cfg4.win 4).blk t).view.emb y)
  refine (congrArg (out4_4 (iblk4 V c 0 t) (iblk4 V c 1 t) (iblk4 V c 2 t) (iblk4 V c 3 t)) hx).trans ?_
  refine (block4_entry (iblk4 V c 0 t) (iblk4 V c 1 t) (iblk4 V c 2 t) (iblk4 V c 3 t)
    (V c main_v61 : S300000x16.Idx → EReal) (V c main_v62 : S1x16.Idx → EReal)
      (V c main_v15 : S300000x1.Idx → EReal) (V c main_arg20 : S16x8.Idx → EReal)
    ⟨(y 0).val, hy0⟩ ⟨(y 1).val, hy1⟩ ⟨t.val * 6000 + (y 0).val, hp⟩
    (fun k => iblk4_0_apply V c t (ix2 ⟨(y 0).val, hy0⟩ k) (ix2 ⟨t.val * 6000 + (y 0).val, hp⟩ k) rfl rfl)
    (fun k => iblk4_1_apply V c t (ix2 0 k) (ix2 0 k) rfl rfl)
    (iblk4_2_apply V c t (ix2 ⟨(y 0).val, hy0⟩ 0) (ix2 ⟨t.val * 6000 + (y 0).val, hp⟩ 0) rfl rfl)
    (fun k => iblk4_3_apply V c t (ix2 k ⟨(y 1).val, hy1⟩) (ix2 k ⟨(y 1).val, hy1⟩) rfl rfl)).trans ?_
  exact (congrArg (stepOut (V c main_v61 : S300000x16.Idx → EReal) (V c main_v62 : S1x16.Idx → EReal)
      (V c main_v15 : S300000x1.Idx → EReal) (V c main_arg20 : S16x8.Idx → EReal)) he).symm

/-- An entry of the output array is in point `t`'s block iff each coordinate is in the block's range. -/
theorem mem_blk4 (t : Fin cfg4.N) (i : S300000x8.Idx) :
    i ∈ ((cfg4.win 4).blk t).view.set
      ↔ ∀ a : Fin 2, win4_4.index t a * S6000x8.size a ≤ (i a).val
          ∧ (i a).val < win4_4.index t a * S6000x8.size a + S6000x8.size a := by
  show i ∈ ((View.whole main_v63).slice (win4_4.rect t)).set ↔ _
  rw [View.set_slice_whole, Rect.mem_set_unit]
  exact Iff.rfl

/-- Every entry of the output array is written: node `p` by the point `p / 6000`. -/
theorem cover4 (i : S300000x8.Idx) :
    ∃ t : Fin cfg4.N, (cfg4.win 4).flush t = true ∧ i ∈ ((cfg4.win 4).blk t).view.set := by
  have hi0 : (i 0).val < 300000 := (i 0).isLt
  have hi1 : (i 1).val < 8 := (i 1).isLt
  obtain ⟨t, ht⟩ : ∃ t : Fin cfg4.N, t.val = (i 0).val / 6000 :=
    ⟨⟨(i 0).val / 6000, by rw [show cfg4.N = 50 from N_4]; omega⟩, rfl⟩
  obtain ⟨-, -, -, -, -, -, -, -, e0, e1⟩ := idx_facts4 t
  refine ⟨t, flush4_4 t, ?_⟩
  rw [mem_blk4]
  intro a
  match a with
  | ⟨0, _⟩ =>
    show win4_4.index t (0 : Fin 2) * 6000 ≤ (i 0).val ∧ (i 0).val < win4_4.index t (0 : Fin 2) * 6000 + 6000
    rw [e0, ht]; omega
  | ⟨1, _⟩ =>
    show win4_4.index t (1 : Fin 2) * 8 ≤ (i 1).val ∧ (i 1).val < win4_4.index t (1 : Fin 2) * 8 + 8
    rw [e1]; omega

/-- The output array after the call is the step's array. -/
theorem final4 : (dat4 (F := Ideal) V c).arrAt 4 cfg4.N
    = stepOut (V c main_v61 : S300000x16.Idx → EReal) (V c main_v62 : S1x16.Idx → EReal)
      (V c main_v15 : S300000x1.Idx → EReal) (V c main_arg20 : S16x8.Idx → EReal) :=
  (dat4 (F := Ideal) V c).arrAt_eq_of_cover 4 _ (fun t _ => flushed4_eq V c t) (cover4)

/-- THE VALUE OF THE CALL: entry `(p, j)` of its output array. -/
theorem region4_value (p : Fin 300000) (j : Fin 8) :
    (dat4 (F := Ideal) V c).arrAt 4 cfg4.N (ix2 p j)
      = linK (colv (V c main_v15 : S300000x1.Idx → EReal))
          (actK (colv (V c main_v15 : S300000x1.Idx → EReal)) (mat (V c main_v61 : S300000x16.Idx → EReal))
            (rowv (V c main_v62 : S1x16.Idx → EReal)))
          (mat (V c main_arg20 : S16x8.Idx → EReal)) p j :=
  congrFun (final4 V c) (ix2 p j)

end

end Cert.KernelIdeal.RegionValue

end
-- ==== Proof.RegionValue5.lean ====
/-
  What the node-side step after the fourth graph-convolution layer's collection leaves in its output array.

  The call reads the sums the nodes collected (8 features a node), the layer's bias row, the column of degree
  factors and the next layer's 8 × 4 matrix, in blocks of 6000 consecutive nodes, and writes for every node p and
  output feature j

      out(p, j) = (∑ₖ max (d(p) · a(p, k) + b(k)) 0 · W(k, j)) · d(p).

  The proof reads the call's arithmetic at one entry of a block, identifies row r of block t with node 6000 · t + r of
  the arrays (the bias row and the matrix are the same at every block), and then uses that the 50 blocks cover the
  300000 nodes: node p lies in block p / 6000.
-/
import proofs.«128436_j51488067944595_2_alg».proof.Proof.Gen.KernelIdeal.Frame
import proofs.«128436_j51488067944595_2_alg».proof.Proof.Spec
import proofs.«128436_j51488067944595_2_alg».proof.Proof.LibDenseRow
import proofs.«128436_j51488067944595_2_alg».proof.Proof.RegionValueCommon
import Idealize.ShloMosaic.Lib.Pipeline.Value

noncomputable section

open scoped BigOperators

namespace Cert.KernelIdeal.RegionValue

open Cert.KernelIdeal Cert.KernelIdeal.Gen Cert.Spec Idealize.ShloMosaic Idealize.ShloMosaic.ValueIdx
open Idealize.ShloMosaic.Pipeline (Dat)
open Idealize.ShloMosaic.TcCoe

/-! ## The call's arithmetic at one entry of a block -/

/-- Entry `(r, j)` of what the call computes from a block of sums `v2`, the bias row `v6`, the matrix `v13` and the
    block of the degree column, which it loads twice (`v0` for the scaling before the positive part, `v16` for the
    one after the matrix). -/
theorem pay5_apply (v0 : Vec Ideal S6000x1 .f32) (v2 : Vec Ideal S6000x8 .f32) (v6 : Vec Ideal S1x8 .f32)
    (v13 : Vec Ideal S8x4 .f32) (v16 : Vec Ideal S6000x1 .f32) (r : Fin 6000) (j : Fin 4) :
    k5_pay1 v0 v2 v6 v13 v16 (ix2 r j)
      = linK (colv v16) (actK (colv v0) (mat v2) (rowv v6)) (mat v13) r j := by
  unfold k5_pay1
  simp only [shapeCast_self]
  exact actDense_apply 6000 8 4 v0 v2 v6 v13 v16 _ _ _ _ r j

/-- What the call stores is that arithmetic of its loads: every load and the one store go through whole blocks. -/
theorem out5_4_eq (x0 : Vec Ideal S6000x8 .f32) (x1 : Vec Ideal S1x8 .f32) (x2 : Vec Ideal S6000x1 .f32)
    (x3 : Vec Ideal S8x4 .f32) : out5_4 x0 x1 x2 x3 = k5_pay1 x2 x0 x1 x3 x2 := by
  unfold out5_4
  rw [View.canon_unit_zero zeroOffsets]
  simp only [View.ld_unit_zero (S := S6000x1) zeroOffsets,
    View.ld_unit_zero (S := S6000x8) zeroOffsets,
    View.ld_unit_zero (S := S1x8) zeroOffsets,
    View.ld_unit_zero (S := S8x4) zeroOffsets,
    View.ld_unit_zero (S := S6000x4) zeroOffsets]

/-- Entry `(r, j)` of the output block, when row `r` of the blocks is row `p` of the arrays. -/
theorem block5_entry (x0 : Vec Ideal S6000x8 .f32) (x1 : Vec Ideal S1x8 .f32) (x2 : Vec Ideal S6000x1 .f32)
    (x3 : Vec Ideal S8x4 .f32) (A : S300000x8.Idx → EReal) (b : S1x8.Idx → EReal) (d : S300000x1.Idx → EReal)
    (W : S8x4.Idx → EReal) (r : Fin 6000) (j : Fin 4) (p : Fin 300000)
    (h0 : ∀ k : Fin 8, x0 (ix2 r k) = A (ix2 p k)) (h1 : ∀ k : Fin 8, x1 (ix2 0 k) = b (ix2 0 k))
    (h2 : x2 (ix2 r 0) = d (ix2 p 0)) (h3 : ∀ k : Fin 8, x3 (ix2 k j) = W (ix2 k j)) :
    out5_4 x0 x1 x2 x3 (ix2 r j) = stepOut A b d W (ix2 p j) := by
  rw [out5_4_eq, pay5_apply]
  exact stepOut_of_block x0 x1 x2 x3 A b d W r j p h0 h1 h2 h3

/-! ## Which rows a block holds -/

/-- The block index of each window at point `t`: the sums, the degree column and the output move with `t` along the
    nodes; the bias row and the matrix stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section

variable (V : (c : Dev nD) → (b : Ref sig .tc) → Buf (Elt Ideal) ((c : Thread nD τ).loc b)) (c : Dev nD)

/-- The block of sums at point `t` is rows `6000 t …` of the array of sums. -/
theorem iblk5_0_apply (t : Fin cfg5.N) (y : S6000x8.Idx) (i : S300000x8.Idx)
    (h0 : (i 0).val = t.val * 6000 + (y 0).val) (h1 : (i 1).val = (y 1).val) :
    (iblk5 V c 0 t : Vec Ideal S6000x8 .f32) y = (V c main_v73 : S300000x8.Idx → EReal) i := by
  obtain ⟨e0, e1, -⟩ := idx_facts5 t
  unfold iblk5
  rw [View.read_apply]
  show (V c main_v73 : S300000x8.Idx → EReal) (((cfg5.win 0).blk t).view.emb y) = _
  refine congrArg (V c main_v73 : S300000x8.Idx → EReal) (funext fun a => Fin.ext ?_)
  match a with
  | ⟨0, _⟩ => show win5_0.index t (0 : Fin 2) * 6000 + 1 * (y 0).val = (i 0).val; rw [e0, h0]; omega
  | ⟨1, _⟩ => show win5_0.index t (1 : Fin 2) * 8 + 1 * (y 1).val = (i 1).val; rw [e1, h1]; omega

/-- The bias row's block is the bias row. -/
theorem iblk5_1_apply (t : Fin cfg5.N) (y : S1x8.Idx) (i : S1x8.Idx)
    (h0 : (i 0).val = (y 0).val) (h1 : (i 1).val = (y 1).val) :
    (iblk5 V c 1 t : Vec Ideal S1x8 .f32) y = (V c main_v74 : S1x8.Idx → EReal) i := by
  obtain ⟨-, -, e0, e1, -⟩ := idx_facts5 t
  unfold iblk5
  rw [View.read_apply]
  show (V c main_v74 : S1x8.Idx → EReal) (((cfg5.win 1).blk t).view.emb y) = _
  refine congrArg (V c main_v74 : S1x8.Idx → EReal) (funext fun a => Fin.ext ?_)
  match a with
  | ⟨0, _⟩ => show win5_1.index t (0 : Fin 2) * 1 + 1 * (y 0).val = (i 0).val; rw [e0, h0]; omega
  | ⟨1, _⟩ => show win5_1.index t (1 : Fin 2) * 8 + 1 * (y 1).val = (i 1).val; rw [e1, h1]; omega

/-- The block of the degree column at point `t` is rows `6000 t …` of the column. -/
theorem iblk5_2_apply (t : Fin cfg5.N) (y : S6000x1.Idx) (i : S300000x1.Idx)
    (h0 : (i 0).val = t.val * 6000 + (y 0).val) (h1 : (i 1).val = (y 1).val) :
    (iblk5 V c 2 t : Vec Ideal S6000x1 .f32) y = (V c main_v15 : S300000x1.Idx → EReal) i := by
  obtain ⟨-, -, -, -, e0, e1, -⟩ := idx_facts5 t
  unfold iblk5
  rw [View.read_apply]
  show (V c main_v15 : S300000x1.Idx → EReal) (((cfg5.win 2).blk t).view.emb y) = _
  refine congrArg (V c main_v15 : S300000x1.Idx → EReal) (funext fun a => Fin.ext ?_)
  match a with
  | ⟨0, _⟩ => show win5_2.index t (0 : Fin 2) * 6000 + 1 * (y 0).val = (i 0).val; rw [e0, h0]; omega
  | ⟨1, _⟩ => show win5_2.index t (1 : Fin 2) * 1 + 1 * (y 1).val = (i 1).val; rw [e1, h1]; omega

/-- The matrix's block is the matrix. -/
theorem iblk5_3_apply (t : Fin cfg5.N) (y : S8x4.Idx) (i : S8x4.Idx)
    (h0 : (i 0).val = (y 0).val) (h1 : (i 1).val = (y 1).val) :
    (iblk5 V c 3 t : Vec Ideal S8x4 .f32) y = (V c main_arg22 : S8x4.Idx → EReal) i := by
  obtain ⟨-, -, -, -, -, -, e0, e1, -⟩ := idx_facts5 t
  unfold iblk5
  rw [View.read_apply]
  show (V c main_arg22 : S8x4.Idx → EReal) (((cfg5.win 3).blk t).view.emb y) = _
  refine congrArg (V c main_arg22 : S8x4.Idx → EReal) (funext fun a => Fin.ext ?_)
  match a with
  | ⟨0, _⟩ => show win5_3.index t (0 : Fin 2) * 8 + 1 * (y 0).val = (i 0).val; rw [e0, h0]; omega
  | ⟨1, _⟩ => show win5_3.index t (1 : Fin 2) * 4 + 1 * (y 1).val = (i 1).val; rw [e1, h1]; omega

/-! ## From the blocks to the array -/

/-- What point `t` writes back is block `t` of the step's array. -/
theorem flushed5_eq (t : Fin cfg5.N) :
    (dat5 (F := Ideal) V c).flushed 4 t
      = ((cfg5.win 4).blk t).view.read (Elt Ideal) (stepOut (V c main_v73 : S300000x8.Idx → EReal) (V c main_v74 : S1x8.Idx → EReal)
      (V c main_v15 : S300000x1.Idx → EReal) (V c main_arg22 : S8x4.Idx → EReal)) := by
  show (cfg5.win 4).cut (grid5.coords t) ((dat5 (F := Ideal) V c).after 4 t) = _
  rw [after5_4]
  funext y
  have hy0 : (y 0).val < 6000 := (y 0).isLt
  have hy1 : (y 1).val < 4 := (y 1).isLt
  have ht : t.val < 50 := lt_of_lt_of_eq t.isLt (show cfg5.N = 50 from N_5)
  have hp : t.val * 6000 + (y 0).val < 300000 := blockRow_lt (T := 50) rfl ht hy0
  obtain ⟨-, -, -, -, -, -, -, -, e0, e1⟩ := idx_facts5 t
  have hx : (cfg5.win 4).xinj (grid5.coords t) y = ix2 (⟨(y 0).val, hy0⟩ : Fin 6000) (⟨(y 1).val, hy1⟩ : Fin 4) :=
    funext fun a => by
      match a with
      | ⟨0, _⟩ => rfl
      | ⟨1, _⟩ => rfl
  have he : ((cfg5.win 4).blk t).view.emb y
      = ix2 (⟨t.val * 6000 + (y 0).val, hp⟩ : Fin 300000) (⟨(y 1).val, hy1⟩ : Fin 4) :=
    funext fun a => Fin.ext (by
      match a with
      | ⟨0, _⟩ => show win5_4.index t (0 : Fin 2) * 6000 + 1 * (y 0).val = t.val * 6000 + (y 0).val; rw [e0]; omega
      | ⟨1, _⟩ => show win5_4.index t (1 : Fin 2) * 4 + 1 * (y 1).val = (y 1).val; rw [e1]; omega)
  show out5_4 (iblk5 V c 0 t) (iblk5 V c 1 t) (iblk5 V c 2 t) (iblk5 V c 3 t)
      ((cfg5.win 4).xinj (grid5.coords t) y)
    = stepOut (V c main_v73 : S300000x8.Idx → EReal) (V c main_v74 : S1x8.Idx → EReal)
      (V c main_v15 : S300000x1.Idx → EReal) (V c main_arg22 : S8x4.Idx → EReal)
      (((cfg5.win 4).blk t).view.emb y)
  refine (congrArg (out5_4 (iblk5 V c 0 t) (iblk5 V c 1 t) (iblk5 V c 2 t) (iblk5 V c 3 t)) hx).trans ?_
  refine (block5_entry (iblk5 V c 0 t) (iblk5 V c 1 t) (iblk5 V c 2 t) (iblk5 V c 3 t)
    (V c main_v73 : S300000x8.Idx → EReal) (V c main_v74 : S1x8.Idx → EReal)
      (V c main_v15 : S300000x1.Idx → EReal) (V c main_arg22 : S8x4.Idx → EReal)
    ⟨(y 0).val, hy0⟩ ⟨(y 1).val, hy1⟩ ⟨t.val * 6000 + (y 0).val, hp⟩
    (fun k => iblk5_0_apply V c t (ix2 ⟨(y 0).val, hy0⟩ k) (ix2 ⟨t.val * 6000 + (y 0).val, hp⟩ k) rfl rfl)
    (fun k => iblk5_1_apply V c t (ix2 0 k) (ix2 0 k) rfl rfl)
    (iblk5_2_apply V c t (ix2 ⟨(y 0).val, hy0⟩ 0) (ix2 ⟨t.val * 6000 + (y 0).val, hp⟩ 0) rfl rfl)
    (fun k => iblk5_3_apply V c t (ix2 k ⟨(y 1).val, hy1⟩) (ix2 k ⟨(y 1).val, hy1⟩) rfl rfl)).trans ?_
  exact (congrArg (stepOut (V c main_v73 : S300000x8.Idx → EReal) (V c main_v74 : S1x8.Idx → EReal)
      (V c main_v15 : S300000x1.Idx → EReal) (V c main_arg22 : S8x4.Idx → EReal)) he).symm

/-- An entry of the output array is in point `t`'s block iff each coordinate is in the block's range. -/
theorem mem_blk5 (t : Fin cfg5.N) (i : S300000x4.Idx) :
    i ∈ ((cfg5.win 4).blk t).view.set
      ↔ ∀ a : Fin 2, win5_4.index t a * S6000x4.size a ≤ (i a).val
          ∧ (i a).val < win5_4.index t a * S6000x4.size a + S6000x4.size a := by
  show i ∈ ((View.whole main_v75).slice (win5_4.rect t)).set ↔ _
  rw [View.set_slice_whole, Rect.mem_set_unit]
  exact Iff.rfl

/-- Every entry of the output array is written: node `p` by the point `p / 6000`. -/
theorem cover5 (i : S300000x4.Idx) :
    ∃ t : Fin cfg5.N, (cfg5.win 4).flush t = true ∧ i ∈ ((cfg5.win 4).blk t).view.set := by
  have hi0 : (i 0).val < 300000 := (i 0).isLt
  have hi1 : (i 1).val < 4 := (i 1).isLt
  obtain ⟨t, ht⟩ : ∃ t : Fin cfg5.N, t.val = (i 0).val / 6000 :=
    ⟨⟨(i 0).val / 6000, by rw [show cfg5.N = 50 from N_5]; omega⟩, rfl⟩
  obtain ⟨-, -, -, -, -, -, -, -, e0, e1⟩ := idx_facts5 t
  refine ⟨t, flush5_4 t, ?_⟩
  rw [mem_blk5]
  intro a
  match a with
  | ⟨0, _⟩ =>
    show win5_4.index t (0 : Fin 2) * 6000 ≤ (i 0).val ∧ (i 0).val < win5_4.index t (0 : Fin 2) * 6000 + 6000
    rw [e0, ht]; omega
  | ⟨1, _⟩ =>
    show win5_4.index t (1 : Fin 2) * 4 ≤ (i 1).val ∧ (i 1).val < win5_4.index t (1 : Fin 2) * 4 + 4
    rw [e1]; omega

/-- The output array after the call is the step's array. -/
theorem final5 : (dat5 (F := Ideal) V c).arrAt 4 cfg5.N
    = stepOut (V c main_v73 : S300000x8.Idx → EReal) (V c main_v74 : S1x8.Idx → EReal)
      (V c main_v15 : S300000x1.Idx → EReal) (V c main_arg22 : S8x4.Idx → EReal) :=
  (dat5 (F := Ideal) V c).arrAt_eq_of_cover 4 _ (fun t _ => flushed5_eq V c t) (cover5)

/-- THE VALUE OF THE CALL: entry `(p, j)` of its output array. -/
theorem region5_value (p : Fin 300000) (j : Fin 4) :
    (dat5 (F := Ideal) V c).arrAt 4 cfg5.N (ix2 p j)
      = linK (colv (V c main_v15 : S300000x1.Idx → EReal))
          (actK (colv (V c main_v15 : S300000x1.Idx → EReal)) (mat (V c main_v73 : S300000x8.Idx → EReal))
            (rowv (V c main_v74 : S1x8.Idx → EReal)))
          (mat (V c main_arg22 : S8x4.Idx → EReal)) p j :=
  congrFun (final5 V c) (ix2 p j)

end

end Cert.KernelIdeal.RegionValue

end
-- ==== Proof.RegionValue6.lean ====
/-
  What the node-side step of the last graph-convolution layer leaves in its output array.

  The step reads the sums the nodes collected (4 features a node), the layer's bias row and the column of degree
  factors, in blocks of 6000 consecutive nodes, and writes for every node p and feature k

      out(p, k) = max (d(p) · a(p, k) + b(k)) 0.

  The proof reads the arithmetic at one entry of a block, identifies row r of block t with node 6000 · t + r of the
  arrays (the bias row is the same at every block), and then uses that the 50 blocks cover the 300000 nodes: node p
  lies in block p / 6000.
-/
import proofs.«128436_j51488067944595_2_alg».proof.Proof.Gen.KernelIdeal.Frame
import proofs.«128436_j51488067944595_2_alg».proof.Proof.Spec
import proofs.«128436_j51488067944595_2_alg».proof.Proof.LibDenseRow
import proofs.«128436_j51488067944595_2_alg».proof.Proof.RegionValueCommon
import Idealize.ShloMosaic.Lib.Pipeline.Value

noncomputable section

open scoped BigOperators

namespace Cert.KernelIdeal.RegionValue

open Cert.KernelIdeal Cert.KernelIdeal.Gen Cert.Spec Idealize.ShloMosaic Idealize.ShloMosaic.ValueIdx
open Idealize.ShloMosaic.Pipeline (Dat)
open Idealize.ShloMosaic.TcCoe

/-! ## The step's arithmetic at one entry of a block -/

/-- Entry `(r, k)` of what the step computes from a block of sums `v2`, the bias row `v6` and the block `v0` of the
    degree column. -/
theorem pay6_apply (v0 : Vec Ideal S6000x1 .f32) (v2 : Vec Ideal S6000x4 .f32) (v6 : Vec Ideal S1x4 .f32)
    (r : Fin 6000) (k : Fin 4) :
    k6_pay1 v0 v2 v6 (ix2 r k) = actK (colv v0) (mat v2) (rowv v6) r k := by
  unfold k6_pay1
  simp only [shapeCast_self]
  exact act_apply 6000 4 v0 v2 v6 _ _ r k

/-- What the step stores is that arithmetic of its loads: every load and the one store go through whole blocks. -/
theorem out6_3_eq (x0 : Vec Ideal S6000x4 .f32) (x1 : Vec Ideal S1x4 .f32) (x2 : Vec Ideal S6000x1 .f32) :
    out6_3 x0 x1 x2 = k6_pay1 x2 x0 x1 := by
  unfold out6_3
  rw [View.canon_unit_zero zeroOffsets]
  simp only [View.ld_unit_zero (S := S6000x1) zeroOffsets, View.ld_unit_zero (S := S6000x4) zeroOffsets,
    View.ld_unit_zero (S := S1x4) zeroOffsets]

/-- Entry `(r, k)` of the output block, when row `r` of the blocks is row `p` of the arrays. -/
theorem block6_entry (x0 : Vec Ideal S6000x4 .f32) (x1 : Vec Ideal S1x4 .f32) (x2 : Vec Ideal S6000x1 .f32)
    (A : S300000x4.Idx → EReal) (b : S1x4.Idx → EReal) (d : S300000x1.Idx → EReal)
    (r : Fin 6000) (k : Fin 4) (p : Fin 300000)
    (h0 : x0 (ix2 r k) = A (ix2 p k)) (h1 : x1 (ix2 0 k) = b (ix2 0 k)) (h2 : x2 (ix2 r 0) = d (ix2 p 0)) :
    out6_3 x0 x1 x2 (ix2 r k) = stepLast A b d (ix2 p k) := by
  rw [out6_3_eq, pay6_apply]
  exact stepLast_of_block x0 x1 x2 A b d r k p h0 h1 h2

/-! ## Which rows a block holds -/

/-- The block index of each window at point `t`: the sums, the degree column and the output move with `t` along the
    nodes; the bias row stays. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

section

variable (V : (c : Dev nD) → (b : Ref sig .tc) → Buf (Elt Ideal) ((c : Thread nD τ).loc b)) (c : Dev nD)

/-- The block of sums at point `t` is rows `6000 t …` of the array of sums. -/
theorem iblk6_0_apply (t : Fin cfg6.N) (y : S6000x4.Idx) (i : S300000x4.Idx)
    (h0 : (i 0).val = t.val * 6000 + (y 0).val) (h1 : (i 1).val = (y 1).val) :
    (iblk6 V c 0 t : Vec Ideal S6000x4 .f32) y = (V c main_v85 : S300000x4.Idx → EReal) i := by
  obtain ⟨e0, e1, -⟩ := idx_facts6 t
  unfold iblk6
  rw [View.read_apply]
  show (V c main_v85 : S300000x4.Idx → EReal) (((cfg6.win 0).blk t).view.emb y) = _
  refine congrArg (V c main_v85 : S300000x4.Idx → EReal) (funext fun a => Fin.ext ?_)
  match a with
  | ⟨0, _⟩ => show win6_0.index t (0 : Fin 2) * 6000 + 1 * (y 0).val = (i 0).val; rw [e0, h0]; omega
  | ⟨1, _⟩ => show win6_0.index t (1 : Fin 2) * 4 + 1 * (y 1).val = (i 1).val; rw [e1, h1]; omega

/-- The bias row's block is the bias row. -/
theorem iblk6_1_apply (t : Fin cfg6.N) (y : S1x4.Idx) (i : S1x4.Idx)
    (h0 : (i 0).val = (y 0).val) (h1 : (i 1).val = (y 1).val) :
    (iblk6 V c 1 t : Vec Ideal S1x4 .f32) y = (V c main_v86 : S1x4.Idx → EReal) i := by
  obtain ⟨-, -, e0, e1, -⟩ := idx_facts6 t
  unfold iblk6
  rw [View.read_apply]
  show (V c main_v86 : S1x4.Idx → EReal) (((cfg6.win 1).blk t).view.emb y) = _
  refine congrArg (V c main_v86 : S1x4.Idx → EReal) (funext fun a => Fin.ext ?_)
  match a with
  | ⟨0, _⟩ => show win6_1.index t (0 : Fin 2) * 1 + 1 * (y 0).val = (i 0).val; rw [e0, h0]; omega
  | ⟨1, _⟩ => show win6_1.index t (1 : Fin 2) * 4 + 1 * (y 1).val = (i 1).val; rw [e1, h1]; omega

/-- The block of the degree column at point `t` is rows `6000 t …` of the column. -/
theorem iblk6_2_apply (t : Fin cfg6.N) (y : S6000x1.Idx) (i : S300000x1.Idx)
    (h0 : (i 0).val = t.val * 6000 + (y 0).val) (h1 : (i 1).val = (y 1).val) :
    (iblk6 V c 2 t : Vec Ideal S6000x1 .f32) y = (V c main_v15 : S300000x1.Idx → EReal) i := by
  obtain ⟨-, -, -, -, e0, e1, -⟩ := idx_facts6 t
  unfold iblk6
  rw [View.read_apply]
  show (V c main_v15 : S300000x1.Idx → EReal) (((cfg6.win 2).blk t).view.emb y) = _
  refine congrArg (V c main_v15 : S300000x1.Idx → EReal) (funext fun a => Fin.ext ?_)
  match a with
  | ⟨0, _⟩ => show win6_2.index t (0 : Fin 2) * 6000 + 1 * (y 0).val = (i 0).val; rw [e0, h0]; omega
  | ⟨1, _⟩ => show win6_2.index t (1 : Fin 2) * 1 + 1 * (y 1).val = (i 1).val; rw [e1, h1]; omega

/-! ## From the blocks to the array -/

/-- What point `t` writes back is block `t` of the step's array. -/
theorem flushed6_eq (t : Fin cfg6.N) :
    (dat6 (F := Ideal) V c).flushed 3 t
      = ((cfg6.win 3).blk t).view.read (Elt Ideal) (stepLast (V c main_v85 : S300000x4.Idx → EReal) (V c main_v86 : S1x4.Idx → EReal)
      (V c main_v15 : S300000x1.Idx → EReal)) := by
  show (cfg6.win 3).cut (grid6.coords t) ((dat6 (F := Ideal) V c).after 3 t) = _
  rw [after6_3]
  funext y
  have hy0 : (y 0).val < 6000 := (y 0).isLt
  have hy1 : (y 1).val < 4 := (y 1).isLt
  have ht : t.val < 50 := lt_of_lt_of_eq t.isLt (show cfg6.N = 50 from N_6)
  have hp : t.val * 6000 + (y 0).val < 300000 := blockRow_lt (T := 50) rfl ht hy0
  obtain ⟨-, -, -, -, -, -, e0, e1⟩ := idx_facts6 t
  have hx : (cfg6.win 3).xinj (grid6.coords t) y = ix2 (⟨(y 0).val, hy0⟩ : Fin 6000) (⟨(y 1).val, hy1⟩ : Fin 4) :=
    funext fun a => by
      match a with
      | ⟨0, _⟩ => rfl
      | ⟨1, _⟩ => rfl
  have he : ((cfg6.win 3).blk t).view.emb y
      = ix2 (⟨t.val * 6000 + (y 0).val, hp⟩ : Fin 300000) (⟨(y 1).val, hy1⟩ : Fin 4) :=
    funext fun a => Fin.ext (by
      match a with
      | ⟨0, _⟩ => show win6_3.index t (0 : Fin 2) * 6000 + 1 * (y 0).val = t.val * 6000 + (y 0).val; rw [e0]; omega
      | ⟨1, _⟩ => show win6_3.index t (1 : Fin 2) * 4 + 1 * (y 1).val = (y 1).val; rw [e1]; omega)
  show out6_3 (iblk6 V c 0 t) (iblk6 V c 1 t) (iblk6 V c 2 t)
      ((cfg6.win 3).xinj (grid6.coords t) y)
    = stepLast (V c main_v85 : S300000x4.Idx → EReal) (V c main_v86 : S1x4.Idx → EReal)
      (V c main_v15 : S300000x1.Idx → EReal)
      (((cfg6.win 3).blk t).view.emb y)
  refine (congrArg (out6_3 (iblk6 V c 0 t) (iblk6 V c 1 t) (iblk6 V c 2 t)) hx).trans ?_
  refine (block6_entry (iblk6 V c 0 t) (iblk6 V c 1 t) (iblk6 V c 2 t)
    (V c main_v85 : S300000x4.Idx → EReal) (V c main_v86 : S1x4.Idx → EReal)
      (V c main_v15 : S300000x1.Idx → EReal)
    ⟨(y 0).val, hy0⟩ ⟨(y 1).val, hy1⟩ ⟨t.val * 6000 + (y 0).val, hp⟩
    (iblk6_0_apply V c t (ix2 ⟨(y 0).val, hy0⟩ ⟨(y 1).val, hy1⟩)
      (ix2 ⟨t.val * 6000 + (y 0).val, hp⟩ ⟨(y 1).val, hy1⟩) rfl rfl)
    (iblk6_1_apply V c t (ix2 0 ⟨(y 1).val, hy1⟩) (ix2 0 ⟨(y 1).val, hy1⟩) rfl rfl)
    (iblk6_2_apply V c t (ix2 ⟨(y 0).val, hy0⟩ 0) (ix2 ⟨t.val * 6000 + (y 0).val, hp⟩ 0) rfl rfl)).trans ?_
  exact (congrArg (stepLast (V c main_v85 : S300000x4.Idx → EReal) (V c main_v86 : S1x4.Idx → EReal)
      (V c main_v15 : S300000x1.Idx → EReal)) he).symm

/-- An entry of the output array is in point `t`'s block iff each coordinate is in the block's range. -/
theorem mem_blk6 (t : Fin cfg6.N) (i : S300000x4.Idx) :
    i ∈ ((cfg6.win 3).blk t).view.set
      ↔ ∀ a : Fin 2, win6_3.index t a * S6000x4.size a ≤ (i a).val
          ∧ (i a).val < win6_3.index t a * S6000x4.size a + S6000x4.size a := by
  show i ∈ ((View.whole main_v87).slice (win6_3.rect t)).set ↔ _
  rw [View.set_slice_whole, Rect.mem_set_unit]
  exact Iff.rfl

/-- Every entry of the output array is written: node `p` by the point `p / 6000`. -/
theorem cover6 (i : S300000x4.Idx) :
    ∃ t : Fin cfg6.N, (cfg6.win 3).flush t = true ∧ i ∈ ((cfg6.win 3).blk t).view.set := by
  have hi0 : (i 0).val < 300000 := (i 0).isLt
  have hi1 : (i 1).val < 4 := (i 1).isLt
  obtain ⟨t, ht⟩ : ∃ t : Fin cfg6.N, t.val = (i 0).val / 6000 :=
    ⟨⟨(i 0).val / 6000, by rw [show cfg6.N = 50 from N_6]; omega⟩, rfl⟩
  obtain ⟨-, -, -, -, -, -, e0, e1⟩ := idx_facts6 t
  refine ⟨t, flush6_3 t, ?_⟩
  rw [mem_blk6]
  intro a
  match a with
  | ⟨0, _⟩ =>
    show win6_3.index t (0 : Fin 2) * 6000 ≤ (i 0).val ∧ (i 0).val < win6_3.index t (0 : Fin 2) * 6000 + 6000
    rw [e0, ht]; omega
  | ⟨1, _⟩ =>
    show win6_3.index t (1 : Fin 2) * 4 ≤ (i 1).val ∧ (i 1).val < win6_3.index t (1 : Fin 2) * 4 + 4
    rw [e1]; omega

/-- The output array after the step is the step's array. -/
theorem final6 : (dat6 (F := Ideal) V c).arrAt 3 cfg6.N
    = stepLast (V c main_v85 : S300000x4.Idx → EReal) (V c main_v86 : S1x4.Idx → EReal)
      (V c main_v15 : S300000x1.Idx → EReal) :=
  (dat6 (F := Ideal) V c).arrAt_eq_of_cover 3 _ (fun t _ => flushed6_eq V c t) (cover6)

/-- THE VALUE OF THE STEP: entry `(p, j)` of its output array. -/
theorem region6_value (p : Fin 300000) (j : Fin 4) :
    (dat6 (F := Ideal) V c).arrAt 3 cfg6.N (ix2 p j)
      = actK (colv (V c main_v15 : S300000x1.Idx → EReal)) (mat (V c main_v85 : S300000x4.Idx → EReal))
          (rowv (V c main_v86 : S1x4.Idx → EReal)) p j :=
  congrFun (final6 V c) (ix2 p j)

end

end Cert.KernelIdeal.RegionValue

end
-- ==== Proof.RegionValue7.lean ====
/-
  Region 7 of the kernel program: the final dense layer on the 1000 group rows.

  The region has a single grid point and every window is its whole array: the body holds the 1000 × 1200 array of
  group rows, the 1200 × 4 matrix and the 1 × 4 bias row, forms the matrix product accumulated from zero and adds the
  bias row to every row. Narrowing the operands before the product changes nothing on the extended reals, so entry
  (g, j) of the output is

      (∑ₖ x(g, k) · W(k, j)) + b(j),

  the dense layer applied to group g's row.
-/
import proofs.«128436_j51488067944595_2_alg».proof.Proof.Gen.KernelIdeal.Frame
import proofs.«128436_j51488067944595_2_alg».proof.Proof.Spec
import proofs.«128436_j51488067944595_2_alg».proof.Proof.LibDenseRow
import Idealize.ShloMosaic.Lib.Pipeline.Value
import Idealize.ShloMosaic.Lib.ValueIdx

noncomputable section

open scoped BigOperators

namespace Cert.KernelIdeal.RegionValue

open Cert.KernelIdeal Cert.KernelIdeal.Gen Cert.Spec Idealize.ShloMosaic Idealize.ShloMosaic.ValueIdx
open Idealize.ShloMosaic.TcCoe
open Idealize.ShloMosaic.Pipeline (Dat)

namespace Region7

/-! ## The body's arithmetic at one entry -/

/-- Entry (g, j) of what the body stores: row g against column j of the matrix, plus entry j of the bias row. -/
theorem fc_entry (v0 : Vec Ideal S1000x1200 .f32) (v3 : Vec Ideal S1200x4 .f32) (v6 : Vec Ideal S1x4 .f32)
    (g : Fin 1000) (j : Fin 4) :
    k7_pay1 v0 v3 v6 (ix2 g j) = (∑ k : Fin 1200, v0 (ix2 g k) * v3 (ix2 k j)) + v6 (ix2 0 j) := by
  unfold k7_pay1
  simp only [shapeCast_self]
  refine (addf_apply _ _ _).trans ?_
  refine congrArg₂ (· + ·) ?_ ?_
  · exact Cert.LibDenseRow.matmul_zero_apply 1000 1200 4 none (truncf .bf16 v0 bitsLt_bf16_f32)
      (truncf .bf16 v3 bitsLt_bf16_f32) g j
  · exact Cert.LibDenseRow.biasRow_apply 1000 4 v6 broadcasts_S1x4_S1000x4 g j

/-! ## The output array as one function of the arrays the region reads -/

/-- Entry (g, j) of the output: the dense layer on row g. -/
def denseRows (X : S1000x1200.Idx → EReal) (W : S1200x4.Idx → EReal) (b : S1x4.Idx → EReal) : S1000x4.Idx → EReal :=
  fun i => dense (mat X (i 0)) (mat W) (rowv b) (i 1)

theorem denseRows_apply (X : S1000x1200.Idx → EReal) (W : S1200x4.Idx → EReal) (b : S1x4.Idx → EReal)
    (g : Fin 1000) (j : Fin 4) :
    denseRows X W b (ix2 g j) = (∑ k : Fin 1200, X (ix2 g k) * W (ix2 k j)) + b (ix2 0 j) := rfl

/-- A body whose three operands are the three arrays computes `denseRows` of them. -/
theorem block_entry (X : S1000x1200.Idx → EReal) (W : S1200x4.Idx → EReal) (b : S1x4.Idx → EReal)
    (v0 : Vec Ideal S1000x1200 .f32) (v3 : Vec Ideal S1200x4 .f32) (v6 : Vec Ideal S1x4 .f32)
    (h0 : ∀ (g : Fin 1000) (k : Fin 1200), v0 (ix2 g k) = X (ix2 g k))
    (h1 : ∀ (k : Fin 1200) (j : Fin 4), v3 (ix2 k j) = W (ix2 k j))
    (h2 : ∀ j : Fin 4, v6 (ix2 0 j) = b (ix2 0 j))
    (g : Fin 1000) (j : Fin 4) :
    k7_pay1 v0 v3 v6 (ix2 g j) = denseRows X W b (ix2 g j) := by
  rw [fc_entry, denseRows_apply, h2 j]
  refine congrArg₂ (· + ·) (Finset.sum_congr rfl fun k _ => ?_) rfl
  rw [h0 g k, h1 k j]

/-! ## The region's one point: every block is its whole array -/

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl

/-- Every window sits at its one block. -/
theorem blocks_at : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem rows_block (t : Fin cfg7.N) (g : Fin 1000) (k : Fin 1200) :
    (iblk7 V c 0 t : Vec Ideal S1000x1200 .f32) (ix2 g k) = (V c main_v88 : S1000x1200.Idx → EReal) (ix2 g k) := by
  obtain ⟨e0, e1, -⟩ := blocks_at t
  unfold iblk7
  rw [View.read_apply]
  show (V c main_v88 : S1000x1200.Idx → EReal) _ = (V c main_v88 : S1000x1200.Idx → EReal) _
  refine congrArg _ (funext fun a => Fin.ext ?_)
  match a with
  | ⟨0, _⟩ => show win7_0.index t (0 : Fin 2) * 1000 + 1 * g.val = g.val; rw [e0]; omega
  | ⟨1, _⟩ => show win7_0.index t (1 : Fin 2) * 1200 + 1 * k.val = k.val; rw [e1]; omega

theorem matrix_block (t : Fin cfg7.N) (k : Fin 1200) (j : Fin 4) :
    (iblk7 V c 1 t : Vec Ideal S1200x4 .f32) (ix2 k j) = (V c main_arg24 : S1200x4.Idx → EReal) (ix2 k j) := by
  obtain ⟨-, -, e0, e1, -⟩ := blocks_at t
  unfold iblk7
  rw [View.read_apply]
  show (V c main_arg24 : S1200x4.Idx → EReal) _ = (V c main_arg24 : S1200x4.Idx → EReal) _
  refine congrArg _ (funext fun a => Fin.ext ?_)
  match a with
  | ⟨0, _⟩ => show win7_1.index t (0 : Fin 2) * 1200 + 1 * k.val = k.val; rw [e0]; omega
  | ⟨1, _⟩ => show win7_1.index t (1 : Fin 2) * 4 + 1 * j.val = j.val; rw [e1]; omega

theorem bias_block (t : Fin cfg7.N) (j : Fin 4) :
    (iblk7 V c 2 t : Vec Ideal S1x4 .f32) (ix2 0 j) = (V c main_v89 : S1x4.Idx → EReal) (ix2 0 j) := by
  obtain ⟨-, -, -, -, e0, e1, -⟩ := blocks_at t
  unfold iblk7
  rw [View.read_apply]
  show (V c main_v89 : S1x4.Idx → EReal) _ = (V c main_v89 : S1x4.Idx → EReal) _
  refine congrArg _ (funext fun a => Fin.ext ?_)
  match a with
  | ⟨0, _⟩ => show win7_2.index t (0 : Fin 2) * 1 + 1 * 0 = 0; rw [e0]
  | ⟨1, _⟩ => show win7_2.index t (1 : Fin 2) * 4 + 1 * j.val = j.val; rw [e1]; omega

/-- What the one point writes back is `denseRows` of the arrays the region finds, read through the whole-array block. -/
theorem written_back (t : Fin cfg7.N) :
    (dat7 (F := Ideal) V c).flushed 3 t
      = ((cfg7.win 3).blk t).view.read (Elt Ideal)
          (denseRows (V c main_v88) (V c main_arg24) (V c main_v89)) := by
  show (cfg7.win 3).cut (grid7.coords t) ((dat7 (F := Ideal) V c).after 3 t) = _
  rw [after7_3]
  unfold out7_3
  rw [View.canon_unit_zero zeros2]
  simp only [View.ld_unit_zero (S := S1000x1200) zeros2, View.ld_unit_zero (S := S1200x4) zeros2,
    View.ld_unit_zero (S := S1x4) zeros2]
  obtain ⟨-, -, -, -, -, -, e0, e1⟩ := blocks_at t
  funext y
  obtain ⟨g, j, rfl⟩ : ∃ (g : Fin 1000) (j : Fin 4), y = ix2 g j := ⟨y 0, y 1, eq_ix2 y⟩
  rw [View.read_apply]
  have he : ((cfg7.win 3).blk t).view.emb (ix2 g j) = (ix2 g j : S1000x4.Idx) := by
    funext a; apply Fin.ext
    match a with
    | ⟨0, _⟩ => show win7_3.index t (0 : Fin 2) * 1000 + 1 * g.val = g.val; rw [e0]; omega
    | ⟨1, _⟩ => show win7_3.index t (1 : Fin 2) * 4 + 1 * j.val = j.val; rw [e1]; omega
  rw [he]
  exact block_entry (V c main_v88) (V c main_arg24) (V c main_v89) (iblk7 V c 0 t) (iblk7 V c 1 t) (iblk7 V c 2 t)
    (rows_block V c t) (matrix_block V c t) (bias_block V c t) g j

/-! ## From the block to the array -/

theorem mem_block (t : Fin cfg7.N) (i : S1000x4.Idx) :
    i ∈ ((cfg7.win 3).blk t).view.set ↔ ∀ a : Fin 2, win7_3.index t a * S1000x4.size a ≤ (i a).val
      ∧ (i a).val < win7_3.index t a * S1000x4.size a + S1000x4.size a := by
  show i ∈ ((View.whole main_v90).slice (win7_3.rect t)).set ↔ _
  rw [View.set_slice_whole, Rect.mem_set_unit]
  exact Iff.rfl

/-- The one block is the whole array. -/
theorem covered (i : S1000x4.Idx) :
    ∃ t : Fin cfg7.N, (cfg7.win 3).flush t = true ∧ i ∈ ((cfg7.win 3).blk t).view.set := by
  have hi0 : (i 0).val < 1000 := (i 0).isLt
  have hi1 : (i 1).val < 4 := (i 1).isLt
  have hN : cfg7.N = 1 := N_7
  obtain ⟨t, -⟩ : ∃ t : Fin cfg7.N, t.val = 0 := ⟨⟨0, by rw [hN]; omega⟩, rfl⟩
  obtain ⟨-, -, -, -, -, -, e0, e1⟩ := blocks_at t
  refine ⟨t, flush7_3 t, ?_⟩
  rw [mem_block]
  intro a
  match a with
  | ⟨0, _⟩ =>
    show win7_3.index t (0 : Fin 2) * 1000 ≤ (i 0).val ∧ (i 0).val < win7_3.index t (0 : Fin 2) * 1000 + 1000
    rw [e0]; omega
  | ⟨1, _⟩ =>
    show win7_3.index t (1 : Fin 2) * 4 ≤ (i 1).val ∧ (i 1).val < win7_3.index t (1 : Fin 2) * 4 + 4
    rw [e1]; omega

/-- The output array after the region: `denseRows` of the arrays the region finds. -/
theorem region7_array :
    (dat7 (F := Ideal) V c).arrAt 3 cfg7.N = denseRows (V c main_v88) (V c main_arg24) (V c main_v89) :=
  (dat7 (F := Ideal) V c).arrAt_eq_of_cover 3 (denseRows (V c main_v88) (V c main_arg24) (V c main_v89))
    (fun t _ => written_back V c t) covered

end Region7

variable (V : (c : Dev nD) → (b : Ref sig .tc) → Buf (Elt Ideal) ((c : Thread nD τ).loc b)) (c : Dev nD)

/-- Entry (g, j) of the output array after the region: the dense layer on group g's row. -/
theorem region7_value (g : Fin 1000) (j : Fin 4) : (dat7 (F := Ideal) V c).arrAt 3 cfg7.N (ix2 g j)
    = dense (mat (V c main_v88 : S1000x1200.Idx → EReal) g) (mat (V c main_arg24 : S1200x4.Idx → EReal)) (rowv (V c main_v89 : S1x4.Idx → EReal)) j :=
  congrFun (Region7.region7_array V c) (ix2 g j)

end Cert.KernelIdeal.RegionValue

end
-- ==== Proof.KChain.lean ====
/-
  The kernel program's result, followed through its seventeen segments.

  At every boundary between two segments the buffers that matter hold a named function of the argument arrays: after the
  first launch the rows through the feed-forward block; after each later launch the rows of one graph-convolution layer
  (node-scaled arrangement), already sent through the next layer's matrix and scaled by the node's degree factor; after
  each stretch of host operations between two launches those rows collected over the edges into each node; after the
  last stretch the rows of each group of 300 nodes side by side; after the last launch the network's result. Each step is
  the launch's value (what its blocks leave in its output array, as one function of its input arrays) or the stretch's
  operations read at an index, applied to what the boundary before holds; buffers defined earlier — the source and target
  words, the degree factor, the argument arrays — are carried unchanged across the segments that do not define them.
-/
import proofs.«128436_j51488067944595_2_alg».proof.Proof.Keep
import proofs.«128436_j51488067944595_2_alg».proof.Proof.KGraph
import proofs.«128436_j51488067944595_2_alg».proof.Proof.KGraphDinv
import proofs.«128436_j51488067944595_2_alg».proof.Proof.Net
import proofs.«128436_j51488067944595_2_alg».proof.Proof.Arr
import proofs.«128436_j51488067944595_2_alg».proof.Proof.HostStage
import proofs.«128436_j51488067944595_2_alg».proof.Proof.HostStageReshape
import proofs.«128436_j51488067944595_2_alg».proof.Proof.RegionValue0
import proofs.«128436_j51488067944595_2_alg».proof.Proof.RegionValue1
import proofs.«128436_j51488067944595_2_alg».proof.Proof.RegionValue2
import proofs.«128436_j51488067944595_2_alg».proof.Proof.RegionValue3
import proofs.«128436_j51488067944595_2_alg».proof.Proof.RegionValue4
import proofs.«128436_j51488067944595_2_alg».proof.Proof.RegionValue5
import proofs.«128436_j51488067944595_2_alg».proof.Proof.RegionValue6
import proofs.«128436_j51488067944595_2_alg».proof.Proof.RegionValue7

set_option maxRecDepth 16384

noncomputable section

namespace Cert.KernelIdeal.KChain

open Idealize.ShloMosaic Idealize.ShloMosaic.TcCoe Idealize.ShloMosaic.ValueIdx
open Idealize.SL.Sem
open Cert.KernelIdeal Cert.KernelIdeal.Gen
open Cert.Spec Cert.Graph Cert.Net
open Cert.KernelIdeal.Keep Cert.KernelIdeal.KGraph Cert.KernelIdeal.HostStage Cert.KernelIdeal.RegionValue

variable (m : (ℓ : Loc nD τ sig) → Buf (Elt Ideal) ℓ) (ρ : Dev nD → PrngReg) (c : Dev nD)

/-! ## The argument arrays as launched -/

abbrev a0 : A2 300000 25 := m ((c.tc : Thread nD τ).loc main_arg0)
abbrev a2 : A2 25 100 := m ((c.tc : Thread nD τ).loc main_arg2)
abbrev a3 : A1 100 := m ((c.tc : Thread nD τ).loc main_arg3)
abbrev a4 : A1 100 := m ((c.tc : Thread nD τ).loc main_arg4)
abbrev a5 : A1 100 := m ((c.tc : Thread nD τ).loc main_arg5)
abbrev a6 : A1 100 := m ((c.tc : Thread nD τ).loc main_arg6)
abbrev a7 : A1 100 := m ((c.tc : Thread nD τ).loc main_arg7)
abbrev a8 : A2 100 25 := m ((c.tc : Thread nD τ).loc main_arg8)
abbrev a9 : A1 25 := m ((c.tc : Thread nD τ).loc main_arg9)
abbrev a10 : A1 25 := m ((c.tc : Thread nD τ).loc main_arg10)
abbrev a11 : A1 25 := m ((c.tc : Thread nD τ).loc main_arg11)
abbrev a12 : A1 25 := m ((c.tc : Thread nD τ).loc main_arg12)
abbrev a13 : A1 25 := m ((c.tc : Thread nD τ).loc main_arg13)
abbrev a14 : A2 25 25 := m ((c.tc : Thread nD τ).loc main_arg14)
abbrev a15 : A1 25 := m ((c.tc : Thread nD τ).loc main_arg15)
abbrev a16 : A2 25 16 := m ((c.tc : Thread nD τ).loc main_arg16)
abbrev a17 : A1 16 := m ((c.tc : Thread nD τ).loc main_arg17)
abbrev a18 : A2 16 16 := m ((c.tc : Thread nD τ).loc main_arg18)
abbrev a19 : A1 16 := m ((c.tc : Thread nD τ).loc main_arg19)
abbrev a20 : A2 16 8 := m ((c.tc : Thread nD τ).loc main_arg20)
abbrev a21 : A1 8 := m ((c.tc : Thread nD τ).loc main_arg21)
abbrev a22 : A2 8 4 := m ((c.tc : Thread nD τ).loc main_arg22)
abbrev a23 : A1 4 := m ((c.tc : Thread nD τ).loc main_arg23)
abbrev a24 : A2 1200 4 := m ((c.tc : Thread nD τ).loc main_arg24)
abbrev a25 : A1 4 := m ((c.tc : Thread nD τ).loc main_arg25)

/-! ## Buffers carried across segments -/

/-- The degree-factor column at the first launch's entry is the graph's degree factor. -/
theorem dn3 : colv (W3 m ρ c (Proc.devRef .tc main_v15) : S300000x1.Idx → EReal) = dn (edges m c) := by
  funext p
  rw [col3, W2_v14]
  rfl

theorem dn4 : colv (V4 m ρ c main_v15 : S300000x1.Idx → EReal) = dn (edges m c) := by
  rw [show (V4 m ρ c main_v15 : S300000x1.Idx → EReal) = (W3 m ρ c (Proc.devRef .tc main_v15) : S300000x1.Idx → EReal) from (keep4 m ρ c main_v15 (by decide))]
  exact dn3 m ρ c

theorem dn6 : colv (V6 m ρ c main_v15 : S300000x1.Idx → EReal) = dn (edges m c) := by
  rw [show (V6 m ρ c main_v15 : S300000x1.Idx → EReal) = (W3 m ρ c (Proc.devRef .tc main_v15) : S300000x1.Idx → EReal) from (keep6 m ρ c main_v15 (by decide)).trans ((keep5 m ρ c main_v15 (by decide)).trans ((keep4 m ρ c main_v15 (by decide))))]
  exact dn3 m ρ c

theorem dn8 : colv (V8 m ρ c main_v15 : S300000x1.Idx → EReal) = dn (edges m c) := by
  rw [show (V8 m ρ c main_v15 : S300000x1.Idx → EReal) = (W3 m ρ c (Proc.devRef .tc main_v15) : S300000x1.Idx → EReal) from (keep8 m ρ c main_v15 (by decide)).trans ((keep7 m ρ c main_v15 (by decide)).trans ((keep6 m ρ c main_v15 (by decide)).trans ((keep5 m ρ c main_v15 (by decide)).trans ((keep4 m ρ c main_v15 (by decide))))))]
  exact dn3 m ρ c

theorem dn10 : colv (V10 m ρ c main_v15 : S300000x1.Idx → EReal) = dn (edges m c) := by
  rw [show (V10 m ρ c main_v15 : S300000x1.Idx → EReal) = (W3 m ρ c (Proc.devRef .tc main_v15) : S300000x1.Idx → EReal) from (keep10 m ρ c main_v15 (by decide)).trans ((keep9 m ρ c main_v15 (by decide)).trans ((keep8 m ρ c main_v15 (by decide)).trans ((keep7 m ρ c main_v15 (by decide)).trans ((keep6 m ρ c main_v15 (by decide)).trans ((keep5 m ρ c main_v15 (by decide)).trans ((keep4 m ρ c main_v15 (by decide))))))))]
  exact dn3 m ρ c

theorem dn12 : colv (V12 m ρ c main_v15 : S300000x1.Idx → EReal) = dn (edges m c) := by
  rw [show (V12 m ρ c main_v15 : S300000x1.Idx → EReal) = (W3 m ρ c (Proc.devRef .tc main_v15) : S300000x1.Idx → EReal) from (keep12 m ρ c main_v15 (by decide)).trans ((keep11 m ρ c main_v15 (by decide)).trans ((keep10 m ρ c main_v15 (by decide)).trans ((keep9 m ρ c main_v15 (by decide)).trans ((keep8 m ρ c main_v15 (by decide)).trans ((keep7 m ρ c main_v15 (by decide)).trans ((keep6 m ρ c main_v15 (by decide)).trans ((keep5 m ρ c main_v15 (by decide)).trans ((keep4 m ρ c main_v15 (by decide))))))))))]
  exact dn3 m ρ c

theorem dn14 : colv (V14 m ρ c main_v15 : S300000x1.Idx → EReal) = dn (edges m c) := by
  rw [show (V14 m ρ c main_v15 : S300000x1.Idx → EReal) = (W3 m ρ c (Proc.devRef .tc main_v15) : S300000x1.Idx → EReal) from (keep14 m ρ c main_v15 (by decide)).trans ((keep13 m ρ c main_v15 (by decide)).trans ((keep12 m ρ c main_v15 (by decide)).trans ((keep11 m ρ c main_v15 (by decide)).trans ((keep10 m ρ c main_v15 (by decide)).trans ((keep9 m ρ c main_v15 (by decide)).trans ((keep8 m ρ c main_v15 (by decide)).trans ((keep7 m ρ c main_v15 (by decide)).trans ((keep6 m ρ c main_v15 (by decide)).trans ((keep5 m ρ c main_v15 (by decide)).trans ((keep4 m ρ c main_v15 (by decide))))))))))))]
  exact dn3 m ρ c

theorem src5 : W5 m ρ c (Proc.devRef .tc main_v3) = Cert.ReferenceIdeal.ReadP.val_main_v3 (F := Ideal) (edges m c) :=
  ((keep5 m ρ c main_v3 (by decide)).trans ((keep4 m ρ c main_v3 (by decide)).trans ((keep3 m ρ c main_v3 (by decide)).trans ((keep2 m ρ c main_v3 (by decide)))))).trans (W1_v3 m ρ c)
theorem dst5 : W5 m ρ c (Proc.devRef .tc main_v6) = Cert.ReferenceIdeal.ReadP.val_main_v6 (F := Ideal) (edges m c) :=
  ((keep5 m ρ c main_v6 (by decide)).trans ((keep4 m ρ c main_v6 (by decide)).trans ((keep3 m ρ c main_v6 (by decide)).trans ((keep2 m ρ c main_v6 (by decide)))))).trans (W1_v6 m ρ c)

theorem src7 : W7 m ρ c (Proc.devRef .tc main_v3) = Cert.ReferenceIdeal.ReadP.val_main_v3 (F := Ideal) (edges m c) :=
  ((keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide)))))))).trans (W1_v3 m ρ c)
theorem dst7 : W7 m ρ c (Proc.devRef .tc main_v6) = Cert.ReferenceIdeal.ReadP.val_main_v6 (F := Ideal) (edges m c) :=
  ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)))))))).trans (W1_v6 m ρ c)

theorem src9 : W9 m ρ c (Proc.devRef .tc main_v3) = Cert.ReferenceIdeal.ReadP.val_main_v3 (F := Ideal) (edges m c) :=
  ((keep9 m ρ c main_v3 (by decide)).trans ((keep8 m ρ c main_v3 (by decide)).trans ((keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide)))))))))).trans (W1_v3 m ρ c)
theorem dst9 : W9 m ρ c (Proc.devRef .tc main_v6) = Cert.ReferenceIdeal.ReadP.val_main_v6 (F := Ideal) (edges m c) :=
  ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)))))))))).trans (W1_v6 m ρ c)

theorem src11 : W11 m ρ c (Proc.devRef .tc main_v3) = Cert.ReferenceIdeal.ReadP.val_main_v3 (F := Ideal) (edges m c) :=
  ((keep11 m ρ c main_v3 (by decide)).trans ((keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide)))))))))))).trans (W1_v3 m ρ c)
theorem dst11 : W11 m ρ c (Proc.devRef .tc main_v6) = Cert.ReferenceIdeal.ReadP.val_main_v6 (F := Ideal) (edges m c) :=
  ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)))))))))))).trans (W1_v6 m ρ c)

theorem src13 : W13 m ρ c (Proc.devRef .tc main_v3) = Cert.ReferenceIdeal.ReadP.val_main_v3 (F := Ideal) (edges m c) :=
  ((keep13 m ρ c main_v3 (by decide)).trans ((keep12 m ρ c main_v3 (by decide)).trans ((keep11 m ρ c main_v3 (by decide)).trans ((keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans ((keep4 m ρ c main_v3 (by decide)).trans ((keep3 m ρ c main_v3 (by decide)).trans ((keep2 m ρ c main_v3 (by decide)))))))))))))).trans (W1_v3 m ρ c)
theorem dst13 : W13 m ρ c (Proc.devRef .tc main_v6) = Cert.ReferenceIdeal.ReadP.val_main_v6 (F := Ideal) (edges m c) :=
  ((keep13 m ρ c main_v6 (by decide)).trans ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)))))))))))))).trans (W1_v6 m ρ c)

theorem arg0_at3 : (W3 m ρ c (Proc.devRef .tc main_arg0) : S300000x25.Idx → EReal) = a0 m c := ((keep3 m ρ c main_arg0 (by decide)).trans ((keep2 m ρ c main_arg0 (by decide)).trans ((keep1 m ρ c main_arg0 (by decide))))).trans rfl
theorem arg2_at3 : (W3 m ρ c (Proc.devRef .tc main_arg2) : S25x100.Idx → EReal) = a2 m c := ((keep3 m ρ c main_arg2 (by decide)).trans ((keep2 m ρ c main_arg2 (by decide)).trans ((keep1 m ρ c main_arg2 (by decide))))).trans rfl
theorem arg8_at3 : (W3 m ρ c (Proc.devRef .tc main_arg8) : S100x25.Idx → EReal) = a8 m c := ((keep3 m ρ c main_arg8 (by decide)).trans ((keep2 m ρ c main_arg8 (by decide)).trans ((keep1 m ρ c main_arg8 (by decide))))).trans rfl
theorem arg3_at2 : (W2 m ρ c (Proc.devRef .tc main_arg3) : S100.Idx → EReal) = a3 m c := ((keep2 m ρ c main_arg3 (by decide)).trans ((keep1 m ρ c main_arg3 (by decide)))).trans rfl
theorem arg4_at2 : (W2 m ρ c (Proc.devRef .tc main_arg4) : S100.Idx → EReal) = a4 m c := ((keep2 m ρ c main_arg4 (by decide)).trans ((keep1 m ρ c main_arg4 (by decide)))).trans rfl
theorem arg5_at2 : (W2 m ρ c (Proc.devRef .tc main_arg5) : S100.Idx → EReal) = a5 m c := ((keep2 m ρ c main_arg5 (by decide)).trans ((keep1 m ρ c main_arg5 (by decide)))).trans rfl
theorem arg6_at2 : (W2 m ρ c (Proc.devRef .tc main_arg6) : S100.Idx → EReal) = a6 m c := ((keep2 m ρ c main_arg6 (by decide)).trans ((keep1 m ρ c main_arg6 (by decide)))).trans rfl
theorem arg7_at2 : (W2 m ρ c (Proc.devRef .tc main_arg7) : S100.Idx → EReal) = a7 m c := ((keep2 m ρ c main_arg7 (by decide)).trans ((keep1 m ρ c main_arg7 (by decide)))).trans rfl
theorem arg9_at2 : (W2 m ρ c (Proc.devRef .tc main_arg9) : S25.Idx → EReal) = a9 m c := ((keep2 m ρ c main_arg9 (by decide)).trans ((keep1 m ρ c main_arg9 (by decide)))).trans rfl
theorem arg10_at2 : (W2 m ρ c (Proc.devRef .tc main_arg10) : S25.Idx → EReal) = a10 m c := ((keep2 m ρ c main_arg10 (by decide)).trans ((keep1 m ρ c main_arg10 (by decide)))).trans rfl
theorem arg11_at2 : (W2 m ρ c (Proc.devRef .tc main_arg11) : S25.Idx → EReal) = a11 m c := ((keep2 m ρ c main_arg11 (by decide)).trans ((keep1 m ρ c main_arg11 (by decide)))).trans rfl
theorem arg12_at2 : (W2 m ρ c (Proc.devRef .tc main_arg12) : S25.Idx → EReal) = a12 m c := ((keep2 m ρ c main_arg12 (by decide)).trans ((keep1 m ρ c main_arg12 (by decide)))).trans rfl
theorem arg13_at2 : (W2 m ρ c (Proc.devRef .tc main_arg13) : S25.Idx → EReal) = a13 m c := ((keep2 m ρ c main_arg13 (by decide)).trans ((keep1 m ρ c main_arg13 (by decide)))).trans rfl
theorem arg14_at4 : (W4 m ρ c (Proc.devRef .tc main_arg14) : S25x25.Idx → EReal) = a14 m c := ((keep4 m ρ c main_arg14 (by decide)).trans ((keep3 m ρ c main_arg14 (by decide)).trans ((keep2 m ρ c main_arg14 (by decide)).trans ((keep1 m ρ c main_arg14 (by decide)))))).trans rfl
theorem arg15_at5 : (W5 m ρ c (Proc.devRef .tc main_arg15) : S25.Idx → EReal) = a15 m c := ((keep5 m ρ c main_arg15 (by decide)).trans ((keep4 m ρ c main_arg15 (by decide)).trans ((keep3 m ρ c main_arg15 (by decide)).trans ((keep2 m ρ c main_arg15 (by decide)).trans ((keep1 m ρ c main_arg15 (by decide))))))).trans rfl
theorem arg16_at6 : (W6 m ρ c (Proc.devRef .tc main_arg16) : S25x16.Idx → EReal) = a16 m c := ((keep6 m ρ c main_arg16 (by decide)).trans ((keep5 m ρ c main_arg16 (by decide)).trans ((keep4 m ρ c main_arg16 (by decide)).trans ((keep3 m ρ c main_arg16 (by decide)).trans ((keep2 m ρ c main_arg16 (by decide)).trans ((keep1 m ρ c main_arg16 (by decide)))))))).trans rfl
theorem arg17_at7 : (W7 m ρ c (Proc.devRef .tc main_arg17) : S16.Idx → EReal) = a17 m c := ((keep7 m ρ c main_arg17 (by decide)).trans ((keep6 m ρ c main_arg17 (by decide)).trans ((keep5 m ρ c main_arg17 (by decide)).trans ((keep4 m ρ c main_arg17 (by decide)).trans ((keep3 m ρ c main_arg17 (by decide)).trans ((keep2 m ρ c main_arg17 (by decide)).trans ((keep1 m ρ c main_arg17 (by decide))))))))).trans rfl
theorem arg18_at8 : (W8 m ρ c (Proc.devRef .tc main_arg18) : S16x16.Idx → EReal) = a18 m c := ((keep8 m ρ c main_arg18 (by decide)).trans ((keep7 m ρ c main_arg18 (by decide)).trans ((keep6 m ρ c main_arg18 (by decide)).trans ((keep5 m ρ c main_arg18 (by decide)).trans ((keep4 m ρ c main_arg18 (by decide)).trans ((keep3 m ρ c main_arg18 (by decide)).trans ((keep2 m ρ c main_arg18 (by decide)).trans ((keep1 m ρ c main_arg18 (by decide)))))))))).trans rfl
theorem arg19_at9 : (W9 m ρ c (Proc.devRef .tc main_arg19) : S16.Idx → EReal) = a19 m c := ((keep9 m ρ c main_arg19 (by decide)).trans ((keep8 m ρ c main_arg19 (by decide)).trans ((keep7 m ρ c main_arg19 (by decide)).trans ((keep6 m ρ c main_arg19 (by decide)).trans ((keep5 m ρ c main_arg19 (by decide)).trans ((keep4 m ρ c main_arg19 (by decide)).trans ((keep3 m ρ c main_arg19 (by decide)).trans ((keep2 m ρ c main_arg19 (by decide)).trans ((keep1 m ρ c main_arg19 (by decide))))))))))).trans rfl
theorem arg20_at10 : (W10 m ρ c (Proc.devRef .tc main_arg20) : S16x8.Idx → EReal) = a20 m c := ((keep10 m ρ c main_arg20 (by decide)).trans ((keep9 m ρ c main_arg20 (by decide)).trans ((keep8 m ρ c main_arg20 (by decide)).trans ((keep7 m ρ c main_arg20 (by decide)).trans ((keep6 m ρ c main_arg20 (by decide)).trans ((keep5 m ρ c main_arg20 (by decide)).trans ((keep4 m ρ c main_arg20 (by decide)).trans ((keep3 m ρ c main_arg20 (by decide)).trans ((keep2 m ρ c main_arg20 (by decide)).trans ((keep1 m ρ c main_arg20 (by decide)))))))))))).trans rfl
theorem arg21_at11 : (W11 m ρ c (Proc.devRef .tc main_arg21) : S8.Idx → EReal) = a21 m c := ((keep11 m ρ c main_arg21 (by decide)).trans ((keep10 m ρ c main_arg21 (by decide)).trans ((keep9 m ρ c main_arg21 (by decide)).trans ((keep8 m ρ c main_arg21 (by decide)).trans ((keep7 m ρ c main_arg21 (by decide)).trans ((keep6 m ρ c main_arg21 (by decide)).trans ((keep5 m ρ c main_arg21 (by decide)).trans ((keep4 m ρ c main_arg21 (by decide)).trans ((keep3 m ρ c main_arg21 (by decide)).trans ((keep2 m ρ c main_arg21 (by decide)).trans ((keep1 m ρ c main_arg21 (by decide))))))))))))).trans rfl
theorem arg22_at12 : (W12 m ρ c (Proc.devRef .tc main_arg22) : S8x4.Idx → EReal) = a22 m c := ((keep12 m ρ c main_arg22 (by decide)).trans ((keep11 m ρ c main_arg22 (by decide)).trans ((keep10 m ρ c main_arg22 (by decide)).trans ((keep9 m ρ c main_arg22 (by decide)).trans ((keep8 m ρ c main_arg22 (by decide)).trans ((keep7 m ρ c main_arg22 (by decide)).trans ((keep6 m ρ c main_arg22 (by decide)).trans ((keep5 m ρ c main_arg22 (by decide)).trans ((keep4 m ρ c main_arg22 (by decide)).trans ((keep3 m ρ c main_arg22 (by decide)).trans ((keep2 m ρ c main_arg22 (by decide)).trans ((keep1 m ρ c main_arg22 (by decide)))))))))))))).trans rfl
theorem arg23_at13 : (W13 m ρ c (Proc.devRef .tc main_arg23) : S4.Idx → EReal) = a23 m c := ((keep13 m ρ c main_arg23 (by decide)).trans ((keep12 m ρ c main_arg23 (by decide)).trans ((keep11 m ρ c main_arg23 (by decide)).trans ((keep10 m ρ c main_arg23 (by decide)).trans ((keep9 m ρ c main_arg23 (by decide)).trans ((keep8 m ρ c main_arg23 (by decide)).trans ((keep7 m ρ c main_arg23 (by decide)).trans ((keep6 m ρ c main_arg23 (by decide)).trans ((keep5 m ρ c main_arg23 (by decide)).trans ((keep4 m ρ c main_arg23 (by decide)).trans ((keep3 m ρ c main_arg23 (by decide)).trans ((keep2 m ρ c main_arg23 (by decide)).trans ((keep1 m ρ c main_arg23 (by decide))))))))))))))).trans rfl
theorem arg24_at16 : (W16 m ρ c (Proc.devRef .tc main_arg24) : S1200x4.Idx → EReal) = a24 m c := ((keep16 m ρ c main_arg24 (by decide)).trans ((keep15 m ρ c main_arg24 (by decide)).trans ((keep14 m ρ c main_arg24 (by decide)).trans ((keep13 m ρ c main_arg24 (by decide)).trans ((keep12 m ρ c main_arg24 (by decide)).trans ((keep11 m ρ c main_arg24 (by decide)).trans ((keep10 m ρ c main_arg24 (by decide)).trans ((keep9 m ρ c main_arg24 (by decide)).trans ((keep8 m ρ c main_arg24 (by decide)).trans ((keep7 m ρ c main_arg24 (by decide)).trans ((keep6 m ρ c main_arg24 (by decide)).trans ((keep5 m ρ c main_arg24 (by decide)).trans ((keep4 m ρ c main_arg24 (by decide)).trans ((keep3 m ρ c main_arg24 (by decide)).trans ((keep2 m ρ c main_arg24 (by decide)).trans ((keep1 m ρ c main_arg24 (by decide)))))))))))))))))).trans rfl
theorem arg25_at15 : (W15 m ρ c (Proc.devRef .tc main_arg25) : S4.Idx → EReal) = a25 m c := ((keep15 m ρ c main_arg25 (by decide)).trans ((keep14 m ρ c main_arg25 (by decide)).trans ((keep13 m ρ c main_arg25 (by decide)).trans ((keep12 m ρ c main_arg25 (by decide)).trans ((keep11 m ρ c main_arg25 (by decide)).trans ((keep10 m ρ c main_arg25 (by decide)).trans ((keep9 m ρ c main_arg25 (by decide)).trans ((keep8 m ρ c main_arg25 (by decide)).trans ((keep7 m ρ c main_arg25 (by decide)).trans ((keep6 m ρ c main_arg25 (by decide)).trans ((keep5 m ρ c main_arg25 (by decide)).trans ((keep4 m ρ c main_arg25 (by decide)).trans ((keep3 m ρ c main_arg25 (by decide)).trans ((keep2 m ρ c main_arg25 (by decide)).trans ((keep1 m ρ c main_arg25 (by decide))))))))))))))))).trans rfl

/-! ## The feed-forward block (launch 0) -/

/-- After the first launch its output holds the rows through the feed-forward block. -/
theorem rows0 (p : Fin 300000) (j : Fin 25) :
    (W4 m ρ c (Proc.devRef .tc main_v26) : S300000x25.Idx → EReal) (ix2 p j) = h0 (a0 m c) (a2 m c) (a3 m c) (a4 m c) (a5 m c) (a6 m c) (a7 m c) (a8 m c) (a9 m c) (a10 m c) (a11 m c) (a12 m c) (a13 m c) p j := by
  refine (congrFun (W4_arr m ρ c 13) (ix2 p j)).trans ((region0_value (V3 m ρ) c p j).trans ?_)
  rw [show (V3 m ρ c main_arg0 : S300000x25.Idx → EReal) = a0 m c from arg0_at3 m ρ c,
    show (V3 m ρ c main_arg2 : S25x100.Idx → EReal) = a2 m c from arg2_at3 m ρ c,
    show (V3 m ρ c main_arg8 : S100x25.Idx → EReal) = a8 m c from arg8_at3 m ρ c,
    show rowv (V3 m ρ c main_v16 : S1x100.Idx → EReal) = vec (a3 m c) from (bias3_v16 m ρ c).trans (congrArg vec (arg3_at2 m ρ c)),
    show rowv (V3 m ρ c main_v17 : S1x100.Idx → EReal) = vec (a4 m c) from (bias3_v17 m ρ c).trans (congrArg vec (arg4_at2 m ρ c)),
    show rowv (V3 m ρ c main_v18 : S1x100.Idx → EReal) = vec (a5 m c) from (bias3_v18 m ρ c).trans (congrArg vec (arg5_at2 m ρ c)),
    show rowv (V3 m ρ c main_v19 : S1x100.Idx → EReal) = vec (a6 m c) from (bias3_v19 m ρ c).trans (congrArg vec (arg6_at2 m ρ c)),
    show rowv (V3 m ρ c main_v20 : S1x100.Idx → EReal) = vec (a7 m c) from (bias3_v20 m ρ c).trans (congrArg vec (arg7_at2 m ρ c)),
    show rowv (V3 m ρ c main_v21 : S1x25.Idx → EReal) = vec (a9 m c) from (bias3_v21 m ρ c).trans (congrArg vec (arg9_at2 m ρ c)),
    show rowv (V3 m ρ c main_v22 : S1x25.Idx → EReal) = vec (a10 m c) from (bias3_v22 m ρ c).trans (congrArg vec (arg10_at2 m ρ c)),
    show rowv (V3 m ρ c main_v23 : S1x25.Idx → EReal) = vec (a11 m c) from (bias3_v23 m ρ c).trans (congrArg vec (arg11_at2 m ρ c)),
    show rowv (V3 m ρ c main_v24 : S1x25.Idx → EReal) = vec (a12 m c) from (bias3_v24 m ρ c).trans (congrArg vec (arg12_at2 m ρ c)),
    show rowv (V3 m ρ c main_v25 : S1x25.Idx → EReal) = vec (a13 m c) from (bias3_v25 m ρ c).trans (congrArg vec (arg13_at2 m ρ c))]
  rfl

/-! ## The first layer's matrix (launch 1) -/

/-- After the second launch its output holds the rows through the first layer's matrix, scaled by the degree factor. -/
theorem lin1 (p : Fin 300000) (j : Fin 25) :
    (W5 m ρ c (Proc.devRef .tc main_v27) : S300000x25.Idx → EReal) (ix2 p j)
      = linK (dn (edges m c)) (h0 (a0 m c) (a2 m c) (a3 m c) (a4 m c) (a5 m c) (a6 m c) (a7 m c) (a8 m c) (a9 m c) (a10 m c) (a11 m c) (a12 m c) (a13 m c)) (mat (a14 m c)) p j := by
  refine (congrFun (W5_arr m ρ c 3) (ix2 p j)).trans ((region1_value (V4 m ρ) c p j).trans ?_)
  rw [dn4 m ρ c,
    show mat (V4 m ρ c main_v26 : S300000x25.Idx → EReal) = h0 (a0 m c) (a2 m c) (a3 m c) (a4 m c) (a5 m c) (a6 m c) (a7 m c) (a8 m c) (a9 m c) (a10 m c) (a11 m c) (a12 m c) (a13 m c) from
      funext fun p => funext fun j => rows0 m ρ c p j,
    show (V4 m ρ c main_arg14 : S25x25.Idx → EReal) = a14 m c from arg14_at4 m ρ c]

/-! ## Layer 1: collecting over the edges (stretch before launch 2), then launch 2 -/

/-- After the stretch each node has collected the scaled rows of the edges into it. -/
theorem agg1 (p : Fin 300000) (j : Fin 25) :
    (W6 m ρ c (Proc.devRef .tc main_v37) : S300000x25.Idx → EReal) (ix2 p j)
      = aggK (into (edges m c)) (src (edges m c)) (linK (dn (edges m c)) (h0 (a0 m c) (a2 m c) (a3 m c) (a4 m c) (a5 m c) (a6 m c) (a7 m c) (a8 m c) (a9 m c) (a10 m c) (a11 m c) (a12 m c) (a13 m c)) (mat (a14 m c))) p j := by
  refine (agg6 m ρ c (src5 m ρ c) (dst5 m ρ c) p j).trans ?_
  rw [show mat (W5 m ρ c (Proc.devRef .tc main_v27) : S300000x25.Idx → EReal) = (linK (dn (edges m c)) (h0 (a0 m c) (a2 m c) (a3 m c) (a4 m c) (a5 m c) (a6 m c) (a7 m c) (a8 m c) (a9 m c) (a10 m c) (a11 m c) (a12 m c) (a13 m c)) (mat (a14 m c))) from
    funext fun p => funext fun j => lin1 m ρ c p j]

/-- The layer's bias row. -/
theorem biasRow1 : rowv (V6 m ρ c main_v38 : S1x25.Idx → EReal) = vec (a15 m c) :=
  (bias6 m ρ c).trans (congrArg vec (arg15_at5 m ρ c))

/-- After the launch its output holds layer 1's rows through layer 2's matrix, scaled by the degree factor. -/
theorem lin2 (p : Fin 300000) (j : Fin 16) :
    (W7 m ρ c (Proc.devRef .tc main_v39) : S300000x16.Idx → EReal) (ix2 p j)
      = linK (dn (edges m c)) (hK1 (a0 m c) (edges m c) (a2 m c) (a3 m c) (a4 m c) (a5 m c) (a6 m c) (a7 m c) (a8 m c) (a9 m c) (a10 m c) (a11 m c) (a12 m c) (a13 m c) (a14 m c) (a15 m c)) (mat (a16 m c)) p j := by
  refine (congrFun (W7_arr m ρ c 4) (ix2 p j)).trans ((region2_value (V6 m ρ) c p j).trans ?_)
  rw [dn6 m ρ c, biasRow1 m ρ c,
    show mat (V6 m ρ c main_v37 : S300000x25.Idx → EReal)
        = aggK (into (edges m c)) (src (edges m c)) (linK (dn (edges m c)) (h0 (a0 m c) (a2 m c) (a3 m c) (a4 m c) (a5 m c) (a6 m c) (a7 m c) (a8 m c) (a9 m c) (a10 m c) (a11 m c) (a12 m c) (a13 m c)) (mat (a14 m c))) from
      funext fun p => funext fun j => agg1 m ρ c p j,
    show (V6 m ρ c main_arg16 : S25x16.Idx → EReal) = a16 m c from arg16_at6 m ρ c]
  rfl

/-! ## Layer 2: collecting over the edges (stretch before launch 3), then launch 3 -/

/-- After the stretch each node has collected the scaled rows of the edges into it. -/
theorem agg2 (p : Fin 300000) (j : Fin 16) :
    (W8 m ρ c (Proc.devRef .tc main_v49) : S300000x16.Idx → EReal) (ix2 p j)
      = aggK (into (edges m c)) (src (edges m c)) (linK (dn (edges m c)) (hK1 (a0 m c) (edges m c) (a2 m c) (a3 m c) (a4 m c) (a5 m c) (a6 m c) (a7 m c) (a8 m c) (a9 m c) (a10 m c) (a11 m c) (a12 m c) (a13 m c) (a14 m c) (a15 m c)) (mat (a16 m c))) p j := by
  refine (agg8 m ρ c (src7 m ρ c) (dst7 m ρ c) p j).trans ?_
  rw [show mat (W7 m ρ c (Proc.devRef .tc main_v39) : S300000x16.Idx → EReal) = (linK (dn (edges m c)) (hK1 (a0 m c) (edges m c) (a2 m c) (a3 m c) (a4 m c) (a5 m c) (a6 m c) (a7 m c) (a8 m c) (a9 m c) (a10 m c) (a11 m c) (a12 m c) (a13 m c) (a14 m c) (a15 m c)) (mat (a16 m c))) from
    funext fun p => funext fun j => lin2 m ρ c p j]

/-- The layer's bias row. -/
theorem biasRow2 : rowv (V8 m ρ c main_v50 : S1x16.Idx → EReal) = vec (a17 m c) :=
  (bias8 m ρ c).trans (congrArg vec (arg17_at7 m ρ c))

/-- After the launch its output holds layer 2's rows through layer 3's matrix, scaled by the degree factor. -/
theorem lin3 (p : Fin 300000) (j : Fin 16) :
    (W9 m ρ c (Proc.devRef .tc main_v51) : S300000x16.Idx → EReal) (ix2 p j)
      = linK (dn (edges m c)) (hK2 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c)) (mat (a18 m c)) p j := by
  refine (congrFun (W9_arr m ρ c 4) (ix2 p j)).trans ((region3_value (V8 m ρ) c p j).trans ?_)
  rw [dn8 m ρ c, biasRow2 m ρ c,
    show mat (V8 m ρ c main_v49 : S300000x16.Idx → EReal)
        = aggK (into (edges m c)) (src (edges m c)) (linK (dn (edges m c)) (hK1 (a0 m c) (edges m c) (a2 m c) (a3 m c) (a4 m c) (a5 m c) (a6 m c) (a7 m c) (a8 m c) (a9 m c) (a10 m c) (a11 m c) (a12 m c) (a13 m c) (a14 m c) (a15 m c)) (mat (a16 m c))) from
      funext fun p => funext fun j => agg2 m ρ c p j,
    show (V8 m ρ c main_arg18 : S16x16.Idx → EReal) = a18 m c from arg18_at8 m ρ c]
  rfl

/-! ## Layer 3: collecting over the edges (stretch before launch 4), then launch 4 -/

/-- After the stretch each node has collected the scaled rows of the edges into it. -/
theorem agg3 (p : Fin 300000) (j : Fin 16) :
    (W10 m ρ c (Proc.devRef .tc main_v61) : S300000x16.Idx → EReal) (ix2 p j)
      = aggK (into (edges m c)) (src (edges m c)) (linK (dn (edges m c)) (hK2 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c)) (mat (a18 m c))) p j := by
  refine (agg10 m ρ c (src9 m ρ c) (dst9 m ρ c) p j).trans ?_
  rw [show mat (W9 m ρ c (Proc.devRef .tc main_v51) : S300000x16.Idx → EReal) = (linK (dn (edges m c)) (hK2 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c)) (mat (a18 m c))) from
    funext fun p => funext fun j => lin3 m ρ c p j]

/-- The layer's bias row. -/
theorem biasRow3 : rowv (V10 m ρ c main_v62 : S1x16.Idx → EReal) = vec (a19 m c) :=
  (bias10 m ρ c).trans (congrArg vec (arg19_at9 m ρ c))

/-- After the launch its output holds layer 3's rows through layer 4's matrix, scaled by the degree factor. -/
theorem lin4 (p : Fin 300000) (j : Fin 8) :
    (W11 m ρ c (Proc.devRef .tc main_v63) : S300000x8.Idx → EReal) (ix2 p j)
      = linK (dn (edges m c)) (hK3 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)) (mat (a20 m c)) p j := by
  refine (congrFun (W11_arr m ρ c 4) (ix2 p j)).trans ((region4_value (V10 m ρ) c p j).trans ?_)
  rw [dn10 m ρ c, biasRow3 m ρ c,
    show mat (V10 m ρ c main_v61 : S300000x16.Idx → EReal)
        = aggK (into (edges m c)) (src (edges m c)) (linK (dn (edges m c)) (hK2 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c)) (mat (a18 m c))) from
      funext fun p => funext fun j => agg3 m ρ c p j,
    show (V10 m ρ c main_arg20 : S16x8.Idx → EReal) = a20 m c from arg20_at10 m ρ c]
  rfl

/-! ## Layer 4: collecting over the edges (stretch before launch 5), then launch 5 -/

/-- After the stretch each node has collected the scaled rows of the edges into it. -/
theorem agg4 (p : Fin 300000) (j : Fin 8) :
    (W12 m ρ c (Proc.devRef .tc main_v73) : S300000x8.Idx → EReal) (ix2 p j)
      = aggK (into (edges m c)) (src (edges m c)) (linK (dn (edges m c)) (hK3 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)) (mat (a20 m c))) p j := by
  refine (agg12 m ρ c (src11 m ρ c) (dst11 m ρ c) p j).trans ?_
  rw [show mat (W11 m ρ c (Proc.devRef .tc main_v63) : S300000x8.Idx → EReal) = (linK (dn (edges m c)) (hK3 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)) (mat (a20 m c))) from
    funext fun p => funext fun j => lin4 m ρ c p j]

/-- The layer's bias row. -/
theorem biasRow4 : rowv (V12 m ρ c main_v74 : S1x8.Idx → EReal) = vec (a21 m c) :=
  (bias12 m ρ c).trans (congrArg vec (arg21_at11 m ρ c))

/-- After the launch its output holds layer 4's rows through layer 5's matrix, scaled by the degree factor. -/
theorem lin5 (p : Fin 300000) (j : Fin 4) :
    (W13 m ρ c (Proc.devRef .tc main_v75) : S300000x4.Idx → EReal) (ix2 p j)
      = linK (dn (edges m c)) (hK4 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) (mat (a22 m c)) p j := by
  refine (congrFun (W13_arr m ρ c 4) (ix2 p j)).trans ((region5_value (V12 m ρ) c p j).trans ?_)
  rw [dn12 m ρ c, biasRow4 m ρ c,
    show mat (V12 m ρ c main_v73 : S300000x8.Idx → EReal)
        = aggK (into (edges m c)) (src (edges m c)) (linK (dn (edges m c)) (hK3 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)) (mat (a20 m c))) from
      funext fun p => funext fun j => agg4 m ρ c p j,
    show (V12 m ρ c main_arg22 : S8x4.Idx → EReal) = a22 m c from arg22_at12 m ρ c]
  rfl

/-! ## Layer 5: collecting over the edges (stretch before launch 6), then launch 6 -/

/-- After the stretch each node has collected the scaled rows of the edges into it. -/
theorem agg5 (p : Fin 300000) (j : Fin 4) :
    (W14 m ρ c (Proc.devRef .tc main_v85) : S300000x4.Idx → EReal) (ix2 p j)
      = aggK (into (edges m c)) (src (edges m c)) (linK (dn (edges m c)) (hK4 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) (mat (a22 m c))) p j := by
  refine (agg14 m ρ c (src13 m ρ c) (dst13 m ρ c) p j).trans ?_
  rw [show mat (W13 m ρ c (Proc.devRef .tc main_v75) : S300000x4.Idx → EReal) = (linK (dn (edges m c)) (hK4 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) (mat (a22 m c))) from
    funext fun p => funext fun j => lin5 m ρ c p j]

/-- The layer's bias row. -/
theorem biasRow5 : rowv (V14 m ρ c main_v86 : S1x4.Idx → EReal) = vec (a23 m c) :=
  (bias14 m ρ c).trans (congrArg vec (arg23_at13 m ρ c))

/-- After the launch its output holds the last layer's rows. -/
theorem rows5 (p : Fin 300000) (j : Fin 4) :
    (W15 m ρ c (Proc.devRef .tc main_v87) : S300000x4.Idx → EReal) (ix2 p j) = hK5 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) p j := by
  refine (congrFun (W15_arr m ρ c 3) (ix2 p j)).trans ((region6_value (V14 m ρ) c p j).trans ?_)
  rw [dn14 m ρ c, biasRow5 m ρ c,
    show mat (V14 m ρ c main_v85 : S300000x4.Idx → EReal)
        = aggK (into (edges m c)) (src (edges m c)) (linK (dn (edges m c)) (hK4 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) (mat (a22 m c))) from
      funext fun p => funext fun j => agg5 m ρ c p j]
  rfl

/-! ## The groups of 300 nodes and the last dense layer (launch 7) -/

/-- After the last stretch each group's rows lie side by side. -/
theorem grouped (g : Fin 1000) (k : Fin 1200) :
    (W16 m ρ c (Proc.devRef .tc main_v88) : S1000x1200.Idx → EReal) (ix2 g k) = groupRow (hK5 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c)) g k := by
  refine (group16 m ρ c g k).trans ?_
  rw [show mat (W15 m ρ c (Proc.devRef .tc main_v87) : S300000x4.Idx → EReal) = hK5 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) from
    funext fun p => funext fun j => rows5 m ρ c p j]

/-- After the last launch the result buffer holds the network's result. -/
theorem result_apply (g : Fin 1000) (j : Fin 4) :
    (W17 m ρ c (Proc.devRef .tc main_v90) : S1000x4.Idx → EReal) (ix2 g j) = outK (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) g j := by
  refine (congrFun (W17_arr m ρ c 3) (ix2 g j)).trans ((region7_value (V16 m ρ) c g j).trans ?_)
  rw [show mat (V16 m ρ c main_v88 : S1000x1200.Idx → EReal) g = groupRow (hK5 (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c)) g from
      funext fun k => grouped m ρ c g k,
    show rowv (V16 m ρ c main_v89 : S1x4.Idx → EReal) = vec (a25 m c) from
      (bias16 m ρ c).trans (congrArg vec (arg25_at15 m ρ c)),
    show (V16 m ρ c main_arg24 : S1200x4.Idx → EReal) = a24 m c from arg24_at16 m ρ c]
  rfl

/-- The result buffer at the end of the run, as one array. -/
theorem result : (W17 m ρ c (Proc.devRef .tc main_v90) : S1000x4.Idx → EReal) = Cert.Arr.arr2 (outK (a0 m c) (edges m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)) :=
  Cert.Arr.eq_arr2 _ _ (result_apply m ρ c)

end Cert.KernelIdeal.KChain

end
-- ==== Proof.LibVecScatter.lean ====
/-
  A vector scattered into a vector and added, read at one element.

  Counting how many edges end in each node is a scatter with an `add` body and no window: one number per edge (an
  array `[E]`) is added into the entry of an array `[N]` that the edge's index word names. This file reads that
  operation, at the dimension numbers it has, at one element `p`:

    • the scattered-and-added element `p` is the operand's plus the sum, over the edges `e` whose index word read as a
      signed integer is `p`, of the update at `e`; an index word outside `[0, N − 1]` names no entry and its number
      is dropped.

  The edge set is the one a scatter of whole rows `[E, C]` into `[N, C]` with the same index array uses, whatever the
  row width `C`: an update is placed by its index word alone, and with no window axis there is no second coordinate to
  match. So a count taken with rank-1 arrays and a count taken in every column of rank-2 arrays are the same number.

  Everything is stated for arbitrary extents `N`, `E` and index width `w`; the dimension-number record is written out
  with its well-formedness condition as a parameter, so a record with the same lists over literal shapes is one of
  these by unfolding.
-/
import Idealize.ShloMosaic.Lib.ValueIdx
import Idealize.ShloMosaic.PureOps.Ideal.Laws
import Idealize.ShloMosaic.Lib.Pipeline.Value
import proofs.«128436_j51488067944595_2_alg».proof.Proof.LibRowGatherScatter

noncomputable section

open scoped BigOperators

namespace Cert.LibVecScatter

open Idealize.ShloMosaic Idealize.ShloMosaic.ValueIdx
open Cert.LibRowGatherScatter (edgesInto)

/-! ## Sums over a one-axis index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scattering a vector and adding it -/

/-- The dimension numbers of a scatter of single numbers: operand `[N]`, one scatter index per edge (`[E, 1]`, the
    index vector on axis 1), updates `[E]`; the scatter index names the operand's only axis, which is an inserted
    window axis, and the updates have no window axis at all. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at edge `e`'s index word, read signed, not clamped. -/
theorem scatter_start :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is an inserted window axis: the window coordinate there is `0`. -/
theorem scatter_window :
    (vecScatterDims N E wf).window (ix1 e) (0 : Fin 1) = 0 := by
  unfold ScatterDims.window
  rw [dif_neg (by simp [ScatterDims.sKept, Shape.kept])]

/-- Start plus window coordinate on the operand's one axis: edge `e`'s index word, read signed. -/
theorem scatter_sum :
    (vecScatterDims N E wf).start (ix1 e) idx (0 : Fin 1) + ((vecScatterDims N E wf).window (ix1 e) (0 : Fin 1) : ℤ)
      = (idx (ix2 e 0)).toInt := by
  rw [scatter_start, scatter_window]; simp

/-- WHERE AN UPDATE LANDS: update `e` lands at operand element `p` exactly when edge `e`'s index word, read signed,
    is `p`. (An index word that is negative or at least `N` lands nowhere.) -/
theorem resultIdx?_vec_eq_some_iff (p : Fin N) :
    (vecScatterDims N E wf).resultIdx? (ix1 e) idx = some (ix1 p) ↔ (idx (ix2 e 0)).toInt = (p.val : ℤ) := by
  have h0 := scatter_sum wf idx e
  unfold ScatterDims.resultIdx?
  split
  · rename_i h
    rw [Option.some.injEq]
    constructor
    · intro hf
      have e0 : ((vecScatterDims N E wf).start (ix1 e) idx (0 : Fin 1)
          + ((vecScatterDims N E wf).window (ix1 e) (0 : Fin 1) : ℤ)).toNat = p.val :=
        congrArg Fin.val (congrFun hf (0 : Fin 1))
      have hh := (h (0 : Fin 1)).1
      rw [h0] at e0 hh
      omega
    · intro ht
      funext a
      match a with
      | ⟨0, _⟩ =>
        refine Fin.ext ?_
        show ((vecScatterDims N E wf).start (ix1 e) idx (0 : Fin 1)
          + ((vecScatterDims N E wf).window (ix1 e) (0 : Fin 1) : ℤ)).toNat = p.val
        rw [h0, ht]; simp
  · rename_i h
    constructor
    · intro hf; cases hf
    · intro ht
      exfalso; apply h; intro a
      match a with
      | ⟨0, _⟩ =>
        show 0 ≤ (vecScatterDims N E wf).start (ix1 e) idx (0 : Fin 1)
            + ((vecScatterDims N E wf).window (ix1 e) (0 : Fin 1) : ℤ)
          ∧ (vecScatterDims N E wf).start (ix1 e) idx (0 : Fin 1)
            + ((vecScatterDims N E wf).window (ix1 e) (0 : Fin 1) : ℤ) < ((N : ℕ) : ℤ)
        rw [h0, ht]
        have := p.isLt
        omega

end Scatter

/-- A SCATTER-ADD OF A VECTOR READ AT `p`, on the extended reals: the operand's element plus the sum over the edges that
    end in `p` of the update at `e`. Update `e` lands at `p` exactly when `e` ends in `p`; the edge set is the one a
    scatter of rows with the same index array uses. -/
theorem scatterAdd_vec_apply {N E w : Nat} (wf : ScatterDims.WF ⟨1, ![N]⟩ ⟨2, ![E, 1]⟩ ⟨1, ![E]⟩ [] [0] [0] 1)
    (idx : IVec ⟨2, ![E, 1]⟩ w) {φ : FTy} (x : FVec Ideal ⟨1, ![N]⟩ φ) (upd : FVec Ideal ⟨1, ![E]⟩ φ) (p : Fin N) :
    Host.scatterAdd (F := Ideal) (vecScatterDims N E wf) x idx upd (ix1 p)
      = x (ix1 p) + ∑ e ∈ edgesInto idx p, upd (ix1 e) := by
  show x (ix1 p) + ∑ j ∈ Finset.univ.filter (fun j => (vecScatterDims N E wf).resultIdx? j idx = some (ix1 p)), upd j = _
  congr 1
  unfold edgesInto
  rw [Finset.sum_filter, Finset.sum_filter, sum_idx1]
  refine Finset.sum_congr rfl fun e _ => ?_
  simp only [resultIdx?_vec_eq_some_iff]

end Cert.LibVecScatter

end
-- ==== Proof.LibSelfLoops.lean ====
/-
  Self-loops added to a graph, in two ways, and the sums they give.

  A graph convolution lets every node hear itself: besides the `E` real edges, node `i` gets an edge `i → i`. One program
  appends these `N` self-loop edges to the edge list (the real targets followed by `0, 1, …, N − 1`) and adds up, for
  node `p`, over all the `E + N` edges that end in `p`; another adds up over the real edges only and puts node `p`'s own
  term on afterwards. Both are the same finite sum in a commutative monoid, grouped differently:

    • over the longer list, the edges that end in `p` are the real edges that end in `p`, at their old positions, and the
      one self-loop edge at position `E + p`; so a sum over them is the sum over the real edges plus the term of edge
      `E + p` (`sum_edgesInto_concat`).

  No distributivity and no finiteness of the terms is used, only that addition is commutative and associative.

  The file also reads, at one element, the array operations by which the longer list is built and used:

    • two vectors laid end to end read the first vector at a position before its length and the second vector after
      it (`concat_vec_apply_left` / `concat_vec_apply_right`);
    • the vector `0, 1, …, N − 1` holds at position `i` the word of value `i`, whose signed reading is `i` as long as
      `2 N` does not exceed the number of words (`iota_vec_apply`, `iota_vec_toInt`);
    • the elementwise "add `n` to a negative index" that precedes a gather is, at each position, `x + n` where `x`
      reads negative and `x` elsewhere; a word that reads non-negative is left alone (`signNorm_apply`,
      `signNorm_of_nonneg`);
    • a gather out of a vector `[N]`, one start index per edge, reads for edge `e` the vector at `rowOf idx e`, the row
      a gather of whole rows with the same index array reads (`gather_vec_apply`);
    • an edge whose index word reads `i`, a node, reads row `i` (`rowOf_of_toInt_eq`): a self-loop edge reads its own
      node;
    • put together, the column `[M, 1]` made of the real targets followed by `0, 1, …, N − 1` holds the real target at a
      real edge and a word reading `i` at the self-loop `E + i` (`concat_iota_col_left` / `_right`), and so does the
      column whose negative entries were first moved up by `n`, the real entry being moved up where it reads negative
      (`concat_iota_norm_col_left` / `_right`): the two hypotheses `sum_edgesInto_concat` asks for.

  Everything is stated for arbitrary extents and index widths; that the long list has `E + N` entries is a hypothesis
  `M = E + N`, and the dimension-number record is written out with its well-formedness condition as a parameter, so a
  record with the same lists over literal shapes is one of these by unfolding.
-/
import Idealize.ShloMosaic.Lib.ValueIdx
import Idealize.ShloMosaic.PureOps.Ideal.Laws
import Idealize.ShloMosaic.Lib.Pipeline.Value
import proofs.«128436_j51488067944595_2_alg».proof.Proof.LibRowGatherScatter
import proofs.«128436_j51488067944595_2_alg».proof.Proof.LibVecScatter

noncomputable section

open scoped BigOperators

namespace Cert.LibSelfLoops

open Idealize.ShloMosaic Idealize.ShloMosaic.ValueIdx
open Cert.LibRowGatherScatter (edgesInto rowOf bcast_scalar_apply bcast_col_apply)

/-! ## The edges into a node, over the real edges followed by the self-loops -/

/-- A SUM OVER THE EDGES INTO `p` OF THE LONGER LIST. If the first `E` index words of `idx2` are those of `idx` and
    the word at position `E + i` reads `i`, then the edges of `idx2` that end in `p` are the edges of `idx` that end in
    `p`, at the same positions, and the position `E + p`; a sum over them splits accordingly. The sum over all `E + N`
    positions of the terms that end in `p` is cut at `E`; in the second part exactly one term is alive. -/
theorem sum_edgesInto_concat {A : Type*} [AddCommMonoid A] {N E M w : Nat} (hM : M = E + N)
    (idx : IVec ⟨2, ![E, 1]⟩ w) (idx2 : IVec ⟨2, ![M, 1]⟩ w)
    (h1 : ∀ e : Fin E, idx2 (ix2 ⟨e, by omega⟩ 0) = idx (ix2 e 0))
    (h2 : ∀ i : Fin N, (idx2 (ix2 ⟨E + i, by omega⟩ 0)).toInt = (i : ℤ))
    (g : Fin M → A) (p : Fin N) :
    ∑ e ∈ edgesInto idx2 p, g e = ∑ e ∈ edgesInto idx p, g ⟨e, by omega⟩ + g ⟨E + p, by omega⟩ := by
  subst hM
  unfold edgesInto
  rw [Finset.sum_filter, Finset.sum_filter, Fin.sum_univ_add]
  congr 1
  · refine Finset.sum_congr rfl fun e _ => ?_
    have he : idx2 (ix2 (Fin.castAdd N e) 0) = idx (ix2 e 0) := h1 e
    rw [he]
    rfl
  · have hc : ∀ i : Fin N, ((idx2 (ix2 (Fin.natAdd E i) 0)).toInt = (p.val : ℤ)) ↔ i = p := by
      intro i
      have hi : (idx2 (ix2 (Fin.natAdd E i) 0)).toInt = (i.val : ℤ) := h2 i
      rw [hi]
      constructor
      · intro h; exact Fin.ext (by exact_mod_cast h)
      · rintro rfl; rfl
    simp only [hc]
    rw [Finset.sum_ite_eq' Finset.univ p (fun i => g (Fin.natAdd E i))]
    simp only [Finset.mem_univ, if_true]
    rfl

/-- Regrouping a sum that starts from a neutral `a`: the last term may be added after the others. (Associativity
    only; on the extended reals no finiteness is needed.) -/
theorem add_sum_add_last {A : Type*} [AddSemigroup A] (a s t : A) : a + (s + t) = (a + s) + t :=
  (add_assoc a s t).symm

/-! ## The row a self-loop edge reads -/

/-- An edge whose index word, read signed, is the node `i` reads row `i`: clamping into `[0, N − 1]` does nothing to a
    node's number. -/
theorem rowOf_of_toInt_eq {N E w : Nat} (hN : 0 < N) (idx : IVec ⟨2, ![E, 1]⟩ w) (e : Fin E) (i : Fin N)
    (h : (idx (ix2 e 0)).toInt = (i.val : ℤ)) : rowOf hN idx e = i := by
  apply Fin.ext
  show min (idx (ix2 e 0)).toInt.toNat (N - 1) = i.val
  rw [h, Int.toNat_natCast]
  have := i.isLt
  omega

/-! ## Gathering single numbers out of a vector -/

/-- The dimension numbers of a gather of single numbers: operand `[N]`, one start index per edge (`[E, 1]`, the index
    vector on axis 1), result `[E]`; the operand's only axis is indexed and collapsed, there is no offset axis, a slice
    is one number. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A GATHER OUT OF A VECTOR READ AT `e`: the operand at `rowOf idx e`, edge `e`'s index word read signed and clamped
    into `[0, N − 1]` — the row a gather of whole rows with the same index array reads. On the operand's one axis the
    start index is clamped to `N − 1` (a slice is one number), and neither a batching nor an offset coordinate is
    added on a collapsed axis. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Two vectors laid end to end, read at an index -/

section Concat
variable {α : Type} {E N M : Nat}

/-- Two vectors laid end to end, read at a position `e` before the first one's length: the first vector at `e`. -/
theorem concat_vec_apply_left (h : Shape.Concatenates [(⟨1, ![E]⟩ : Shape), ⟨1, ![N]⟩] ⟨1, ![M]⟩ 0)
    (a : (⟨1, ![E]⟩ : Shape).Idx → α) (b : (⟨1, ![N]⟩ : Shape).Idx → α) (e : Fin E) (he : e.val < M) :
    concatenate ⟨1, ![M]⟩ 0 [⟨⟨1, ![E]⟩, a⟩, ⟨⟨1, ![N]⟩, b⟩] h (ix1 ⟨e.val, he⟩) = a (ix1 e) :=
  concatenate_pair_apply_left 0 a b h (ix1 ⟨e.val, he⟩) rfl (ix1 e) (fun c => by
    match c with
    | ⟨0, _⟩ => rfl)

/-- Two vectors laid end to end, read at the position `E + i`, `E` the first one's length: the second vector at `i`. -/
theorem concat_vec_apply_right (h : Shape.Concatenates [(⟨1, ![E]⟩ : Shape), ⟨1, ![N]⟩] ⟨1, ![M]⟩ 0)
    (a : (⟨1, ![E]⟩ : Shape).Idx → α) (b : (⟨1, ![N]⟩ : Shape).Idx → α) (i : Fin N) (hi : E + i.val < M) :
    concatenate ⟨1, ![M]⟩ 0 [⟨⟨1, ![E]⟩, a⟩, ⟨⟨1, ![N]⟩, b⟩] h (ix1 ⟨E + i.val, hi⟩) = b (ix1 i) :=
  concatenate_pair_apply_right 0 a b h (ix1 ⟨E + i.val, hi⟩) rfl rfl (ix1 i)
    (fun c hc => absurd (Subsingleton.elim _ _) hc)
    (by show i.val + E = E + i.val; omega)

end Concat

/-! ## The vector `0, 1, …, N − 1` -/

/-- The vector `0, 1, …, N − 1` holds at position `i` the word of value `i`. -/
theorem iota_vec_apply {N w : Nat} (i : Fin N) : iotaInDim ⟨1, ![N]⟩ w 0 (ix1 i) = BitVec.ofNat w i.val := rfl

/-- Read as a signed integer that word is `i`, as long as every position is below half the number of words
    (`2 N ≤ 2 ^ w`): it does not wrap and its sign bit is clear. -/
theorem iota_vec_toInt {N w : Nat} (hN : 2 * N ≤ 2 ^ w) (i : Fin N) :
    (iotaInDim ⟨1, ![N]⟩ w 0 (ix1 i)).toInt = (i.val : ℤ) := by
  rw [iota_vec_apply]
  have hi := i.isLt
  have hlt : i.val < 2 ^ w := by omega
  have hn : (BitVec.ofNat w i.val).toNat = i.val := by rw [BitVec.toNat_ofNat, Nat.mod_eq_of_lt hlt]
  rw [BitVec.toInt_eq_toNat_of_lt (by rw [hn]; omega), hn]

/-! ## An index made non-negative: `x + n` where `x` reads negative, `x` elsewhere -/

section Sign
variable {S : Shape} {w : Nat}

/-- A signed "less than" at an index is the bit of the words' signed comparison. -/
theorem cmpi_slt_apply (x y : IVec S w) (i : S.Idx) : cmpi .slt x y i = BitVec.ofBool ((x i).slt (y i)) := rfl

/-- An integer addition at an index adds the words. -/
theorem addi_apply (x y : IVec S w) (i : S.Idx) : addi x y i = x i + y i := rfl

/-- An integer constant reads its word everywhere. -/
theorem constantI_apply (T : Shape) (b : BitVec w) (i : T.Idx) : constantI T w b i = b := rfl

/-- A select on the bit of a signed comparison is the `if` on the signed readings. -/
theorem select_slt_word {α : Type} (a b : BitVec w) (u v : α) :
    Scalar.select (BitVec.ofBool (a.slt b)) u v = if a.toInt < b.toInt then u else v := by
  unfold Scalar.select
  by_cases h : a.toInt < b.toInt
  · rw [if_pos h, (BitVec.slt_iff_toInt_lt).2 h]; rfl
  · rw [if_neg h]
    have : a.slt b = false := by
      rcases hb : a.slt b with _ | _
      · rfl
      · exact absurd ((BitVec.slt_iff_toInt_lt).1 hb) h
    rw [this]; rfl

/-- THE NORMALISATION AT AN INDEX: "where `x` is below the constant `0`, `x` plus the constant `n`, else `x`", the two
    constants broadcast from scalars, is at each position `x + n` if `x` reads negative and `x` otherwise. -/
theorem signNorm_apply (h : (⟨0, ![]⟩ : Shape).BroadcastsInDim S (![] : Fin 0 → Fin S.rank))
    (x : IVec S w) (n : BitVec w) (i : S.Idx) :
    select (cmpi .slt x (broadcastInDim S ![] h (constantI ⟨0, ![]⟩ w 0#w)))
        (addi x (broadcastInDim S ![] h (constantI ⟨0, ![]⟩ w n))) x i
      = if (x i).toInt < 0 then x i + n else x i := by
  rw [select_apply, cmpi_slt_apply, addi_apply, bcast_scalar_apply, bcast_scalar_apply, constantI_apply,
    constantI_apply, select_slt_word, BitVec.toInt_zero]

/-- A word that reads non-negative is left alone by the normalisation. -/
theorem signNorm_of_nonneg (h : (⟨0, ![]⟩ : Shape).BroadcastsInDim S (![] : Fin 0 → Fin S.rank))
    (x : IVec S w) (n : BitVec w) (i : S.Idx) (hx : 0 ≤ (x i).toInt) :
    select (cmpi .slt x (broadcastInDim S ![] h (constantI ⟨0, ![]⟩ w 0#w)))
        (addi x (broadcastInDim S ![] h (constantI ⟨0, ![]⟩ w n))) x i = x i := by
  rw [signNorm_apply, if_neg (by omega)]

end Sign

/-! ## The index columns of the longer list -/

section Columns
variable {E N M w : Nat}

/-- THE COLUMN OF TARGETS OF THE LONGER LIST, read at a real edge: the vector `a` of real targets followed by
    `0, 1, …, N − 1`, made a column `[M, 1]`, holds at position `e` below `E` the word `a` holds at `e`. -/
theorem concat_iota_col_left (hM1 : M ≠ 1)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (a : IVec ⟨1, ![E]⟩ w) (e : Fin E) (he : e.val < M) :
    broadcastInDim ⟨2, ![M, 1]⟩ ![0] hb
        (concatenate ⟨1, ![M]⟩ 0 [⟨⟨1, ![E]⟩, a⟩, ⟨⟨1, ![N]⟩, iotaInDim ⟨1, ![N]⟩ w 0⟩] hc) (ix2 ⟨e.val, he⟩ 0)
      = a (ix1 e) := by
  rw [bcast_col_apply hM1, concat_vec_apply_left]

/-- The same column read at a self-loop: at position `E + i` it holds a word that reads `i`. -/
theorem concat_iota_col_right (hM1 : M ≠ 1) (hN : 2 * N ≤ 2 ^ w)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (a : IVec ⟨1, ![E]⟩ w) (i : Fin N) (hi : E + i.val < M) :
    (broadcastInDim ⟨2, ![M, 1]⟩ ![0] hb
        (concatenate ⟨1, ![M]⟩ 0 [⟨⟨1, ![E]⟩, a⟩, ⟨⟨1, ![N]⟩, iotaInDim ⟨1, ![N]⟩ w 0⟩] hc)
        (ix2 ⟨E + i.val, hi⟩ 0)).toInt = (i.val : ℤ) := by
  rw [bcast_col_apply hM1, concat_vec_apply_right, iota_vec_toInt hN]

/-- THE COLUMN OF SOURCES OF THE LONGER LIST AS A GATHER READS IT — the longer list with its negative entries moved
    up by `n`, made a column — read at a real edge: the word `a` holds at `e`, plus `n` if it reads negative. -/
theorem concat_iota_norm_col_left (hM1 : M ≠ 1)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (h0 : (⟨0, ![]⟩ : Shape).BroadcastsInDim ⟨1, ![M]⟩ (![] : Fin 0 → Fin 1))
    (a : IVec ⟨1, ![E]⟩ w) (n : BitVec w) (e : Fin E) (he : e.val < M) :
    broadcastInDim ⟨2, ![M, 1]⟩ ![0] hb
        (select
          (cmpi .slt (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w 0#w)))
          (addi (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w n)))
          (concatenate ⟨1, ![M]⟩ 0 [⟨⟨1, ![E]⟩, a⟩, ⟨⟨1, ![N]⟩, iotaInDim ⟨1, ![N]⟩ w 0⟩] hc))
        (ix2 ⟨e.val, he⟩ 0)
      = if (a (ix1 e)).toInt < 0 then a (ix1 e) + n else a (ix1 e) := by
  rw [bcast_col_apply hM1, signNorm_apply, concat_vec_apply_left]

/-- The same column read at a self-loop: at position `E + i` it holds a word that reads `i` (it was not negative, so
    nothing was added). -/
theorem concat_iota_norm_col_right (hM1 : M ≠ 1) (hN : 2 * N ≤ 2 ^ w)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (h0 : (⟨0, ![]⟩ : Shape).BroadcastsInDim ⟨1, ![M]⟩ (![] : Fin 0 → Fin 1))
    (a : IVec ⟨1, ![E]⟩ w) (n : BitVec w) (i : Fin N) (hi : E + i.val < M) :
    (broadcastInDim ⟨2, ![M, 1]⟩ ![0] hb
        (select
          (cmpi .slt (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w 0#w)))
          (addi (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w n)))
          (concatenate ⟨1, ![M]⟩ 0 [⟨⟨1, ![E]⟩, a⟩, ⟨⟨1, ![N]⟩, iotaInDim ⟨1, ![N]⟩ w 0⟩] hc))
        (ix2 ⟨E + i.val, hi⟩ 0)).toInt = (i.val : ℤ) := by
  have hr := concat_vec_apply_right hc a (iotaInDim ⟨1, ![N]⟩ w 0) i hi
  have ht := iota_vec_toInt (w := w) hN i
  rw [bcast_col_apply hM1, signNorm_of_nonneg _ _ _ _ (by rw [hr, ht]; omega), hr, ht]

end Columns

end Cert.LibSelfLoops

end
-- ==== Proof.GraphFacts.lean ====
/-
  Two facts about the graph read out of the edge list, the two that make both arrangements of a graph-convolution
  layer one function.

  The degree factor of a node is the inverse square root of the number `d` the scatter-add of ones leaves at the node
  where that number is positive, and zero elsewhere. Whatever extended real `d` is, this is a NON-NEGATIVE REAL: where
  `d` is not positive it is `0`; where `d` is a positive real it is the reciprocal of a square root; and where `d` is
  `+∞` the inverse square root is `0` (`degFactor_real`, `dn_real`). Nothing about the count itself is needed.

  An edge is collected by node `p` when its target word, read as a signed integer, is `p`. Such a word is not
  negative, so the sign normalisation that precedes a gather leaves it alone, and the node whose degree factor the edge
  takes on the target side is `p` itself (`tgt_of_mem`).
-/
import proofs.«128436_j51488067944595_2_alg».proof.Proof.Graph
import proofs.«128436_j51488067944595_2_alg».proof.Proof.LibSelfLoops

noncomputable section

namespace Cert.Graph

open Idealize.ShloMosaic Idealize.ShloMosaic.ValueIdx
open Cert.ReferenceIdeal Cert.ReferenceIdeal.ReadP
open Cert.LibRowGatherScatter (edgesInto rowOf bcast_col_apply)
open Cert.LibSelfLoops (signNorm_of_nonneg rowOf_of_toInt_eq)

/-- The inverse square root of `d` where `d` is positive, zero elsewhere, is a non-negative real for every extended
    real `d`. (The two zeros are passed as variables so that the stages that compute them can be put in their place.) -/
theorem degFactor_real (d z z' : EReal) (hz : z = 0) (hz' : z' = 0) :
    ∃ r : ℝ, 0 ≤ r ∧ Scalar.select (Ideal.cmp .ogt d z) (Ideal.rsqrt d) z' = (r : EReal) := by
  subst hz hz'
  by_cases h : (0 : EReal) < d
  · have hc : Ideal.cmp .ogt d 0 = 1#1 := by
      show BitVec.ofBool (decide ((0 : EReal) < d)) = 1#1
      rw [decide_eq_true h]
      rfl
    rw [hc, select_one]
    induction d using EReal.rec with
    | bot => exact absurd h not_lt_bot
    | top => exact ⟨0, le_rfl, by simp⟩
    | coe r =>
      have hr : 0 < r := by exact_mod_cast h
      refine ⟨(Real.sqrt r)⁻¹, inv_nonneg.mpr (Real.sqrt_nonneg r), ?_⟩
      rw [Ideal.rsqrt_coe, if_neg (not_lt.mpr hr.le), if_neg hr.ne']
  · have hc : Ideal.cmp .ogt d 0 = 0#1 := by
      show BitVec.ofBool (decide ((0 : EReal) < d)) = 0#1
      rw [decide_eq_false h]
      rfl
    rw [hc, select_zero]
    exact ⟨0, le_rfl, by simp⟩

/-- Every node's degree factor is a non-negative real. -/
theorem dn_real (x1 : EdgeList) : ∀ p, ∃ r : ℝ, 0 ≤ r ∧ dn x1 p = (r : EReal) := by
  intro p
  have h11 : val_main_v11 (F := Ideal) (ix1 p) = 0 := (val_main_v11_apply _).trans Ideal.ofBits_zero_f32
  have hc0 : val_main_call0_v1 (F := Ideal) (ix1 p) = 0 := (val_main_call0_v1_apply _).trans Ideal.ofBits_zero_f32
  show ∃ r : ℝ, 0 ≤ r ∧ val_main_v14 (F := Ideal) x1 (ix1 p) = (r : EReal)
  rw [val_main_v14_apply, val_main_v12_apply, val_main_v13_apply]
  generalize val_main_v10 (F := Ideal) x1 (ix1 p) = d
  exact degFactor_real d _ _ h11 hc0

/-- An edge collected by node `p` takes, on the target side, the degree factor of `p`. -/
theorem tgt_of_mem (x1 : EdgeList) : ∀ p, ∀ e ∈ into x1 p, tgt x1 e = p := by
  intro p e he
  have hmem : (dstCol x1 (ix2 e 0)).toInt = (p.val : ℤ) := (Finset.mem_filter.mp he).2
  have hd : dstCol x1 (ix2 e 0) = val_main_v6 (F := Ideal) x1 (ix1 e) :=
    bcast_col_apply (by decide) Facts₀.bcast_S3300000_S3300000x1_0 (val_main_v6 (F := Ideal) x1) e 0
  have h6 : (val_main_v6 (F := Ideal) x1 (ix1 e)).toInt = (p.val : ℤ) := by rw [← hd]; exact hmem
  have hn : dstNCol x1 (ix2 e 0) = val_main_v6 (F := Ideal) x1 (ix1 e) := by
    refine (bcast_col_apply (by decide) Facts₀.bcast_S3300000_S3300000x1_0 (val_main_v26 (F := Ideal) x1) e 0).trans ?_
    exact signNorm_of_nonneg Facts₀.bcast_S_S3300000 (val_main_v6 (F := Ideal) x1) 300000#32 (ix1 e) (by rw [h6]; omega)
  exact rowOf_of_toInt_eq _ (dstNCol x1) e p (by rw [hn]; exact h6)

end Cert.Graph

end
-- ==== Proof.LibAggregate.lean ====
/-
  One round of message passing read at one element: weighted rows gathered along the edges, scattered and added.

  In a graph layer every edge `e` carries the row of its source node, scaled by the edge's weight, to its target node,
  where the rows of all incoming edges are added up. As array operations: a gather of rows (`h[src]`), an elementwise
  product with the weight vector broadcast along the rows, and a scatter with an `add` body. This file reads the
  composite at one element `(p, k)`:

    • the aggregated element is the operand's plus, over the edges `e` that end in `p`, the sum of `h` at row
      `rowOf scol e`, column `k`, times the weight of `e` (`aggregate_rows_apply`; `aggregate_rows_extf_apply` is the
      same with the gathered rows widened to another format first, which changes nothing on the extended reals);
    • the weight of an edge, when it is the product of one number per node read at the edge's two ends, is that
      product (`weights_apply`);
    • when the edge lists are the real edges followed by the self-loops `i → i` — the longer target list agrees with
      the real one on the real edges and names `i` at position `E + i`, and likewise the rows read — the sum over the
      edges into `p` of the longer list is the sum over the real edges into `p` plus node `p`'s own row times the
      weight of its self-loop (`sum_aggregate_concat`, and `sum_aggregate_concat_words` with the hypotheses on the
      rows read replaced by hypotheses on the index words).

  Everything is stated for arbitrary extents, index widths and formats; sums are finite sums in a commutative monoid
  with a product, and no distributivity or finiteness of the terms is used.
-/
import Idealize.ShloMosaic.Lib.ValueIdx
import Idealize.ShloMosaic.PureOps.Ideal.Laws
import Idealize.ShloMosaic.Lib.Pipeline.Value
import proofs.«128436_j51488067944595_2_alg».proof.Proof.LibRowGatherScatter
import proofs.«128436_j51488067944595_2_alg».proof.Proof.LibSelfLoops

noncomputable section

open scoped BigOperators

namespace Cert.LibAggregate

open Idealize.ShloMosaic Idealize.ShloMosaic.ValueIdx
open Cert.LibRowGatherScatter (edgesInto rowOf rowGatherDims rowScatterDims gather_rows_apply scatterAdd_rows_apply
  bcast_col_apply bcast_row_apply)
open Cert.LibSelfLoops (sum_edgesInto_concat rowOf_of_toInt_eq vecGatherDims gather_vec_apply)

/-! ## Gathered rows, weighted, scattered and added -/

section Aggregate
variable {N E D w w' : Nat}

/-- THE AGGREGATE READ AT `(p, k)`: rows of `h` gathered along `scol`, each multiplied by its edge's weight (the weight
    vector made a column and broadcast along the rows), scattered along `tgt` and added into `z`: the element is
    `z`'s plus the sum over the edges `e` that end in `p` of `h` at `(rowOf scol e, k)` times the weight of `e`. -/
theorem aggregate_rows_apply (hN : 0 < N) (hE : E ≠ 1)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    {φ : FTy} (z : FVec Ideal ⟨2, ![N, D]⟩ φ) (tgt : IVec ⟨2, ![E, 1]⟩ w) (scol : IVec ⟨2, ![E, 1]⟩ w')
    (h : FVec Ideal ⟨2, ![N, D]⟩ φ) (wt : FVec Ideal ⟨1, ![E]⟩ φ) (p : Fin N) (k : Fin D) :
    Host.scatterAdd (F := Ideal) (rowScatterDims N E D wfS) z tgt
        (mulf (Host.gather (rowGatherDims N E D wfG) h scol)
          (broadcastInDim ⟨2, ![E, D]⟩ ![0, 1] hb2 (broadcastInDim ⟨2, ![E, 1]⟩ ![0] hb1 wt))) (ix2 p k)
      = z (ix2 p k) + ∑ e ∈ edgesInto tgt p, h (ix2 (rowOf hN scol e) k) * wt (ix1 e) := by
  rw [scatterAdd_rows_apply]
  congr 1
  refine Finset.sum_congr rfl fun e _ => ?_
  rw [mulf_apply, gather_rows_apply hN, bcast_row_apply hE, bcast_col_apply hE]

/-- The same aggregate when the gathered rows are widened from the format `φ` to the format `ψ` before the product:
    on the extended reals a widening is the identity, so the element read is the same. -/
theorem aggregate_rows_extf_apply (hN : 0 < N) (hE : E ≠ 1)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    {φ ψ : FTy} (hlt : φ.bits < ψ.bits) (z : FVec Ideal ⟨2, ![N, D]⟩ ψ) (tgt : IVec ⟨2, ![E, 1]⟩ w)
    (scol : IVec ⟨2, ![E, 1]⟩ w') (h : FVec Ideal ⟨2, ![N, D]⟩ φ) (wt : FVec Ideal ⟨1, ![E]⟩ ψ) (p : Fin N) (k : Fin D) :
    Host.scatterAdd (F := Ideal) (rowScatterDims N E D wfS) z tgt
        (mulf (extf ψ (Host.gather (rowGatherDims N E D wfG) h scol : FVec Ideal ⟨2, ![E, D]⟩ φ) hlt)
          (broadcastInDim ⟨2, ![E, D]⟩ ![0, 1] hb2 (broadcastInDim ⟨2, ![E, 1]⟩ ![0] hb1 wt))) (ix2 p k)
      = z (ix2 p k) + ∑ e ∈ edgesInto tgt p, (h (ix2 (rowOf hN scol e) k) : EReal) * wt (ix1 e) := by
  rw [scatterAdd_rows_apply]
  congr 1
  refine Finset.sum_congr rfl fun e _ => ?_
  rw [mulf_apply, extf_apply, gather_rows_apply hN, bcast_row_apply hE, bcast_col_apply hE]

/-- THE WEIGHT OF AN EDGE: the product of two gathers out of one vector `d` (one number per node), along the edge's
    two index columns, is at edge `e` the product of `d` at the edge's two ends. -/
theorem weights_apply (hN : 0 < N)
    (wfV : GatherDims.WF ⟨1, ![N]⟩ ⟨2, ![E, 1]⟩ ⟨1, ![E]⟩ [] [0] [] [0] [] 1 ![1])
    {φ : FTy} (d : FVec Ideal ⟨1, ![N]⟩ φ) (scol : IVec ⟨2, ![E, 1]⟩ w) (tcol : IVec ⟨2, ![E, 1]⟩ w') (e : Fin E) :
    mulf (Host.gather (vecGatherDims N E wfV) d scol : FVec Ideal ⟨1, ![E]⟩ φ)
        (Host.gather (vecGatherDims N E wfV) d tcol) (ix1 e)
      = d (ix1 (rowOf hN scol e)) * d (ix1 (rowOf hN tcol e)) := by
  rw [mulf_apply, gather_vec_apply hN, gather_vec_apply hN]

end Aggregate

/-! ## The aggregate over the real edges followed by the self-loops -/

section Concat
variable {A : Type*} [AddCommMonoid A] [Mul A] {N E M D w w' : Nat}

/-- The row an edge reads depends on its index word only: two edges with the same word read the same row. -/
theorem rowOf_congr {E₂ : Nat} (hN : 0 < N) (s : IVec ⟨2, ![E, 1]⟩ w) (s2 : IVec ⟨2, ![E₂, 1]⟩ w) (e : Fin E) (e2 : Fin E₂)
    (hw : s2 (ix2 e2 0) = s (ix2 e 0)) : rowOf hN s2 e2 = rowOf hN s e := by
  apply Fin.ext
  show min (s2 (ix2 e2 0)).toInt.toNat (N - 1) = min (s (ix2 e 0)).toInt.toNat (N - 1)
  rw [hw]

/-- THE AGGREGATE SUM OVER THE LONGER LIST, SPLIT. The longer target list `tgt2` agrees with `tgt` on the real edges
    and names node `i` at position `E + i`; the rows read along the longer source list `s2` are those read along `s`
    on the real edges and row `i` at position `E + i`. Then the sum over the edges of the longer list that end in `p`
    is the sum over the real edges that end in `p`, with the same rows and the weights at the same positions, plus
    node `p`'s own row times the weight at position `E + p`. -/
theorem sum_aggregate_concat (hM : M = E + N) (hN : 0 < N)
    (tgt : IVec ⟨2, ![E, 1]⟩ w) (tgt2 : IVec ⟨2, ![M, 1]⟩ w)
    (ht1 : ∀ e : Fin E, tgt2 (ix2 ⟨e, by omega⟩ 0) = tgt (ix2 e 0))
    (ht2 : ∀ i : Fin N, (tgt2 (ix2 ⟨E + i, by omega⟩ 0)).toInt = (i : ℤ))
    (s : IVec ⟨2, ![E, 1]⟩ w') (s2 : IVec ⟨2, ![M, 1]⟩ w')
    (hs1 : ∀ e : Fin E, rowOf hN s2 ⟨e, by omega⟩ = rowOf hN s e)
    (hs2 : ∀ i : Fin N, rowOf hN s2 ⟨E + i, by omega⟩ = i)
    (h : (⟨2, ![N, D]⟩ : Shape).Idx → A) (wt2 : (⟨1, ![M]⟩ : Shape).Idx → A) (p : Fin N) (k : Fin D) :
    ∑ e ∈ edgesInto tgt2 p, h (ix2 (rowOf hN s2 e) k) * wt2 (ix1 e)
      = (∑ e ∈ edgesInto tgt p, h (ix2 (rowOf hN s e) k) * wt2 (ix1 ⟨e, by omega⟩))
        + h (ix2 p k) * wt2 (ix1 ⟨E + p, by omega⟩) := by
  rw [sum_edgesInto_concat hM tgt tgt2 ht1 ht2 (fun e => h (ix2 (rowOf hN s2 e) k) * wt2 (ix1 e)) p]
  simp only [hs1, hs2]

/-- The same with the hypotheses on the rows read replaced by hypotheses on the index words: the longer source list
    holds the real sources' words on the real edges and a word reading `i` at position `E + i`. -/
theorem sum_aggregate_concat_words (hM : M = E + N) (hN : 0 < N)
    (tgt : IVec ⟨2, ![E, 1]⟩ w) (tgt2 : IVec ⟨2, ![M, 1]⟩ w)
    (ht1 : ∀ e : Fin E, tgt2 (ix2 ⟨e, by omega⟩ 0) = tgt (ix2 e 0))
    (ht2 : ∀ i : Fin N, (tgt2 (ix2 ⟨E + i, by omega⟩ 0)).toInt = (i : ℤ))
    (s : IVec ⟨2, ![E, 1]⟩ w') (s2 : IVec ⟨2, ![M, 1]⟩ w')
    (hs1 : ∀ e : Fin E, s2 (ix2 ⟨e, by omega⟩ 0) = s (ix2 e 0))
    (hs2 : ∀ i : Fin N, (s2 (ix2 ⟨E + i, by omega⟩ 0)).toInt = (i : ℤ))
    (h : (⟨2, ![N, D]⟩ : Shape).Idx → A) (wt2 : (⟨1, ![M]⟩ : Shape).Idx → A) (p : Fin N) (k : Fin D) :
    ∑ e ∈ edgesInto tgt2 p, h (ix2 (rowOf hN s2 e) k) * wt2 (ix1 e)
      = (∑ e ∈ edgesInto tgt p, h (ix2 (rowOf hN s e) k) * wt2 (ix1 ⟨e, by omega⟩))
        + h (ix2 p k) * wt2 (ix1 ⟨E + p, by omega⟩) :=
  sum_aggregate_concat hM hN tgt tgt2 ht1 ht2 s s2
    (fun e => rowOf_congr hN s s2 e ⟨e, by omega⟩ (hs1 e))
    (fun i => rowOf_of_toInt_eq hN s2 ⟨E + i, by omega⟩ i (hs2 i)) h wt2 p k

end Concat

end Cert.LibAggregate

end
-- ==== Proof.RefValueOps.lean ====
/-
  The steps of the reference's network, each read at one row entry, for arbitrary extents.

  The reference computes every layer on whole arrays: a matrix product, a bias vector spread down the rows, a batch
  norm whose four parameter vectors are spread the same way, a positive part taken against a zero array, and, for a
  graph-convolution layer, rows gathered along the edges, multiplied by the per-edge weight, scattered to the edges'
  targets and added up. Read at the single entry `(p, j)` each of these is the corresponding row formula of the
  specification:

    • product plus bias is `dense` of row `p` (`dense_apply`);
    • subtracting the mean, multiplying by the inverse square root of variance plus `ε`, by the scale, and adding the
      shift is `bn` of the entry (`bn_apply`);
    • the maximum with the zero array is the maximum with `0` (`relu_apply`);
    • the whole graph-convolution layer is `layerR` over the edge sets and rows that the two index columns define, as
      soon as the weight of edge `e` is the product of the degree factors at its two ends (`layer_apply`);
    • the regrouping of 300 consecutive 4-feature rows into one long row reads entry `k` of group `g` at position
      `g * 1200 + k` of the row-major order, that is row `(g * 1200 + k) / 4`, column `(g * 1200 + k) % 4`
      (`group_apply`).

  No law of arithmetic is used: only the operations' definitions on the extended reals are opened.
-/
import proofs.«128436_j51488067944595_2_alg».proof.Proof.Spec
import proofs.«128436_j51488067944595_2_alg».proof.Proof.LibRowGatherScatter
import proofs.«128436_j51488067944595_2_alg».proof.Proof.LibDenseRow
import proofs.«128436_j51488067944595_2_alg».proof.Proof.LibAggregate

noncomputable section

open scoped BigOperators

namespace Cert.RefSide

open Idealize.ShloMosaic Idealize.ShloMosaic.ValueIdx
open Cert.Spec
open Cert.LibRowGatherScatter (edgesInto rowOf rowGatherDims rowScatterDims rowDotDims dotGeneral_rows_apply
  bcast_scalar_apply)
open Cert.LibDenseRow (biasVec_apply)
open Cert.LibAggregate (aggregate_rows_apply)

section Rows
variable {N K D : Nat}

/-- PRODUCT PLUS BIAS at `(p, j)`: row `p` of the left operand against column `j` of the weights, plus entry `j` of
    the bias vector. -/
theorem dense_apply (wf : DotDims.WF ⟨2, ![N, K]⟩ ⟨2, ![K, D]⟩ ⟨2, ![N, D]⟩ [1] [0] [0] [1] [] [])
    (h₁ : (⟨1, ![D]⟩ : Shape).BroadcastsInDim ⟨2, ![1, D]⟩ ![1])
    (h₂ : (⟨2, ![1, D]⟩ : Shape).BroadcastsInDim ⟨2, ![N, D]⟩ ![0, 1])
    (x : FVec Ideal ⟨2, ![N, K]⟩ .f32) (W : FVec Ideal ⟨2, ![K, D]⟩ .f32) (b : FVec Ideal ⟨1, ![D]⟩ .f32)
    (p : Fin N) (j : Fin D) :
    addf (Host.dotGeneral (rowDotDims N K D wf) none x W)
        (broadcastInDim ⟨2, ![N, D]⟩ ![0, 1] h₂ (broadcastInDim ⟨2, ![1, D]⟩ ![1] h₁ b)) (ix2 p j)
      = dense (fun k => x (ix2 p k)) (mat W) (vec b) j := by
  rw [addf_apply, dotGeneral_rows_apply, biasVec_apply]
  rfl

/-- BATCH NORM at `(p, j)`: the entry minus the mean's entry `j`, times the inverse square root of the variance's
    entry `j` plus `ε`, times the scale's entry `j`, plus the shift's entry `j`. -/
theorem bn_apply (h₁ : (⟨1, ![D]⟩ : Shape).BroadcastsInDim ⟨2, ![1, D]⟩ ![1])
    (h₂ : (⟨2, ![1, D]⟩ : Shape).BroadcastsInDim ⟨2, ![N, D]⟩ ![0, 1])
    (hε : (⟨0, ![]⟩ : Shape).BroadcastsInDim ⟨1, ![D]⟩ (![] : Fin 0 → Fin 1))
    (t : FVec Ideal ⟨2, ![N, D]⟩ .f32) (m v g be : FVec Ideal ⟨1, ![D]⟩ .f32) (p : Fin N) (j : Fin D) :
    addf
        (mulf
          (mulf (subf t (broadcastInDim ⟨2, ![N, D]⟩ ![0, 1] h₂ (broadcastInDim ⟨2, ![1, D]⟩ ![1] h₁ m)))
            (broadcastInDim ⟨2, ![N, D]⟩ ![0, 1] h₂ (broadcastInDim ⟨2, ![1, D]⟩ ![1] h₁
              (Host.rsqrt (addf v (broadcastInDim ⟨1, ![D]⟩ ![] hε (constant (F := Ideal) ⟨0, ![]⟩ .f32 0x3727C5AC#32)))))))
          (broadcastInDim ⟨2, ![N, D]⟩ ![0, 1] h₂ (broadcastInDim ⟨2, ![1, D]⟩ ![1] h₁ g)))
        (broadcastInDim ⟨2, ![N, D]⟩ ![0, 1] h₂ (broadcastInDim ⟨2, ![1, D]⟩ ![1] h₁ be)) (ix2 p j)
      = bn (t (ix2 p j)) (m (ix1 j)) (v (ix1 j)) (g (ix1 j)) (be (ix1 j)) := by
  rw [addf_apply, mulf_apply, mulf_apply, subf_apply, biasVec_apply, biasVec_apply, biasVec_apply, biasVec_apply]
  have hr : Host.rsqrt (addf v (broadcastInDim ⟨1, ![D]⟩ ![] hε (constant (F := Ideal) ⟨0, ![]⟩ .f32 0x3727C5AC#32)))
      (ix1 j) = Ideal.rsqrt (v (ix1 j) + eps) := by
    show Ideal.rsqrt (v (ix1 j)
      + broadcastInDim ⟨1, ![D]⟩ ![] hε (constant (F := Ideal) ⟨0, ![]⟩ .f32 0x3727C5AC#32) (ix1 j)) = _
    rw [bcast_scalar_apply]
    rfl
  rw [hr]
  rfl

/-- POSITIVE PART at `(p, j)`: the maximum of the entry and `0`. -/
theorem relu_apply (hz : (⟨0, ![]⟩ : Shape).BroadcastsInDim ⟨2, ![N, D]⟩ (![] : Fin 0 → Fin 2))
    (t : FVec Ideal ⟨2, ![N, D]⟩ .f32) (p : Fin N) (j : Fin D) :
    maximumf t (broadcastInDim ⟨2, ![N, D]⟩ ![] hz (constant (F := Ideal) ⟨0, ![]⟩ .f32 0x00000000#32)) (ix2 p j)
      = max (t (ix2 p j)) 0 := by
  rw [maximumf_apply, bcast_scalar_apply, constant_apply, Ideal.ofBits_zero_f32]

end Rows

/-- A GRAPH-CONVOLUTION LAYER at `(p, j)`. The rows `hin` go through `W`; edge `e` reads the transformed row of the
    node its source word names (`rowOf scol e`), multiplies it by its weight `wt e`, and the node `p` adds up, onto zero,
    the weighted rows of the edges whose target word names `p` (`edgesInto tcol p`); then the bias is added and the
    positive part taken. When the weight of `e` is `dnf` at the edge's source times `dnf` at `tgtf e`, this is the
    specification's layer with every edge's term weighted by both factors. -/
theorem layer_apply {N E K D w w' : Nat} (hN : 0 < N) (hE : E ≠ 1)
    (wfD : DotDims.WF ⟨2, ![N, K]⟩ ⟨2, ![K, D]⟩ ⟨2, ![N, D]⟩ [1] [0] [0] [1] [] [])
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    (hz : (⟨0, ![]⟩ : Shape).BroadcastsInDim ⟨2, ![N, D]⟩ (![] : Fin 0 → Fin 2))
    (hc1 : (⟨1, ![D]⟩ : Shape).BroadcastsInDim ⟨2, ![1, D]⟩ ![1])
    (hc2 : (⟨2, ![1, D]⟩ : Shape).BroadcastsInDim ⟨2, ![N, D]⟩ ![0, 1])
    (tcol : IVec ⟨2, ![E, 1]⟩ w) (scol : IVec ⟨2, ![E, 1]⟩ w') (wt : FVec Ideal ⟨1, ![E]⟩ .f32)
    (tgtf : Fin E → Fin N) (dnf : Fin N → EReal)
    (hwt : ∀ e, wt (ix1 e) = dnf (rowOf hN scol e) * dnf (tgtf e))
    (hin : FVec Ideal ⟨2, ![N, K]⟩ .f32) (W : FVec Ideal ⟨2, ![K, D]⟩ .f32) (b : FVec Ideal ⟨1, ![D]⟩ .f32)
    (p : Fin N) (j : Fin D) :
    maximumf
        (addf
          (Host.scatterAdd (F := Ideal) (rowScatterDims N E D wfS)
            (broadcastInDim ⟨2, ![N, D]⟩ ![] hz (constant (F := Ideal) ⟨0, ![]⟩ .f32 0x00000000#32)) tcol
            (mulf (Host.gather (rowGatherDims N E D wfG) (Host.dotGeneral (rowDotDims N K D wfD) none hin W) scol)
              (broadcastInDim ⟨2, ![E, D]⟩ ![0, 1] hb2 (broadcastInDim ⟨2, ![E, 1]⟩ ![0] hb1 wt))))
          (broadcastInDim ⟨2, ![N, D]⟩ ![0, 1] hc2 (broadcastInDim ⟨2, ![1, D]⟩ ![1] hc1 b)))
        (broadcastInDim ⟨2, ![N, D]⟩ ![] hz (constant (F := Ideal) ⟨0, ![]⟩ .f32 0x00000000#32)) (ix2 p j)
      = layerR (fun q => edgesInto tcol q) (rowOf hN scol) tgtf dnf (fun q k => hin (ix2 q k)) (mat W) (vec b) p j := by
  rw [maximumf_apply, addf_apply, aggregate_rows_apply hN hE, biasVec_apply, bcast_scalar_apply, constant_apply,
    Ideal.ofBits_zero_f32]
  have hsum : ∑ e ∈ edgesInto tcol p,
        Host.dotGeneral (rowDotDims N K D wfD) none hin W (ix2 (rowOf hN scol e) j) * wt (ix1 e)
      = ∑ e ∈ edgesInto tcol p,
        (∑ k, hin (ix2 (rowOf hN scol e) k) * W (ix2 k j)) * (dnf (rowOf hN scol e) * dnf (tgtf e)) :=
    Finset.sum_congr rfl fun e _ => by rw [dotGeneral_rows_apply, hwt]
  rw [hsum]
  rfl

/-- THE REGROUPING at `(g, k)`: the `[300000, 4]` array recast as `[1000, 1200]` reads, at entry `k` of group `g`, the
    entry with the same row-major position `g * 1200 + k`: row `(g * 1200 + k) / 4`, column `(g * 1200 + k) % 4`. -/
theorem group_apply (hc : (⟨2, ![300000, 4]⟩ : Shape).ShapeCasts ⟨2, ![1000, 1200]⟩)
    (h : FVec Ideal ⟨2, ![300000, 4]⟩ .f32) (g : Fin 1000) (k : Fin 1200) :
    shapeCast ⟨2, ![1000, 1200]⟩ h hc (ix2 g k) = groupRow (fun q c => h (ix2 q c)) g k := by
  refine (shapeCast_apply h hc (ix2 g k)
    (ix2 ⟨(g.val * 1200 + k.val) / 4, by omega⟩ ⟨(g.val * 1200 + k.val) % 4, by omega⟩) ?_).trans rfl
  rw [Shape.rowMajor_val_two, Shape.rowMajor_val_two]
  show (g.val * 1200 + k.val) / 4 * 4 + (g.val * 1200 + k.val) % 4 = g.val * 1200 + k.val
  omega

end Cert.RefSide

end
-- ==== Proof.RefValueFfn.lean ====
/-
  The reference's feed-forward block and its per-edge weight, read at one entry.

  Before the graph layers the reference sends every node's feature row through a dense layer, an eval-mode batch norm
  and the positive part, and then through a second dense layer and batch norm; entry `(p, j)` of the result is the
  specification's `ffnOut` of row `p` (`ref_h0`). The weight the reference attaches to edge `e` is the product of two
  gathers out of the degree-factor vector, along the edge's source and target columns: the degree factor of the node the
  edge reads times the degree factor of the node its target word names (`weight_apply`).
-/
import proofs.«128436_j51488067944595_2_alg».proof.Proof.Net
import proofs.«128436_j51488067944595_2_alg».proof.Proof.RefValueOps

noncomputable section

open scoped BigOperators

namespace Cert.RefSide

open Idealize.ShloMosaic Idealize.ShloMosaic.ValueIdx
open Cert.ReferenceIdeal Cert.ReferenceIdeal.ReadP
open Cert.Spec Cert.Graph Cert.Net
open Cert.LibAggregate (weights_apply)

/-- The hidden row of the feed-forward block: entry `(p, k)` after the first dense layer, batch norm and positive
    part. -/
theorem ref_hidden (x0 : A2 300000 25) (x2 : A2 25 100) (x3 x4 x5 x6 x7 : A1 100) (p : Fin 300000) (k : Fin 100) :
    val_main_v49 (F := Ideal) x0 x2 x3 x4 x5 x6 x7 (ix2 p k)
      = ffnHidden (mat x0 p) (mat x2) (vec x3) (vec x4) (vec x5) (vec x6) (vec x7) k := by
  refine (relu_apply (N := 300000) (D := 100) _ (val_main_v48 (F := Ideal) x0 x2 x3 x4 x5 x6 x7) p k).trans ?_
  refine congrArg (fun t => max t 0) ?_
  refine (bn_apply (N := 300000) (D := 100) _ _ _ (val_main_v33 (F := Ideal) x0 x2 x3) x6 x7 x4 x5 p k).trans ?_
  refine congrArg (fun t => bn t (vec x6 k) (vec x7 k) (vec x4 k) (vec x5 k)) ?_
  exact dense_apply (N := 300000) (K := 25) (D := 100) _ _ _ x0 x2 x3 p k

/-- The rows after the feed-forward block: entry `(p, j)` after the second dense layer and batch norm. -/
theorem ref_h0 (x0 : A2 300000 25) (x2 : A2 25 100) (x3 x4 x5 x6 x7 : A1 100) (x8 : A2 100 25) (x9 x10 x11 x12 x13 : A1 25) (p : Fin 300000) (j : Fin 25) :
    val_main_v68 (F := Ideal) x0 x2 x3 x4 x5 x6 x7 x8 x9 x10 x11 x12 x13 (ix2 p j) = h0 x0 x2 x3 x4 x5 x6 x7 x8 x9 x10 x11 x12 x13 p j := by
  refine (bn_apply (N := 300000) (D := 25) _ _ _ (val_main_v53 (F := Ideal) x0 x2 x3 x4 x5 x6 x7 x8 x9) x12 x13 x10 x11 p j).trans ?_
  show _ = bn (dense (ffnHidden (mat x0 p) (mat x2) (vec x3) (vec x4) (vec x5) (vec x6) (vec x7)) (mat x8) (vec x9) j)
    (vec x12 j) (vec x13 j) (vec x10 j) (vec x11 j)
  refine congrArg (fun t => bn t (vec x12 j) (vec x13 j) (vec x10 j) (vec x11 j)) ?_
  refine (dense_apply (N := 300000) (K := 100) (D := 25) _ _ _ (val_main_v49 (F := Ideal) x0 x2 x3 x4 x5 x6 x7) x8 x9 p j).trans ?_
  exact congrArg (fun f => dense f (mat x8) (vec x9) j) (funext fun k => ref_hidden x0 x2 x3 x4 x5 x6 x7 p k)

/-- The weight of edge `e`: the degree factor of the node whose row the edge carries times the degree factor of the node
    its target word names. -/
theorem weight_apply (x1 : EdgeList) (e : Fin 3300000) :
    val_main_v29 (F := Ideal) x1 (ix1 e) = dn x1 (src x1 e) * dn x1 (tgt x1 e) :=
  weights_apply (N := 300000) (E := 3300000) (by decide) _ (dinv x1) (srcNCol x1) (dstNCol x1) e

end Cert.RefSide

end
-- ==== Proof.RefValue.lean ====
/-
  The reference's result, one entry at a time, is the network of the specification in the arrangement that weights every
  edge's term by both degree factors.

  After the feed-forward block the reference runs five graph-convolution layers. Each one reads its rows at the same
  source column, scatters to the same target column and uses the same per-edge weight, so each is the specification's
  `layerR` on the graph of the edge list, applied to the rows of the layer before (`ref_hR1` … `ref_hR5`). The last
  rows are regrouped, 300 nodes' 4-feature rows side by side, and sent through one more dense layer (`ref_value`).
-/
import proofs.«128436_j51488067944595_2_alg».proof.Proof.RefValueFfn

noncomputable section

open scoped BigOperators

namespace Cert.RefSide

open Idealize.ShloMosaic Idealize.ShloMosaic.ValueIdx
open Cert.ReferenceIdeal Cert.ReferenceIdeal.ReadP
open Cert.Spec Cert.Graph Cert.Net

/-- The rows after graph-convolution layer 1: entry `(p, j)`. -/
theorem ref_hR1 (x0 : A2 300000 25) (x1 : EdgeList) (x2 : A2 25 100) (x3 x4 x5 x6 x7 : A1 100) (x8 : A2 100 25) (x9 x10 x11 x12 x13 : A1 25) (x14 : A2 25 25) (x15 : A1 25) (p : Fin 300000) (j : Fin 25) :
    val_main_v86 (F := Ideal) x0 x1 x2 x3 x4 x5 x6 x7 x8 x9 x10 x11 x12 x13 x14 x15 (ix2 p j) = hR1 x0 x1 x2 x3 x4 x5 x6 x7 x8 x9 x10 x11 x12 x13 x14 x15 p j := by
  have hin : (fun q k => val_main_v68 (F := Ideal) x0 x2 x3 x4 x5 x6 x7 x8 x9 x10 x11 x12 x13 (ix2 q k)) = h0 x0 x2 x3 x4 x5 x6 x7 x8 x9 x10 x11 x12 x13 :=
    funext fun q => funext fun k => ref_h0 x0 x2 x3 x4 x5 x6 x7 x8 x9 x10 x11 x12 x13 q k
  unfold hR1
  rw [← hin]
  exact layer_apply (N := 300000) (E := 3300000) (K := 25) (D := 25) (by decide) (by decide) _ _ _ _ _ _ _ _
    (dstCol x1) (srcNCol x1) (val_main_v29 (F := Ideal) x1) (tgt x1) (dn x1) (weight_apply x1)
    (val_main_v68 (F := Ideal) x0 x2 x3 x4 x5 x6 x7 x8 x9 x10 x11 x12 x13) x14 x15 p j

/-- The rows after graph-convolution layer 2: entry `(p, j)`. -/
theorem ref_hR2 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (p : Fin 300000) (j : Fin 16) :
    val_main_v104 (F := Ideal) x0 x1 x2 x3 x4 x5 x6 x7 x8 x9 x10 x11 x12 x13 x14 x15 x16 x17 (ix2 p j) = hR2 x0 x1 x2 x3 x4 x5 x6 x7 x8 x9 x10 x11 x12 x13 x14 x15 x16 x17 p j := by
  have hin : (fun q k => val_main_v86 (F := Ideal) x0 x1 x2 x3 x4 x5 x6 x7 x8 x9 x10 x11 x12 x13 x14 x15 (ix2 q k)) = hR1 x0 x1 x2 x3 x4 x5 x6 x7 x8 x9 x10 x11 x12 x13 x14 x15 :=
    funext fun q => funext fun k => ref_hR1 x0 x1 x2 x3 x4 x5 x6 x7 x8 x9 x10 x11 x12 x13 x14 x15 q k
  unfold hR2
  rw [← hin]
  exact layer_apply (N := 300000) (E := 3300000) (K := 25) (D := 16) (by decide) (by decide) _ _ _ _ _ _ _ _
    (dstCol x1) (srcNCol x1) (val_main_v29 (F := Ideal) x1) (tgt x1) (dn x1) (weight_apply x1)
    (val_main_v86 (F := Ideal) x0 x1 x2 x3 x4 x5 x6 x7 x8 x9 x10 x11 x12 x13 x14 x15) x16 x17 p j

/-- The rows after graph-convolution layer 3: entry `(p, j)`. -/
theorem ref_hR3 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (p : Fin 300000) (j : Fin 16) :
    val_main_v122 (F := Ideal) x0 x1 x2 x3 x4 x5 x6 x7 x8 x9 x10 x11 x12 x13 x14 x15 x16 x17 x18 x19 (ix2 p j) = hR3 x0 x1 x2 x3 x4 x5 x6 x7 x8 x9 x10 x11 x12 x13 x14 x15 x16 x17 x18 x19 p j := by
  have hin : (fun q k => val_main_v104 (F := Ideal) x0 x1 x2 x3 x4 x5 x6 x7 x8 x9 x10 x11 x12 x13 x14 x15 x16 x17 (ix2 q k)) = hR2 x0 x1 x2 x3 x4 x5 x6 x7 x8 x9 x10 x11 x12 x13 x14 x15 x16 x17 :=
    funext fun q => funext fun k => ref_hR2 x0 x1 x2 x3 x4 x5 x6 x7 x8 x9 x10 x11 x12 x13 x14 x15 x16 x17 q k
  unfold hR3
  rw [← hin]
  exact layer_apply (N := 300000) (E := 3300000) (K := 16) (D := 16) (by decide) (by decide) _ _ _ _ _ _ _ _
    (dstCol x1) (srcNCol x1) (val_main_v29 (F := Ideal) x1) (tgt x1) (dn x1) (weight_apply x1)
    (val_main_v104 (F := Ideal) x0 x1 x2 x3 x4 x5 x6 x7 x8 x9 x10 x11 x12 x13 x14 x15 x16 x17) x18 x19 p j

/-- The rows after graph-convolution layer 4: entry `(p, j)`. -/
theorem ref_hR4 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (p : Fin 300000) (j : Fin 8) :
    val_main_v140 (F := Ideal) x0 x1 x2 x3 x4 x5 x6 x7 x8 x9 x10 x11 x12 x13 x14 x15 x16 x17 x18 x19 x20 x21 (ix2 p j) = hR4 x0 x1 x2 x3 x4 x5 x6 x7 x8 x9 x10 x11 x12 x13 x14 x15 x16 x17 x18 x19 x20 x21 p j := by
  have hin : (fun q k => val_main_v122 (F := Ideal) x0 x1 x2 x3 x4 x5 x6 x7 x8 x9 x10 x11 x12 x13 x14 x15 x16 x17 x18 x19 (ix2 q k)) = hR3 x0 x1 x2 x3 x4 x5 x6 x7 x8 x9 x10 x11 x12 x13 x14 x15 x16 x17 x18 x19 :=
    funext fun q => funext fun k => ref_hR3 x0 x1 x2 x3 x4 x5 x6 x7 x8 x9 x10 x11 x12 x13 x14 x15 x16 x17 x18 x19 q k
  unfold hR4
  rw [← hin]
  exact layer_apply (N := 300000) (E := 3300000) (K := 16) (D := 8) (by decide) (by decide) _ _ _ _ _ _ _ _
    (dstCol x1) (srcNCol x1) (val_main_v29 (F := Ideal) x1) (tgt x1) (dn x1) (weight_apply x1)
    (val_main_v122 (F := Ideal) x0 x1 x2 x3 x4 x5 x6 x7 x8 x9 x10 x11 x12 x13 x14 x15 x16 x17 x18 x19) x20 x21 p j

/-- The rows after graph-convolution layer 5: entry `(p, j)`. -/
theorem ref_hR5 (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) (p : Fin 300000) (j : Fin 4) :
    val_main_v158 (F := Ideal) x0 x1 x2 x3 x4 x5 x6 x7 x8 x9 x10 x11 x12 x13 x14 x15 x16 x17 x18 x19 x20 x21 x22 x23 (ix2 p j) = hR5 x0 x1 x2 x3 x4 x5 x6 x7 x8 x9 x10 x11 x12 x13 x14 x15 x16 x17 x18 x19 x20 x21 x22 x23 p j := by
  have hin : (fun q k => val_main_v140 (F := Ideal) x0 x1 x2 x3 x4 x5 x6 x7 x8 x9 x10 x11 x12 x13 x14 x15 x16 x17 x18 x19 x20 x21 (ix2 q k)) = hR4 x0 x1 x2 x3 x4 x5 x6 x7 x8 x9 x10 x11 x12 x13 x14 x15 x16 x17 x18 x19 x20 x21 :=
    funext fun q => funext fun k => ref_hR4 x0 x1 x2 x3 x4 x5 x6 x7 x8 x9 x10 x11 x12 x13 x14 x15 x16 x17 x18 x19 x20 x21 q k
  unfold hR5
  rw [← hin]
  exact layer_apply (N := 300000) (E := 3300000) (K := 8) (D := 4) (by decide) (by decide) _ _ _ _ _ _ _ _
    (dstCol x1) (srcNCol x1) (val_main_v29 (F := Ideal) x1) (tgt x1) (dn x1) (weight_apply x1)
    (val_main_v140 (F := Ideal) x0 x1 x2 x3 x4 x5 x6 x7 x8 x9 x10 x11 x12 x13 x14 x15 x16 x17 x18 x19 x20 x21) x22 x23 p j

/-- THE REFERENCE'S RESULT at `(g, j)`: group `g`'s long row of layer-5 entries against column `j` of the last weights,
    plus the last bias. -/
theorem ref_value (x0 : A2 300000 25) (x1 : EdgeList) (x2 : A2 25 100) (x3 x4 x5 x6 x7 : A1 100) (x8 : A2 100 25) (x9 x10 x11 x12 x13 : A1 25) (x14 : A2 25 25) (x15 : A1 25) (x16 : A2 25 16) (x17 : A1 16) (x18 : A2 16 16) (x19 : A1 16) (x20 : A2 16 8) (x21 : A1 8) (x22 : A2 8 4) (x23 : A1 4) (x24 : A2 1200 4) (x25 : A1 4) (g : Fin 1000) (j : Fin 4) :
    Cert.ReferenceIdeal.ReadP.val_main_v163 (F := Ideal) x0 x1 x2 x3 x4 x5 x6 x7 x8 x9 x10 x11 x12 x13 x14 x15 x16 x17 x18 x19 x20 x21 x22 x23 x24 x25 (ix2 g j)
      = Cert.Net.outR x0 x1 x2 x3 x4 x5 x6 x7 x8 x9 x10 x11 x12 x13 x14 x15 x16 x17 x18 x19 x20 x21 x22 x23 x24 x25 g j := by
  have hin : (fun q c => val_main_v158 (F := Ideal) x0 x1 x2 x3 x4 x5 x6 x7 x8 x9 x10 x11 x12 x13 x14 x15 x16 x17 x18 x19 x20 x21 x22 x23 (ix2 q c)) = hR5 x0 x1 x2 x3 x4 x5 x6 x7 x8 x9 x10 x11 x12 x13 x14 x15 x16 x17 x18 x19 x20 x21 x22 x23 :=
    funext fun q => funext fun c => ref_hR5 x0 x1 x2 x3 x4 x5 x6 x7 x8 x9 x10 x11 x12 x13 x14 x15 x16 x17 x18 x19 x20 x21 x22 x23 q c
  unfold outR
  rw [← hin]
  refine (dense_apply (N := 1000) (K := 1200) (D := 4) _ _ _ (val_main_v159 (F := Ideal) x0 x1 x2 x3 x4 x5 x6 x7 x8 x9 x10 x11 x12 x13 x14 x15 x16 x17 x18 x19 x20 x21 x22 x23) x24 x25 g j).trans ?_
  exact congrArg (fun f => dense f (mat x24) (vec x25) j)
    (funext fun k => group_apply _ (val_main_v158 (F := Ideal) x0 x1 x2 x3 x4 x5 x6 x7 x8 x9 x10 x11 x12 x13 x14 x15 x16 x17 x18 x19 x20 x21 x22 x23) g k)

end Cert.RefSide

end
-- ==== Proof.RefRun.lean ====
/-
  The reference's run ends with the network's result.

  Every weakly fair execution of the reference program terminates with its result buffer holding the composed term of
  its operations and its argument buffers unchanged. Read one entry at a time, that term is the network of the
  specification (in the arrangement that weights every edge's term by both degree factors) on the argument arrays the
  memory holds; so the result buffer is the array whose entry `(g, j)` is that network's entry.
-/
import proofs.«128436_j51488067944595_2_alg».proof.Proof.RefRunP
import proofs.«128436_j51488067944595_2_alg».proof.Proof.RefValue
import proofs.«128436_j51488067944595_2_alg».proof.Proof.Arr

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- The composed term of the reference's operations is the array of the network's entries on the argument arrays. -/
theorem res_eq (m' : (ℓ : Loc nD τ sig) → Buf (Elt Ideal) ℓ) (c : Dev nD) :
    Cert.ReferenceIdeal.ValueP.res_main_v163 (F := Ideal) m' c
      = Cert.Arr.arr2 (Cert.Net.outR (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25))) := by
  have h : Cert.ReferenceIdeal.ValueP.res_main_v163 (F := Ideal) m' c
      = Cert.ReferenceIdeal.ReadP.val_main_v163 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) := by
    unfold Cert.ReferenceIdeal.ValueP.res_main_v163; rfl
  exact h.trans (Cert.Arr.eq_arr2 _ _ fun g j => ref_value (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) g j)

/-- THE REFERENCE'S RUN: from any memory with zero counters every weakly fair execution terminates, the result buffer
    holds the network's result on the argument arrays, and the argument buffers are unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v163)
        = Cert.Arr.arr2 (Cert.Net.outR (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)) :=
  (θ_run defs _ _).mono (fun _ h c => ⟨(h c).1.trans (res_eq m' c), (h c).2⟩)
    (Cert.ReferenceIdeal.ValueP.run (F := Ideal) m' ρ')

end Cert.RefSide

end
-- ==== Proof.lean ====
/-
  One kernel against its reference: a graph network over 300000 nodes and 3.3 million edges (self-loops included) — a
  feed-forward block with eval-mode batch norm, five graph-convolution layers, and a last dense layer over groups of 300
  nodes.

  The two programs differ in ONE arrangement. The reference weights every edge's term by both degree factors,
  `dn (src e) · dn (tgt e)`, before adding the terms up at the target node. The kernel's program scales each row by its own
  node's factor before the rows travel, adds them up unweighted, and scales the sum by the collecting node's factor
  afterwards. On the extended reals the two agree because a degree factor is a non-negative real (the inverse square root of
  a positive count, or zero), and such a factor distributes over a sum whatever the terms are; nothing is assumed finite
  about the rows, so the precondition is never opened. Everything else — the matrix products block by block against whole
  products, the changes of float format, the row-wise epilogues — is the same function on both sides at the exact
  instance.

  The kernel's side: its run with the result buffer named (KRun), the value of each of its eight launches as one function of
  the launch's input arrays (RegionValue0 … RegionValue7), its host stretches read at an index (HostStage), what each
  segment leaves alone (Keep), and the whole chain (KChain). The reference's side: its run and its stages read at an index
  (RefRunP, RefReadP, RefValue*, RefRun). The network and the law: Spec, Graph, GraphFacts, Net.
-/
import proofs.«128436_j51488067944595_2_alg».proof.Defs
import proofs.«128436_j51488067944595_2_alg».proof.Proof.Gen.Kernel
import proofs.«128436_j51488067944595_2_alg».proof.Proof.Gen.Kernel.Frame
import proofs.«128436_j51488067944595_2_alg».proof.Proof.Gen.KernelIdeal
import proofs.«128436_j51488067944595_2_alg».proof.Proof.Gen.KernelIdeal.Frame
import proofs.«128436_j51488067944595_2_alg».proof.Proof.Gen.ReferenceIdeal
import proofs.«128436_j51488067944595_2_alg».proof.Proof.Gen.Pre_finite_inputs
import proofs.«128436_j51488067944595_2_alg».proof.Proof.KRun
import proofs.«128436_j51488067944595_2_alg».proof.Proof.KChain
import proofs.«128436_j51488067944595_2_alg».proof.Proof.GraphFacts
import proofs.«128436_j51488067944595_2_alg».proof.Proof.RefRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both idealized programs end with the network's result: the kernel's in the
    node-scaled arrangement, the reference's in the edge-weighted one, which are one function. -/
theorem algebraic : Cert.algebraic_KernelIdeal_ReferenceIdeal := by
  intro m ρ m' ρ' _ hagree
  refine ⟨fun c => Cert.Arr.arr2 (Cert.Net.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))), ?_, ?_⟩
  · exact (θ_run Cert.KernelIdeal.defs _ _).mono
      (fun _ h c => ⟨(h c).1.trans (Cert.KernelIdeal.KChain.result m ρ c), (h c).2⟩)
      (Cert.KernelIdeal.KRun.run_result (F := Ideal) m ρ)
  · refine (θ_run Cert.ReferenceIdeal.defs _ _).mono (fun _ h c => ⟨(h c).1.trans ?_, (h c).2⟩)
      (Cert.RefSide.ref_run m' ρ')
    obtain ⟨e0, e1, e2, e3, e4, e5, e6, e7, e8, e9, e10, e11, e12, e13, e14, e15, e16, e17, e18, e19, e20, e21, e22, e23,
      e24, e25⟩ := hagree c
    rw [e0, e1, e2, e3, e4, e5, e6, e7, e8, e9, e10, e11, e12, e13, e14, e15, e16, e17, e18, e19, e20, e21, e22, e23, e24,
      e25]
    exact congrArg Cert.Arr.arr2 (Cert.Net.outK_eq_outR _ _ _ _ _ _ _ _ _ _ _ _ _ _ _ _ _ _ _ _ _ _ _ _ _ _
      (Cert.Graph.dn_real _) (Cert.Graph.tgt_of_mem _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
